-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x2 : Shape := ⟨2, ![16384, 2]⟩
abbrev S1000002x64 : Shape := ⟨2, ![1000002, 64]⟩
abbrev S_ : Shape := ⟨0, ![]⟩

class Facts : Prop where
  bcast_S_S1000002x64 : S_.BroadcastsInDim S1000002x64 (![] : Fin 0 → Fin S1000002x64.rank)
  reducesTo_S1000002x64_S_d0_1 : S1000002x64.ReducesTo [0, 1] S_
  h_S_ : 0 < S_.numel
  bcast_S_S16384x2 : S_.BroadcastsInDim S16384x2 (![] : Fin 0 → Fin S16384x2.rank)
  reducesTo_S16384x2_S_d0_1 : S16384x2.ReducesTo [0, 1] S_

variable [Facts]

def fn {F : FTy → Type} [FloatOps F] (main_arg0 : IVec S16384x2 32) (main_arg1 : FVec F S1000002x64 .f32) (main_arg2 : FVec F S1000002x64 .f32) : IVec S_ 1 :=
  let main_v0 : FVec F S1000002x64 .f32 := Host.absf main_arg1
  let main_cst : FVec F S_ .f32 := constant S_ .f32 0x7F800000#32
  let main_v1 : FVec F S1000002x64 .f32 := broadcastInDim S1000002x64 ![] bcast_S_S1000002x64 main_cst
  let main_v2 : IVec S1000002x64 1 := cmpf .olt main_v0 main_v1
  let main_c : IVec S_ 1 := constantI S_ 1 1#1
  let main_v3 : IVec S_ 1 := (fun x v => Host.reduce IntOp.andi x v reducesTo_S1000002x64_S_d0_1 h_S_) main_v2 main_c
  let main_v4 : FVec F S1000002x64 .f32 := Host.absf main_arg2
  let main_cst_0 : FVec F S_ .f32 := constant S_ .f32 0x7F800000#32
  let main_v5 : FVec F S1000002x64 .f32 := broadcastInDim S1000002x64 ![] bcast_S_S1000002x64 main_cst_0
  let main_v6 : IVec S1000002x64 1 := cmpf .olt main_v4 main_v5
  let main_c_1 : IVec S_ 1 := constantI S_ 1 1#1
  let main_v7 : IVec S_ 1 := (fun x v => Host.reduce IntOp.andi x v reducesTo_S1000002x64_S_d0_1 h_S_) main_v6 main_c_1
  let main_v8 : IVec S_ 1 := andi main_v3 main_v7
  let main_c_2 : IVec S_ 32 := constantI S_ 32 0#32
  let main_v9 : IVec S16384x2 32 := broadcastInDim S16384x2 ![] bcast_S_S16384x2 main_c_2
  let main_v10 : IVec S16384x2 1 := cmpi .sge main_arg0 main_v9
  let main_c_3 : IVec S_ 32 := constantI S_ 32 999999#32
  let main_v11 : IVec S16384x2 32 := broadcastInDim S16384x2 ![] bcast_S_S16384x2 main_c_3
  let main_v12 : IVec S16384x2 1 := cmpi .sle main_arg0 main_v11
  let main_v13 : IVec S16384x2 1 := andi main_v10 main_v12
  let main_c_4 : IVec S_ 1 := constantI S_ 1 1#1
  let main_v14 : IVec S_ 1 := (fun x v => Host.reduce IntOp.andi x v reducesTo_S16384x2_S_d0_1 h_S_) main_v13 main_c_4
  let main_v15 : IVec S_ 1 := andi main_v8 main_v14
  main_v15
-- ==== Kernel.lean ====
abbrev S16384x2 : Shape := ⟨2, ![16384, 2]⟩
abbrev S1000002x64 : Shape := ⟨2, ![1000002, 64]⟩
abbrev S16384x1 : Shape := ⟨2, ![16384, 1]⟩
abbrev S16384 : Shape := ⟨1, ![16384]⟩
abbrev S16384x64 : Shape := ⟨2, ![16384, 64]⟩
abbrev S512 : Shape := ⟨1, ![512]⟩
abbrev S256x64 : Shape := ⟨2, ![256, 64]⟩
abbrev S_ : Shape := ⟨0, ![]⟩
abbrev S16 : Shape := ⟨1, ![16]⟩
abbrev S1 : Shape := ⟨1, ![1]⟩
abbrev S1x64 : Shape := ⟨2, ![1, 64]⟩
abbrev S16384x1x64 : Shape := ⟨3, ![16384, 1, 64]⟩

abbrev nBuf : Table → Nat
  | .hbm => 11
  | .local .scVector .vmem => 4
  | _ => 0

abbrev bufTy : (tb : Table) → Fin (nBuf tb) → BufTy
  | .hbm, ⟨0, _⟩ => ⟨S16384x2, .i32⟩
  | .hbm, ⟨1, _⟩ => ⟨S1000002x64, .f32⟩
  | .hbm, ⟨2, _⟩ => ⟨S1000002x64, .f32⟩
  | .hbm, ⟨3, _⟩ => ⟨S16384x1, .i32⟩
  | .hbm, ⟨4, _⟩ => ⟨S16384, .i32⟩
  | .hbm, ⟨5, _⟩ => ⟨S16384x1, .i32⟩
  | .hbm, ⟨6, _⟩ => ⟨S16384, .i32⟩
  | .hbm, ⟨7, _⟩ => ⟨S16384x64, .f32⟩
  | .hbm, ⟨8, _⟩ => ⟨S16384x64, .f32⟩
  | .hbm, ⟨9, _⟩ => ⟨S16384x1x64, .f32⟩
  | .hbm, ⟨10, _⟩ => ⟨S16384x1x64, .f32⟩
  | .local .scVector .vmem, ⟨0, _⟩ => ⟨S512, .i32⟩
  | .local .scVector .vmem, ⟨1, _⟩ => ⟨S512, .i32⟩
  | .local .scVector .vmem, ⟨2, _⟩ => ⟨S256x64, .f32⟩
  | .local .scVector .vmem, ⟨3, _⟩ => ⟨S256x64, .f32⟩
  | _, _ => ⟨S16384x2, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v1_scv : Ref sig .scVector := ⟨.hbm, 4, rfl⟩
abbrev main_v3_scv : Ref sig .scVector := ⟨.hbm, 6, rfl⟩
abbrev main_arg1_scv : Ref sig .scVector := ⟨.hbm, 1, rfl⟩
abbrev main_arg2_scv : Ref sig .scVector := ⟨.hbm, 2, rfl⟩
abbrev main_v4_0_scv : Ref sig .scVector := ⟨.hbm, 7, rfl⟩
abbrev main_v4_1_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c2_i32_1 : BitVec 32 := 2#32
  let v3 : BitVec 32 := Scalar.addi c0_i32_0 c2_i32_1
  let c1_i32 : BitVec 32 := 1#32
  ⟨c0_i32_0, v3, c1_i32⟩
@[reducible] def k0_t2_loop : Scf.Loop 32 :=
  let c0_i32_4 : BitVec 32 := 0#32
  let c16_i32 : BitVec 32 := 16#32
  let v5 : BitVec 32 := Scalar.addi c0_i32_4 c16_i32
  let c1_i32_5 : BitVec 32 := 1#32
  ⟨c0_i32_4, v5, c1_i32_5⟩
def k0_off2 (k0_t1 : Fin k0_t1_loop.trips) (k0_t2 : Fin k0_t2_loop.trips) : Fin 1 → Nat :=
  let c0_i32_0 : BitVec 32 := 0#32
  let c1_i32 : BitVec 32 := 1#32
  let arg14 : BitVec 32 := Scf.iv c0_i32_0 c1_i32 k0_t1
  let c256_i32_14 : BitVec 32 := 256#32
  let v13 : BitVec 32 := Scalar.muli arg14 c256_i32_14
  let c0_i32_4 : BitVec 32 := 0#32
  let c1_i32_5 : BitVec 32 := 1#32
  let arg16 : BitVec 32 := Scf.iv c0_i32_4 c1_i32_5 k0_t2
  let c16_i32_15 : BitVec 32 := 16#32
  let v14 : BitVec 32 := Scalar.muli arg16 c16_i32_15
  let v15 : BitVec 32 := Scalar.addi v13 v14
  let v16 : Index := Scalar.indexCast v15
  ![v16.toNat]
def k0_off3 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_18 : BitVec 32 := 16#32
  let v27 : BitVec 32 := Scalar.muli arg16 c16_i32_18
  let c0_i32_19 : BitVec 32 := 0#32
  let v28 : BitVec 32 := Scalar.addi v27 c0_i32_19
  let c0_i32_20 : BitVec 32 := 0#32
  ![v28.toNat, 0]
def k0_off4 (v26 : BitVec 32) : Fin 2 → Nat :=
  let c0_i32_21 : BitVec 32 := 0#32
  ![v26.toNat, 0]

def k0_chk1 (v26 : BitVec 32) : Prop :=
  (∀ a, (k0_off4 v26) a + S1x64.size a ≤ S1000002x64.size a)
instance k0_chk1.dec : ∀ (v26 : BitVec 32), Decidable (k0_chk1 v26) := fun v26 => decidable_of_iff' _ (Iff.of_eq (k0_chk1.eq_1 v26))
theorem k0_off4_inb : ∀ (v26 : BitVec 32) (k0_hw1 : k0_chk1 v26), ∀ a, (k0_off4 v26) a + S1x64.size a ≤ S1000002x64.size a := fun v26 k0_hw1 => k0_hw1

def k0_off5 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_18 : BitVec 32 := 16#32
  let v27 : BitVec 32 := Scalar.muli arg16 c16_i32_18
  let c0_i32_19 : BitVec 32 := 0#32
  let v28 : BitVec 32 := Scalar.addi v27 c0_i32_19
  let c0_i32_22 : BitVec 32 := 0#32
  ![v28.toNat, 0]
def k0_off6 (v34 : BitVec 32) : Fin 2 → Nat :=
  let c0_i32_27 : BitVec 32 := 0#32
  ![v34.toNat, 0]

def k0_chk2 (v34 : BitVec 32) : Prop :=
  (∀ a, (k0_off6 v34) a + S1x64.size a ≤ S1000002x64.size a)
instance k0_chk2.dec : ∀ (v34 : BitVec 32), Decidable (k0_chk2 v34) := fun v34 => decidable_of_iff' _ (Iff.of_eq (k0_chk2.eq_1 v34))
theorem k0_off6_inb : ∀ (v34 : BitVec 32) (k0_hw2 : k0_chk2 v34), ∀ a, (k0_off6 v34) a + S1x64.size a ≤ S1000002x64.size a := fun v34 k0_hw2 => k0_hw2

def k0_off7 (k0_t2 : Fin k0_t2_loop.trips) (c0_i32_25 : BitVec 32) : Fin 2 → Nat :=
  let c0_i32_4 : BitVec 32 := 0#32
  let c1_i32_5 : BitVec 32 := 1#32
  let arg16 : BitVec 32 := Scf.iv c0_i32_4 c1_i32_5 k0_t2
  let c16_i32_24 : BitVec 32 := 16#32
  let v35 : BitVec 32 := Scalar.muli arg16 c16_i32_24
  let v36 : BitVec 32 := Scalar.addi v35 c0_i32_25
  let c0_i32_28 : BitVec 32 := 0#32
  ![v36.toNat, 0]
def k0_off8 (v42 : BitVec 32) : Fin 2 → Nat :=
  let c0_i32_33 : BitVec 32 := 0#32
  ![v42.toNat, 0]

def k0_chk3 (v42 : BitVec 32) : Prop :=
  (∀ a, (k0_off8 v42) a + S1x64.size a ≤ S1000002x64.size a)
instance k0_chk3.dec : ∀ (v42 : BitVec 32), Decidable (k0_chk3 v42) := fun v42 => decidable_of_iff' _ (Iff.of_eq (k0_chk3.eq_1 v42))
theorem k0_off8_inb : ∀ (v42 : BitVec 32) (k0_hw3 : k0_chk3 v42), ∀ a, (k0_off8 v42) a + S1x64.size a ≤ S1000002x64.size a := fun v42 k0_hw3 => k0_hw3

def k0_off9 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_30 : BitVec 32 := 16#32
  let v43 : BitVec 32 := Scalar.muli arg16 c16_i32_30
  let c1_i32_31 : BitVec 32 := 1#32
  let v44 : BitVec 32 := Scalar.addi v43 c1_i32_31
  let c0_i32_34 : BitVec 32 := 0#32
  ![v44.toNat, 0]
def k0_off10 (v50 : BitVec 32) : Fin 2 → Nat :=
  let c0_i32_39 : BitVec 32 := 0#32
  ![v50.toNat, 0]

def k0_chk4 (v50 : BitVec 32) : Prop :=
  (∀ a, (k0_off10 v50) a + S1x64.size a ≤ S1000002x64.size a)
instance k0_chk4.dec : ∀ (v50 : BitVec 32), Decidable (k0_chk4 v50) := fun v50 => decidable_of_iff' _ (Iff.of_eq (k0_chk4.eq_1 v50))
theorem k0_off10_inb : ∀ (v50 : BitVec 32) (k0_hw4 : k0_chk4 v50), ∀ a, (k0_off10 v50) a + S1x64.size a ≤ S1000002x64.size a := fun v50 k0_hw4 => k0_hw4

def k0_off11 (k0_t2 : Fin k0_t2_loop.trips) (c1_i32_37 : BitVec 32) : Fin 2 → Nat :=
  let c0_i32_4 : BitVec 32 := 0#32
  let c1_i32_5 : BitVec 32 := 1#32
  let arg16 : BitVec 32 := Scf.iv c0_i32_4 c1_i32_5 k0_t2
  let c16_i32_36 : BitVec 32 := 16#32
  let v51 : BitVec 32 := Scalar.muli arg16 c16_i32_36
  let v52 : BitVec 32 := Scalar.addi v51 c1_i32_37
  let c0_i32_40 : BitVec 32 := 0#32
  ![v52.toNat, 0]
def k0_off12 (v58 : BitVec 32) : Fin 2 → Nat :=
  let c0_i32_45 : BitVec 32 := 0#32
  ![v58.toNat, 0]

def k0_chk5 (v58 : BitVec 32) : Prop :=
  (∀ a, (k0_off12 v58) a + S1x64.size a ≤ S1000002x64.size a)
instance k0_chk5.dec : ∀ (v58 : BitVec 32), Decidable (k0_chk5 v58) := fun v58 => decidable_of_iff' _ (Iff.of_eq (k0_chk5.eq_1 v58))
theorem k0_off12_inb : ∀ (v58 : BitVec 32) (k0_hw5 : k0_chk5 v58), ∀ a, (k0_off12 v58) a + S1x64.size a ≤ S1000002x64.size a := fun v58 k0_hw5 => k0_hw5

def k0_off13 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_42 : BitVec 32 := 16#32
  let v59 : BitVec 32 := Scalar.muli arg16 c16_i32_42
  let c2_i32_43 : BitVec 32 := 2#32
  let v60 : BitVec 32 := Scalar.addi v59 c2_i32_43
  let c0_i32_46 : BitVec 32 := 0#32
  ![v60.toNat, 0]
def k0_off14 (v66 : BitVec 32) : Fin 2 → Nat :=
  let c0_i32_51 : BitVec 32 := 0#32
  ![v66.toNat, 0]

def k0_chk6 (v66 : BitVec 32) : Prop :=
  (∀ a, (k0_off14 v66) a + S1x64.size a ≤ S1000002x64.size a)
instance k0_chk6.dec : ∀ (v66 : BitVec 32), Decidable (k0_chk6 v66) := fun v66 => decidable_of_iff' _ (Iff.of_eq (k0_chk6.eq_1 v66))
theorem k0_off14_inb : ∀ (v66 : BitVec 32) (k0_hw6 : k0_chk6 v66), ∀ a, (k0_off14 v66) a + S1x64.size a ≤ S1000002x64.size a := fun v66 k0_hw6 => k0_hw6

def k0_off15 (k0_t2 : Fin k0_t2_loop.trips) (c2_i32_49 : BitVec 32) : Fin 2 → Nat :=
  let c0_i32_4 : BitVec 32 := 0#32
  let c1_i32_5 : BitVec 32 := 1#32
  let arg16 : BitVec 32 := Scf.iv c0_i32_4 c1_i32_5 k0_t2
  let c16_i32_48 : BitVec 32 := 16#32
  let v67 : BitVec 32 := Scalar.muli arg16 c16_i32_48
  let v68 : BitVec 32 := Scalar.addi v67 c2_i32_49
  let c0_i32_52 : BitVec 32 := 0#32
  ![v68.toNat, 0]
def k0_off16 (v74 : BitVec 32) : Fin 2 → Nat :=
  let c0_i32_56 : BitVec 32 := 0#32
  ![v74.toNat, 0]

def k0_chk7 (v74 : BitVec 32) : Prop :=
  (∀ a, (k0_off16 v74) a + S1x64.size a ≤ S1000002x64.size a)
instance k0_chk7.dec : ∀ (v74 : BitVec 32), Decidable (k0_chk7 v74) := fun v74 => decidable_of_iff' _ (Iff.of_eq (k0_chk7.eq_1 v74))
theorem k0_off16_inb : ∀ (v74 : BitVec 32) (k0_hw7 : k0_chk7 v74), ∀ a, (k0_off16 v74) a + S1x64.size a ≤ S1000002x64.size a := fun v74 k0_hw7 => k0_hw7

def k0_off17 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_54 : BitVec 32 := 16#32
  let v75 : BitVec 32 := Scalar.muli arg16 c16_i32_54
  let c3_i32 : BitVec 32 := 3#32
  let v76 : BitVec 32 := Scalar.addi v75 c3_i32
  let c0_i32_57 : BitVec 32 := 0#32
  ![v76.toNat, 0]
def k0_off18 (v82 : BitVec 32) : Fin 2 → Nat :=
  let c0_i32_62 : BitVec 32 := 0#32
  ![v82.toNat, 0]

def k0_chk8 (v82 : BitVec 32) : Prop :=
  (∀ a, (k0_off18 v82) a + S1x64.size a ≤ S1000002x64.size a)
instance k0_chk8.dec : ∀ (v82 : BitVec 32), Decidable (k0_chk8 v82) := fun v82 => decidable_of_iff' _ (Iff.of_eq (k0_chk8.eq_1 v82))
theorem k0_off18_inb : ∀ (v82 : BitVec 32) (k0_hw8 : k0_chk8 v82), ∀ a, (k0_off18 v82) a + S1x64.size a ≤ S1000002x64.size a := fun v82 k0_hw8 => k0_hw8

def k0_off19 (k0_t2 : Fin k0_t2_loop.trips) (c3_i32_60 : BitVec 32) : Fin 2 → Nat :=
  let c0_i32_4 : BitVec 32 := 0#32
  let c1_i32_5 : BitVec 32 := 1#32
  let arg16 : BitVec 32 := Scf.iv c0_i32_4 c1_i32_5 k0_t2
  let c16_i32_59 : BitVec 32 := 16#32
  let v83 : BitVec 32 := Scalar.muli arg16 c16_i32_59
  let v84 : BitVec 32 := Scalar.addi v83 c3_i32_60
  let c0_i32_63 : BitVec 32 := 0#32
  ![v84.toNat, 0]
def k0_off20 (v90 : BitVec 32) : Fin 2 → Nat :=
  let c0_i32_67 : BitVec 32 := 0#32
  ![v90.toNat, 0]

def k0_chk9 (v90 : BitVec 32) : Prop :=
  (∀ a, (k0_off20 v90) a + S1x64.size a ≤ S1000002x64.size a)
instance k0_chk9.dec : ∀ (v90 : BitVec 32), Decidable (k0_chk9 v90) := fun v90 => decidable_of_iff' _ (Iff.of_eq (k0_chk9.eq_1 v90))
theorem k0_off20_inb : ∀ (v90 : BitVec 32) (k0_hw9 : k0_chk9 v90), ∀ a, (k0_off20 v90) a + S1x64.size a ≤ S1000002x64.size a := fun v90 k0_hw9 => k0_hw9

def k0_off21 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_65 : BitVec 32 := 16#32
  let v91 : BitVec 32 := Scalar.muli arg16 c16_i32_65
  let c4_i32 : BitVec 32 := 4#32
  let v92 : BitVec 32 := Scalar.addi v91 c4_i32
  let c0_i32_68 : BitVec 32 := 0#32
  ![v92.toNat, 0]
def k0_off22 (v98 : BitVec 32) : Fin 2 → Nat :=
  let c0_i32_73 : BitVec 32 := 0#32
  ![v98.toNat, 0]

def k0_chk10 (v98 : BitVec 32) : Prop :=
  (∀ a, (k0_off22 v98) a + S1x64.size a ≤ S1000002x64.size a)
instance k0_chk10.dec : ∀ (v98 : BitVec 32), Decidable (k0_chk10 v98) := fun v98 => decidable_of_iff' _ (Iff.of_eq (k0_chk10.eq_1 v98))
theorem k0_off22_inb : ∀ (v98 : BitVec 32) (k0_hw10 : k0_chk10 v98), ∀ a, (k0_off22 v98) a + S1x64.size a ≤ S1000002x64.size a := fun v98 k0_hw10 => k0_hw10

def k0_off23 (k0_t2 : Fin k0_t2_loop.trips) (c4_i32_71 : BitVec 32) : Fin 2 → Nat :=
  let c0_i32_4 : BitVec 32 := 0#32
  let c1_i32_5 : BitVec 32 := 1#32
  let arg16 : BitVec 32 := Scf.iv c0_i32_4 c1_i32_5 k0_t2
  let c16_i32_70 : BitVec 32 := 16#32
  let v99 : BitVec 32 := Scalar.muli arg16 c16_i32_70
  let v100 : BitVec 32 := Scalar.addi v99 c4_i32_71
  let c0_i32_74 : BitVec 32 := 0#32
  ![v100.toNat, 0]
def k0_off24 (v106 : BitVec 32) : Fin 2 → Nat :=
  let c0_i32_78 : BitVec 32 := 0#32
  ![v106.toNat, 0]

def k0_chk11 (v106 : BitVec 32) : Prop :=
  (∀ a, (k0_off24 v106) a + S1x64.size a ≤ S1000002x64.size a)
instance k0_chk11.dec : ∀ (v106 : BitVec 32), Decidable (k0_chk11 v106) := fun v106 => decidable_of_iff' _ (Iff.of_eq (k0_chk11.eq_1 v106))
theorem k0_off24_inb : ∀ (v106 : BitVec 32) (k0_hw11 : k0_chk11 v106), ∀ a, (k0_off24 v106) a + S1x64.size a ≤ S1000002x64.size a := fun v106 k0_hw11 => k0_hw11

def k0_off25 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_76 : BitVec 32 := 16#32
  let v107 : BitVec 32 := Scalar.muli arg16 c16_i32_76
  let c5_i32 : BitVec 32 := 5#32
  let v108 : BitVec 32 := Scalar.addi v107 c5_i32
  let c0_i32_79 : BitVec 32 := 0#32
  ![v108.toNat, 0]
def k0_off26 (v114 : BitVec 32) : Fin 2 → Nat :=
  let c0_i32_84 : BitVec 32 := 0#32
  ![v114.toNat, 0]

def k0_chk12 (v114 : BitVec 32) : Prop :=
  (∀ a, (k0_off26 v114) a + S1x64.size a ≤ S1000002x64.size a)
instance k0_chk12.dec : ∀ (v114 : BitVec 32), Decidable (k0_chk12 v114) := fun v114 => decidable_of_iff' _ (Iff.of_eq (k0_chk12.eq_1 v114))
theorem k0_off26_inb : ∀ (v114 : BitVec 32) (k0_hw12 : k0_chk12 v114), ∀ a, (k0_off26 v114) a + S1x64.size a ≤ S1000002x64.size a := fun v114 k0_hw12 => k0_hw12

def k0_off27 (k0_t2 : Fin k0_t2_loop.trips) (c5_i32_82 : BitVec 32) : Fin 2 → Nat :=
  let c0_i32_4 : BitVec 32 := 0#32
  let c1_i32_5 : BitVec 32 := 1#32
  let arg16 : BitVec 32 := Scf.iv c0_i32_4 c1_i32_5 k0_t2
  let c16_i32_81 : BitVec 32 := 16#32
  let v115 : BitVec 32 := Scalar.muli arg16 c16_i32_81
  let v116 : BitVec 32 := Scalar.addi v115 c5_i32_82
  let c0_i32_85 : BitVec 32 := 0#32
  ![v116.toNat, 0]
def k0_off28 (v122 : BitVec 32) : Fin 2 → Nat :=
  let c0_i32_89 : BitVec 32 := 0#32
  ![v122.toNat, 0]

def k0_chk13 (v122 : BitVec 32) : Prop :=
  (∀ a, (k0_off28 v122) a + S1x64.size a ≤ S1000002x64.size a)
instance k0_chk13.dec : ∀ (v122 : BitVec 32), Decidable (k0_chk13 v122) := fun v122 => decidable_of_iff' _ (Iff.of_eq (k0_chk13.eq_1 v122))
theorem k0_off28_inb : ∀ (v122 : BitVec 32) (k0_hw13 : k0_chk13 v122), ∀ a, (k0_off28 v122) a + S1x64.size a ≤ S1000002x64.size a := fun v122 k0_hw13 => k0_hw13

def k0_off29 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_87 : BitVec 32 := 16#32
  let v123 : BitVec 32 := Scalar.muli arg16 c16_i32_87
  let c6_i32 : BitVec 32 := 6#32
  let v124 : BitVec 32 := Scalar.addi v123 c6_i32
  let c0_i32_90 : BitVec 32 := 0#32
  ![v124.toNat, 0]
def k0_off30 (v130 : BitVec 32) : Fin 2 → Nat :=
  let c0_i32_95 : BitVec 32 := 0#32
  ![v130.toNat, 0]

def k0_chk14 (v130 : BitVec 32) : Prop :=
  (∀ a, (k0_off30 v130) a + S1x64.size a ≤ S1000002x64.size a)
instance k0_chk14.dec : ∀ (v130 : BitVec 32), Decidable (k0_chk14 v130) := fun v130 => decidable_of_iff' _ (Iff.of_eq (k0_chk14.eq_1 v130))
theorem k0_off30_inb : ∀ (v130 : BitVec 32) (k0_hw14 : k0_chk14 v130), ∀ a, (k0_off30 v130) a + S1x64.size a ≤ S1000002x64.size a := fun v130 k0_hw14 => k0_hw14

def k0_off31 (k0_t2 : Fin k0_t2_loop.trips) (c6_i32_93 : BitVec 32) : Fin 2 → Nat :=
  let c0_i32_4 : BitVec 32 := 0#32
  let c1_i32_5 : BitVec 32 := 1#32
  let arg16 : BitVec 32 := Scf.iv c0_i32_4 c1_i32_5 k0_t2
  let c16_i32_92 : BitVec 32 := 16#32
  let v131 : BitVec 32 := Scalar.muli arg16 c16_i32_92
  let v132 : BitVec 32 := Scalar.addi v131 c6_i32_93
  let c0_i32_96 : BitVec 32 := 0#32
  ![v132.toNat, 0]
def k0_off32 (v138 : BitVec 32) : Fin 2 → Nat :=
  let c0_i32_100 : BitVec 32 := 0#32
  ![v138.toNat, 0]

def k0_chk15 (v138 : BitVec 32) : Prop :=
  (∀ a, (k0_off32 v138) a + S1x64.size a ≤ S1000002x64.size a)
instance k0_chk15.dec : ∀ (v138 : BitVec 32), Decidable (k0_chk15 v138) := fun v138 => decidable_of_iff' _ (Iff.of_eq (k0_chk15.eq_1 v138))
theorem k0_off32_inb : ∀ (v138 : BitVec 32) (k0_hw15 : k0_chk15 v138), ∀ a, (k0_off32 v138) a + S1x64.size a ≤ S1000002x64.size a := fun v138 k0_hw15 => k0_hw15

def k0_off33 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_98 : BitVec 32 := 16#32
  let v139 : BitVec 32 := Scalar.muli arg16 c16_i32_98
  let c7_i32 : BitVec 32 := 7#32
  let v140 : BitVec 32 := Scalar.addi v139 c7_i32
  let c0_i32_101 : BitVec 32 := 0#32
  ![v140.toNat, 0]
def k0_off34 (v146 : BitVec 32) : Fin 2 → Nat :=
  let c0_i32_106 : BitVec 32 := 0#32
  ![v146.toNat, 0]

def k0_chk16 (v146 : BitVec 32) : Prop :=
  (∀ a, (k0_off34 v146) a + S1x64.size a ≤ S1000002x64.size a)
instance k0_chk16.dec : ∀ (v146 : BitVec 32), Decidable (k0_chk16 v146) := fun v146 => decidable_of_iff' _ (Iff.of_eq (k0_chk16.eq_1 v146))
theorem k0_off34_inb : ∀ (v146 : BitVec 32) (k0_hw16 : k0_chk16 v146), ∀ a, (k0_off34 v146) a + S1x64.size a ≤ S1000002x64.size a := fun v146 k0_hw16 => k0_hw16

def k0_off35 (k0_t2 : Fin k0_t2_loop.trips) (c7_i32_104 : BitVec 32) : Fin 2 → Nat :=
  let c0_i32_4 : BitVec 32 := 0#32
  let c1_i32_5 : BitVec 32 := 1#32
  let arg16 : BitVec 32 := Scf.iv c0_i32_4 c1_i32_5 k0_t2
  let c16_i32_103 : BitVec 32 := 16#32
  let v147 : BitVec 32 := Scalar.muli arg16 c16_i32_103
  let v148 : BitVec 32 := Scalar.addi v147 c7_i32_104
  let c0_i32_107 : BitVec 32 := 0#32
  ![v148.toNat, 0]
def k0_off36 (v154 : BitVec 32) : Fin 2 → Nat :=
  let c0_i32_111 : BitVec 32 := 0#32
  ![v154.toNat, 0]

def k0_chk17 (v154 : BitVec 32) : Prop :=
  (∀ a, (k0_off36 v154) a + S1x64.size a ≤ S1000002x64.size a)
instance k0_chk17.dec : ∀ (v154 : BitVec 32), Decidable (k0_chk17 v154) := fun v154 => decidable_of_iff' _ (Iff.of_eq (k0_chk17.eq_1 v154))
theorem k0_off36_inb : ∀ (v154 : BitVec 32) (k0_hw17 : k0_chk17 v154), ∀ a, (k0_off36 v154) a + S1x64.size a ≤ S1000002x64.size a := fun v154 k0_hw17 => k0_hw17

def k0_off37 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_109 : BitVec 32 := 16#32
  let v155 : BitVec 32 := Scalar.muli arg16 c16_i32_109
  let c8_i32 : BitVec 32 := 8#32
  let v156 : BitVec 32 := Scalar.addi v155 c8_i32
  let c0_i32_112 : BitVec 32 := 0#32
  ![v156.toNat, 0]
def k0_off38 (v162 : BitVec 32) : Fin 2 → Nat :=
  let c0_i32_117 : BitVec 32 := 0#32
  ![v162.toNat, 0]

def k0_chk18 (v162 : BitVec 32) : Prop :=
  (∀ a, (k0_off38 v162) a + S1x64.size a ≤ S1000002x64.size a)
instance k0_chk18.dec : ∀ (v162 : BitVec 32), Decidable (k0_chk18 v162) := fun v162 => decidable_of_iff' _ (Iff.of_eq (k0_chk18.eq_1 v162))
theorem k0_off38_inb : ∀ (v162 : BitVec 32) (k0_hw18 : k0_chk18 v162), ∀ a, (k0_off38 v162) a + S1x64.size a ≤ S1000002x64.size a := fun v162 k0_hw18 => k0_hw18

def k0_off39 (k0_t2 : Fin k0_t2_loop.trips) (c8_i32_115 : BitVec 32) : Fin 2 → Nat :=
  let c0_i32_4 : BitVec 32 := 0#32
  let c1_i32_5 : BitVec 32 := 1#32
  let arg16 : BitVec 32 := Scf.iv c0_i32_4 c1_i32_5 k0_t2
  let c16_i32_114 : BitVec 32 := 16#32
  let v163 : BitVec 32 := Scalar.muli arg16 c16_i32_114
  let v164 : BitVec 32 := Scalar.addi v163 c8_i32_115
  let c0_i32_118 : BitVec 32 := 0#32
  ![v164.toNat, 0]
def k0_off40 (v170 : BitVec 32) : Fin 2 → Nat :=
  let c0_i32_122 : BitVec 32 := 0#32
  ![v170.toNat, 0]

def k0_chk19 (v170 : BitVec 32) : Prop :=
  (∀ a, (k0_off40 v170) a + S1x64.size a ≤ S1000002x64.size a)
instance k0_chk19.dec : ∀ (v170 : BitVec 32), Decidable (k0_chk19 v170) := fun v170 => decidable_of_iff' _ (Iff.of_eq (k0_chk19.eq_1 v170))
theorem k0_off40_inb : ∀ (v170 : BitVec 32) (k0_hw19 : k0_chk19 v170), ∀ a, (k0_off40 v170) a + S1x64.size a ≤ S1000002x64.size a := fun v170 k0_hw19 => k0_hw19

def k0_off41 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_120 : BitVec 32 := 16#32
  let v171 : BitVec 32 := Scalar.muli arg16 c16_i32_120
  let c9_i32 : BitVec 32 := 9#32
  let v172 : BitVec 32 := Scalar.addi v171 c9_i32
  let c0_i32_123 : BitVec 32 := 0#32
  ![v172.toNat, 0]
def k0_off42 (v178 : BitVec 32) : Fin 2 → Nat :=
  let c0_i32_128 : BitVec 32 := 0#32
  ![v178.toNat, 0]

def k0_chk20 (v178 : BitVec 32) : Prop :=
  (∀ a, (k0_off42 v178) a + S1x64.size a ≤ S1000002x64.size a)
instance k0_chk20.dec : ∀ (v178 : BitVec 32), Decidable (k0_chk20 v178) := fun v178 => decidable_of_iff' _ (Iff.of_eq (k0_chk20.eq_1 v178))
theorem k0_off42_inb : ∀ (v178 : BitVec 32) (k0_hw20 : k0_chk20 v178), ∀ a, (k0_off42 v178) a + S1x64.size a ≤ S1000002x64.size a := fun v178 k0_hw20 => k0_hw20

def k0_off43 (k0_t2 : Fin k0_t2_loop.trips) (c9_i32_126 : BitVec 32) : Fin 2 → Nat :=
  let c0_i32_4 : BitVec 32 := 0#32
  let c1_i32_5 : BitVec 32 := 1#32
  let arg16 : BitVec 32 := Scf.iv c0_i32_4 c1_i32_5 k0_t2
  let c16_i32_125 : BitVec 32 := 16#32
  let v179 : BitVec 32 := Scalar.muli arg16 c16_i32_125
  let v180 : BitVec 32 := Scalar.addi v179 c9_i32_126
  let c0_i32_129 : BitVec 32 := 0#32
  ![v180.toNat, 0]
def k0_off44 (v186 : BitVec 32) : Fin 2 → Nat :=
  let c0_i32_133 : BitVec 32 := 0#32
  ![v186.toNat, 0]

def k0_chk21 (v186 : BitVec 32) : Prop :=
  (∀ a, (k0_off44 v186) a + S1x64.size a ≤ S1000002x64.size a)
instance k0_chk21.dec : ∀ (v186 : BitVec 32), Decidable (k0_chk21 v186) := fun v186 => decidable_of_iff' _ (Iff.of_eq (k0_chk21.eq_1 v186))
theorem k0_off44_inb : ∀ (v186 : BitVec 32) (k0_hw21 : k0_chk21 v186), ∀ a, (k0_off44 v186) a + S1x64.size a ≤ S1000002x64.size a := fun v186 k0_hw21 => k0_hw21

def k0_off45 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_131 : BitVec 32 := 16#32
  let v187 : BitVec 32 := Scalar.muli arg16 c16_i32_131
  let c10_i32 : BitVec 32 := 10#32
  let v188 : BitVec 32 := Scalar.addi v187 c10_i32
  let c0_i32_134 : BitVec 32 := 0#32
  ![v188.toNat, 0]
def k0_off46 (v194 : BitVec 32) : Fin 2 → Nat :=
  let c0_i32_139 : BitVec 32 := 0#32
  ![v194.toNat, 0]

def k0_chk22 (v194 : BitVec 32) : Prop :=
  (∀ a, (k0_off46 v194) a + S1x64.size a ≤ S1000002x64.size a)
instance k0_chk22.dec : ∀ (v194 : BitVec 32), Decidable (k0_chk22 v194) := fun v194 => decidable_of_iff' _ (Iff.of_eq (k0_chk22.eq_1 v194))
theorem k0_off46_inb : ∀ (v194 : BitVec 32) (k0_hw22 : k0_chk22 v194), ∀ a, (k0_off46 v194) a + S1x64.size a ≤ S1000002x64.size a := fun v194 k0_hw22 => k0_hw22

def k0_off47 (k0_t2 : Fin k0_t2_loop.trips) (c10_i32_137 : BitVec 32) : Fin 2 → Nat :=
  let c0_i32_4 : BitVec 32 := 0#32
  let c1_i32_5 : BitVec 32 := 1#32
  let arg16 : BitVec 32 := Scf.iv c0_i32_4 c1_i32_5 k0_t2
  let c16_i32_136 : BitVec 32 := 16#32
  let v195 : BitVec 32 := Scalar.muli arg16 c16_i32_136
  let v196 : BitVec 32 := Scalar.addi v195 c10_i32_137
  let c0_i32_140 : BitVec 32 := 0#32
  ![v196.toNat, 0]
def k0_off48 (v202 : BitVec 32) : Fin 2 → Nat :=
  let c0_i32_144 : BitVec 32 := 0#32
  ![v202.toNat, 0]

def k0_chk23 (v202 : BitVec 32) : Prop :=
  (∀ a, (k0_off48 v202) a + S1x64.size a ≤ S1000002x64.size a)
instance k0_chk23.dec : ∀ (v202 : BitVec 32), Decidable (k0_chk23 v202) := fun v202 => decidable_of_iff' _ (Iff.of_eq (k0_chk23.eq_1 v202))
theorem k0_off48_inb : ∀ (v202 : BitVec 32) (k0_hw23 : k0_chk23 v202), ∀ a, (k0_off48 v202) a + S1x64.size a ≤ S1000002x64.size a := fun v202 k0_hw23 => k0_hw23

def k0_off49 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_142 : BitVec 32 := 16#32
  let v203 : BitVec 32 := Scalar.muli arg16 c16_i32_142
  let c11_i32 : BitVec 32 := 11#32
  let v204 : BitVec 32 := Scalar.addi v203 c11_i32
  let c0_i32_145 : BitVec 32 := 0#32
  ![v204.toNat, 0]
def k0_off50 (v210 : BitVec 32) : Fin 2 → Nat :=
  let c0_i32_150 : BitVec 32 := 0#32
  ![v210.toNat, 0]

def k0_chk24 (v210 : BitVec 32) : Prop :=
  (∀ a, (k0_off50 v210) a + S1x64.size a ≤ S1000002x64.size a)
instance k0_chk24.dec : ∀ (v210 : BitVec 32), Decidable (k0_chk24 v210) := fun v210 => decidable_of_iff' _ (Iff.of_eq (k0_chk24.eq_1 v210))
theorem k0_off50_inb : ∀ (v210 : BitVec 32) (k0_hw24 : k0_chk24 v210), ∀ a, (k0_off50 v210) a + S1x64.size a ≤ S1000002x64.size a := fun v210 k0_hw24 => k0_hw24

def k0_off51 (k0_t2 : Fin k0_t2_loop.trips) (c11_i32_148 : BitVec 32) : Fin 2 → Nat :=
  let c0_i32_4 : BitVec 32 := 0#32
  let c1_i32_5 : BitVec 32 := 1#32
  let arg16 : BitVec 32 := Scf.iv c0_i32_4 c1_i32_5 k0_t2
  let c16_i32_147 : BitVec 32 := 16#32
  let v211 : BitVec 32 := Scalar.muli arg16 c16_i32_147
  let v212 : BitVec 32 := Scalar.addi v211 c11_i32_148
  let c0_i32_151 : BitVec 32 := 0#32
  ![v212.toNat, 0]
def k0_off52 (v218 : BitVec 32) : Fin 2 → Nat :=
  let c0_i32_155 : BitVec 32 := 0#32
  ![v218.toNat, 0]

def k0_chk25 (v218 : BitVec 32) : Prop :=
  (∀ a, (k0_off52 v218) a + S1x64.size a ≤ S1000002x64.size a)
instance k0_chk25.dec : ∀ (v218 : BitVec 32), Decidable (k0_chk25 v218) := fun v218 => decidable_of_iff' _ (Iff.of_eq (k0_chk25.eq_1 v218))
theorem k0_off52_inb : ∀ (v218 : BitVec 32) (k0_hw25 : k0_chk25 v218), ∀ a, (k0_off52 v218) a + S1x64.size a ≤ S1000002x64.size a := fun v218 k0_hw25 => k0_hw25

def k0_off53 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_153 : BitVec 32 := 16#32
  let v219 : BitVec 32 := Scalar.muli arg16 c16_i32_153
  let c12_i32 : BitVec 32 := 12#32
  let v220 : BitVec 32 := Scalar.addi v219 c12_i32
  let c0_i32_156 : BitVec 32 := 0#32
  ![v220.toNat, 0]
def k0_off54 (v226 : BitVec 32) : Fin 2 → Nat :=
  let c0_i32_161 : BitVec 32 := 0#32
  ![v226.toNat, 0]

def k0_chk26 (v226 : BitVec 32) : Prop :=
  (∀ a, (k0_off54 v226) a + S1x64.size a ≤ S1000002x64.size a)
instance k0_chk26.dec : ∀ (v226 : BitVec 32), Decidable (k0_chk26 v226) := fun v226 => decidable_of_iff' _ (Iff.of_eq (k0_chk26.eq_1 v226))
theorem k0_off54_inb : ∀ (v226 : BitVec 32) (k0_hw26 : k0_chk26 v226), ∀ a, (k0_off54 v226) a + S1x64.size a ≤ S1000002x64.size a := fun v226 k0_hw26 => k0_hw26

def k0_off55 (k0_t2 : Fin k0_t2_loop.trips) (c12_i32_159 : BitVec 32) : Fin 2 → Nat :=
  let c0_i32_4 : BitVec 32 := 0#32
  let c1_i32_5 : BitVec 32 := 1#32
  let arg16 : BitVec 32 := Scf.iv c0_i32_4 c1_i32_5 k0_t2
  let c16_i32_158 : BitVec 32 := 16#32
  let v227 : BitVec 32 := Scalar.muli arg16 c16_i32_158
  let v228 : BitVec 32 := Scalar.addi v227 c12_i32_159
  let c0_i32_162 : BitVec 32 := 0#32
  ![v228.toNat, 0]
def k0_off56 (v234 : BitVec 32) : Fin 2 → Nat :=
  let c0_i32_166 : BitVec 32 := 0#32
  ![v234.toNat, 0]

def k0_chk27 (v234 : BitVec 32) : Prop :=
  (∀ a, (k0_off56 v234) a + S1x64.size a ≤ S1000002x64.size a)
instance k0_chk27.dec : ∀ (v234 : BitVec 32), Decidable (k0_chk27 v234) := fun v234 => decidable_of_iff' _ (Iff.of_eq (k0_chk27.eq_1 v234))
theorem k0_off56_inb : ∀ (v234 : BitVec 32) (k0_hw27 : k0_chk27 v234), ∀ a, (k0_off56 v234) a + S1x64.size a ≤ S1000002x64.size a := fun v234 k0_hw27 => k0_hw27

def k0_off57 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_164 : BitVec 32 := 16#32
  let v235 : BitVec 32 := Scalar.muli arg16 c16_i32_164
  let c13_i32 : BitVec 32 := 13#32
  let v236 : BitVec 32 := Scalar.addi v235 c13_i32
  let c0_i32_167 : BitVec 32 := 0#32
  ![v236.toNat, 0]
def k0_off58 (v242 : BitVec 32) : Fin 2 → Nat :=
  let c0_i32_172 : BitVec 32 := 0#32
  ![v242.toNat, 0]

def k0_chk28 (v242 : BitVec 32) : Prop :=
  (∀ a, (k0_off58 v242) a + S1x64.size a ≤ S1000002x64.size a)
instance k0_chk28.dec : ∀ (v242 : BitVec 32), Decidable (k0_chk28 v242) := fun v242 => decidable_of_iff' _ (Iff.of_eq (k0_chk28.eq_1 v242))
theorem k0_off58_inb : ∀ (v242 : BitVec 32) (k0_hw28 : k0_chk28 v242), ∀ a, (k0_off58 v242) a + S1x64.size a ≤ S1000002x64.size a := fun v242 k0_hw28 => k0_hw28

def k0_off59 (k0_t2 : Fin k0_t2_loop.trips) (c13_i32_170 : BitVec 32) : Fin 2 → Nat :=
  let c0_i32_4 : BitVec 32 := 0#32
  let c1_i32_5 : BitVec 32 := 1#32
  let arg16 : BitVec 32 := Scf.iv c0_i32_4 c1_i32_5 k0_t2
  let c16_i32_169 : BitVec 32 := 16#32
  let v243 : BitVec 32 := Scalar.muli arg16 c16_i32_169
  let v244 : BitVec 32 := Scalar.addi v243 c13_i32_170
  let c0_i32_173 : BitVec 32 := 0#32
  ![v244.toNat, 0]
def k0_off60 (v250 : BitVec 32) : Fin 2 → Nat :=
  let c0_i32_177 : BitVec 32 := 0#32
  ![v250.toNat, 0]

def k0_chk29 (v250 : BitVec 32) : Prop :=
  (∀ a, (k0_off60 v250) a + S1x64.size a ≤ S1000002x64.size a)
instance k0_chk29.dec : ∀ (v250 : BitVec 32), Decidable (k0_chk29 v250) := fun v250 => decidable_of_iff' _ (Iff.of_eq (k0_chk29.eq_1 v250))
theorem k0_off60_inb : ∀ (v250 : BitVec 32) (k0_hw29 : k0_chk29 v250), ∀ a, (k0_off60 v250) a + S1x64.size a ≤ S1000002x64.size a := fun v250 k0_hw29 => k0_hw29

def k0_off61 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_175 : BitVec 32 := 16#32
  let v251 : BitVec 32 := Scalar.muli arg16 c16_i32_175
  let c14_i32 : BitVec 32 := 14#32
  let v252 : BitVec 32 := Scalar.addi v251 c14_i32
  let c0_i32_178 : BitVec 32 := 0#32
  ![v252.toNat, 0]
def k0_off62 (v258 : BitVec 32) : Fin 2 → Nat :=
  let c0_i32_183 : BitVec 32 := 0#32
  ![v258.toNat, 0]

def k0_chk30 (v258 : BitVec 32) : Prop :=
  (∀ a, (k0_off62 v258) a + S1x64.size a ≤ S1000002x64.size a)
instance k0_chk30.dec : ∀ (v258 : BitVec 32), Decidable (k0_chk30 v258) := fun v258 => decidable_of_iff' _ (Iff.of_eq (k0_chk30.eq_1 v258))
theorem k0_off62_inb : ∀ (v258 : BitVec 32) (k0_hw30 : k0_chk30 v258), ∀ a, (k0_off62 v258) a + S1x64.size a ≤ S1000002x64.size a := fun v258 k0_hw30 => k0_hw30

def k0_off63 (k0_t2 : Fin k0_t2_loop.trips) (c14_i32_181 : BitVec 32) : Fin 2 → Nat :=
  let c0_i32_4 : BitVec 32 := 0#32
  let c1_i32_5 : BitVec 32 := 1#32
  let arg16 : BitVec 32 := Scf.iv c0_i32_4 c1_i32_5 k0_t2
  let c16_i32_180 : BitVec 32 := 16#32
  let v259 : BitVec 32 := Scalar.muli arg16 c16_i32_180
  let v260 : BitVec 32 := Scalar.addi v259 c14_i32_181
  let c0_i32_184 : BitVec 32 := 0#32
  ![v260.toNat, 0]
def k0_off64 (v266 : BitVec 32) : Fin 2 → Nat :=
  let c0_i32_188 : BitVec 32 := 0#32
  ![v266.toNat, 0]

def k0_chk31 (v266 : BitVec 32) : Prop :=
  (∀ a, (k0_off64 v266) a + S1x64.size a ≤ S1000002x64.size a)
instance k0_chk31.dec : ∀ (v266 : BitVec 32), Decidable (k0_chk31 v266) := fun v266 => decidable_of_iff' _ (Iff.of_eq (k0_chk31.eq_1 v266))
theorem k0_off64_inb : ∀ (v266 : BitVec 32) (k0_hw31 : k0_chk31 v266), ∀ a, (k0_off64 v266) a + S1x64.size a ≤ S1000002x64.size a := fun v266 k0_hw31 => k0_hw31

def k0_off65 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_186 : BitVec 32 := 16#32
  let v267 : BitVec 32 := Scalar.muli arg16 c16_i32_186
  let c15_i32 : BitVec 32 := 15#32
  let v268 : BitVec 32 := Scalar.addi v267 c15_i32
  let c0_i32_189 : BitVec 32 := 0#32
  ![v268.toNat, 0]
def k0_off66 (v274 : BitVec 32) : Fin 2 → Nat :=
  let c0_i32_194 : BitVec 32 := 0#32
  ![v274.toNat, 0]

def k0_chk32 (v274 : BitVec 32) : Prop :=
  (∀ a, (k0_off66 v274) a + S1x64.size a ≤ S1000002x64.size a)
instance k0_chk32.dec : ∀ (v274 : BitVec 32), Decidable (k0_chk32 v274) := fun v274 => decidable_of_iff' _ (Iff.of_eq (k0_chk32.eq_1 v274))
theorem k0_off66_inb : ∀ (v274 : BitVec 32) (k0_hw32 : k0_chk32 v274), ∀ a, (k0_off66 v274) a + S1x64.size a ≤ S1000002x64.size a := fun v274 k0_hw32 => k0_hw32

def k0_off67 (k0_t2 : Fin k0_t2_loop.trips) : Fin 2 → Nat :=
  let c0_i32_4 : BitVec 32 := 0#32
  let c1_i32_5 : BitVec 32 := 1#32
  let arg16 : BitVec 32 := Scf.iv c0_i32_4 c1_i32_5 k0_t2
  let c16_i32_191 : BitVec 32 := 16#32
  let v275 : BitVec 32 := Scalar.muli arg16 c16_i32_191
  let c15_i32_192 : BitVec 32 := 15#32
  let v276 : BitVec 32 := Scalar.addi v275 c15_i32_192
  let c0_i32_195 : BitVec 32 := 0#32
  ![v276.toNat, 0]
@[reducible] def k0_t3_loop : Scf.Loop 32 :=
  let c0_i32_8 : BitVec 32 := 0#32
  let c256_i32 : BitVec 32 := 256#32
  let v7 : BitVec 32 := Scalar.addi c0_i32_8 c256_i32
  let c1_i32_9 : BitVec 32 := 1#32
  ⟨c0_i32_8, v7, c1_i32_9⟩
def k0_off68 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg14 : BitVec 32 := Scf.iv c0_i32_0 c1_i32 k0_t1
  let c256_i32_11 : BitVec 32 := 256#32
  let v9 : BitVec 32 := Scalar.muli arg14 c256_i32_11
  let v10 : BitVec 32 := Scalar.addi v2 v9
  let c0_i32_14_r2 : BitVec 32 := 0#32
  ![v10.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S16384x2_S16384x1_0_0 : S16384x2.Slices ![0, 0] S16384x1
  shapeCasts_S16384x1_S16384 : S16384x1.ShapeCasts S16384
  slices_S16384x2_S16384x1_0_1 : S16384x2.Slices ![0, 1] S16384x1
  h_S16 : 0 < S16.numel
  shapeCasts_S16_S16 : S16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S256x64_S1x64_0_0 : ∀ a, (![0, 0] : Fin 2 → Nat) a + S1x64.size a ≤ S256x64.size a
  inb_S1000002x64_S1x64_0_0 : ∀ a, (![0, 0] : Fin 2 → Nat) a + S1x64.size a ≤ S1000002x64.size a
  bcast_S16384x64_S16384x1x64_0_2 : S16384x64.BroadcastsInDim S16384x1x64 (![0, 2] : Fin 2 → Fin S16384x1x64.rank)
  hcc0_scratch4 : 0 + S_.numel ≤ 6
  hcc0_scratch5 : 1 + S_.numel ≤ 6
  hcc0_scoped0 : 2 + S_.numel ≤ 6
  hcc0_scoped1 : 3 + S_.numel ≤ 6
  hcc0_scoped2 : 4 + S_.numel ≤ 6
  hcc0_scoped3 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_t2_ok : k0_t2_loop.OK
  k0_off2_inb : ∀ (k0_t1 : Fin k0_t1_loop.trips) (k0_t2 : Fin k0_t2_loop.trips), ∀ a, (k0_off2 k0_t1 k0_t2) a + S16.size a ≤ S512.size a
  k0_off3_inb : ∀ k0_t2 : Fin k0_t2_loop.trips, ∀ a, (k0_off3 k0_t2) a + S1x64.size a ≤ S256x64.size a
  k0_off5_inb : ∀ k0_t2 : Fin k0_t2_loop.trips, ∀ a, (k0_off5 k0_t2) a + S1x64.size a ≤ S256x64.size a
  k0_off7_inb : ∀ k0_t2 : Fin k0_t2_loop.trips, ∀ (r : Fin 2), ∀ a, (k0_off7 k0_t2 (BitVec.ofNat 32 r.val)) a + S1x64.size a ≤ S256x64.size a
  k0_off9_inb : ∀ k0_t2 : Fin k0_t2_loop.trips, ∀ a, (k0_off9 k0_t2) a + S1x64.size a ≤ S256x64.size a
  k0_off11_inb : ∀ k0_t2 : Fin k0_t2_loop.trips, ∀ (r : Fin 2), ∀ a, (k0_off11 k0_t2 (BitVec.ofNat 32 (1 + r.val))) a + S1x64.size a ≤ S256x64.size a
  k0_off13_inb : ∀ k0_t2 : Fin k0_t2_loop.trips, ∀ a, (k0_off13 k0_t2) a + S1x64.size a ≤ S256x64.size a
  k0_off15_inb : ∀ k0_t2 : Fin k0_t2_loop.trips, ∀ (r : Fin 2), ∀ a, (k0_off15 k0_t2 (BitVec.ofNat 32 (2 + r.val))) a + S1x64.size a ≤ S256x64.size a
  k0_off17_inb : ∀ k0_t2 : Fin k0_t2_loop.trips, ∀ a, (k0_off17 k0_t2) a + S1x64.size a ≤ S256x64.size a
  k0_off19_inb : ∀ k0_t2 : Fin k0_t2_loop.trips, ∀ (r : Fin 2), ∀ a, (k0_off19 k0_t2 (BitVec.ofNat 32 (3 + r.val))) a + S1x64.size a ≤ S256x64.size a
  k0_off21_inb : ∀ k0_t2 : Fin k0_t2_loop.trips, ∀ a, (k0_off21 k0_t2) a + S1x64.size a ≤ S256x64.size a
  k0_off23_inb : ∀ k0_t2 : Fin k0_t2_loop.trips, ∀ (r : Fin 2), ∀ a, (k0_off23 k0_t2 (BitVec.ofNat 32 (4 + r.val))) a + S1x64.size a ≤ S256x64.size a
  k0_off25_inb : ∀ k0_t2 : Fin k0_t2_loop.trips, ∀ a, (k0_off25 k0_t2) a + S1x64.size a ≤ S256x64.size a
  k0_off27_inb : ∀ k0_t2 : Fin k0_t2_loop.trips, ∀ (r : Fin 2), ∀ a, (k0_off27 k0_t2 (BitVec.ofNat 32 (5 + r.val))) a + S1x64.size a ≤ S256x64.size a
  k0_off29_inb : ∀ k0_t2 : Fin k0_t2_loop.trips, ∀ a, (k0_off29 k0_t2) a + S1x64.size a ≤ S256x64.size a
  k0_off31_inb : ∀ k0_t2 : Fin k0_t2_loop.trips, ∀ (r : Fin 2), ∀ a, (k0_off31 k0_t2 (BitVec.ofNat 32 (6 + r.val))) a + S1x64.size a ≤ S256x64.size a
  k0_off33_inb : ∀ k0_t2 : Fin k0_t2_loop.trips, ∀ a, (k0_off33 k0_t2) a + S1x64.size a ≤ S256x64.size a
  k0_off35_inb : ∀ k0_t2 : Fin k0_t2_loop.trips, ∀ (r : Fin 2), ∀ a, (k0_off35 k0_t2 (BitVec.ofNat 32 (7 + r.val))) a + S1x64.size a ≤ S256x64.size a
  k0_off37_inb : ∀ k0_t2 : Fin k0_t2_loop.trips, ∀ a, (k0_off37 k0_t2) a + S1x64.size a ≤ S256x64.size a
  k0_off39_inb : ∀ k0_t2 : Fin k0_t2_loop.trips, ∀ (r : Fin 2), ∀ a, (k0_off39 k0_t2 (BitVec.ofNat 32 (8 + r.val))) a + S1x64.size a ≤ S256x64.size a
  k0_off41_inb : ∀ k0_t2 : Fin k0_t2_loop.trips, ∀ a, (k0_off41 k0_t2) a + S1x64.size a ≤ S256x64.size a
  k0_off43_inb : ∀ k0_t2 : Fin k0_t2_loop.trips, ∀ (r : Fin 2), ∀ a, (k0_off43 k0_t2 (BitVec.ofNat 32 (9 + r.val))) a + S1x64.size a ≤ S256x64.size a
  k0_off45_inb : ∀ k0_t2 : Fin k0_t2_loop.trips, ∀ a, (k0_off45 k0_t2) a + S1x64.size a ≤ S256x64.size a
  k0_off47_inb : ∀ k0_t2 : Fin k0_t2_loop.trips, ∀ (r : Fin 2), ∀ a, (k0_off47 k0_t2 (BitVec.ofNat 32 (10 + r.val))) a + S1x64.size a ≤ S256x64.size a
  k0_off49_inb : ∀ k0_t2 : Fin k0_t2_loop.trips, ∀ a, (k0_off49 k0_t2) a + S1x64.size a ≤ S256x64.size a
  k0_off51_inb : ∀ k0_t2 : Fin k0_t2_loop.trips, ∀ (r : Fin 2), ∀ a, (k0_off51 k0_t2 (BitVec.ofNat 32 (11 + r.val))) a + S1x64.size a ≤ S256x64.size a
  k0_off53_inb : ∀ k0_t2 : Fin k0_t2_loop.trips, ∀ a, (k0_off53 k0_t2) a + S1x64.size a ≤ S256x64.size a
  k0_off55_inb : ∀ k0_t2 : Fin k0_t2_loop.trips, ∀ (r : Fin 2), ∀ a, (k0_off55 k0_t2 (BitVec.ofNat 32 (12 + r.val))) a + S1x64.size a ≤ S256x64.size a
  k0_off57_inb : ∀ k0_t2 : Fin k0_t2_loop.trips, ∀ a, (k0_off57 k0_t2) a + S1x64.size a ≤ S256x64.size a
  k0_off59_inb : ∀ k0_t2 : Fin k0_t2_loop.trips, ∀ (r : Fin 2), ∀ a, (k0_off59 k0_t2 (BitVec.ofNat 32 (13 + r.val))) a + S1x64.size a ≤ S256x64.size a
  k0_off61_inb : ∀ k0_t2 : Fin k0_t2_loop.trips, ∀ a, (k0_off61 k0_t2) a + S1x64.size a ≤ S256x64.size a
  k0_off63_inb : ∀ k0_t2 : Fin k0_t2_loop.trips, ∀ (r : Fin 2), ∀ a, (k0_off63 k0_t2 (BitVec.ofNat 32 (14 + r.val))) a + S1x64.size a ≤ S256x64.size a
  k0_off65_inb : ∀ k0_t2 : Fin k0_t2_loop.trips, ∀ a, (k0_off65 k0_t2) a + S1x64.size a ≤ S256x64.size a
  k0_off67_inb : ∀ k0_t2 : Fin k0_t2_loop.trips, ∀ a, (k0_off67 k0_t2) a + S1x64.size a ≤ S256x64.size a
  k0_t3_ok : k0_t3_loop.OK
  k0_off68_inb : ∀ (i : grid0.Coords) (k0_t1 : Fin k0_t1_loop.trips), ∀ a, (k0_off68 i k0_t1) a + S256x64.size a ≤ S16384x64.size a

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3

class Facts : Prop extends Facts₀ where

variable [Facts]
-- ==== ReferenceIdeal.lean ====
abbrev S16384x2 : Shape := ⟨2, ![16384, 2]⟩
abbrev S1000002x64 : Shape := ⟨2, ![1000002, 64]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S16384x1x64 : Shape := ⟨3, ![16384, 1, 64]⟩

abbrev nBuf : Space → Nat
  | .hbm => 51
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S1000002x64, .f32⟩
  | .hbm, ⟨2, _⟩ => ⟨S1000002x64, .f32⟩
  | .hbm, ⟨3, _⟩ => ⟨S16384x1, .i32⟩
  | .hbm, ⟨4, _⟩ => ⟨S16384x1, .i32⟩
  | .hbm, ⟨5, _⟩ => ⟨S_, .i32⟩
  | .hbm, ⟨6, _⟩ => ⟨S16384x1, .i32⟩
  | .hbm, ⟨7, _⟩ => ⟨S16384x1, .i1⟩
  | .hbm, ⟨8, _⟩ => ⟨S_, .i32⟩
  | .hbm, ⟨9, _⟩ => ⟨S16384x1, .i32⟩
  | .hbm, ⟨10, _⟩ => ⟨S16384x1, .i32⟩
  | .hbm, ⟨11, _⟩ => ⟨S16384x1, .i32⟩
  | .hbm, ⟨12, _⟩ => ⟨S16384x1x1, .i32⟩
  | .hbm, ⟨13, _⟩ => ⟨S1, .i32⟩
  | .hbm, ⟨14, _⟩ => ⟨S_, .i32⟩
  | .hbm, ⟨15, _⟩ => ⟨S16384x1x1, .i32⟩
  | .hbm, ⟨16, _⟩ => ⟨S16384x1x1, .i1⟩
  | .hbm, ⟨17, _⟩ => ⟨S1x1x1, .i32⟩
  | .hbm, ⟨18, _⟩ => ⟨S16384x1x1, .i32⟩
  | .hbm, ⟨19, _⟩ => ⟨S16384x1x1, .i1⟩
  | .hbm, ⟨20, _⟩ => ⟨S16384x1x1, .i1⟩
  | .hbm, ⟨21, _⟩ => ⟨S_, .i1⟩
  | .hbm, ⟨22, _⟩ => ⟨S16384x1, .i1⟩
  | .hbm, ⟨23, _⟩ => ⟨S16384x1x64, .f32⟩
  | .hbm, ⟨24, _⟩ => ⟨S16384x1x64, .i1⟩
  | .hbm, ⟨25, _⟩ => ⟨S_, .f32⟩
  | .hbm, ⟨26, _⟩ => ⟨S16384x1x64, .f32⟩
  | .hbm, ⟨27, _⟩ => ⟨S16384x1x64, .f32⟩
  | .hbm, ⟨28, _⟩ => ⟨S_, .i32⟩
  | .hbm, ⟨29, _⟩ => ⟨S16384x1, .i32⟩
  | .hbm, ⟨30, _⟩ => ⟨S16384x1, .i1⟩
  | .hbm, ⟨31, _⟩ => ⟨S_, .i32⟩
  | .hbm, ⟨32, _⟩ => ⟨S16384x1, .i32⟩
  | .hbm, ⟨33, _⟩ => ⟨S16384x1, .i32⟩
  | .hbm, ⟨34, _⟩ => ⟨S16384x1, .i32⟩
  | .hbm, ⟨35, _⟩ => ⟨S16384x1x1, .i32⟩
  | .hbm, ⟨36, _⟩ => ⟨S1, .i32⟩
  | .hbm, ⟨37, _⟩ => ⟨S_, .i32⟩
  | .hbm, ⟨38, _⟩ => ⟨S16384x1x1, .i32⟩
  | .hbm, ⟨39, _⟩ => ⟨S16384x1x1, .i1⟩
  | .hbm, ⟨40, _⟩ => ⟨S1x1x1, .i32⟩
  | .hbm, ⟨41, _⟩ => ⟨S16384x1x1, .i32⟩
  | .hbm, ⟨42, _⟩ => ⟨S16384x1x1, .i1⟩
  | .hbm, ⟨43, _⟩ => ⟨S16384x1x1, .i1⟩
  | .hbm, ⟨44, _⟩ => ⟨S_, .i1⟩
  | .hbm, ⟨45, _⟩ => ⟨S16384x1, .i1⟩
  | .hbm, ⟨46, _⟩ => ⟨S16384x1x64, .f32⟩
  | .hbm, ⟨47, _⟩ => ⟨S16384x1x64, .i1⟩
  | .hbm, ⟨48, _⟩ => ⟨S_, .f32⟩
  | .hbm, ⟨49, _⟩ => ⟨S16384x1x64, .f32⟩
  | .hbm, ⟨50, _⟩ => ⟨S16384x1x64, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩

abbrev nD : Nat := 1
abbrev τ : Topo := Topo.v7x

variable {F : FTy → Type} [FloatOps F]

class Facts₀ : Prop where
  slices_S16384x2_S16384x1_0_0 : S16384x2.Slices ![0, 0] S16384x1
  slices_S16384x2_S16384x1_0_1 : S16384x2.Slices ![0, 1] S16384x1
  bcast_S_S16384x1 : S_.BroadcastsInDim S16384x1 (![] : Fin 0 → Fin S16384x1.rank)
  bcast_S16384x1_S16384x1x1_0_1 : S16384x1.BroadcastsInDim S16384x1x1 (![0, 1] : Fin 2 → Fin S16384x1x1.rank)
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S16384x1_S16384x1x64_0_1 : S16384x1.BroadcastsInDim S16384x1x64 (![0, 1] : Fin 2 → Fin S16384x1x64.rank)
  bcast_S_S16384x1x64 : S_.BroadcastsInDim S16384x1x64 (![] : Fin 0 → Fin S16384x1x64.rank)
  gather_S1000002x64_S16384x1x1_S16384x1x64_2_0_n_n_0_2_164_wf : GatherDims.WF S1000002x64 S16384x1x1 S16384x1x64 [2] [0] [] [0] [] 2 ![1, 64]

variable [Facts₀]

def gather_S1000002x64_S16384x1x1_S16384x1x64_2_0_n_n_0_2_164 : GatherDims S1000002x64 S16384x1x1 S16384x1x64 where
  offsetDims := [2]
  collapsedSliceDims := [0]
  operandBatchingDims := []
  startIndicesBatchingDims := []
  startIndexMap := [0]
  indexVectorDim := 2
  sliceSizes := ![1, 64]
  wf := gather_S1000002x64_S16384x1x1_S16384x1x64_2_0_n_n_0_2_164_wf

class Facts : Prop extends Facts₀ where

variable [Facts]
-- ==== Proof.Spec.lean ====
/-
  What both programs compute, as one function of the argument arrays: an embedding lookup. Column `col` of the
  index array `X` ([16384, 2], 32-bit words) names, for each of the 16384 batch entries, a row of a table
  ([1000002, 64]); the result holds that row. A word is read as a row number by its unsigned value, clamped into
  the table (so that the function is total; on the certificate's domain `0 ≤ X ≤ 999999` the clamp is the identity
  and the signed and unsigned readings agree).
-/
import Idealize.ShloMosaic.PureOps.Ideal
import Idealize.ShloMosaic.Lib.ValueIdx

namespace Cert.Spec

open Idealize.ShloMosaic Idealize.ShloMosaic.ValueIdx

/-- The table row a 32-bit word names: its unsigned value, clamped to the last row. -/
def rowOf (v : BitVec 32) : Fin 1000002 := ⟨min v.toNat 1000001, by omega⟩

theorem rowOf_val {v : BitVec 32} (h : v.toNat ≤ 999999) : (rowOf v).val = v.toNat := by
  show min v.toNat 1000001 = v.toNat; omega

/-- The looked-up rows as a [16384, 64] array: entry `(b, q)` is the table at `(rowOf X(b, col), q)`. -/
def rows {α : Type} (X : (⟨2, ![16384, 2]⟩ : Shape).Idx → BitVec 32) (col : Fin 2)
    (tbl : (⟨2, ![1000002, 64]⟩ : Shape).Idx → α) : (⟨2, ![16384, 64]⟩ : Shape).Idx → α :=
  fun j => tbl (ix2 (rowOf (X (ix2 (j 0 : Fin 16384) col))) (j 1 : Fin 64))

/-- The same with the unit axis the entry points return: entry `(b, 0, q)`. -/
def rows3 {α : Type} (X : (⟨2, ![16384, 2]⟩ : Shape).Idx → BitVec 32) (col : Fin 2)
    (tbl : (⟨2, ![1000002, 64]⟩ : Shape).Idx → α) : (⟨3, ![16384, 1, 64]⟩ : Shape).Idx → α :=
  fun j => tbl (ix2 (rowOf (X (ix2 (j 0 : Fin 16384) col))) (j 2 : Fin 64))

theorem rows3_eq {α : Type} (X : (⟨2, ![16384, 2]⟩ : Shape).Idx → BitVec 32) (col : Fin 2)
    (tbl : (⟨2, ![1000002, 64]⟩ : Shape).Idx → α) (j : (⟨3, ![16384, 1, 64]⟩ : Shape).Idx) :
    rows3 X col tbl j = rows X col tbl (ix2 (j 0 : Fin 16384) (j 2 : Fin 64)) := rfl

/-- Every word of the index array is at most 999999 (the certificate's domain, read unsigned). -/
def InRange (X : (⟨2, ![16384, 2]⟩ : Shape).Idx → BitVec 32) : Prop := ∀ j, (X j).toNat ≤ 999999

end Cert.Spec
-- ==== Proof.PreSide.lean ====
/-
  The precondition decoded. The claims assume that the printed predicate `input_domain` of the argument arrays is all
  ones. Its third conjunct is `all((X ≥ 0) & (X ≤ 999999))` over the [16384, 2] array of 32-bit words, both comparisons
  signed. A word that is at least 0 and at most 999999 as a signed integer has its top bit clear, so its unsigned value
  is the same number: every word of the index array is at most 999999 read unsigned, which is `Cert.Spec.InRange`.
  Nothing here enumerates an index set: the all-reduction is opened at one given index.
-/
import proofs.«207591_g3891240370478_cont_8to1_b_1686_26_alg».proof.Defs
import proofs.«207591_g3891240370478_cont_8to1_b_1686_26_alg».proof.Proof.Spec
import Idealize.ShloMosaic.Lib.ReduceAll

noncomputable section

namespace Cert.PreSide

open Idealize.ShloMosaic Idealize.ShloMosaic.ValueIdx Idealize.SL.Sem

/-- The scalar shape has one index. -/
instance subsingleton_scalar_idx : Subsingleton Cert.Pre_input_domain.S_.Idx :=
  ⟨fun a b => funext fun d => d.elim0⟩

/-- A 32-bit word that is at least 0 and at most 999999 as a signed integer is at most 999999 read unsigned. -/
theorem toNat_le_of_signed_bounds (v : BitVec 32) (h0 : IntOp.cmpi .sge v 0#32 = 1#1)
    (h1 : IntOp.cmpi .sle v 999999#32 = 1#1) : v.toNat ≤ 999999 := by
  rw [IntOp.cmpi_sge] at h0
  rw [IntOp.cmpi_sle] at h1
  have e0 : (0#32 : BitVec 32).toInt = 0 := by decide
  have e1 : (999999#32 : BitVec 32).toInt = 999999 := by decide
  rw [e0] at h0
  rw [e1] at h1
  have e := BitVec.toInt_eq_toNat_cond v
  have hlt := v.isLt
  omega

/-- THE PRECONDITION DECODED: when the printed predicate is all ones, every word of the index array is in range. -/
theorem inRange {F : FTy → Type} [FloatOps F] [Cert.Pre_input_domain.Facts]
    (X : IVec Cert.Pre_input_domain.S16384x2 32) (t1 t2 : FVec F Cert.Pre_input_domain.S1000002x64 .f32)
    (h : Cert.Pre_input_domain.fn (F := F) X t1 t2 = fun _ => 1#1) : Cert.Spec.InRange X := by
  intro j
  have e := congrFun h ValueIdx.ix0
  dsimp only [Cert.Pre_input_domain.fn] at e
  -- the predicate is (all finite t1 ∧ all finite t2) ∧ all in range: keep the last conjunct
  have e3 := (IntOp.andi_eq_one.1 e).2
  -- the all-reduction, opened at the index j
  have ej := Host.reduce_andi_all _ _ _ _ _ e3 j
  -- the element is the conjunction of the two comparisons of the word X j
  obtain ⟨h0, h1⟩ := IntOp.andi_eq_one.1 ej
  exact toNat_le_of_signed_bounds (X j) h0 h1

/-! ## The same, of the memories the claims quantify over

Each claim assumes the predicate of the three argument arrays a device's memory holds; so on every device the index
array in memory is in range. One corollary per program, spelt as the claims spell their preconditions. -/

/-- The kernel as printed: its index array in memory is in range on every device. -/
theorem inRange_Kernel [Cert.Pre_input_domain.Facts]
    (m : (ℓ : Loc Cert.Kernel.nD Cert.Kernel.τ Cert.Kernel.sig) → Buf (Elt Bits) ℓ) (h : Cert.Pre_Kernel m)
    (c : Dev Cert.Kernel.nD) :
    Cert.Spec.InRange (m ((c.tc : Thread Cert.Kernel.nD Cert.Kernel.τ).loc Cert.Kernel.main_arg0)) :=
  inRange (F := Bits) _ _ _ (h c)

/-- The kernel at the ideal instance: its index array in memory is in range on every device. -/
theorem inRange_KernelIdeal [Cert.Pre_input_domain.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (m ((c.tc : Thread Cert.KernelIdeal.nD Cert.KernelIdeal.τ).loc Cert.KernelIdeal.main_arg0)) :=
  inRange (F := Ideal) _ _ _ (h c)

/-- The reference at the ideal instance: its index array in memory is in range on every device. -/
theorem inRange_ReferenceIdeal [Cert.Pre_input_domain.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Cert.Spec.InRange (m ((c.tc : Thread Cert.ReferenceIdeal.nD Cert.ReferenceIdeal.τ).loc Cert.ReferenceIdeal.main_arg0)) :=
  inRange (F := Ideal) _ _ _ (h c)

end Cert.PreSide

end
-- ==== Proof.Common.lean ====
/-
  The kernel's program as the launch theorem sees it, and what the handshakes carry.
  The program: on the TensorCore, column 0 and column 1 of the index array `X` are made flat vectors (a slice and a
  reshape each); one vector-subcore kernel on 2 SparseCores × 16 tiles looks the rows up; its two results get a unit
  axis. Tile `(c, i)` is worker `2 i + c` and owns rows `512 (2 i + c) … + 511` of both results, which it fills in
  two chunks of 256 rows: chunk `k` is part `4 i + 2 c + k` of the 64 parts of 256 rows.
  The four arrays the kernel only reads (the two flat index vectors, the two tables) go out as read shares and never
  come back: the TensorCore keeps a share of each, which is all the claim about them needs. Each tile gets the two
  parts of each result it writes, and hands them back at the looked-up rows.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«207591_g3891240370478_cont_8to1_b_1686_26_alg».proof.KernelIdeal
import proofs.«207591_g3891240370478_cont_8to1_b_1686_26_alg».proof.Proof.Gen.KernelIdeal
import proofs.«207591_g3891240370478_cont_8to1_b_1686_26_alg».proof.Proof.Gen.KernelIdeal.Skeleton
import proofs.«207591_g3891240370478_cont_8to1_b_1686_26_alg».proof.Proof.Spec

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- The transfers' counters, found in the right factor. -/
abbrev EC : UEmb Counters (MT nD τ sig (HIx 1) (Elt F) ℕ UU ℕ) := countersEmb

/-! ## The arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v1Loc (d : Dev nD) : Loc nD τ sig := (SparseCore.T d).loc main_v1
abbrev v3Loc (d : Dev nD) : Loc nD τ sig := (SparseCore.T d).loc main_v3
abbrev o0Loc (d : Dev nD) : Loc nD τ sig := (SparseCore.T d).loc main_v4_0
abbrev o1Loc (d : Dev nD) : Loc nD τ sig := (SparseCore.T d).loc main_v4_1
abbrev r0Loc (d : Dev nD) : Loc nD τ sig := (SparseCore.T d).loc main_v5
abbrev r1Loc (d : Dev nD) : Loc nD τ sig := (SparseCore.T d).loc main_v6

variable [FloatOps F]

/-! ## @main's host operations and the values they leave -/

abbrev opSl0 : HloOp τ sig (Elt F) := StableHlo.unary main_arg0 main_v0 ((extractStridedSlice S16384x1 ![0, 0] · slices_S16384x2_S16384x1_0_0) : (⟨S16384x2, .i32⟩ : BufTy).Contents (Elt F) → (⟨S16384x1, .i32⟩ : BufTy).Contents (Elt F))
abbrev opRs0 : HloOp τ sig (Elt F) := StableHlo.reshape main_v0 main_v1 rfl shapeCasts_S16384x1_S16384
abbrev opSl1 : HloOp τ sig (Elt F) := StableHlo.unary main_arg0 main_v2 ((extractStridedSlice S16384x1 ![0, 1] · slices_S16384x2_S16384x1_0_1) : (⟨S16384x2, .i32⟩ : BufTy).Contents (Elt F) → (⟨S16384x1, .i32⟩ : BufTy).Contents (Elt F))
abbrev opRs1 : HloOp τ sig (Elt F) := StableHlo.reshape main_v2 main_v3 rfl shapeCasts_S16384x1_S16384
abbrev opB0 : HloOp τ sig (Elt F) := StableHlo.unary main_v4_0 main_v5 (broadcastInDim S16384x1x64 ![0, 2] bcast_S16384x64_S16384x1x64_0_2 : (⟨S16384x64, .f32⟩ : BufTy).Contents (Elt F) → (⟨S16384x1x64, .f32⟩ : BufTy).Contents (Elt F))
abbrev opB1 : HloOp τ sig (Elt F) := StableHlo.unary main_v4_1 main_v6 (broadcastInDim S16384x1x64 ![0, 2] bcast_S16384x64_S16384x1x64_0_2 : (⟨S16384x64, .f32⟩ : BufTy).Contents (Elt F) → (⟨S16384x1x64, .f32⟩ : BufTy).Contents (Elt F))

/-- The launch valuation of device `d`'s buffers, and the valuation when the kernel is called: after the two slices
    and the two reshapes. -/
def V0 (d : Dev nD) : Valuation τ sig (Elt F) := fun b => m (d, b)
def Vin (d : Dev nD) : Valuation τ sig (Elt F) :=
  (opRs1 (F := F)).result ((opSl1 (F := F)).result ((opRs0 (F := F)).result ((opSl0 (F := F)).result (V0 m d))))

/-- The two flat index vectors the kernel reads, and the two tables. -/
def W1 (d : Dev nD) : Buf (Elt F) (v1Loc d) := Vin m d (Proc.devRef .tc (main_v1 : Ref sig .tc))
def W3 (d : Dev nD) : Buf (Elt F) (v3Loc d) := Vin m d (Proc.devRef .tc (main_v3 : Ref sig .tc))
abbrev T1 (d : Dev nD) : Buf (Elt F) (a1Loc d) := m (a1Loc d)
abbrev T2 (d : Dev nD) : Buf (Elt F) (a2Loc d) := m (a2Loc d)

/-- What the proof asks of the launch memory: every word of the two index vectors is at most 999999 (read unsigned),
    so that it names a row of the tables. -/
def PreOK : Prop := ∀ (d : Dev nD) (b : S16384.Idx), (W1 m d b).toNat ≤ 999999 ∧ (W3 m d b).toNat ≤ 999999

/-- The kernel's two results: entry `(r, q)` is the table at `(row named by the index vector's word r, q)`. -/
def G0 (d : Dev nD) : Buf (Elt F) (o0Loc d) := fun j => T1 m d (ix2 (Cert.Spec.rowOf (W1 m d (ix1 (j 0 : Fin 16384)))) (j 1 : Fin 64))
def G1 (d : Dev nD) : Buf (Elt F) (o1Loc d) := fun j => T2 m d (ix2 (Cert.Spec.rowOf (W3 m d (ix1 (j 0 : Fin 16384)))) (j 1 : Fin 64))
/-- and the program's, with the unit axis. -/
def R0 (d : Dev nD) : Buf (Elt F) (r0Loc d) := broadcastInDim S16384x1x64 ![0, 2] bcast_S16384x64_S16384x1x64_0_2 (G0 m d)
def R1 (d : Dev nD) : Buf (Elt F) (r1Loc d) := broadcastInDim S16384x1x64 ![0, 2] bcast_S16384x64_S16384x1x64_0_2 (G1 m d)

/-! ## The results' 64 parts of 256 rows -/

theorem hdiv : 64 ∣ S16384x64.size 0 := ⟨256, rfl⟩
abbrev part (j : Fin 64) : Rect S16384x64 := Rect.part (s := S16384x64) (a₀ := 0) hdiv j
abbrev partSet (j : Fin 64) : Finset S16384x64.Idx := ((Memref.whole main_v4_0_scv : Memref sig .scVector .hbm S16384x64 .f32).view.slice (part j)).set
/-- Chunk `k` of tile `(c, i)`: part `4 i + 2 c + k`. -/
def pj (c : Fin 2) (i : Fin 16) (k : Fin 2) : Fin 64 := ⟨4 * i.val + 2 * c.val + k.val, by omega⟩

/-! ## What the handshakes carry -/

/-- The read share of SparseCore `c`, and of its tile `i`. -/
abbrev qCore (c : ℕ) : PosShare TreeShare := shareTokN fullShare c
abbrev qTile (c i : ℕ) : PosShare TreeShare := shareTokN (qCore c) i

/-- The four arrays the kernel reads, at a share. -/
def reads (d : Dev nD) (q : PosShare TreeShare) : sProp 𝕄 :=
  iprop((v1Loc d ↦{q} W1 m d) ∗ (v3Loc d ↦{q} W3 m d) ∗ (a1Loc d ↦{q} T1 m d) ∗ (a2Loc d ↦{q} T2 m d))
/-- Part `j` of the two results at contents `f0`, `f1`. -/
def outs (d : Dev nD) (j : Fin 64) (f0 : Buf (Elt F) (o0Loc d)) (f1 : Buf (Elt F) (o1Loc d)) : sProp 𝕄 :=
  iprop((o0Loc d ↦[partSet j]{fullShare} f0) ∗ (o1Loc d ↦[partSet j]{fullShare} f1))

/-- A tile's task takes a read share of the four arrays and its two parts of each result at the launch contents, and
    hands the parts back at the looked-up rows. -/
def goP (d : Dev nD) (c : Fin 2) (i : Fin 16) : sProp 𝕄 :=
  iprop(reads m d (qTile c.val i.val) ∗ bigSep Finset.univ fun k : Fin 2 => outs d (pj c i k) (m (o0Loc d)) (m (o1Loc d)))
def tdP (d : Dev nD) (c : Fin 2) (i : Fin 16) : sProp 𝕄 :=
  bigSep Finset.univ fun k : Fin 2 => outs d (pj c i k) (G0 m d) (G1 m d)
/-- A SparseCore takes its read share and its tiles' parts, and hands back what the tiles do. -/
def stP (d : Dev nD) (c : Fin 2) : sProp 𝕄 :=
  iprop(reads m d (qCore c.val) ∗ bigSep Finset.univ fun i : Fin 16 => bigSep Finset.univ fun k : Fin 2 => outs d (pj c i k) (m (o0Loc d)) (m (o1Loc d)))
def dnP (d : Dev nD) (c : Fin 2) : sProp 𝕄 := bigSep Finset.univ fun i : Fin 16 => tdP m d c i

def P : (K (F := F)).Pay (nD := nD) (Val := Elt F) (Name := ℕ) (U := UU) where
  st := fun q d c => match q with | 0 => stP m d (Fin.cast nCore_zero c)
  dn := fun q d c => match q with | 0 => dnP m d (Fin.cast nCore_zero c)
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with | 0 => by show BI.Storable upEmb (stP m d _); unfold stP reads outs; infer_instance
  dn q d c := match q with | 0 => by show BI.Storable upEmb (dnP m d _); unfold dnP tdP outs; infer_instance
  go q d c i := match q with | 0 => by show BI.Storable upEmb (goP m d _ _); unfold goP reads outs; infer_instance
  td q d c i := match q with | 0 => by show BI.Storable upEmb (tdP m d _ _); unfold tdP outs; infer_instance

/-- What the run leaves, on every device: the two results at the looked-up rows, the three arguments unchanged. -/
def QC : PUnit × MemSt nD τ sig (Elt F) → Prop := fun r => ∀ c : Dev nD,
  r.2.mem (r0Loc c) = R0 m c ∧ r.2.mem (r1Loc c) = R1 m c
    ∧ r.2.mem (a0Loc c) = m (a0Loc c) ∧ r.2.mem (a1Loc c) = m (a1Loc c) ∧ r.2.mem (a2Loc c) = m (a2Loc c)

end Cert.Proof.KI

end
-- ==== Proof.HostGlue.lean ====
/-
  The host operations around the kernel call, read at an index. Before the call the entry point cuts each column out of
  the [16384, 2] index array (a slice to [16384, 1]) and flattens it (a reshape to [16384]); after it, it gives each
  [16384, 64] result a unit middle axis (a broadcast along axes 0 and 2 to [16384, 1, 64]). Read at an index, the first
  two are "column c of the array as a flat vector" and the last is "the same rows, the unit coordinate ignored". Everything
  is over literal shapes and any element type; the operations' side conditions are hypotheses, so the equations apply to
  any program whose shapes unfold to these literals.
-/
import proofs.«207591_g3891240370478_cont_8to1_b_1686_26_alg».proof.Proof.Spec
import Idealize.ShloMosaic.Lib.ValueLayout

noncomputable section

namespace Cert.HostGlue

open Idealize.ShloMosaic Idealize.ShloMosaic.ValueIdx

variable {α : Type}

/-! ## A column of the index array as a flat vector -/

/-- Column `col` of a [16384, 2] array, as the [16384] vector of its entries. -/
def column (X : (⟨2, ![16384, 2]⟩ : Shape).Idx → α) (col : Fin 2) : (⟨1, ![16384]⟩ : Shape).Idx → α :=
  fun b => X (ix2 (b 0 : Fin 16384) col)

/-- Entry `b` of the column is the array at `(b, col)`. -/
theorem column_apply (X : (⟨2, ![16384, 2]⟩ : Shape).Idx → α) (col : Fin 2) (b : Fin 16384) :
    column X col (ix1 b) = X (ix2 b col) := rfl

/-- The [16384, 1] slice of the array from column offset `o`, flattened, is column `k` when `k = o`: entry `b` of the
    flat vector is entry `(b, 0)` of the slice (same row-major position, `b * 1 + 0 = b`), which is the array at
    `(b, o + 0)`. -/
theorem column_of_slice (o : Nat) (k : Fin 2) (hk : k.val = o) (X : (⟨2, ![16384, 2]⟩ : Shape).Idx → α)
    (h : (⟨2, ![16384, 2]⟩ : Shape).Slices ![0, o] ⟨2, ![16384, 1]⟩)
    (h' : (⟨2, ![16384, 1]⟩ : Shape).ShapeCasts ⟨1, ![16384]⟩) :
    shapeCast ⟨1, ![16384]⟩ (extractStridedSlice ⟨2, ![16384, 1]⟩ ![0, o] X h) h' = column X k := by
  funext j
  obtain ⟨b, rfl⟩ : ∃ b : Fin 16384, j = ix1 b := ⟨j 0, eq_ix1 j⟩
  refine (shapeCast_apply _ h' (ix1 b) (ix2 b (0 : Fin 1)) ?_).trans ?_
  · rw [Shape.rowMajor_val_two, Shape.rowMajor_val_one]
    show b.val * 1 + 0 = b.val
    omega
  · exact slice2_axis1_apply o X h b (0 : Fin 1) k (by rw [hk]; rfl)

/-- `%1 = reshape (slice X [0:16384, 0:1])` is column 0. -/
theorem column0_eq (X : (⟨2, ![16384, 2]⟩ : Shape).Idx → α)
    (h : (⟨2, ![16384, 2]⟩ : Shape).Slices ![0, 0] ⟨2, ![16384, 1]⟩)
    (h' : (⟨2, ![16384, 1]⟩ : Shape).ShapeCasts ⟨1, ![16384]⟩) :
    shapeCast ⟨1, ![16384]⟩ (extractStridedSlice ⟨2, ![16384, 1]⟩ ![0, 0] X h) h' = column X 0 :=
  column_of_slice 0 0 rfl X h h'

/-- `%3 = reshape (slice X [0:16384, 1:2])` is column 1. -/
theorem column1_eq (X : (⟨2, ![16384, 2]⟩ : Shape).Idx → α)
    (h : (⟨2, ![16384, 2]⟩ : Shape).Slices ![0, 1] ⟨2, ![16384, 1]⟩)
    (h' : (⟨2, ![16384, 1]⟩ : Shape).ShapeCasts ⟨1, ![16384]⟩) :
    shapeCast ⟨1, ![16384]⟩ (extractStridedSlice ⟨2, ![16384, 1]⟩ ![0, 1] X h) h' = column X 1 :=
  column_of_slice 1 1 rfl X h h'

/-! ## The unit middle axis the entry point adds to each result -/

/-- A [16384, 64] array broadcast along axes 0 and 2 to [16384, 1, 64] reads, at `(b, u, q)`, the array at `(b, q)`:
    neither operand axis has extent 1, so each takes the result's coordinate on the axis it is sent to. -/
theorem bcast_apply (Y : (⟨2, ![16384, 64]⟩ : Shape).Idx → α)
    (h : (⟨2, ![16384, 64]⟩ : Shape).BroadcastsInDim ⟨3, ![16384, 1, 64]⟩ (![0, 2] : Fin 2 → Fin 3))
    (j : (⟨3, ![16384, 1, 64]⟩ : Shape).Idx) :
    broadcastInDim ⟨3, ![16384, 1, 64]⟩ (![0, 2] : Fin 2 → Fin 3) h Y j = Y (ix2 (j 0 : Fin 16384) (j 2 : Fin 64)) := by
  refine broadcastInDim_apply _ h Y j _ (fun a => ?_)
  match a with
  | ⟨0, _⟩ => exact (if_neg (show ¬(16384 : Nat) = 1 by decide)).symm
  | ⟨1, _⟩ => exact (if_neg (show ¬(64 : Nat) = 1 by decide)).symm

/-- The looked-up rows with the unit axis: the broadcast of `Cert.Spec.rows` is `Cert.Spec.rows3`. -/
theorem bcast_rows (X : (⟨2, ![16384, 2]⟩ : Shape).Idx → BitVec 32) (col : Fin 2)
    (tbl : (⟨2, ![1000002, 64]⟩ : Shape).Idx → α)
    (h : (⟨2, ![16384, 64]⟩ : Shape).BroadcastsInDim ⟨3, ![16384, 1, 64]⟩ (![0, 2] : Fin 2 → Fin 3)) :
    broadcastInDim ⟨3, ![16384, 1, 64]⟩ (![0, 2] : Fin 2 → Fin 3) h (Cert.Spec.rows X col tbl)
      = Cert.Spec.rows3 X col tbl := by
  funext j
  rw [bcast_apply]
  rfl

/-! ## The looked-up rows through the flat column -/

/-- Entry `(b, q)` of the looked-up rows is the table at the row entry `b` of the flat column names. -/
theorem rows_of_column (X : (⟨2, ![16384, 2]⟩ : Shape).Idx → BitVec 32) (col : Fin 2)
    (tbl : (⟨2, ![1000002, 64]⟩ : Shape).Idx → α) (b : Fin 16384) (q : Fin 64) :
    Cert.Spec.rows X col tbl (ix2 b q) = tbl (ix2 (Cert.Spec.rowOf (column X col (ix1 b))) q) := rfl

end Cert.HostGlue

end
-- ==== Proof.Glue.lean ====
/-
  The pure glue between the kernel program's run and the claim. The run is stated over the flat index vectors the
  kernel reads (what the entry point's two slices and two reshapes leave) and over the kernel's two results with the unit
  axis the entry point adds. Here these are read back as functions of the argument arrays alone: the flat vectors are
  columns 0 and 1 of the index array, so the results are the looked-up rows of the two tables, and the run's
  requirement on the flat vectors follows from the index array being in range.
-/
import proofs.«207591_g3891240370478_cont_8to1_b_1686_26_alg».proof.Proof.Common
import proofs.«207591_g3891240370478_cont_8to1_b_1686_26_alg».proof.Proof.HostGlue

noncomputable section

namespace Cert.Proof.KI

open Cert.KernelIdeal Cert.KernelIdeal.Gen

open Idealize.ShloMosaic Idealize.ShloMosaic.ValueIdx
open Idealize.ShloMosaic.SparseCore (S V T)
open Idealize.SL.Sem

variable {F : FTy → Type} (m : (ℓ : Loc nD τ sig) → Buf (Elt F) ℓ) [FloatOps F]

/-! ## The flat index vectors are the columns of the index array -/

/-- The first flat index vector is column 0 of the index array: the second slice and reshape write other buffers, the
    first reshape leaves the first slice's result flattened, and the slice is of the launch contents. -/
theorem W1_eq (d : Dev nD) : W1 m d = Cert.HostGlue.column (m (a0Loc d)) 0 := by
  unfold W1 Vin
  rw [StableHlo.reshape_result_ne (h := show (main_v1 : Ref sig .tc) ≠ main_v3 by decide),
    StableHlo.unary_result_ne (h := show (main_v1 : Ref sig .tc) ≠ main_v2 by decide),
    StableHlo.reshape_result, StableHlo.unary_result]
  exact Cert.HostGlue.column0_eq (m (a0Loc d)) _ _

/-- The second flat index vector is column 1: the second reshape leaves the second slice's result flattened, and the
    slice reads the index array, which the first slice and reshape do not write. -/
theorem W3_eq (d : Dev nD) : W3 m d = Cert.HostGlue.column (m (a0Loc d)) 1 := by
  unfold W3 Vin
  rw [StableHlo.reshape_result, StableHlo.unary_result,
    StableHlo.reshape_result_ne (h := show (main_arg0 : Ref sig .tc) ≠ main_v1 by decide),
    StableHlo.unary_result_ne (h := show (main_arg0 : Ref sig .tc) ≠ main_v0 by decide)]
  exact Cert.HostGlue.column1_eq (m (a0Loc d)) _ _

/-! ## The run's requirement, from the index array in range -/

/-- Every word of the two flat vectors is a word of the index array. -/
theorem preOK_of_inRange (h : ∀ d : Dev nD, Cert.Spec.InRange (m (a0Loc d))) : PreOK m := by
  intro d b
  rw [W1_eq, W3_eq]
  exact ⟨h d _, h d _⟩

/-! ## The results are the looked-up rows -/

theorem G0_eq (d : Dev nD) : G0 m d = Cert.Spec.rows (m (a0Loc d)) 0 (m (a1Loc d)) := by
  funext j
  unfold G0
  rw [W1_eq]
  rfl

theorem G1_eq (d : Dev nD) : G1 m d = Cert.Spec.rows (m (a0Loc d)) 1 (m (a2Loc d)) := by
  funext j
  unfold G1
  rw [W3_eq]
  rfl

/-- The first result with its unit axis: the rows of the first table that column 0 names. -/
theorem R0_eq (d : Dev nD) : R0 m d = Cert.Spec.rows3 (m (a0Loc d)) 0 (m (a1Loc d)) := by
  unfold R0
  rw [G0_eq]
  exact Cert.HostGlue.bcast_rows _ _ _ _

/-- The second result with its unit axis: the rows of the second table that column 1 names. -/
theorem R1_eq (d : Dev nD) : R1 m d = Cert.Spec.rows3 (m (a0Loc d)) 1 (m (a2Loc d)) := by
  unfold R1
  rw [G1_eq]
  exact Cert.HostGlue.bcast_rows _ _ _ _

/-! ## Locations, as the claims spell them -/

theorem loc_eq (d : Dev nD) (b : Ref sig .tc) : (SparseCore.T d).loc b = ((d.tc : Thread nD τ).loc b) := rfl

end Cert.Proof.KI

end
-- ==== Proof.CommonB.lean ====
/-
  The kernel's program as the launch theorem sees it, and what the handshakes carry.
  The program: on the TensorCore, column 0 and column 1 of the index array `X` are made flat vectors (a slice and a
  reshape each); one vector-subcore kernel on 2 SparseCores × 16 tiles looks the rows up; its two results get a unit
  axis. Tile `(c, i)` is worker `2 i + c` and owns rows `512 (2 i + c) … + 511` of both results, which it fills in
  two chunks of 256 rows: chunk `k` is part `4 i + 2 c + k` of the 64 parts of 256 rows.
  The four arrays the kernel only reads (the two flat index vectors, the two tables) go out as read shares and never
  come back: the TensorCore keeps a share of each, which is all the claim about them needs. Each tile gets the two
  parts of each result it writes, and hands them back at the looked-up rows.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«207591_g3891240370478_cont_8to1_b_1686_26_alg».proof.Kernel
import proofs.«207591_g3891240370478_cont_8to1_b_1686_26_alg».proof.Proof.Gen.Kernel
import proofs.«207591_g3891240370478_cont_8to1_b_1686_26_alg».proof.Proof.Gen.Kernel.Skeleton
import proofs.«207591_g3891240370478_cont_8to1_b_1686_26_alg».proof.Proof.Spec

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- The transfers' counters, found in the right factor. -/
abbrev EC : UEmb Counters (MT nD τ sig (HIx 1) (Elt F) ℕ UU ℕ) := countersEmb

/-! ## The arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v1Loc (d : Dev nD) : Loc nD τ sig := (SparseCore.T d).loc main_v1
abbrev v3Loc (d : Dev nD) : Loc nD τ sig := (SparseCore.T d).loc main_v3
abbrev o0Loc (d : Dev nD) : Loc nD τ sig := (SparseCore.T d).loc main_v4_0
abbrev o1Loc (d : Dev nD) : Loc nD τ sig := (SparseCore.T d).loc main_v4_1
abbrev r0Loc (d : Dev nD) : Loc nD τ sig := (SparseCore.T d).loc main_v5
abbrev r1Loc (d : Dev nD) : Loc nD τ sig := (SparseCore.T d).loc main_v6

variable [FloatOps F]

/-! ## @main's host operations and the values they leave -/

abbrev opSl0 : HloOp τ sig (Elt F) := StableHlo.unary main_arg0 main_v0 ((extractStridedSlice S16384x1 ![0, 0] · slices_S16384x2_S16384x1_0_0) : (⟨S16384x2, .i32⟩ : BufTy).Contents (Elt F) → (⟨S16384x1, .i32⟩ : BufTy).Contents (Elt F))
abbrev opRs0 : HloOp τ sig (Elt F) := StableHlo.reshape main_v0 main_v1 rfl shapeCasts_S16384x1_S16384
abbrev opSl1 : HloOp τ sig (Elt F) := StableHlo.unary main_arg0 main_v2 ((extractStridedSlice S16384x1 ![0, 1] · slices_S16384x2_S16384x1_0_1) : (⟨S16384x2, .i32⟩ : BufTy).Contents (Elt F) → (⟨S16384x1, .i32⟩ : BufTy).Contents (Elt F))
abbrev opRs1 : HloOp τ sig (Elt F) := StableHlo.reshape main_v2 main_v3 rfl shapeCasts_S16384x1_S16384
abbrev opB0 : HloOp τ sig (Elt F) := StableHlo.unary main_v4_0 main_v5 (broadcastInDim S16384x1x64 ![0, 2] bcast_S16384x64_S16384x1x64_0_2 : (⟨S16384x64, .f32⟩ : BufTy).Contents (Elt F) → (⟨S16384x1x64, .f32⟩ : BufTy).Contents (Elt F))
abbrev opB1 : HloOp τ sig (Elt F) := StableHlo.unary main_v4_1 main_v6 (broadcastInDim S16384x1x64 ![0, 2] bcast_S16384x64_S16384x1x64_0_2 : (⟨S16384x64, .f32⟩ : BufTy).Contents (Elt F) → (⟨S16384x1x64, .f32⟩ : BufTy).Contents (Elt F))

/-- The launch valuation of device `d`'s buffers, and the valuation when the kernel is called: after the two slices
    and the two reshapes. -/
def V0 (d : Dev nD) : Valuation τ sig (Elt F) := fun b => m (d, b)
def Vin (d : Dev nD) : Valuation τ sig (Elt F) :=
  (opRs1 (F := F)).result ((opSl1 (F := F)).result ((opRs0 (F := F)).result ((opSl0 (F := F)).result (V0 m d))))

/-- The two flat index vectors the kernel reads, and the two tables. -/
def W1 (d : Dev nD) : Buf (Elt F) (v1Loc d) := Vin m d (Proc.devRef .tc (main_v1 : Ref sig .tc))
def W3 (d : Dev nD) : Buf (Elt F) (v3Loc d) := Vin m d (Proc.devRef .tc (main_v3 : Ref sig .tc))
abbrev T1 (d : Dev nD) : Buf (Elt F) (a1Loc d) := m (a1Loc d)
abbrev T2 (d : Dev nD) : Buf (Elt F) (a2Loc d) := m (a2Loc d)

/-- What the proof asks of the launch memory: every word of the two index vectors is at most 999999 (read unsigned),
    so that it names a row of the tables. -/
def PreOK : Prop := ∀ (d : Dev nD) (b : S16384.Idx), (W1 m d b).toNat ≤ 999999 ∧ (W3 m d b).toNat ≤ 999999

/-- The kernel's two results: entry `(r, q)` is the table at `(row named by the index vector's word r, q)`. -/
def G0 (d : Dev nD) : Buf (Elt F) (o0Loc d) := fun j => T1 m d (ix2 (Cert.Spec.rowOf (W1 m d (ix1 (j 0 : Fin 16384)))) (j 1 : Fin 64))
def G1 (d : Dev nD) : Buf (Elt F) (o1Loc d) := fun j => T2 m d (ix2 (Cert.Spec.rowOf (W3 m d (ix1 (j 0 : Fin 16384)))) (j 1 : Fin 64))
/-- and the program's, with the unit axis. -/
def R0 (d : Dev nD) : Buf (Elt F) (r0Loc d) := broadcastInDim S16384x1x64 ![0, 2] bcast_S16384x64_S16384x1x64_0_2 (G0 m d)
def R1 (d : Dev nD) : Buf (Elt F) (r1Loc d) := broadcastInDim S16384x1x64 ![0, 2] bcast_S16384x64_S16384x1x64_0_2 (G1 m d)

/-! ## The results' 64 parts of 256 rows -/

theorem hdiv : 64 ∣ S16384x64.size 0 := ⟨256, rfl⟩
abbrev part (j : Fin 64) : Rect S16384x64 := Rect.part (s := S16384x64) (a₀ := 0) hdiv j
abbrev partSet (j : Fin 64) : Finset S16384x64.Idx := ((Memref.whole main_v4_0_scv : Memref sig .scVector .hbm S16384x64 .f32).view.slice (part j)).set
/-- Chunk `k` of tile `(c, i)`: part `4 i + 2 c + k`. -/
def pj (c : Fin 2) (i : Fin 16) (k : Fin 2) : Fin 64 := ⟨4 * i.val + 2 * c.val + k.val, by omega⟩

/-! ## What the handshakes carry -/

/-- The read share of SparseCore `c`, and of its tile `i`. -/
abbrev qCore (c : ℕ) : PosShare TreeShare := shareTokN fullShare c
abbrev qTile (c i : ℕ) : PosShare TreeShare := shareTokN (qCore c) i

/-- The four arrays the kernel reads, at a share. -/
def reads (d : Dev nD) (q : PosShare TreeShare) : sProp 𝕄 :=
  iprop((v1Loc d ↦{q} W1 m d) ∗ (v3Loc d ↦{q} W3 m d) ∗ (a1Loc d ↦{q} T1 m d) ∗ (a2Loc d ↦{q} T2 m d))
/-- Part `j` of the two results at contents `f0`, `f1`. -/
def outs (d : Dev nD) (j : Fin 64) (f0 : Buf (Elt F) (o0Loc d)) (f1 : Buf (Elt F) (o1Loc d)) : sProp 𝕄 :=
  iprop((o0Loc d ↦[partSet j]{fullShare} f0) ∗ (o1Loc d ↦[partSet j]{fullShare} f1))

/-- A tile's task takes a read share of the four arrays and its two parts of each result at the launch contents, and
    hands the parts back at the looked-up rows. -/
def goP (d : Dev nD) (c : Fin 2) (i : Fin 16) : sProp 𝕄 :=
  iprop(reads m d (qTile c.val i.val) ∗ bigSep Finset.univ fun k : Fin 2 => outs d (pj c i k) (m (o0Loc d)) (m (o1Loc d)))
def tdP (d : Dev nD) (c : Fin 2) (i : Fin 16) : sProp 𝕄 :=
  bigSep Finset.univ fun k : Fin 2 => outs d (pj c i k) (G0 m d) (G1 m d)
/-- A SparseCore takes its read share and its tiles' parts, and hands back what the tiles do. -/
def stP (d : Dev nD) (c : Fin 2) : sProp 𝕄 :=
  iprop(reads m d (qCore c.val) ∗ bigSep Finset.univ fun i : Fin 16 => bigSep Finset.univ fun k : Fin 2 => outs d (pj c i k) (m (o0Loc d)) (m (o1Loc d)))
def dnP (d : Dev nD) (c : Fin 2) : sProp 𝕄 := bigSep Finset.univ fun i : Fin 16 => tdP m d c i

def P : (K (F := F)).Pay (nD := nD) (Val := Elt F) (Name := ℕ) (U := UU) where
  st := fun q d c => match q with | 0 => stP m d (Fin.cast nCore_zero c)
  dn := fun q d c => match q with | 0 => dnP m d (Fin.cast nCore_zero c)
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with | 0 => by show BI.Storable upEmb (stP m d _); unfold stP reads outs; infer_instance
  dn q d c := match q with | 0 => by show BI.Storable upEmb (dnP m d _); unfold dnP tdP outs; infer_instance
  go q d c i := match q with | 0 => by show BI.Storable upEmb (goP m d _ _); unfold goP reads outs; infer_instance
  td q d c i := match q with | 0 => by show BI.Storable upEmb (tdP m d _ _); unfold tdP outs; infer_instance

/-- What the run leaves, on every device: the two results at the looked-up rows, the three arguments unchanged. -/
def QC : PUnit × MemSt nD τ sig (Elt F) → Prop := fun r => ∀ c : Dev nD,
  r.2.mem (r0Loc c) = R0 m c ∧ r.2.mem (r1Loc c) = R1 m c
    ∧ r.2.mem (a0Loc c) = m (a0Loc c) ∧ r.2.mem (a1Loc c) = m (a1Loc c) ∧ r.2.mem (a2Loc c) = m (a2Loc c)

end Cert.Proof.KB

end
-- ==== Proof.GlueB.lean ====
/-
  The pure glue between the kernel program's run and the claim. The run is stated over the flat index vectors the
  kernel reads (what the entry point's two slices and two reshapes leave) and over the kernel's two results with the unit
  axis the entry point adds. Here these are read back as functions of the argument arrays alone: the flat vectors are
  columns 0 and 1 of the index array, so the results are the looked-up rows of the two tables, and the run's
  requirement on the flat vectors follows from the index array being in range.
-/
import proofs.«207591_g3891240370478_cont_8to1_b_1686_26_alg».proof.Proof.CommonB
import proofs.«207591_g3891240370478_cont_8to1_b_1686_26_alg».proof.Proof.HostGlue

noncomputable section

namespace Cert.Proof.KB

open Cert.Kernel Cert.Kernel.Gen

open Idealize.ShloMosaic Idealize.ShloMosaic.ValueIdx
open Idealize.ShloMosaic.SparseCore (S V T)
open Idealize.SL.Sem

variable {F : FTy → Type} (m : (ℓ : Loc nD τ sig) → Buf (Elt F) ℓ) [FloatOps F]

/-! ## The flat index vectors are the columns of the index array -/

/-- The first flat index vector is column 0 of the index array: the second slice and reshape write other buffers, the
    first reshape leaves the first slice's result flattened, and the slice is of the launch contents. -/
theorem W1_eq (d : Dev nD) : W1 m d = Cert.HostGlue.column (m (a0Loc d)) 0 := by
  unfold W1 Vin
  rw [StableHlo.reshape_result_ne (h := show (main_v1 : Ref sig .tc) ≠ main_v3 by decide),
    StableHlo.unary_result_ne (h := show (main_v1 : Ref sig .tc) ≠ main_v2 by decide),
    StableHlo.reshape_result, StableHlo.unary_result]
  exact Cert.HostGlue.column0_eq (m (a0Loc d)) _ _

/-- The second flat index vector is column 1: the second reshape leaves the second slice's result flattened, and the
    slice reads the index array, which the first slice and reshape do not write. -/
theorem W3_eq (d : Dev nD) : W3 m d = Cert.HostGlue.column (m (a0Loc d)) 1 := by
  unfold W3 Vin
  rw [StableHlo.reshape_result, StableHlo.unary_result,
    StableHlo.reshape_result_ne (h := show (main_arg0 : Ref sig .tc) ≠ main_v1 by decide),
    StableHlo.unary_result_ne (h := show (main_arg0 : Ref sig .tc) ≠ main_v0 by decide)]
  exact Cert.HostGlue.column1_eq (m (a0Loc d)) _ _

/-! ## The run's requirement, from the index array in range -/

/-- Every word of the two flat vectors is a word of the index array. -/
theorem preOK_of_inRange (h : ∀ d : Dev nD, Cert.Spec.InRange (m (a0Loc d))) : PreOK m := by
  intro d b
  rw [W1_eq, W3_eq]
  exact ⟨h d _, h d _⟩

/-! ## The results are the looked-up rows -/

theorem G0_eq (d : Dev nD) : G0 m d = Cert.Spec.rows (m (a0Loc d)) 0 (m (a1Loc d)) := by
  funext j
  unfold G0
  rw [W1_eq]
  rfl

theorem G1_eq (d : Dev nD) : G1 m d = Cert.Spec.rows (m (a0Loc d)) 1 (m (a2Loc d)) := by
  funext j
  unfold G1
  rw [W3_eq]
  rfl

/-- The first result with its unit axis: the rows of the first table that column 0 names. -/
theorem R0_eq (d : Dev nD) : R0 m d = Cert.Spec.rows3 (m (a0Loc d)) 0 (m (a1Loc d)) := by
  unfold R0
  rw [G0_eq]
  exact Cert.HostGlue.bcast_rows _ _ _ _

/-- The second result with its unit axis: the rows of the second table that column 1 names. -/
theorem R1_eq (d : Dev nD) : R1 m d = Cert.Spec.rows3 (m (a0Loc d)) 1 (m (a2Loc d)) := by
  unfold R1
  rw [G1_eq]
  exact Cert.HostGlue.bcast_rows _ _ _ _

/-! ## Locations, as the claims spell them -/

theorem loc_eq (d : Dev nD) (b : Ref sig .tc) : (SparseCore.T d).loc b = ((d.tc : Thread nD τ).loc b) := rfl

end Cert.Proof.KB

end
-- ==== Proof.TileRes.lean ====
import proofs.«207591_g3891240370478_cont_8to1_b_1686_26_alg».proof.Proof.Common

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

variable (m : (ℓ : Loc nD τ sig) → Buf (Elt F) ℓ)

/-! ## A tile's thread, its semaphores and its scratch -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev cellOf (d : Dev nD) (L : grid0.Coords) (s : DmaSems sig S_) : GSem nD τ sig := (thr d L, .dma s.sem)

theorem cell_ne (d : Dev nD) (L : grid0.Coords) {a b : DmaSems sig S_} (h : a.sem ≠ b.sem) : cellOf d L a ≠ cellOf d L b :=
  fun e => h (SemLoc.dma.inj (Prod.mk.inj e).2)

theorem cell_mem (d : Dev nD) (L : grid0.Coords) (s : DmaSems sig S_) (h : (SemLoc.dma s.sem : SemLoc sig).isScoped .scVector = true) :
    cellOf d L s ∈ ownCells (thr d L) := (mem_ownCells (g := cellOf d L s)).mpr ⟨rfl, h⟩

variable (d : Dev nD) (L : grid0.Coords)

/-- The tile's six DMA semaphores at zero, and its other scoped cells. -/
theorem ownSems0_V :
    (ownSems0 (thr d L) : sProp 𝕄)
      = iprop(semVal (cellOf d L cc0_scratch4) 0 ∗ semVal (cellOf d L cc0_scratch5) 0 ∗ semVal (cellOf d L cc0_scoped0) 0
          ∗ semVal (cellOf d L cc0_scoped1) 0 ∗ semVal (cellOf d L cc0_scoped2) 0 ∗ semVal (cellOf d L cc0_scoped3) 0
          ∗ bigSep (((((((ownCells (thr d L)).erase (cellOf d L cc0_scratch4)).erase (cellOf d L cc0_scratch5)).erase (cellOf d L cc0_scoped0)).erase (cellOf d L cc0_scoped1)).erase (cellOf d L cc0_scoped2)).erase (cellOf d L cc0_scoped3)) fun g => semVal g 0) := by
  unfold SparseCore.Cfg.ownSems0
  rw [SparseCore.bigSep_erase' (cell_mem d L cc0_scratch4 (by decide)),
    SparseCore.bigSep_erase' (Finset.mem_erase.mpr ⟨cell_ne d L (by decide), cell_mem d L cc0_scratch5 (by decide)⟩),
    SparseCore.bigSep_erase' (Finset.mem_erase.mpr ⟨cell_ne d L (by decide), Finset.mem_erase.mpr ⟨cell_ne d L (by decide), cell_mem d L cc0_scoped0 (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc0_scoped1 (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L cc0_scoped2 (by decide)⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide),
        cell_mem d L cc0_scoped3 (by decide)⟩⟩⟩⟩⟩)]

abbrev bufRef (b : Ref sig .scVector) : DevRef τ sig := (Proc.scVector (cV L) (jV L)).devRef b
theorem buf_ne {a b : Ref sig .scVector} (h : a ≠ b) : bufRef L a ≠ bufRef L b := fun e => h (Proc.devRef_injective _ e)
theorem buf_mem (b : Ref sig .scVector) (h : (bufRef L b).owner = Owner.proc (Proc.scVector (cV L) (jV L))) :
    bufRef L b ∈ ownRefs (τ := τ) (sig := sig) (.scVector (cV L) (jV L)) :=
  SparseCore.Cfg.mem_ownRefs_of_owner (p := Proc.scVector (cV L) (jV L)) (b := bufRef L b) h

/-- The tile's four scratch buffers at some contents, and its other buffers. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (bufRef L cc0_scratch0)).erase (bufRef L cc0_scratch1)).erase (bufRef L cc0_scratch2)).erase (bufRef L cc0_scratch3)) fun b => iprop(∃ f, ((d, b) : Loc nD τ sig) ↦{fullShare} f)) := by
  unfold SparseCore.Cfg.ownBufs
  refine (SparseCore.bigSep_erase' (buf_mem L cc0_scratch0 rfl)).trans ?_
  rw [SparseCore.bigSep_erase' (Finset.mem_erase.mpr ⟨buf_ne L (by decide), buf_mem L cc0_scratch1 rfl⟩),
    SparseCore.bigSep_erase' (Finset.mem_erase.mpr ⟨buf_ne L (by decide), Finset.mem_erase.mpr ⟨buf_ne L (by decide), buf_mem L cc0_scratch2 rfl⟩⟩),
    SparseCore.bigSep_erase' (Finset.mem_erase.mpr ⟨buf_ne L (by decide), Finset.mem_erase.mpr ⟨buf_ne L (by decide),
      Finset.mem_erase.mpr ⟨buf_ne L (by decide), buf_mem L cc0_scratch3 rfl⟩⟩⟩)]

end Cert.Proof.KI

end
-- ==== Proof.TileDefs.lean ====
import proofs.«207591_g3891240370478_cont_8to1_b_1686_26_alg».proof.Proof.TileRes
import Idealize.ShloMosaic.Lib.Ring

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "aV1" => (Memref.whole Cert.KernelIdeal.main_v1_scv : Memref Cert.KernelIdeal.sig Kind.scVector Space.hbm Cert.KernelIdeal.S16384 EltTy.i32)
local notation "aV3" => (Memref.whole Cert.KernelIdeal.main_v3_scv : Memref Cert.KernelIdeal.sig Kind.scVector Space.hbm Cert.KernelIdeal.S16384 EltTy.i32)
local notation "aT1" => (Memref.whole Cert.KernelIdeal.main_arg1_scv : Memref Cert.KernelIdeal.sig Kind.scVector Space.hbm Cert.KernelIdeal.S1000002x64 EltTy.f32)
local notation "aT2" => (Memref.whole Cert.KernelIdeal.main_arg2_scv : Memref Cert.KernelIdeal.sig Kind.scVector Space.hbm Cert.KernelIdeal.S1000002x64 EltTy.f32)
local notation "aO0" => (Memref.whole Cert.KernelIdeal.main_v4_0_scv : Memref Cert.KernelIdeal.sig Kind.scVector Space.hbm Cert.KernelIdeal.S16384x64 EltTy.f32)
local notation "aO1" => (Memref.whole Cert.KernelIdeal.main_v4_1_scv : Memref Cert.KernelIdeal.sig Kind.scVector Space.hbm Cert.KernelIdeal.S16384x64 EltTy.f32)
local notation "sI0" => (Memref.whole Cert.KernelIdeal.cc0_scratch0 : Memref Cert.KernelIdeal.sig Kind.scVector Space.vmem Cert.KernelIdeal.S512 EltTy.i32)
local notation "sI1" => (Memref.whole Cert.KernelIdeal.cc0_scratch1 : Memref Cert.KernelIdeal.sig Kind.scVector Space.vmem Cert.KernelIdeal.S512 EltTy.i32)
local notation "sR0" => (Memref.whole Cert.KernelIdeal.cc0_scratch2 : Memref Cert.KernelIdeal.sig Kind.scVector Space.vmem Cert.KernelIdeal.S256x64 EltTy.f32)
local notation "sR1" => (Memref.whole Cert.KernelIdeal.cc0_scratch3 : Memref Cert.KernelIdeal.sig Kind.scVector Space.vmem Cert.KernelIdeal.S256x64 EltTy.f32)

variable [FloatOps F] (d : Dev nD) (L : grid0.Coords)

theorem bound_zero : grid0.bound 0 = 2 := rfl
theorem bound_one : grid0.bound 1 = 16 := rfl
abbrev cF (L : grid0.Coords) : Fin 2 := Fin.cast bound_zero (L 0)
abbrev iF (L : grid0.Coords) : Fin 16 := Fin.cast bound_one (L 1)

omit [FloatOps F] in
theorem pts_v1 (q : PosShare TreeShare) (f : Buf (Elt F) (v1Loc d)) : ((aV1).view.loc (thr d L) ↦{q} f : sProp 𝕄) = v1Loc d ↦{q} f := by
  simp only [Memref.view_whole, View.set_whole]
omit [FloatOps F] in
theorem pts_v3 (q : PosShare TreeShare) (f : Buf (Elt F) (v3Loc d)) : ((aV3).view.loc (thr d L) ↦{q} f : sProp 𝕄) = v3Loc d ↦{q} f := by
  simp only [Memref.view_whole, View.set_whole]
omit [FloatOps F] in
theorem pts_t1 (q : PosShare TreeShare) (f : Buf (Elt F) (a1Loc d)) : ((aT1).view.loc (thr d L) ↦{q} f : sProp 𝕄) = a1Loc d ↦{q} f := by
  simp only [Memref.view_whole, View.set_whole]
omit [FloatOps F] in
theorem pts_t2 (q : PosShare TreeShare) (f : Buf (Elt F) (a2Loc d)) : ((aT2).view.loc (thr d L) ↦{q} f : sProp 𝕄) = a2Loc d ↦{q} f := by
  simp only [Memref.view_whole, View.set_whole]
omit [FloatOps F] in
theorem pts_s0 (f : Buf (Elt F) ((thr d L).loc cc0_scratch0)) : ((sI0).view.loc (thr d L) ↦{fullShare} f : sProp 𝕄) = (thr d L).loc cc0_scratch0 ↦{fullShare} f := rfl
omit [FloatOps F] in
theorem pts_s1 (f : Buf (Elt F) ((thr d L).loc cc0_scratch1)) : ((sI1).view.loc (thr d L) ↦{fullShare} f : sProp 𝕄) = (thr d L).loc cc0_scratch1 ↦{fullShare} f := rfl
omit [FloatOps F] in
theorem pts_s2 (f : Buf (Elt F) ((thr d L).loc cc0_scratch2)) : ((sR0).view.loc (thr d L) ↦{fullShare} f : sProp 𝕄) = (thr d L).loc cc0_scratch2 ↦{fullShare} f := rfl
omit [FloatOps F] in
theorem pts_s3 (f : Buf (Elt F) ((thr d L).loc cc0_scratch3)) : ((sR1).view.loc (thr d L) ↦{fullShare} f : sProp 𝕄) = (thr d L).loc cc0_scratch3 ↦{fullShare} f := rfl

/-! ## The staging rows -/

theorem row_inb (t : Fin 256) : ∀ a, (![t.val, 0] : Fin 2 → Nat) a + S1x64.size a ≤ S256x64.size a := by
  have := t.isLt; intro a; fin_cases a
  · show t.val + 1 ≤ 256; omega
  · show 0 + 64 ≤ 64; omega
/-- Row `t` of the two staging buffers, as the body slices them. -/
def sRow0 (t : Fin 256) : Memref sig .scVector .vmem S1x64 .f32 := (sR0).slice (Rect.unit (s := S256x64) ![t.val, 0] S1x64.size (row_inb t)) (fun _ => rfl)
def sRow1 (t : Fin 256) : Memref sig .scVector .vmem S1x64 .f32 := (sR1).slice (Rect.unit (s := S256x64) ![t.val, 0] S1x64.size (row_inb t)) (fun _ => rfl)

/-- Chunk `k`'s looked-up rows: row `r` of a staging buffer is the table's row named by word `256 k + r` of the tile's
    512 index words. -/
def stage (s : S512.Idx → BitVec 32) (tb : S1000002x64.Idx → Elt F .f32) (k : ℕ) : S256x64.Idx → Elt F .f32 :=
  fun j => tb (ix2 (Cert.Spec.rowOf (s (ix1 (⟨(256 * k + (j 0).val) % 512, Nat.mod_lt _ (by decide)⟩ : Fin 512)))) (j 1 : Fin 64))

variable (s0 s1 : S512.Idx → BitVec 32) (tb1 tb2 : S1000002x64.Idx → Elt F .f32)

/-- A staging row held by its own elements. -/
abbrev rowW (g : S256x64.Idx → Elt F .f32) (t : Fin 256) : sProp 𝕄 := (sRow0 t).view.loc (thr d L) ↦[(sRow0 t).view.set]{fullShare} g
abbrev rowC (g : S256x64.Idx → Elt F .f32) (t : Fin 256) : sProp 𝕄 := (sRow1 t).view.loc (thr d L) ↦[(sRow1 t).view.set]{fullShare} g
/-- A read token of a table. -/
abbrev tokW (q : PosShare TreeShare) (t : ℕ) : sProp 𝕄 := (aT1).view.loc (thr d L) ↦{shareTokN q t} tb1
abbrev tokC (q : PosShare TreeShare) (t : ℕ) : sProp 𝕄 := (aT2).view.loc (thr d L) ↦{shareTokN q t} tb2

/-- One row's credit. -/
abbrev NR : ℕ := (sRow0 0).view.amount (SemLoc.dma (sig := sig) cc0_scratch4.sem)

/-- The deliveries: transfer `t` of chunk `k` lands row `t` at the looked-up row. -/
abbrev Dw (k : ℕ) (t : Fin 256) : sProp 𝕄 := rowW d L (stage s0 tb1 k) t
abbrev Dc (k : ℕ) (t : Fin 256) : sProp 𝕄 := rowC d L (stage s1 tb2 k) t

abbrev batchW (k j u : ℕ) : sProp 𝕄 := Transfers.Batch (EC (F := F)) (thr d L) (.dma cc0_scratch4.sem) (none : HIx 1) NR (Dw d L s0 tb1 k) j u
abbrev batchC (k j u : ℕ) : sProp 𝕄 := Transfers.Batch (EC (F := F)) (thr d L) (.dma cc0_scratch5.sem) (none : HIx 1) NR (Dc d L s1 tb2 k) j u

theorem NR_eq : NR = 2048 := by decide

omit [FloatOps F] in
/-- A word at most 999999 names a row of a table: the one-row block it selects lies inside the table. -/
theorem chk_of_le (v : BitVec 32) (h : v.toNat ≤ 999999) : ∀ a, (![v.toNat, 0] : Fin 2 → Nat) a + S1x64.size a ≤ S1000002x64.size a := by
  intro a; fin_cases a
  · show v.toNat + 1 ≤ 1000002; omega
  · show 0 + 64 ≤ 64; omega

omit [FloatOps F] in
/-- A staging row, spelt through any offsets that are the row's. -/
theorem row0_spell (t : Fin 256) (off : Fin 2 → Nat) (hoff : off = ![t.val, 0]) (h : ∀ a, off a + S1x64.size a ≤ S256x64.size a) :
    sRow0 t = (sR0).slice (Rect.unit (s := S256x64) off S1x64.size h) (fun _ => rfl) := by subst hoff; rfl
omit [FloatOps F] in
theorem row1_spell (t : Fin 256) (off : Fin 2 → Nat) (hoff : off = ![t.val, 0]) (h : ∀ a, off a + S1x64.size a ≤ S256x64.size a) :
    sRow1 t = (sR1).slice (Rect.unit (s := S256x64) off S1x64.size h) (fun _ => rfl) := by subst hoff; rfl

omit [FloatOps F] in
theorem rowW_spell (f : S256x64.Idx → Elt F .f32) (t : Fin 256) (off : Fin 2 → Nat) (hoff : off = ![t.val, 0]) (h : ∀ a, off a + S1x64.size a ≤ S256x64.size a) :
    (rowW d L f t : sProp 𝕄) = (((sR0).slice (Rect.unit (s := S256x64) off S1x64.size h) (fun _ => rfl)).view.loc (thr d L)
      ↦[((sR0).slice (Rect.unit (s := S256x64) off S1x64.size h) (fun _ => rfl)).view.set]{fullShare} f) := by subst hoff; rfl
omit [FloatOps F] in
theorem rowC_spell (f : S256x64.Idx → Elt F .f32) (t : Fin 256) (off : Fin 2 → Nat) (hoff : off = ![t.val, 0]) (h : ∀ a, off a + S1x64.size a ≤ S256x64.size a) :
    (rowC d L f t : sProp 𝕄) = (((sR1).slice (Rect.unit (s := S256x64) off S1x64.size h) (fun _ => rfl)).view.loc (thr d L)
      ↦[((sR1).slice (Rect.unit (s := S256x64) off S1x64.size h) (fun _ => rfl)).view.set]{fullShare} f) := by subst hoff; rfl

/-- Before trip `g` of chunk `k`'s issue loop: `16 g` row copies issued on each of the two semaphores, none waited for;
    the staging rows and the read tokens from `16 g` on still in hand; the two index scratches at their contents. -/
def fireInv (k : ℕ) (q1 q2 : PosShare TreeShare) (f2 f3 : S256x64.Idx → Elt F .f32) (g : ℕ) (_ : BitVec 32) : sProp 𝕄 :=
  iprop(batchW d L s0 tb1 k (16 * g) 0 ∗ batchC d L s1 tb2 k (16 * g) 0
    ∗ bigSep (Ring.rangeSet 256 (16 * g) 256) (rowW d L f2) ∗ bigSep (Ring.rangeSet 256 (16 * g) 256) (rowC d L f3)
    ∗ bigSep (Ring.rangeSet 256 (16 * g) 256) (fun t => tokW d L tb1 q1 t.val) ∗ bigSep (Ring.rangeSet 256 (16 * g) 256) (fun t => tokC d L tb2 q2 t.val)
    ∗ ((sI0).view.loc (thr d L) ↦{fullShare} s0) ∗ ((sI1).view.loc (thr d L) ↦{fullShare} s1))

end Cert.Proof.KI

end
-- ==== Proof.TileVals.lean ====
/-
  The delivery of one row copy, as a fact about contents: a staging row written whole by a copy of one table row
  holds, on its own elements, the looked-up row the chunk's closed form names there.
-/
import proofs.«207591_g3891240370478_cont_8to1_b_1686_26_alg».proof.Proof.TileDefs
import Idealize.ShloMosaic.Lib.Writes
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.KernelIdeal.main_v1_scv : Memref Cert.KernelIdeal.sig Kind.scVector Space.hbm Cert.KernelIdeal.S16384 EltTy.i32)
local notation "aV3" => (Memref.whole Cert.KernelIdeal.main_v3_scv : Memref Cert.KernelIdeal.sig Kind.scVector Space.hbm Cert.KernelIdeal.S16384 EltTy.i32)
local notation "aT1" => (Memref.whole Cert.KernelIdeal.main_arg1_scv : Memref Cert.KernelIdeal.sig Kind.scVector Space.hbm Cert.KernelIdeal.S1000002x64 EltTy.f32)
local notation "aT2" => (Memref.whole Cert.KernelIdeal.main_arg2_scv : Memref Cert.KernelIdeal.sig Kind.scVector Space.hbm Cert.KernelIdeal.S1000002x64 EltTy.f32)
local notation "aO0" => (Memref.whole Cert.KernelIdeal.main_v4_0_scv : Memref Cert.KernelIdeal.sig Kind.scVector Space.hbm Cert.KernelIdeal.S16384x64 EltTy.f32)
local notation "aO1" => (Memref.whole Cert.KernelIdeal.main_v4_1_scv : Memref Cert.KernelIdeal.sig Kind.scVector Space.hbm Cert.KernelIdeal.S16384x64 EltTy.f32)
local notation "sI0" => (Memref.whole Cert.KernelIdeal.cc0_scratch0 : Memref Cert.KernelIdeal.sig Kind.scVector Space.vmem Cert.KernelIdeal.S512 EltTy.i32)
local notation "sI1" => (Memref.whole Cert.KernelIdeal.cc0_scratch1 : Memref Cert.KernelIdeal.sig Kind.scVector Space.vmem Cert.KernelIdeal.S512 EltTy.i32)
local notation "sR0" => (Memref.whole Cert.KernelIdeal.cc0_scratch2 : Memref Cert.KernelIdeal.sig Kind.scVector Space.vmem Cert.KernelIdeal.S256x64 EltTy.f32)
local notation "sR1" => (Memref.whole Cert.KernelIdeal.cc0_scratch3 : Memref Cert.KernelIdeal.sig Kind.scVector Space.vmem Cert.KernelIdeal.S256x64 EltTy.f32)

variable [FloatOps F] (d : Dev nD) (L : grid0.Coords)

/-! ## Generic: one unmasked write of the whole of a view, read on the view's own elements -/

section Generic
variable {sig' : RefSig} {κ : Kind} {sp : Space} {s : Shape} {e : EltTy} {Val : EltTy → Type}

/-- After one write of `pay` through the whole of a view, the element under the view's index `x` holds `pay x`. -/
theorem writes_whole_emb (v : View sig' κ sp s e) (f : v.ty.Contents Val) (pay : (Rect.whole s).shape.Idx → Val e) (x : s.Idx) :
    v.writes Val f [⟨Rect.whole s, pay⟩] (v.emb x) = cast (congrArg Val v.elt_eq.symm) (pay x) := by
  rw [View.writes_singleton]
  have e1 : v.emb x = (v.slice (Rect.whole s)).emb x := by
    show v.emb x = v.emb ((Rect.whole s).emb x)
    rw [Rect.emb_whole_apply]
  rw [e1]
  exact View.write_emb_of_mem _ _ (Finset.mem_univ _)

end Generic

/-! ## The delivery of one row copy -/

theorem deliver_w (s0 : S512.Idx → BitVec 32) (tb1 : S1000002x64.Idx → Elt F .f32) (k : ℕ) (t : Fin 256) (off : Fin 2 → Nat) (hoff : off = ![t.val, 0]) (h : ∀ a, off a + S1x64.size a ≤ S256x64.size a)
    (f2 : S256x64.Idx → Elt F .f32) (v : BitVec 32) (offs : Fin 2 → Nat) (hoffs : offs = ![v.toNat, 0]) (hw : ∀ a, offs a + S1x64.size a ≤ S1000002x64.size a) (hv : v = s0 (ix1 (⟨(256 * k + t.val) % 512, Nat.mod_lt _ (by decide)⟩ : Fin 512))) (hle : v.toNat ≤ 999999)
    (q : PosShare TreeShare) (pay : S1x64.Idx → Elt F .f32) (hpay : pay = ReadAs.same.apply (((aT1).slice (Rect.unit (s := S1000002x64) offs S1x64.size hw) (fun _ => rfl)).view.read (Elt F) tb1)) :
    iprop(((((sR0).slice (Rect.unit (s := S256x64) off S1x64.size h) (fun _ => rfl)).view.loc (thr d L) ↦[((sR0).slice (Rect.unit (s := S256x64) off S1x64.size h) (fun _ => rfl)).view.set]{fullShare}
              ((sR0).slice (Rect.unit (s := S256x64) off S1x64.size h) (fun _ => rfl)).view.writes (Elt F) f2 [⟨Rect.whole (Rect.unit (s := S256x64) off S1x64.size h).shape, pay⟩]) : sProp 𝕄)
          ∗ ((aT1).view.loc (thr d L) ↦[((aT1).slice (Rect.unit (s := S1000002x64) offs S1x64.size hw) (fun _ => rfl)).view.set]{q} tb1))
      ⊢ rowW d L (stage s0 tb1 k) t := by
  subst hoff
  subst hoffs
  refine sep_elim_left.trans (Entails.of_eq (pointsTo_congr fun i hi => ?_))
  obtain ⟨x, -, rfl⟩ := Finset.mem_map.mp hi
  refine (writes_whole_emb _ _ _ _).trans ?_
  rw [cast_eq, hpay, ReadAs.apply_same, View.read_apply, cast_eq]
  unfold stage
  have hx0 : (x 0).val = 0 := by have h1 : (x 0).val < 1 := (x 0).isLt; omega
  -- the word the row's index names is `v`
  have hs : s0 (ix1 (⟨(256 * k + ((((sR0).slice (Rect.unit (s := S256x64) ![t.val, 0] S1x64.size h) (fun _ => rfl)).view.emb x) 0).val) % 512,
      Nat.mod_lt _ (by decide)⟩ : Fin 512)) = v := by
    rw [hv]
    refine congrArg (fun n : Fin 512 => s0 (ix1 n)) (Fin.ext ?_)
    show (256 * k + (t.val + 1 * (x 0).val)) % 512 = (256 * k + t.val) % 512
    omega
  refine congrArg tb1 (funext fun a => Fin.ext ?_)
  match a with
  | ⟨0, _⟩ =>
    refine Eq.trans ?_ ((congrArg (fun w : BitVec 32 => (Cert.Spec.rowOf w).val) hs).trans (Cert.Spec.rowOf_val hle)).symm
    show v.toNat + 1 * (x 0).val = v.toNat
    omega
  | ⟨1, _⟩ =>
    show 0 + 1 * (x 1).val = 0 + 1 * (x 1).val
    rfl

theorem deliver_c (s1 : S512.Idx → BitVec 32) (tb2 : S1000002x64.Idx → Elt F .f32) (k : ℕ) (t : Fin 256) (off : Fin 2 → Nat) (hoff : off = ![t.val, 0]) (h : ∀ a, off a + S1x64.size a ≤ S256x64.size a)
    (f2 : S256x64.Idx → Elt F .f32) (v : BitVec 32) (offs : Fin 2 → Nat) (hoffs : offs = ![v.toNat, 0]) (hw : ∀ a, offs a + S1x64.size a ≤ S1000002x64.size a) (hv : v = s1 (ix1 (⟨(256 * k + t.val) % 512, Nat.mod_lt _ (by decide)⟩ : Fin 512))) (hle : v.toNat ≤ 999999)
    (q : PosShare TreeShare) (pay : S1x64.Idx → Elt F .f32) (hpay : pay = ReadAs.same.apply (((aT2).slice (Rect.unit (s := S1000002x64) offs S1x64.size hw) (fun _ => rfl)).view.read (Elt F) tb2)) :
    iprop(((((sR1).slice (Rect.unit (s := S256x64) off S1x64.size h) (fun _ => rfl)).view.loc (thr d L) ↦[((sR1).slice (Rect.unit (s := S256x64) off S1x64.size h) (fun _ => rfl)).view.set]{fullShare}
              ((sR1).slice (Rect.unit (s := S256x64) off S1x64.size h) (fun _ => rfl)).view.writes (Elt F) f2 [⟨Rect.whole (Rect.unit (s := S256x64) off S1x64.size h).shape, pay⟩]) : sProp 𝕄)
          ∗ ((aT2).view.loc (thr d L) ↦[((aT2).slice (Rect.unit (s := S1000002x64) offs S1x64.size hw) (fun _ => rfl)).view.set]{q} tb2))
      ⊢ rowC d L (stage s1 tb2 k) t := by
  subst hoff
  subst hoffs
  refine sep_elim_left.trans (Entails.of_eq (pointsTo_congr fun i hi => ?_))
  obtain ⟨x, -, rfl⟩ := Finset.mem_map.mp hi
  refine (writes_whole_emb _ _ _ _).trans ?_
  rw [cast_eq, hpay, ReadAs.apply_same, View.read_apply, cast_eq]
  unfold stage
  have hx0 : (x 0).val = 0 := by have h1 : (x 0).val < 1 := (x 0).isLt; omega
  -- the word the row's index names is `v`
  have hs : s1 (ix1 (⟨(256 * k + ((((sR1).slice (Rect.unit (s := S256x64) ![t.val, 0] S1x64.size h) (fun _ => rfl)).view.emb x) 0).val) % 512,
      Nat.mod_lt _ (by decide)⟩ : Fin 512)) = v := by
    rw [hv]
    refine congrArg (fun n : Fin 512 => s1 (ix1 n)) (Fin.ext ?_)
    show (256 * k + (t.val + 1 * (x 0).val)) % 512 = (256 * k + t.val) % 512
    omega
  refine congrArg tb2 (funext fun a => Fin.ext ?_)
  match a with
  | ⟨0, _⟩ =>
    refine Eq.trans ?_ ((congrArg (fun w : BitVec 32 => (Cert.Spec.rowOf w).val) hs).trans (Cert.Spec.rowOf_val hle)).symm
    show v.toNat + 1 * (x 0).val = v.toNat
    omega
  | ⟨1, _⟩ =>
    show 0 + 1 * (x 1).val = 0 + 1 * (x 1).val
    rfl

end Cert.Proof.KI

end
-- ==== Proof.TileWord.lean ====
/-
  The words a tile reads, as facts about contents: the word a lane of a 16-word vector load of an index scratch
  holds, and the 512 index words a tile fetches from a flat index vector.
-/
import proofs.«207591_g3891240370478_cont_8to1_b_1686_26_alg».proof.Proof.TileDefs
import Idealize.ShloMosaic.Lib.Writes
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.KernelIdeal.main_v1_scv : Memref Cert.KernelIdeal.sig Kind.scVector Space.hbm Cert.KernelIdeal.S16384 EltTy.i32)
local notation "aV3" => (Memref.whole Cert.KernelIdeal.main_v3_scv : Memref Cert.KernelIdeal.sig Kind.scVector Space.hbm Cert.KernelIdeal.S16384 EltTy.i32)
local notation "aT1" => (Memref.whole Cert.KernelIdeal.main_arg1_scv : Memref Cert.KernelIdeal.sig Kind.scVector Space.hbm Cert.KernelIdeal.S1000002x64 EltTy.f32)
local notation "aT2" => (Memref.whole Cert.KernelIdeal.main_arg2_scv : Memref Cert.KernelIdeal.sig Kind.scVector Space.hbm Cert.KernelIdeal.S1000002x64 EltTy.f32)
local notation "aO0" => (Memref.whole Cert.KernelIdeal.main_v4_0_scv : Memref Cert.KernelIdeal.sig Kind.scVector Space.hbm Cert.KernelIdeal.S16384x64 EltTy.f32)
local notation "aO1" => (Memref.whole Cert.KernelIdeal.main_v4_1_scv : Memref Cert.KernelIdeal.sig Kind.scVector Space.hbm Cert.KernelIdeal.S16384x64 EltTy.f32)
local notation "sI0" => (Memref.whole Cert.KernelIdeal.cc0_scratch0 : Memref Cert.KernelIdeal.sig Kind.scVector Space.vmem Cert.KernelIdeal.S512 EltTy.i32)
local notation "sI1" => (Memref.whole Cert.KernelIdeal.cc0_scratch1 : Memref Cert.KernelIdeal.sig Kind.scVector Space.vmem Cert.KernelIdeal.S512 EltTy.i32)
local notation "sR0" => (Memref.whole Cert.KernelIdeal.cc0_scratch2 : Memref Cert.KernelIdeal.sig Kind.scVector Space.vmem Cert.KernelIdeal.S256x64 EltTy.f32)
local notation "sR1" => (Memref.whole Cert.KernelIdeal.cc0_scratch3 : Memref Cert.KernelIdeal.sig Kind.scVector Space.vmem Cert.KernelIdeal.S256x64 EltTy.f32)

variable [FloatOps F] (d : Dev nD) (L : grid0.Coords)

/-! ## The trip counts, and a tile's rows inside the arrays -/

theorem k_lt (k : Fin k0_t1_loop.trips) : k.val < 2 := Nat.lt_of_lt_of_le k.isLt k0_t1_abs.2.1
theorem g_lt (g : Fin k0_t2_loop.trips) : g.val < 16 := Nat.lt_of_lt_of_le g.isLt k0_t2_abs.2.1
theorem L0_lt (L : grid0.Coords) : (L 0).val < 2 := (L 0).isLt
theorem L1_lt (L : grid0.Coords) : (L 1).val < 16 := (L 1).isLt
/-- Word `j` of a tile's 512 index words is word `1024 i + 512 c + j` of the index vector. -/
theorem tile_row_lt (L : grid0.Coords) (j : Fin 512) : 1024 * (L 1).val + 512 * (L 0).val + j.val < 16384 := by
  have h0 := L0_lt L; have h1 := L1_lt L; have hj := j.isLt; omega

/-! ## The word a lane reads -/

theorem word_at (s0 : S512.Idx → BitVec 32) (k : Fin k0_t1_loop.trips) (g : Fin k0_t2_loop.trips) (l : ℕ) (hl : l < 16) (h1 : S16.ShapeCasts S16) (h2 : S16.Slices ![l] S1) (h3 : ∀ a, (![0] : Fin 1 → Nat) a < S1.size a) :
    extractAt ![0] (extractStridedSlice S1 ![l] (shapeCast S16 (View.readAt (Elt F) (sI0).view (Rect.unit (s := S512) (k0_off2 k g) S16.size (k0_off2_inb k g)).toLoadRect s0) h1) h2) h3
      = s0 (ix1 (⟨(256 * k.val + (16 * g.val + l)) % 512, Nat.mod_lt _ (by decide)⟩ : Fin 512)) := by
  unfold extractAt
  refine (extractStridedSlice_apply ![l] _ h2 _ (ix1 (⟨l, hl⟩ : Fin 16)) ?_).trans ?_
  · intro a
    match a with
    | ⟨0, _⟩ => rfl
  refine (shapeCast_apply _ h1 _ (ix1 (⟨l, hl⟩ : Fin 16)) rfl).trans ?_
  rw [View.readAt_apply, View.read_apply, cast_eq]
  refine congrArg s0 (funext fun a => Fin.ext ?_)
  match a with
  | ⟨0, _⟩ =>
    have hk := k_lt k
    have hg := g_lt g
    show k0_off2 k g 0 + 1 * l = (256 * k.val + (16 * g.val + l)) % 512
    rw [k0_off2_eq]
    show 256 * k.val + 16 * g.val + 1 * l = (256 * k.val + (16 * g.val + l)) % 512
    omega

theorem word_at1 (s1 : S512.Idx → BitVec 32) (k : Fin k0_t1_loop.trips) (g : Fin k0_t2_loop.trips) (l : ℕ) (hl : l < 16) (h1 : S16.ShapeCasts S16) (h2 : S16.Slices ![l] S1) (h3 : ∀ a, (![0] : Fin 1 → Nat) a < S1.size a) :
    extractAt ![0] (extractStridedSlice S1 ![l] (shapeCast S16 (View.readAt (Elt F) (sI1).view (Rect.unit (s := S512) (k0_off2 k g) S16.size (k0_off2_inb k g)).toLoadRect s1) h1) h2) h3
      = s1 (ix1 (⟨(256 * k.val + (16 * g.val + l)) % 512, Nat.mod_lt _ (by decide)⟩ : Fin 512)) := by
  unfold extractAt
  refine (extractStridedSlice_apply ![l] _ h2 _ (ix1 (⟨l, hl⟩ : Fin 16)) ?_).trans ?_
  · intro a
    match a with
    | ⟨0, _⟩ => rfl
  refine (shapeCast_apply _ h1 _ (ix1 (⟨l, hl⟩ : Fin 16)) rfl).trans ?_
  rw [View.readAt_apply, View.read_apply, cast_eq]
  refine congrArg s1 (funext fun a => Fin.ext ?_)
  match a with
  | ⟨0, _⟩ =>
    have hk := k_lt k
    have hg := g_lt g
    show k0_off2 k g 0 + 1 * l = (256 * k.val + (16 * g.val + l)) % 512
    rw [k0_off2_eq]
    show 256 * k.val + 16 * g.val + 1 * l = (256 * k.val + (16 * g.val + l)) % 512
    omega

/-! ## The index fetch -/

theorem fetched (wi : S16384.Idx → BitVec 32) (j : Fin 512) :
    (ReadAs.same.apply (((aV1).slice (Rect.unit (s := S16384) (k0_off1 L) S512.size (k0_off1_inb L)) (fun _ => rfl)).view.read (Elt F) wi) : S512.Idx → BitVec 32) (ix1 j)
      = wi (ix1 (⟨1024 * (L 1).val + 512 * (L 0).val + j.val, tile_row_lt L j⟩ : Fin 16384)) := by
  rw [ReadAs.apply_same, View.read_apply, cast_eq]
  refine congrArg wi (funext fun a => Fin.ext ?_)
  match a with
  | ⟨0, _⟩ =>
    show k0_off1 L 0 + 1 * j.val = 1024 * (L 1).val + 512 * (L 0).val + j.val
    rw [k0_off1_eq]
    show 1024 * (L 1).val + 512 * (L 0).val + 1 * j.val = _
    omega

theorem fetched3 (wi : S16384.Idx → BitVec 32) (j : Fin 512) :
    (ReadAs.same.apply (((aV3).slice (Rect.unit (s := S16384) (k0_off1 L) S512.size (k0_off1_inb L)) (fun _ => rfl)).view.read (Elt F) wi) : S512.Idx → BitVec 32) (ix1 j)
      = wi (ix1 (⟨1024 * (L 1).val + 512 * (L 0).val + j.val, tile_row_lt L j⟩ : Fin 16384)) := by
  rw [ReadAs.apply_same, View.read_apply, cast_eq]
  refine congrArg wi (funext fun a => Fin.ext ?_)
  match a with
  | ⟨0, _⟩ =>
    show k0_off1 L 0 + 1 * j.val = 1024 * (L 1).val + 512 * (L 0).val + j.val
    rw [k0_off1_eq]
    show 1024 * (L 1).val + 512 * (L 0).val + 1 * j.val = _
    omega

end Cert.Proof.KI

end
-- ==== Proof.TileFire.lean ====
/-
  One trip of a chunk's issue loop. Trip `g` loads sixteen words of each of the tile's two index scratches (words
  `256 k + 16 g … + 15`) and, lane by lane, starts a copy of the table row the word names into staging row `16 g + l`:
  sixteen copies on the word table's semaphore and sixteen on the context table's, none waited for here. Each word is
  at most 999999, so the row it names lies inside the table (the body's assumed check); each copy is the next transfer
  of its semaphore's batch, whose delivery — staging row `16 g + l` holding the named table row — is what the row
  written whole reads, the word being word `256 k + 16 g + l` of the scratch. The body spells each staging row through
  its own chain of offsets; the sixteen rows of the trip are restated through those chains before the run.
-/
import proofs.«207591_g3891240370478_cont_8to1_b_1686_26_alg».proof.Proof.TileDefs
import proofs.«207591_g3891240370478_cont_8to1_b_1686_26_alg».proof.Proof.TileVals
import proofs.«207591_g3891240370478_cont_8to1_b_1686_26_alg».proof.Proof.TileWord

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "aV1" => (Memref.whole Cert.KernelIdeal.main_v1_scv : Memref Cert.KernelIdeal.sig Kind.scVector Space.hbm Cert.KernelIdeal.S16384 EltTy.i32)
local notation "aV3" => (Memref.whole Cert.KernelIdeal.main_v3_scv : Memref Cert.KernelIdeal.sig Kind.scVector Space.hbm Cert.KernelIdeal.S16384 EltTy.i32)
local notation "aT1" => (Memref.whole Cert.KernelIdeal.main_arg1_scv : Memref Cert.KernelIdeal.sig Kind.scVector Space.hbm Cert.KernelIdeal.S1000002x64 EltTy.f32)
local notation "aT2" => (Memref.whole Cert.KernelIdeal.main_arg2_scv : Memref Cert.KernelIdeal.sig Kind.scVector Space.hbm Cert.KernelIdeal.S1000002x64 EltTy.f32)
local notation "aO0" => (Memref.whole Cert.KernelIdeal.main_v4_0_scv : Memref Cert.KernelIdeal.sig Kind.scVector Space.hbm Cert.KernelIdeal.S16384x64 EltTy.f32)
local notation "aO1" => (Memref.whole Cert.KernelIdeal.main_v4_1_scv : Memref Cert.KernelIdeal.sig Kind.scVector Space.hbm Cert.KernelIdeal.S16384x64 EltTy.f32)
local notation "sI0" => (Memref.whole Cert.KernelIdeal.cc0_scratch0 : Memref Cert.KernelIdeal.sig Kind.scVector Space.vmem Cert.KernelIdeal.S512 EltTy.i32)
local notation "sI1" => (Memref.whole Cert.KernelIdeal.cc0_scratch1 : Memref Cert.KernelIdeal.sig Kind.scVector Space.vmem Cert.KernelIdeal.S512 EltTy.i32)
local notation "sR0" => (Memref.whole Cert.KernelIdeal.cc0_scratch2 : Memref Cert.KernelIdeal.sig Kind.scVector Space.vmem Cert.KernelIdeal.S256x64 EltTy.f32)
local notation "sR1" => (Memref.whole Cert.KernelIdeal.cc0_scratch3 : Memref Cert.KernelIdeal.sig Kind.scVector Space.vmem Cert.KernelIdeal.S256x64 EltTy.f32)

variable [FloatOps F] (d : Dev nD) (L : grid0.Coords)

open Lean Elab Tactic in
/-- Succeeds when the goal mentions the named constant. -/
elab "goal_mentions " n:ident : tactic => do
  let c ← Lean.Elab.realizeGlobalConstNoOverloadWithInfo n
  let g ← instantiateMVars (← getMainTarget)
  unless (g.find? (·.isConstOf c)).isSome do throwError "the goal does not mention {c}"

/-- The delivery lemmas with the source's offsets as a function of the word. -/
theorem deliver_w' (s0 : S512.Idx → BitVec 32) (tb1 : S1000002x64.Idx → Elt F .f32) (k : ℕ) (t : Fin 256) (off : Fin 2 → Nat) (hoff : off = ![t.val, 0]) (h : ∀ a, off a + S1x64.size a ≤ S256x64.size a)
    (f2 : S256x64.Idx → Elt F .f32) (v : BitVec 32) (offs : BitVec 32 → Fin 2 → Nat) (hoffs : ∀ w, offs w = ![w.toNat, 0]) (hw : ∀ a, offs v a + S1x64.size a ≤ S1000002x64.size a) (hv : v = s0 (ix1 (⟨(256 * k + t.val) % 512, Nat.mod_lt _ (by decide)⟩ : Fin 512))) (hle : v.toNat ≤ 999999)
    (q : PosShare TreeShare) (pay : S1x64.Idx → Elt F .f32) (hpay : pay = ReadAs.same.apply (((aT1).slice (Rect.unit (s := S1000002x64) (offs v) S1x64.size hw) (fun _ => rfl)).view.read (Elt F) tb1)) :
    iprop(((((sR0).slice (Rect.unit (s := S256x64) off S1x64.size h) (fun _ => rfl)).view.loc (thr d L) ↦[((sR0).slice (Rect.unit (s := S256x64) off S1x64.size h) (fun _ => rfl)).view.set]{fullShare}
              ((sR0).slice (Rect.unit (s := S256x64) off S1x64.size h) (fun _ => rfl)).view.writes (Elt F) f2 [⟨Rect.whole (Rect.unit (s := S256x64) off S1x64.size h).shape, pay⟩]) : sProp 𝕄)
          ∗ ((aT1).view.loc (thr d L) ↦[((aT1).slice (Rect.unit (s := S1000002x64) (offs v) S1x64.size hw) (fun _ => rfl)).view.set]{q} tb1))
      ⊢ rowW d L (stage s0 tb1 k) t :=
  deliver_w d L s0 tb1 k t off hoff h f2 v (offs v) (hoffs v) hw hv hle q pay hpay
theorem deliver_c' (s1 : S512.Idx → BitVec 32) (tb2 : S1000002x64.Idx → Elt F .f32) (k : ℕ) (t : Fin 256) (off : Fin 2 → Nat) (hoff : off = ![t.val, 0]) (h : ∀ a, off a + S1x64.size a ≤ S256x64.size a)
    (f3 : S256x64.Idx → Elt F .f32) (v : BitVec 32) (offs : BitVec 32 → Fin 2 → Nat) (hoffs : ∀ w, offs w = ![w.toNat, 0]) (hw : ∀ a, offs v a + S1x64.size a ≤ S1000002x64.size a) (hv : v = s1 (ix1 (⟨(256 * k + t.val) % 512, Nat.mod_lt _ (by decide)⟩ : Fin 512))) (hle : v.toNat ≤ 999999)
    (q : PosShare TreeShare) (pay : S1x64.Idx → Elt F .f32) (hpay : pay = ReadAs.same.apply (((aT2).slice (Rect.unit (s := S1000002x64) (offs v) S1x64.size hw) (fun _ => rfl)).view.read (Elt F) tb2)) :
    iprop(((((sR1).slice (Rect.unit (s := S256x64) off S1x64.size h) (fun _ => rfl)).view.loc (thr d L) ↦[((sR1).slice (Rect.unit (s := S256x64) off S1x64.size h) (fun _ => rfl)).view.set]{fullShare}
              ((sR1).slice (Rect.unit (s := S256x64) off S1x64.size h) (fun _ => rfl)).view.writes (Elt F) f3 [⟨Rect.whole (Rect.unit (s := S256x64) off S1x64.size h).shape, pay⟩]) : sProp 𝕄)
          ∗ ((aT2).view.loc (thr d L) ↦[((aT2).slice (Rect.unit (s := S1000002x64) (offs v) S1x64.size hw) (fun _ => rfl)).view.set]{q} tb2))
      ⊢ rowC d L (stage s1 tb2 k) t :=
  deliver_c d L s1 tb2 k t off hoff h f3 v (offs v) (hoffs v) hw hv hle q pay hpay

/-- The blocks from `16 g` on are the sixteen of trip `g` and those from `16 (g + 1)` on. -/
theorem heads16 {Φ : Fin 256 → sProp 𝕄} (g : ℕ) (hg : g < 16) :
    bigSep (Ring.rangeSet 256 (16 * g) 256) Φ
      = iprop(Φ ⟨16 * g, by omega⟩ ∗ Φ ⟨16 * g + 1, by omega⟩ ∗ Φ ⟨16 * g + 2, by omega⟩ ∗ Φ ⟨16 * g + 3, by omega⟩ ∗ Φ ⟨16 * g + 4, by omega⟩ ∗ Φ ⟨16 * g + 5, by omega⟩ ∗ Φ ⟨16 * g + 6, by omega⟩ ∗ Φ ⟨16 * g + 7, by omega⟩ ∗ Φ ⟨16 * g + 8, by omega⟩ ∗ Φ ⟨16 * g + 9, by omega⟩ ∗ Φ ⟨16 * g + 10, by omega⟩ ∗ Φ ⟨16 * g + 11, by omega⟩ ∗ Φ ⟨16 * g + 12, by omega⟩ ∗ Φ ⟨16 * g + 13, by omega⟩ ∗ Φ ⟨16 * g + 14, by omega⟩ ∗ Φ ⟨16 * g + 15, by omega⟩
          ∗ bigSep (Ring.rangeSet 256 (16 * (g + 1)) 256) Φ) := by
  rw [Ring.bigSep_rangeSet_head (Φ := Φ) (lo := 16 * g) (by omega) (by omega),
    Ring.bigSep_rangeSet_head (Φ := Φ) (lo := 16 * g + 1) (by omega) (by omega),
    Ring.bigSep_rangeSet_head (Φ := Φ) (lo := 16 * g + 2) (by omega) (by omega),
    Ring.bigSep_rangeSet_head (Φ := Φ) (lo := 16 * g + 3) (by omega) (by omega),
    Ring.bigSep_rangeSet_head (Φ := Φ) (lo := 16 * g + 4) (by omega) (by omega),
    Ring.bigSep_rangeSet_head (Φ := Φ) (lo := 16 * g + 5) (by omega) (by omega),
    Ring.bigSep_rangeSet_head (Φ := Φ) (lo := 16 * g + 6) (by omega) (by omega),
    Ring.bigSep_rangeSet_head (Φ := Φ) (lo := 16 * g + 7) (by omega) (by omega),
    Ring.bigSep_rangeSet_head (Φ := Φ) (lo := 16 * g + 8) (by omega) (by omega),
    Ring.bigSep_rangeSet_head (Φ := Φ) (lo := 16 * g + 9) (by omega) (by omega),
    Ring.bigSep_rangeSet_head (Φ := Φ) (lo := 16 * g + 10) (by omega) (by omega),
    Ring.bigSep_rangeSet_head (Φ := Φ) (lo := 16 * g + 11) (by omega) (by omega),
    Ring.bigSep_rangeSet_head (Φ := Φ) (lo := 16 * g + 12) (by omega) (by omega),
    Ring.bigSep_rangeSet_head (Φ := Φ) (lo := 16 * g + 13) (by omega) (by omega),
    Ring.bigSep_rangeSet_head (Φ := Φ) (lo := 16 * g + 14) (by omega) (by omega),
    Ring.bigSep_rangeSet_head (Φ := Φ) (lo := 16 * g + 15) (by omega) (by omega),
    show 16 * g + 15 + 1 = 16 * (g + 1) by omega]

set_option sl_exec.dischHeartbeats 40000 in
set_option maxHeartbeats 4000000 in
theorem fire_step [∀ e, Nonempty (Elt F e)] (s0 s1 : S512.Idx → BitVec 32) (tb1 tb2 : S1000002x64.Idx → Elt F .f32)
    (k : Fin k0_t1_loop.trips) (g : Fin k0_t2_loop.trips) (acc : BitVec 32)
    (q1 q2 : PosShare TreeShare) (f2 f3 : S256x64.Idx → Elt F .f32)
    (hs0 : ∀ j, (s0 j).toNat ≤ 999999) (hs1 : ∀ j, (s1 j).toNat ≤ 999999) :
    fireInv d L s0 s1 tb1 tb2 k.val q1 q2 f2 f3 g.val acc
      ⊢ wp frame (wpE (defs₀ (F := F)) 𝒱₀ (thr d L) none) Set.univ
          (k0_t2_body L aV1 (Memref.isWhole_whole _) aV3 (Memref.isWhole_whole _) aT1 (Memref.isWhole_whole _) aT2 (Memref.isWhole_whole _)
            aO0 (Memref.isWhole_whole _) aO1 (Memref.isWhole_whole _) sI0 (Memref.isWhole_whole _) sI1 (Memref.isWhole_whole _)
            sR0 (Memref.isWhole_whole _) sR1 (Memref.isWhole_whole _) cc0_scratch4 cc0_scratch5 cc0_scoped0 cc0_scoped1 cc0_scoped2 cc0_scoped3
            k (Scf.iv 0#32 1#32 k) g acc)
          (fireInv d L s0 s1 tb1 tb2 k.val q1 q2 f2 f3 (g.val + 1)) := by
  have hg : g.val < 16 := lt_of_lt_of_le g.isLt k0_t2_abs.2.1
  unfold fireInv
  rw [heads16 (Φ := rowW d L f2) g.val hg, heads16 (Φ := rowC d L f3) g.val hg,
    heads16 (Φ := fun t => tokW d L tb1 q1 t.val) g.val hg, heads16 (Φ := fun t => tokC d L tb2 q2 t.val) g.val hg]
  have hw0 : (k0_off5 g) = ![(⟨16 * g.val, by first | done | omega⟩ : Fin 256).val, 0] := k0_off5_eq g
  have hc0 : (k0_off7 g 0#32) = ![(⟨16 * g.val, by first | done | omega⟩ : Fin 256).val, 0] := k0_off7_eq g ⟨0, by decide⟩
  have hw1 : (k0_off9 g) = ![(⟨16 * g.val + 1, by first | done | omega⟩ : Fin 256).val, 0] := k0_off9_eq g
  have hc1 : (k0_off11 g 1#32) = ![(⟨16 * g.val + 1, by first | done | omega⟩ : Fin 256).val, 0] := k0_off11_eq g ⟨0, by decide⟩
  have hw2 : (k0_off13 g) = ![(⟨16 * g.val + 2, by first | done | omega⟩ : Fin 256).val, 0] := k0_off13_eq g
  have hc2 : (k0_off15 g 2#32) = ![(⟨16 * g.val + 2, by first | done | omega⟩ : Fin 256).val, 0] := k0_off15_eq g ⟨0, by decide⟩
  have hw3 : (k0_off17 g) = ![(⟨16 * g.val + 3, by first | done | omega⟩ : Fin 256).val, 0] := k0_off17_eq g
  have hc3 : (k0_off19 g 3#32) = ![(⟨16 * g.val + 3, by first | done | omega⟩ : Fin 256).val, 0] := k0_off19_eq g ⟨0, by decide⟩
  have hw4 : (k0_off21 g) = ![(⟨16 * g.val + 4, by first | done | omega⟩ : Fin 256).val, 0] := k0_off21_eq g
  have hc4 : (k0_off23 g 4#32) = ![(⟨16 * g.val + 4, by first | done | omega⟩ : Fin 256).val, 0] := k0_off23_eq g ⟨0, by decide⟩
  have hw5 : (k0_off25 g) = ![(⟨16 * g.val + 5, by first | done | omega⟩ : Fin 256).val, 0] := k0_off25_eq g
  have hc5 : (k0_off27 g 5#32) = ![(⟨16 * g.val + 5, by first | done | omega⟩ : Fin 256).val, 0] := k0_off27_eq g ⟨0, by decide⟩
  have hw6 : (k0_off29 g) = ![(⟨16 * g.val + 6, by first | done | omega⟩ : Fin 256).val, 0] := k0_off29_eq g
  have hc6 : (k0_off31 g 6#32) = ![(⟨16 * g.val + 6, by first | done | omega⟩ : Fin 256).val, 0] := k0_off31_eq g ⟨0, by decide⟩
  have hw7 : (k0_off33 g) = ![(⟨16 * g.val + 7, by first | done | omega⟩ : Fin 256).val, 0] := k0_off33_eq g
  have hc7 : (k0_off35 g 7#32) = ![(⟨16 * g.val + 7, by first | done | omega⟩ : Fin 256).val, 0] := k0_off35_eq g ⟨0, by decide⟩
  have hw8 : (k0_off37 g) = ![(⟨16 * g.val + 8, by first | done | omega⟩ : Fin 256).val, 0] := k0_off37_eq g
  have hc8 : (k0_off39 g 8#32) = ![(⟨16 * g.val + 8, by first | done | omega⟩ : Fin 256).val, 0] := k0_off39_eq g ⟨0, by decide⟩
  have hw9 : (k0_off41 g) = ![(⟨16 * g.val + 9, by first | done | omega⟩ : Fin 256).val, 0] := k0_off41_eq g
  have hc9 : (k0_off43 g 9#32) = ![(⟨16 * g.val + 9, by first | done | omega⟩ : Fin 256).val, 0] := k0_off43_eq g ⟨0, by decide⟩
  have hw10 : (k0_off45 g) = ![(⟨16 * g.val + 10, by first | done | omega⟩ : Fin 256).val, 0] := k0_off45_eq g
  have hc10 : (k0_off47 g 10#32) = ![(⟨16 * g.val + 10, by first | done | omega⟩ : Fin 256).val, 0] := k0_off47_eq g ⟨0, by decide⟩
  have hw11 : (k0_off49 g) = ![(⟨16 * g.val + 11, by first | done | omega⟩ : Fin 256).val, 0] := k0_off49_eq g
  have hc11 : (k0_off51 g 11#32) = ![(⟨16 * g.val + 11, by first | done | omega⟩ : Fin 256).val, 0] := k0_off51_eq g ⟨0, by decide⟩
  have hw12 : (k0_off53 g) = ![(⟨16 * g.val + 12, by first | done | omega⟩ : Fin 256).val, 0] := k0_off53_eq g
  have hc12 : (k0_off55 g 12#32) = ![(⟨16 * g.val + 12, by first | done | omega⟩ : Fin 256).val, 0] := k0_off55_eq g ⟨0, by decide⟩
  have hw13 : (k0_off57 g) = ![(⟨16 * g.val + 13, by first | done | omega⟩ : Fin 256).val, 0] := k0_off57_eq g
  have hc13 : (k0_off59 g 13#32) = ![(⟨16 * g.val + 13, by first | done | omega⟩ : Fin 256).val, 0] := k0_off59_eq g ⟨0, by decide⟩
  have hw14 : (k0_off61 g) = ![(⟨16 * g.val + 14, by first | done | omega⟩ : Fin 256).val, 0] := k0_off61_eq g
  have hc14 : (k0_off63 g 14#32) = ![(⟨16 * g.val + 14, by first | done | omega⟩ : Fin 256).val, 0] := k0_off63_eq g ⟨0, by decide⟩
  have hw15 : (k0_off65 g) = ![(⟨16 * g.val + 15, by first | done | omega⟩ : Fin 256).val, 0] := k0_off65_eq g
  have hc15 : (k0_off67 g) = ![(⟨16 * g.val + 15, by first | done | omega⟩ : Fin 256).val, 0] := k0_off67_eq g
  unfold tokW tokC
  iintro ⟨HBw, HBc, ⟨HR0, HR1, HR2, HR3, HR4, HR5, HR6, HR7, HR8, HR9, HR10, HR11, HR12, HR13, HR14, HR15, HRs⟩, ⟨HC0, HC1, HC2, HC3, HC4, HC5, HC6, HC7, HC8, HC9, HC10, HC11, HC12, HC13, HC14, HC15, HCs⟩, ⟨HT0, HT1, HT2, HT3, HT4, HT5, HT6, HT7, HT8, HT9, HT10, HT11, HT12, HT13, HT14, HT15, HTs⟩, ⟨HU0, HU1, HU2, HU3, HU4, HU5, HU6, HU7, HU8, HU9, HU10, HU11, HU12, HU13, HU14, HU15, HUs⟩, Hs0, Hs1⟩
  ihave HR0' := (Entails.of_eq (rowW_spell d L f2 (⟨16 * g.val, by first | done | omega⟩ : Fin 256) (k0_off5 g) hw0 (k0_off5_inb g))) $$ HR0
  ihave HC0' := (Entails.of_eq (rowC_spell d L f3 (⟨16 * g.val, by first | done | omega⟩ : Fin 256) (k0_off7 g 0#32) hc0 (k0_off7_inb g 0))) $$ HC0
  ihave HR1' := (Entails.of_eq (rowW_spell d L f2 (⟨16 * g.val + 1, by first | done | omega⟩ : Fin 256) (k0_off9 g) hw1 (k0_off9_inb g))) $$ HR1
  ihave HC1' := (Entails.of_eq (rowC_spell d L f3 (⟨16 * g.val + 1, by first | done | omega⟩ : Fin 256) (k0_off11 g 1#32) hc1 (k0_off11_inb g 0))) $$ HC1
  ihave HR2' := (Entails.of_eq (rowW_spell d L f2 (⟨16 * g.val + 2, by first | done | omega⟩ : Fin 256) (k0_off13 g) hw2 (k0_off13_inb g))) $$ HR2
  ihave HC2' := (Entails.of_eq (rowC_spell d L f3 (⟨16 * g.val + 2, by first | done | omega⟩ : Fin 256) (k0_off15 g 2#32) hc2 (k0_off15_inb g 0))) $$ HC2
  ihave HR3' := (Entails.of_eq (rowW_spell d L f2 (⟨16 * g.val + 3, by first | done | omega⟩ : Fin 256) (k0_off17 g) hw3 (k0_off17_inb g))) $$ HR3
  ihave HC3' := (Entails.of_eq (rowC_spell d L f3 (⟨16 * g.val + 3, by first | done | omega⟩ : Fin 256) (k0_off19 g 3#32) hc3 (k0_off19_inb g 0))) $$ HC3
  ihave HR4' := (Entails.of_eq (rowW_spell d L f2 (⟨16 * g.val + 4, by first | done | omega⟩ : Fin 256) (k0_off21 g) hw4 (k0_off21_inb g))) $$ HR4
  ihave HC4' := (Entails.of_eq (rowC_spell d L f3 (⟨16 * g.val + 4, by first | done | omega⟩ : Fin 256) (k0_off23 g 4#32) hc4 (k0_off23_inb g 0))) $$ HC4
  ihave HR5' := (Entails.of_eq (rowW_spell d L f2 (⟨16 * g.val + 5, by first | done | omega⟩ : Fin 256) (k0_off25 g) hw5 (k0_off25_inb g))) $$ HR5
  ihave HC5' := (Entails.of_eq (rowC_spell d L f3 (⟨16 * g.val + 5, by first | done | omega⟩ : Fin 256) (k0_off27 g 5#32) hc5 (k0_off27_inb g 0))) $$ HC5
  ihave HR6' := (Entails.of_eq (rowW_spell d L f2 (⟨16 * g.val + 6, by first | done | omega⟩ : Fin 256) (k0_off29 g) hw6 (k0_off29_inb g))) $$ HR6
  ihave HC6' := (Entails.of_eq (rowC_spell d L f3 (⟨16 * g.val + 6, by first | done | omega⟩ : Fin 256) (k0_off31 g 6#32) hc6 (k0_off31_inb g 0))) $$ HC6
  ihave HR7' := (Entails.of_eq (rowW_spell d L f2 (⟨16 * g.val + 7, by first | done | omega⟩ : Fin 256) (k0_off33 g) hw7 (k0_off33_inb g))) $$ HR7
  ihave HC7' := (Entails.of_eq (rowC_spell d L f3 (⟨16 * g.val + 7, by first | done | omega⟩ : Fin 256) (k0_off35 g 7#32) hc7 (k0_off35_inb g 0))) $$ HC7
  ihave HR8' := (Entails.of_eq (rowW_spell d L f2 (⟨16 * g.val + 8, by first | done | omega⟩ : Fin 256) (k0_off37 g) hw8 (k0_off37_inb g))) $$ HR8
  ihave HC8' := (Entails.of_eq (rowC_spell d L f3 (⟨16 * g.val + 8, by first | done | omega⟩ : Fin 256) (k0_off39 g 8#32) hc8 (k0_off39_inb g 0))) $$ HC8
  ihave HR9' := (Entails.of_eq (rowW_spell d L f2 (⟨16 * g.val + 9, by first | done | omega⟩ : Fin 256) (k0_off41 g) hw9 (k0_off41_inb g))) $$ HR9
  ihave HC9' := (Entails.of_eq (rowC_spell d L f3 (⟨16 * g.val + 9, by first | done | omega⟩ : Fin 256) (k0_off43 g 9#32) hc9 (k0_off43_inb g 0))) $$ HC9
  ihave HR10' := (Entails.of_eq (rowW_spell d L f2 (⟨16 * g.val + 10, by first | done | omega⟩ : Fin 256) (k0_off45 g) hw10 (k0_off45_inb g))) $$ HR10
  ihave HC10' := (Entails.of_eq (rowC_spell d L f3 (⟨16 * g.val + 10, by first | done | omega⟩ : Fin 256) (k0_off47 g 10#32) hc10 (k0_off47_inb g 0))) $$ HC10
  ihave HR11' := (Entails.of_eq (rowW_spell d L f2 (⟨16 * g.val + 11, by first | done | omega⟩ : Fin 256) (k0_off49 g) hw11 (k0_off49_inb g))) $$ HR11
  ihave HC11' := (Entails.of_eq (rowC_spell d L f3 (⟨16 * g.val + 11, by first | done | omega⟩ : Fin 256) (k0_off51 g 11#32) hc11 (k0_off51_inb g 0))) $$ HC11
  ihave HR12' := (Entails.of_eq (rowW_spell d L f2 (⟨16 * g.val + 12, by first | done | omega⟩ : Fin 256) (k0_off53 g) hw12 (k0_off53_inb g))) $$ HR12
  ihave HC12' := (Entails.of_eq (rowC_spell d L f3 (⟨16 * g.val + 12, by first | done | omega⟩ : Fin 256) (k0_off55 g 12#32) hc12 (k0_off55_inb g 0))) $$ HC12
  ihave HR13' := (Entails.of_eq (rowW_spell d L f2 (⟨16 * g.val + 13, by first | done | omega⟩ : Fin 256) (k0_off57 g) hw13 (k0_off57_inb g))) $$ HR13
  ihave HC13' := (Entails.of_eq (rowC_spell d L f3 (⟨16 * g.val + 13, by first | done | omega⟩ : Fin 256) (k0_off59 g 13#32) hc13 (k0_off59_inb g 0))) $$ HC13
  ihave HR14' := (Entails.of_eq (rowW_spell d L f2 (⟨16 * g.val + 14, by first | done | omega⟩ : Fin 256) (k0_off61 g) hw14 (k0_off61_inb g))) $$ HR14
  ihave HC14' := (Entails.of_eq (rowC_spell d L f3 (⟨16 * g.val + 14, by first | done | omega⟩ : Fin 256) (k0_off63 g 14#32) hc14 (k0_off63_inb g 0))) $$ HC14
  ihave HR15' := (Entails.of_eq (rowW_spell d L f2 (⟨16 * g.val + 15, by first | done | omega⟩ : Fin 256) (k0_off65 g) hw15 (k0_off65_inb g))) $$ HR15
  ihave HC15' := (Entails.of_eq (rowC_spell d L f3 (⟨16 * g.val + 15, by first | done | omega⟩ : Fin 256) (k0_off67 g) hc15 (k0_off67_inb g))) $$ HC15
  unfold k0_t2_body
  sl_exec (disch := first
    | omega
    | exact chk_of_le _ (hs0 _)
    | exact chk_of_le _ (hs1 _)
    | (goal_mentions Cert.KernelIdeal.cc0_scratch2
       refine deliver_w' d L s0 tb1 _ _ _ ?_ _ _ _ _ ?_ _ ?_ ?_ _ _ ?_
       · with_reducible assumption
       · exact fun _ => rfl
       · exact word_at (F := F) s0 k g _ (by omega) (by first | done | decide) (by first | done | decide) (by first | done | decide)
       · exact hs0 _
       · rfl)
    | (goal_mentions Cert.KernelIdeal.cc0_scratch3
       refine deliver_c' d L s1 tb2 _ _ _ ?_ _ _ _ _ ?_ _ ?_ ?_ _ _ ?_
       · with_reducible assumption
       · exact fun _ => rfl
       · exact word_at1 (F := F) s1 k g _ (by omega) (by first | done | decide) (by first | done | decide) (by first | done | decide)
       · exact hs1 _
       · rfl))
  sl_step
  have e16 : 16 * (g.val + 1) = 16 * g.val + 1 + 1 + 1 + 1 + 1 + 1 + 1 + 1 + 1 + 1 + 1 + 1 + 1 + 1 + 1 + 1 := by omega
  isplitl [HBw]; · rw [e16]; iexact HBw
  isplitl [HBc]; · rw [e16]; iexact HBc
  isplitl [HRs]; · iexact HRs
  isplitl [HCs]; · iexact HCs
  isplitl [HTs]; · iexact HTs
  isplitl [HUs]; · iexact HUs
  isplitl [Hs0]; · iexact Hs0
  iexact Hs1

end Cert.Proof.KI

end
-- ==== Proof.LaunchSplit.lean ====
import proofs.«207591_g3891240370478_cont_8to1_b_1686_26_alg».proof.Proof.Common

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds; the transfers' counters are not needed from the launch -/

def u₀ : UU := (initOf (K (F := F)).hsCells (K (F := F)).hsToks, 1)

theorem bigSep_emp' {I : Type} (s : Finset I) : (bigSep s fun _ => iprop(emp)) = (iprop(emp) : sProp 𝕄) := bigSep_emp_const s

/-- A family over the call's vector subcores is one over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- and one over the call's SparseCores is one over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- One array held at a share hands each of `n` readers a token of it (the remainder is dropped). -/
theorem share_toks {ℓ : Loc nD τ sig} (f : Buf (Elt F) ℓ) (q : PosShare TreeShare) (n : ℕ) :
    (ℓ ↦{q} f : sProp 𝕄) ⊢ bigSep Finset.univ fun i : Fin n => ℓ ↦{shareTokN q i.val} f :=
  (pointsTo_toks_split q n).trans sep_elim_right

variable [FloatOps F]

/-- The four read arrays at a share hand each of `n` readers its token of the four. -/
theorem reads_toks (d : Dev nD) (q : PosShare TreeShare) (n : ℕ) :
    reads m d q ⊢ bigSep Finset.univ fun i : Fin n => reads m d (shareTokN q i.val) := by
  unfold reads
  rw [bigSep_sep', bigSep_sep', bigSep_sep']
  iintro ⟨H1, H3, Ha1, Ha2⟩
  isplitl [H1]; · iapply (share_toks (W1 m d) q n); iexact H1
  isplitl [H3]; · iapply (share_toks (W3 m d) q n); iexact H3
  isplitl [Ha1]; · iapply (share_toks (T1 m d) q n); iexact Ha1
  iapply (share_toks (T2 m d) q n); iexact Ha2

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## A SparseCore's operands split among its tiles -/

theorem P_st (d : Dev nD) (c : Fin ((K (F := F)).nCore 0)) : (P m).st 0 d c = stP m d (Fin.cast nCore_zero c) := rfl
theorem P_dn (d : Dev nD) (c : Fin ((K (F := F)).nCore 0)) : (P m).dn 0 d c = dnP m d (Fin.cast nCore_zero c) := rfl
theorem P_go (d : Dev nD) (c : Fin ((K (F := F)).nCore 0)) (i : Fin ((K (F := F)).nSub 0)) :
    (P m).go 0 d c i = goP m d (Fin.cast nCore_zero c) (Fin.cast nSub_zero i) := rfl
theorem P_td (d : Dev nD) (c : Fin ((K (F := F)).nCore 0)) (i : Fin ((K (F := F)).nSub 0)) :
    (P m).td 0 d c i = tdP m d (Fin.cast nCore_zero c) (Fin.cast nSub_zero i) := rfl

/-- The read share of a SparseCore splits into its sixteen tiles' shares; the parts of the results are already
    listed per tile, and come back as the tiles leave them. -/
theorem vecSplit : (K (F := F)).VecSplit' (P m) 0 := by
  intro d c
  simp only [P_st, P_dn, P_go, P_td]
  generalize Fin.cast nCore_zero c = c'
  rw [bigSep_tasks (F := F) (fun i => goP m d c' i), bigSep_tasks (F := F) (fun i => tdP m d c' i)]
  unfold stP goP dnP
  rw [bigSep_sep']
  iintro ⟨Hr, Ho⟩; imodintro
  isplitl [Hr Ho]
  · isplitl [Hr]
    · iapply (reads_toks m d (qCore c'.val) 16); iexact Hr
    · iexact Ho
  iintro H; iexact H

end Cert.Proof.KI

end
-- ==== Proof.TileObl.lean ====
/-
  The launch theorem's obligation for the kernel's tiles: the task of vector subcore i of SparseCore c runs the
  kernel's body at coordinates (c, i) over the whole arrays, so the obligation is the body's statement at those
  coordinates, taken here as a hypothesis.
-/
import proofs.«207591_g3891240370478_cont_8to1_b_1686_26_alg».proof.Proof.TileDefs
import proofs.«207591_g3891240370478_cont_8to1_b_1686_26_alg».proof.Proof.LaunchSplit
import Idealize.ShloMosaic.Lib.Writes
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.KernelIdeal.main_v1_scv : Memref Cert.KernelIdeal.sig Kind.scVector Space.hbm Cert.KernelIdeal.S16384 EltTy.i32)
local notation "aV3" => (Memref.whole Cert.KernelIdeal.main_v3_scv : Memref Cert.KernelIdeal.sig Kind.scVector Space.hbm Cert.KernelIdeal.S16384 EltTy.i32)
local notation "aT1" => (Memref.whole Cert.KernelIdeal.main_arg1_scv : Memref Cert.KernelIdeal.sig Kind.scVector Space.hbm Cert.KernelIdeal.S1000002x64 EltTy.f32)
local notation "aT2" => (Memref.whole Cert.KernelIdeal.main_arg2_scv : Memref Cert.KernelIdeal.sig Kind.scVector Space.hbm Cert.KernelIdeal.S1000002x64 EltTy.f32)
local notation "aO0" => (Memref.whole Cert.KernelIdeal.main_v4_0_scv : Memref Cert.KernelIdeal.sig Kind.scVector Space.hbm Cert.KernelIdeal.S16384x64 EltTy.f32)
local notation "aO1" => (Memref.whole Cert.KernelIdeal.main_v4_1_scv : Memref Cert.KernelIdeal.sig Kind.scVector Space.hbm Cert.KernelIdeal.S16384x64 EltTy.f32)
local notation "sI0" => (Memref.whole Cert.KernelIdeal.cc0_scratch0 : Memref Cert.KernelIdeal.sig Kind.scVector Space.vmem Cert.KernelIdeal.S512 EltTy.i32)
local notation "sI1" => (Memref.whole Cert.KernelIdeal.cc0_scratch1 : Memref Cert.KernelIdeal.sig Kind.scVector Space.vmem Cert.KernelIdeal.S512 EltTy.i32)
local notation "sR0" => (Memref.whole Cert.KernelIdeal.cc0_scratch2 : Memref Cert.KernelIdeal.sig Kind.scVector Space.vmem Cert.KernelIdeal.S256x64 EltTy.f32)
local notation "sR1" => (Memref.whole Cert.KernelIdeal.cc0_scratch3 : Memref Cert.KernelIdeal.sig Kind.scVector Space.vmem Cert.KernelIdeal.S256x64 EltTy.f32)

variable (m : (ℓ : Loc nD τ sig) → Buf (Elt F) ℓ)

variable [FloatOps F]

/-! ## The launch theorem's obligation for a tile, from the tile's body -/

/-- A tile's coordinates from its SparseCore and its vector subcore. -/
def coordsV (c : Fin (grid0.bound 0)) (s : Fin (grid0.bound 1)) : grid0.Coords :=
  fun | 0 => c | 1 => s | ⟨_ + 2, h⟩ => absurd h (Nat.not_lt.2 (Nat.le_add_left _ _))

/-- What the body table runs on a vector subcore: the kernel at that tile's coordinates, over the whole arrays. -/
theorem defs₀_vector (c : Fin τ.nSC) (s : Fin τ.nSub) :
    defs₀ (F := F) (.scVector c s) 0 ()
      = SparseCore.onTile hcore0 hsub0 (fun c s => cc0__dual_gather (coordsV c s)
          aV1 (Memref.isWhole_whole _) aV3 (Memref.isWhole_whole _) aT1 (Memref.isWhole_whole _) aT2 (Memref.isWhole_whole _)
            aO0 (Memref.isWhole_whole _) aO1 (Memref.isWhole_whole _) sI0 (Memref.isWhole_whole _) sI1 (Memref.isWhole_whole _)
            sR0 (Memref.isWhole_whole _) sR1 (Memref.isWhole_whole _) cc0_scratch4 cc0_scratch5 cc0_scoped0 cc0_scoped1 cc0_scoped2 cc0_scoped3) ⟨⟩ c s := rfl

omit [FloatOps F] in
/-- The body's exit is the obligation's: what it still waits for it waited for at entry, or owes to no call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Obl
variable (tile_body : ∀ (d : Dev nD) (L : grid0.Coords) (hF : (K (F := F)).Facts) (hpre : PreOK m) (O : CellTallies nD τ sig (HIx 1)) (W : Waits sig (HIx 1)) (hO : ∀ g, O g none = 0),
    iprop(levAts (K (F := F)).L (K (F := F)).lev ∗ emp ∗ goP m d (cF L) (iF L)
        ∗ scopedBufs (thr d L) ∗ scopedSems0 (thr d L) ∗ owes (thr d L) O W)
      ⊢ wp frame (wpE (defs₀ (F := F)) 𝒱₀ (thr d L) none) Set.univ
          (cc0__dual_gather L aV1 (Memref.isWhole_whole _) aV3 (Memref.isWhole_whole _) aT1 (Memref.isWhole_whole _) aT2 (Memref.isWhole_whole _)
            aO0 (Memref.isWhole_whole _) aO1 (Memref.isWhole_whole _) sI0 (Memref.isWhole_whole _) sI1 (Memref.isWhole_whole _)
            sR0 (Memref.isWhole_whole _) sR1 (Memref.isWhole_whole _) cc0_scratch4 cc0_scratch5 cc0_scoped0 cc0_scoped1 cc0_scoped2 cc0_scoped3)
          fun _ => iprop(tdP m d (cF L) (iF L) ∗ scopedBufs (thr d L) ∗ scopedSems0 (thr d L)
            ∗ ∃ W', ⌜∀ p ∈ W', p ∈ W ∨ p.2 = none⌝ ∗ owes (thr d L) O W'))
include tile_body

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hcF : cF (coordsV ⟨((K (F := F)).core 0 c).val, hc.1⟩ ⟨((K (F := F)).sub 0 i).val, hc.2⟩) = Fin.cast nCore_zero c := Fin.ext rfl
  have hiF : iF (coordsV ⟨((K (F := F)).core 0 c).val, hc.1⟩ ⟨((K (F := F)).sub 0 i).val, hc.2⟩) = Fin.cast nSub_zero i := Fin.ext rfl
  have hb := tile_body d (coordsV ⟨_, hc.1⟩ ⟨_, hc.2⟩) hF hpre O W hO
  rw [hcF, hiF] at hb
  exact hb.trans (wp_mono frame _ _ fun _ => obl_post)

end Obl

end Cert.Proof.KI

end
-- ==== Proof.TileDrain.lean ====
import proofs.«207591_g3891240370478_cont_8to1_b_1686_26_alg».proof.Proof.TileDefs

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "aV1" => (Memref.whole Cert.KernelIdeal.main_v1_scv : Memref Cert.KernelIdeal.sig Kind.scVector Space.hbm Cert.KernelIdeal.S16384 EltTy.i32)
local notation "aV3" => (Memref.whole Cert.KernelIdeal.main_v3_scv : Memref Cert.KernelIdeal.sig Kind.scVector Space.hbm Cert.KernelIdeal.S16384 EltTy.i32)
local notation "aT1" => (Memref.whole Cert.KernelIdeal.main_arg1_scv : Memref Cert.KernelIdeal.sig Kind.scVector Space.hbm Cert.KernelIdeal.S1000002x64 EltTy.f32)
local notation "aT2" => (Memref.whole Cert.KernelIdeal.main_arg2_scv : Memref Cert.KernelIdeal.sig Kind.scVector Space.hbm Cert.KernelIdeal.S1000002x64 EltTy.f32)
local notation "aO0" => (Memref.whole Cert.KernelIdeal.main_v4_0_scv : Memref Cert.KernelIdeal.sig Kind.scVector Space.hbm Cert.KernelIdeal.S16384x64 EltTy.f32)
local notation "aO1" => (Memref.whole Cert.KernelIdeal.main_v4_1_scv : Memref Cert.KernelIdeal.sig Kind.scVector Space.hbm Cert.KernelIdeal.S16384x64 EltTy.f32)
local notation "sI0" => (Memref.whole Cert.KernelIdeal.cc0_scratch0 : Memref Cert.KernelIdeal.sig Kind.scVector Space.vmem Cert.KernelIdeal.S512 EltTy.i32)
local notation "sI1" => (Memref.whole Cert.KernelIdeal.cc0_scratch1 : Memref Cert.KernelIdeal.sig Kind.scVector Space.vmem Cert.KernelIdeal.S512 EltTy.i32)
local notation "sR0" => (Memref.whole Cert.KernelIdeal.cc0_scratch2 : Memref Cert.KernelIdeal.sig Kind.scVector Space.vmem Cert.KernelIdeal.S256x64 EltTy.f32)
local notation "sR1" => (Memref.whole Cert.KernelIdeal.cc0_scratch3 : Memref Cert.KernelIdeal.sig Kind.scVector Space.vmem Cert.KernelIdeal.S256x64 EltTy.f32)

variable [FloatOps F] (d : Dev nD) (L : grid0.Coords)
variable (s0 s1 : S512.Idx → BitVec 32) (tb1 tb2 : S1000002x64.Idx → Elt F .f32)

/-! ## The drain loop -/

theorem t3_trips : k0_t3_loop.trips = 256 := by decide
theorem t2_trips : k0_t2_loop.trips = 16 := by decide
theorem t1_trips : k0_t1_loop.trips = 2 := by decide

/-- The waits a body records sit at index `none`. -/
theorem waits_insert {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with hp | hp
  · exact .inr (hp ▸ rfl)
  · exact h p hp

/-- Before trip `g` of chunk `k`'s drain loop: the waits so far recorded; and either (before the last trip has run)
    both batches with `g` rows' units consumed, or (after it) both cells back at zero and every row delivered. -/
def drainInv (k : ℕ) (O : CellTallies nD τ sig (HIx 1)) (W : Waits sig (HIx 1)) (g : ℕ) (_ : BitVec 32) : sProp 𝕄 :=
  iprop(⌜g ≤ 256⌝ ∗ Transfers.MayWaits (thr d L) (none : HIx 1) O
    ∗ (∃ W', ⌜∀ p ∈ W', p ∈ W ∨ p.2 = none⌝ ∗ owes (thr d L) O W')
    ∗ (if g < 256 then iprop(batchW d L s0 tb1 k 256 (g * NR) ∗ batchC d L s1 tb2 k 256 (g * NR))
       else iprop(semVal (cellOf d L cc0_scratch4) 0 ∗ semVal (cellOf d L cc0_scratch5) 0
          ∗ bigSep Finset.univ (Dw d L s0 tb1 k) ∗ bigSep Finset.univ (Dc d L s1 tb2 k))))

/-- One trip at a symbolic `g`, by cases: `g + 1 < 256`, two waits each short of its batch's last;
    `g + 1 = 256`, the two last waits: each cell at zero and every delivery of its batch back. -/
theorem drain_step [∀ e, Nonempty (Elt F e)] (k : ℕ) (O : CellTallies nD τ sig (HIx 1)) (W : Waits sig (HIx 1))
    (g : Fin k0_t3_loop.trips) (acc : BitVec 32) :
    drainInv d L s0 s1 tb1 tb2 k O W g.val acc
      ⊢ wp frame (wpE (defs₀ (F := F)) 𝒱₀ (thr d L) none) Set.univ
          (k0_t3_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 g acc)
          (drainInv d L s0 s1 tb1 tb2 k O W (g.val + 1)) := by
  have hg : g.val < 256 := t3_trips ▸ g.isLt
  unfold drainInv
  simp only [if_pos hg]
  rcases Nat.lt_or_ge (g.val + 1) 256 with h1 | h1
  · simp only [if_pos h1]
    iintro ⟨-, Hmw, ⟨%W', %hW', HO⟩, HBw, HBc⟩
    unfold k0_t3_body
    sl_exec
    sl_step
    isplitr; · ipureintro; omega
    isplitl [Hmw]; · iexact Hmw
    isplitl [HO]
    · iexists (insert (SemLoc.dma cc0_scratch5.sem, (none : HIx 1)) (insert (SemLoc.dma cc0_scratch4.sem, (none : HIx 1)) W')); isplitr
      · ipureintro; exact waits_insert (waits_insert hW' _) _
      · iexact HO
    rw [show (g.val + 1) * NR = g.val * NR + NR from Nat.succ_mul _ _]
    isplitl [HBw] <;> iassumption
  · simp only [if_neg (Nat.not_lt.mpr h1)]
    iintro ⟨-, Hmw, ⟨%W', %hW', HO⟩, HBw, HBc⟩
    unfold k0_t3_body
    sl_exec
    sl_step
    isplitr; · ipureintro; omega
    isplitl [Hmw]; · iexact Hmw
    isplitl [HO]
    · iexists (insert (SemLoc.dma cc0_scratch5.sem, (none : HIx 1)) (insert (SemLoc.dma cc0_scratch4.sem, (none : HIx 1)) W')); isplitr
      · ipureintro; exact waits_insert (waits_insert hW' _) _
      · iexact HO
    isplitl [HBw]; · iexact HBw
    isplitl [HBc]; · iexact HBc
    isplitl [HBw_all]; · iexact HBw_all
    iexact HBc_all

end Cert.Proof.KI

end
-- ==== Proof.TileChunk.lean ====
import proofs.«207591_g3891240370478_cont_8to1_b_1686_26_alg».proof.Proof.TileDefs
import proofs.«207591_g3891240370478_cont_8to1_b_1686_26_alg».proof.Proof.TileDrain

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "aV1" => (Memref.whole Cert.KernelIdeal.main_v1_scv : Memref Cert.KernelIdeal.sig Kind.scVector Space.hbm Cert.KernelIdeal.S16384 EltTy.i32)
local notation "aV3" => (Memref.whole Cert.KernelIdeal.main_v3_scv : Memref Cert.KernelIdeal.sig Kind.scVector Space.hbm Cert.KernelIdeal.S16384 EltTy.i32)
local notation "aT1" => (Memref.whole Cert.KernelIdeal.main_arg1_scv : Memref Cert.KernelIdeal.sig Kind.scVector Space.hbm Cert.KernelIdeal.S1000002x64 EltTy.f32)
local notation "aT2" => (Memref.whole Cert.KernelIdeal.main_arg2_scv : Memref Cert.KernelIdeal.sig Kind.scVector Space.hbm Cert.KernelIdeal.S1000002x64 EltTy.f32)
local notation "aO0" => (Memref.whole Cert.KernelIdeal.main_v4_0_scv : Memref Cert.KernelIdeal.sig Kind.scVector Space.hbm Cert.KernelIdeal.S16384x64 EltTy.f32)
local notation "aO1" => (Memref.whole Cert.KernelIdeal.main_v4_1_scv : Memref Cert.KernelIdeal.sig Kind.scVector Space.hbm Cert.KernelIdeal.S16384x64 EltTy.f32)
local notation "sI0" => (Memref.whole Cert.KernelIdeal.cc0_scratch0 : Memref Cert.KernelIdeal.sig Kind.scVector Space.vmem Cert.KernelIdeal.S512 EltTy.i32)
local notation "sI1" => (Memref.whole Cert.KernelIdeal.cc0_scratch1 : Memref Cert.KernelIdeal.sig Kind.scVector Space.vmem Cert.KernelIdeal.S512 EltTy.i32)
local notation "sR0" => (Memref.whole Cert.KernelIdeal.cc0_scratch2 : Memref Cert.KernelIdeal.sig Kind.scVector Space.vmem Cert.KernelIdeal.S256x64 EltTy.f32)
local notation "sR1" => (Memref.whole Cert.KernelIdeal.cc0_scratch3 : Memref Cert.KernelIdeal.sig Kind.scVector Space.vmem Cert.KernelIdeal.S256x64 EltTy.f32)

variable [FloatOps F] (d : Dev nD) (L : grid0.Coords)
variable (s0 s1 : S512.Idx → BitVec 32) (tb1 tb2 : S1000002x64.Idx → Elt F .f32)

/-! ## One chunk -/

/-- Chunk `k`'s rows of the two results, as the body slices them. -/
def oPart0 (k : Fin k0_t1_loop.trips) : Memref sig .scVector .hbm S256x64 .f32 :=
  (aO0).slice (Rect.unit (s := S16384x64) (k0_off68 L k) S256x64.size (k0_off68_inb L k)) (fun _ => rfl)
def oPart1 (k : Fin k0_t1_loop.trips) : Memref sig .scVector .hbm S256x64 .f32 :=
  (aO1).slice (Rect.unit (s := S16384x64) (k0_off68 L k) S256x64.size (k0_off68_inb L k)) (fun _ => rfl)

/-- The 256 read tokens of a table share, as the run of tokens the issue loop's invariant counts. -/
theorem toksW_range (q : PosShare TreeShare) :
    (bigSep (Finset.range 256) (fun i => (aT1).view.loc (thr d L) ↦{shareTokN q i} tb1) : sProp 𝕄)
      = bigSep (Ring.rangeSet 256 0 256) (fun t => tokW d L tb1 q t.val) := by
  rw [Ring.rangeSet_univ]
  exact (Ring.bigSep_fin_eq_range 256 (fun t => tokW d L tb1 q t.val) (fun i => tokW d L tb1 q i) (fun _ _ => rfl)).symm
theorem toksC_range (q : PosShare TreeShare) :
    (bigSep (Finset.range 256) (fun i => (aT2).view.loc (thr d L) ↦{shareTokN q i} tb2) : sProp 𝕄)
      = bigSep (Ring.rangeSet 256 0 256) (fun t => tokC d L tb2 q t.val) := by
  rw [Ring.rangeSet_univ]
  exact (Ring.bigSep_fin_eq_range 256 (fun t => tokC d L tb2 q t.val) (fun i => tokC d L tb2 q i) (fun _ _ => rfl)).symm

instance chunk_Dw_storable (k : ℕ) (t : Fin 256) : BI.Storable (upEmb : UEmb _ 𝕄) (Dw d L s0 tb1 k t) := by
  unfold Dw rowW sRow0; infer_instance
instance chunk_Dc_storable (k : ℕ) (t : Fin 256) : BI.Storable (upEmb : UEmb _ 𝕄) (Dc d L s1 tb2 k t) := by
  unfold Dc rowC sRow1; infer_instance

/-- A staging buffer whole is the run of all its rows. -/
theorem rows0_range (hrows0 : ∀ g : S256x64.Idx → Elt F .f32, ((sR0).view.loc (thr d L) ↦{fullShare} g : sProp 𝕄) = bigSep Finset.univ (rowW d L g))
    (g : S256x64.Idx → Elt F .f32) :
    ((sR0).view.loc (thr d L) ↦{fullShare} g : sProp 𝕄) = bigSep (Ring.rangeSet 256 0 256) (rowW d L g) := by
  rw [Ring.rangeSet_univ]; exact hrows0 g
theorem rows1_range (hrows1 : ∀ g : S256x64.Idx → Elt F .f32, ((sR1).view.loc (thr d L) ↦{fullShare} g : sProp 𝕄) = bigSep Finset.univ (rowC d L g))
    (g : S256x64.Idx → Elt F .f32) :
    ((sR1).view.loc (thr d L) ↦{fullShare} g : sProp 𝕄) = bigSep (Ring.rangeSet 256 0 256) (rowC d L g) := by
  rw [Ring.rangeSet_univ]; exact hrows1 g

/-- One chunk: each table's share lends 256 read tokens (the rest goes on to the next chunk); the staging buffers go
    out row by row; the issue loop starts the 256 row copies of each of the two batches, the drain loop waits for them
    and the rows come back at the looked-up rows; the two staging buffers are then copied whole onto the chunk's rows
    of the two results. -/
theorem chunk_step [∀ e, Nonempty (Elt F e)]
    (hfire : ∀ (k : Fin k0_t1_loop.trips) (g : Fin k0_t2_loop.trips) (acc : BitVec 32) (q1 q2 : PosShare TreeShare) (f2 f3 : S256x64.Idx → Elt F .f32),
      fireInv d L s0 s1 tb1 tb2 k.val q1 q2 f2 f3 g.val acc
        ⊢ wp frame (wpE (defs₀ (F := F)) 𝒱₀ (thr d L) none) Set.univ
            (k0_t2_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k (Scf.iv 0#32 1#32 k) g acc)
            (fireInv d L s0 s1 tb1 tb2 k.val q1 q2 f2 f3 (g.val + 1)))
    (hrows0 : ∀ g : S256x64.Idx → Elt F .f32, ((sR0).view.loc (thr d L) ↦{fullShare} g : sProp 𝕄) = bigSep Finset.univ (rowW d L g))
    (hrows1 : ∀ g : S256x64.Idx → Elt F .f32, ((sR1).view.loc (thr d L) ↦{fullShare} g : sProp 𝕄) = bigSep Finset.univ (rowC d L g))
    (O : CellTallies nD τ sig (HIx 1)) (W : Waits sig (HIx 1))
    (k : Fin k0_t1_loop.trips) (acc : BitVec 32) (q1 q2 : PosShare TreeShare) (f2 f3 : S256x64.Idx → Elt F .f32)
    (fo0 fo1 : S16384x64.Idx → Elt F .f32) :
    iprop(Transfers.MayWaits (thr d L) (none : HIx 1) O
        ∗ ((aT1).view.loc (thr d L) ↦{q1} tb1) ∗ ((aT2).view.loc (thr d L) ↦{q2} tb2)
        ∗ ((sI0).view.loc (thr d L) ↦{fullShare} s0) ∗ ((sI1).view.loc (thr d L) ↦{fullShare} s1)
        ∗ ((sR0).view.loc (thr d L) ↦{fullShare} f2) ∗ ((sR1).view.loc (thr d L) ↦{fullShare} f3)
        ∗ semVal (cellOf d L cc0_scratch4) 0 ∗ semVal (cellOf d L cc0_scratch5) 0
        ∗ semVal (cellOf d L cc0_scoped2) 0 ∗ semVal (cellOf d L cc0_scoped3) 0
        ∗ ((oPart0 L k).view.loc (thr d L) ↦[(oPart0 L k).view.set]{fullShare} fo0)
        ∗ ((oPart1 L k).view.loc (thr d L) ↦[(oPart1 L k).view.set]{fullShare} fo1)
        ∗ ∃ W', ⌜∀ p ∈ W', p ∈ W ∨ p.2 = none⌝ ∗ owes (thr d L) O W')
      ⊢ wp frame (wpE (defs₀ (F := F)) 𝒱₀ (thr d L) none) Set.univ
          (k0_t1_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k acc)
          (fun _ => (iprop(Transfers.MayWaits (thr d L) (none : HIx 1) O
            ∗ ((aT1).view.loc (thr d L) ↦{shareDrop q1 256} tb1) ∗ ((aT2).view.loc (thr d L) ↦{shareDrop q2 256} tb2)
            ∗ ((sI0).view.loc (thr d L) ↦{fullShare} s0) ∗ ((sI1).view.loc (thr d L) ↦{fullShare} s1)
            ∗ ((sR0).view.loc (thr d L) ↦{fullShare} stage s0 tb1 k.val) ∗ ((sR1).view.loc (thr d L) ↦{fullShare} stage s1 tb2 k.val)
            ∗ semVal (cellOf d L cc0_scratch4) 0 ∗ semVal (cellOf d L cc0_scratch5) 0
            ∗ semVal (cellOf d L cc0_scoped2) 0 ∗ semVal (cellOf d L cc0_scoped3) 0
            ∗ ((oPart0 L k).view.loc (thr d L) ↦[(oPart0 L k).view.set]{fullShare}
                (oPart0 L k).view.writes (Elt F) fo0 [⟨Rect.whole S256x64, ReadAs.same.apply ((sR0).view.read (Elt F) (stage s0 tb1 k.val))⟩])
            ∗ ((oPart1 L k).view.loc (thr d L) ↦[(oPart1 L k).view.set]{fullShare}
                (oPart1 L k).view.writes (Elt F) fo1 [⟨Rect.whole S256x64, ReadAs.same.apply ((sR1).view.read (Elt F) (stage s1 tb2 k.val))⟩])
            ∗ ∃ W', ⌜∀ p ∈ W', p ∈ W ∨ p.2 = none⌝ ∗ owes (thr d L) O W') : sProp 𝕄)) := by
  iintro ⟨Hmw, Ht1, Ht2, Hs0, Hs1, Hr0, Hr1, Hc4, Hc5, Hd2, Hd3, Ho0, Ho1, ⟨%W', %hW', HO⟩⟩
  -- the tables' shares as 256 read tokens each and the rest
  ihave Ht1' := (Transfers.pointsTo_toks_range q1 256).1 $$ Ht1
  icases Ht1' with ⟨Ht1r, Ht1t⟩
  ihave Ht1t' := (Entails.of_eq (toksW_range d L tb1 q1)) $$ Ht1t
  ihave Ht2' := (Transfers.pointsTo_toks_range q2 256).1 $$ Ht2
  icases Ht2' with ⟨Ht2r, Ht2t⟩
  ihave Ht2t' := (Entails.of_eq (toksC_range d L tb2 q2)) $$ Ht2t
  -- the staging buffers as their rows
  ihave Hr0' := (Entails.of_eq (rows0_range d L hrows0 f2)) $$ Hr0
  ihave Hr1' := (Entails.of_eq (rows1_range d L hrows1 f3)) $$ Hr1
  -- the two batches allocated
  imod (Transfers.batch_alloc' (Lvl := ℕ) (EC (F := F)) (thr d L) (none : HIx 1) NR (Dw d L s0 tb1 k.val) (sm := .dma cc0_scratch4.sem) (E := Set.univ)) $$ Hc4 with HBw
  imod (Transfers.batch_alloc' (Lvl := ℕ) (EC (F := F)) (thr d L) (none : HIx 1) NR (Dc d L s1 tb2 k.val) (sm := .dma cc0_scratch5.sem) (E := Set.univ)) $$ Hc5 with HBc
  sl_unfold [k0_t1_body]
  -- the issue loop
  sl_exec
  sl_for (fireInv d L s0 s1 tb1 tb2 k.val q1 q2 f2 f3) $$ [HBw HBc Hr0' Hr1' Ht1t' Ht2t' Hs0 Hs1]
  · intro g acc'; exact hfire k g acc' q1 q2 f2 f3
  · unfold fireInv
    rw [show 16 * 0 = 0 from rfl]
    isplitl [HBw]; · iexact HBw
    isplitl [HBc]; · iexact HBc
    isplitl [Hr0']; · iexact Hr0'
    isplitl [Hr1']; · iexact Hr1'
    isplitl [Ht1t']; · iexact Ht1t'
    isplitl [Ht2t']; · iexact Ht2t'
    isplitl [Hs0] <;> iassumption
  iintro %acc1 HI
  ihave HI' := (show fireInv d L s0 s1 tb1 tb2 k.val q1 q2 f2 f3 (Scf.trips k0_t2_loop.lb k0_t2_loop.ub k0_t2_loop.st) acc1
      ⊢ iprop(batchW d L s0 tb1 k.val 256 0 ∗ batchC d L s1 tb2 k.val 256 0
          ∗ ((sI0).view.loc (thr d L) ↦{fullShare} s0) ∗ ((sI1).view.loc (thr d L) ↦{fullShare} s1)) from by
    rw [show Scf.trips k0_t2_loop.lb k0_t2_loop.ub k0_t2_loop.st = 16 from by decide]
    unfold fireInv
    rw [show 16 * 16 = 256 from rfl]
    iintro ⟨HBw, HBc, -, -, -, -, Hs0, Hs1⟩
    isplitl [HBw]; · iexact HBw
    isplitl [HBc]; · iexact HBc
    isplitl [Hs0] <;> iassumption) $$ HI
  icases HI' with ⟨HBw, HBc, Hs0, Hs1⟩
  -- the drain loop
  sl_for (drainInv d L s0 s1 tb1 tb2 k.val O W) $$ [HBw HBc Hmw HO]
  · intro g acc'; exact drain_step d L s0 s1 tb1 tb2 k.val O W g acc'
  · unfold drainInv
    rw [if_pos (by decide : (0 : ℕ) < 256), Nat.zero_mul]
    isplitr; · ipureintro; omega
    isplitl [Hmw]; · iexact Hmw
    isplitl [HO]
    · iexists W'; isplitr
      · ipureintro; exact hW'
      · iexact HO
    isplitl [HBw] <;> iassumption
  iintro %acc2 HL
  ihave HL' := (show drainInv d L s0 s1 tb1 tb2 k.val O W (Scf.trips k0_t3_loop.lb k0_t3_loop.ub k0_t3_loop.st) acc2
      ⊢ iprop(Transfers.MayWaits (thr d L) (none : HIx 1) O ∗ (∃ W', ⌜∀ p ∈ W', p ∈ W ∨ p.2 = none⌝ ∗ owes (thr d L) O W')
          ∗ semVal (cellOf d L cc0_scratch4) 0 ∗ semVal (cellOf d L cc0_scratch5) 0
          ∗ ((sR0).view.loc (thr d L) ↦{fullShare} stage s0 tb1 k.val) ∗ ((sR1).view.loc (thr d L) ↦{fullShare} stage s1 tb2 k.val)) from by
    rw [show Scf.trips k0_t3_loop.lb k0_t3_loop.ub k0_t3_loop.st = 256 from by decide]
    unfold drainInv
    rw [if_neg (Nat.lt_irrefl _), hrows0, hrows1]
    iintro ⟨-, Hmw, HO, Hc4, Hc5, Hw, Hc⟩
    isplitl [Hmw]; · iexact Hmw
    isplitl [HO]; · iexact HO
    isplitl [Hc4]; · iexact Hc4
    isplitl [Hc5]; · iexact Hc5
    isplitl [Hw] <;> iassumption) $$ HL
  icases HL' with ⟨Hmw, ⟨%W2, %hW2, HO⟩, Hc4, Hc5, Hr0, Hr1⟩
  -- the two copies out
  sl_exec
  sl_unfold_run_names
  sl_step
  isplitl [Hmw]; · iexact Hmw
  isplitl [Ht1r]; · iexact Ht1r
  isplitl [Ht2r]; · iexact Ht2r
  isplitl [Hs0]; · iexact Hs0
  isplitl [Hs1]; · iexact Hs1
  isplitl [Hr0]; · iexact Hr0
  isplitl [Hr1]; · iexact Hr1
  isplitl [Hc4]; · iexact Hc4
  isplitl [Hc5]; · iexact Hc5
  isplitl [Hd2]; · iexact Hd2
  isplitl [Hd3]; · iexact Hd3
  isplitl [Ho0]; · iexact Ho0
  isplitl [Ho1]; · iexact Ho1
  iexists (insert (SemLoc.dma cc0_scoped3.sem, (none : HIx 1)) (insert (SemLoc.dma cc0_scoped2.sem, (none : HIx 1)) W2)); isplitr
  · ipureintro; exact waits_insert (waits_insert hW2 _) _
  · iexact HO

end Cert.Proof.KI

end
-- ==== Proof.TileRows.lean ====
/-
  A staging buffer as its 256 rows, and a tile's chunk of a result: the chunk's elements are one of the result's
  64 parts of 256 rows, and written whole from the staging buffer at the chunk's looked-up rows it holds, at result
  row r, the table's row that word r of the index vector names.
-/
import proofs.«207591_g3891240370478_cont_8to1_b_1686_26_alg».proof.Proof.TileWord
import Idealize.ShloMosaic.Lib.Writes
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.KernelIdeal.main_v1_scv : Memref Cert.KernelIdeal.sig Kind.scVector Space.hbm Cert.KernelIdeal.S16384 EltTy.i32)
local notation "aV3" => (Memref.whole Cert.KernelIdeal.main_v3_scv : Memref Cert.KernelIdeal.sig Kind.scVector Space.hbm Cert.KernelIdeal.S16384 EltTy.i32)
local notation "aT1" => (Memref.whole Cert.KernelIdeal.main_arg1_scv : Memref Cert.KernelIdeal.sig Kind.scVector Space.hbm Cert.KernelIdeal.S1000002x64 EltTy.f32)
local notation "aT2" => (Memref.whole Cert.KernelIdeal.main_arg2_scv : Memref Cert.KernelIdeal.sig Kind.scVector Space.hbm Cert.KernelIdeal.S1000002x64 EltTy.f32)
local notation "aO0" => (Memref.whole Cert.KernelIdeal.main_v4_0_scv : Memref Cert.KernelIdeal.sig Kind.scVector Space.hbm Cert.KernelIdeal.S16384x64 EltTy.f32)
local notation "aO1" => (Memref.whole Cert.KernelIdeal.main_v4_1_scv : Memref Cert.KernelIdeal.sig Kind.scVector Space.hbm Cert.KernelIdeal.S16384x64 EltTy.f32)
local notation "sI0" => (Memref.whole Cert.KernelIdeal.cc0_scratch0 : Memref Cert.KernelIdeal.sig Kind.scVector Space.vmem Cert.KernelIdeal.S512 EltTy.i32)
local notation "sI1" => (Memref.whole Cert.KernelIdeal.cc0_scratch1 : Memref Cert.KernelIdeal.sig Kind.scVector Space.vmem Cert.KernelIdeal.S512 EltTy.i32)
local notation "sR0" => (Memref.whole Cert.KernelIdeal.cc0_scratch2 : Memref Cert.KernelIdeal.sig Kind.scVector Space.vmem Cert.KernelIdeal.S256x64 EltTy.f32)
local notation "sR1" => (Memref.whole Cert.KernelIdeal.cc0_scratch3 : Memref Cert.KernelIdeal.sig Kind.scVector Space.vmem Cert.KernelIdeal.S256x64 EltTy.f32)

variable [FloatOps F] (d : Dev nD) (L : grid0.Coords)

/-! ## The staging buffer as its rows -/

/-- The elements of row `t` of a [256, 64] buffer. -/
abbrev rowSet (t : Fin 256) : Finset S256x64.Idx := (Rect.unit (s := S256x64) ![t.val, 0] S1x64.size (row_inb t)).set

/-- They are the buffer's at first coordinate `t`. -/
theorem mem_rowSet (t : Fin 256) (y : S256x64.Idx) : y ∈ rowSet t ↔ (y 0).val = t.val := by
  rw [Rect.mem_set_unit]
  have h1 : (y 1).val < 64 := (y 1).isLt
  constructor
  · intro H
    have a0 : t.val ≤ (y 0).val ∧ (y 0).val < t.val + 1 := H 0
    omega
  · intro H a
    match a with
    | ⟨0, _⟩ => show t.val ≤ (y 0).val ∧ (y 0).val < t.val + 1; omega
    | ⟨1, _⟩ => show 0 ≤ (y 1).val ∧ (y 1).val < 0 + 64; omega

theorem rowSet_disjoint : ∀ t t' : Fin 256, t ≠ t' → Disjoint (rowSet t) (rowSet t') := fun t t' hne => by
  rw [Finset.disjoint_left]
  intro y hy hy'
  rw [mem_rowSet] at hy hy'
  exact hne (Fin.ext (by omega))

theorem rowSet_cover : Finset.univ.biUnion rowSet = Finset.univ := by
  ext y
  simp only [Finset.mem_biUnion, Finset.mem_univ, true_and, iff_true]
  exact ⟨(y 0 : Fin 256), (mem_rowSet _ _).mpr rfl⟩

/-- Row `t` of a staging buffer has the elements of the buffer at first coordinate `t`. -/
theorem row0_set (t : Fin 256) : (sRow0 t).view.set = rowSet t := by
  unfold sRow0; exact View.set_slice_whole _ _

/-- The staging buffer held whole is its 256 rows, each held by its own elements. -/
theorem stage_rows (g : S256x64.Idx → Elt F .f32) :
    ((sR0).view.loc (thr d L) ↦{fullShare} g : sProp 𝕄) = bigSep Finset.univ (rowW d L g) := by
  refine (Ring.pointsTo_blocks (ℓ := (sR0).view.loc (thr d L)) (q := fullShare) rowSet rowSet_disjoint rowSet_cover g).trans ?_
  refine congrArg (bigSep Finset.univ) (funext fun t => ?_)
  exact congrArg (fun I => ((sR0).view.loc (thr d L) ↦[I]{fullShare} g : sProp 𝕄)) (row0_set t).symm

/-- Row `t` of a staging buffer has the elements of the buffer at first coordinate `t`. -/
theorem row1_set (t : Fin 256) : (sRow1 t).view.set = rowSet t := by
  unfold sRow1; exact View.set_slice_whole _ _

/-- The staging buffer held whole is its 256 rows, each held by its own elements. -/
theorem stage_rows1 (g : S256x64.Idx → Elt F .f32) :
    ((sR1).view.loc (thr d L) ↦{fullShare} g : sProp 𝕄) = bigSep Finset.univ (rowC d L g) := by
  refine (Ring.pointsTo_blocks (ℓ := (sR1).view.loc (thr d L)) (q := fullShare) rowSet rowSet_disjoint rowSet_cover g).trans ?_
  refine congrArg (bigSep Finset.univ) (funext fun t => ?_)
  exact congrArg (fun I => ((sR1).view.loc (thr d L) ↦[I]{fullShare} g : sProp 𝕄)) (row1_set t).symm

/-! ## The result's chunk -/

theorem off68_0 (k : Fin k0_t1_loop.trips) : k0_off68 L k 0 = 1024 * (L 1).val + 512 * (L 0).val + 256 * k.val := by
  rw [k0_off68_eq]; rfl
theorem off68_1 (k : Fin k0_t1_loop.trips) : k0_off68 L k 1 = 0 := by
  rw [k0_off68_eq]; rfl

/-- The chunk's rectangle and the part's have the same elements. -/
theorem chunk_rect_set (k : Fin k0_t1_loop.trips) (hk : k.val < 2) :
    (Rect.unit (s := S16384x64) (k0_off68 L k) S256x64.size (k0_off68_inb L k)).set = (part (pj (cF L) (iF L) ⟨k.val, hk⟩)).set := by
  ext y
  rw [Rect.mem_set_unit, Rect.mem_set_unit]
  have h0 := L0_lt L
  have h1 := L1_lt L
  have e0 := off68_0 L k
  have e1 := off68_1 L k
  refine forall_congr' fun a => ?_
  match a with
  | ⟨0, _⟩ =>
    show (k0_off68 L k 0 ≤ (y 0).val ∧ (y 0).val < k0_off68 L k 0 + 256)
      ↔ ((4 * (L 1).val + 2 * (L 0).val + k.val) * 256 ≤ (y 0).val ∧ (y 0).val < (4 * (L 1).val + 2 * (L 0).val + k.val) * 256 + 256)
    omega
  | ⟨1, _⟩ =>
    show (k0_off68 L k 1 ≤ (y 1).val ∧ (y 1).val < k0_off68 L k 1 + 64) ↔ (0 * 64 ≤ (y 1).val ∧ (y 1).val < 0 * 64 + 64)
    omega

/-- Chunk `k` of a tile's rows of the result is part `4 i + 2 c + k` of its 64 parts of 256 rows. -/
theorem out_set (k : Fin k0_t1_loop.trips) (hk : k.val < 2) :
    ((aO0).slice (Rect.unit (s := S16384x64) (k0_off68 L k) S256x64.size (k0_off68_inb L k)) (fun _ => rfl)).view.set
      = partSet (pj (cF L) (iF L) ⟨k.val, hk⟩) := by
  refine (View.set_slice_whole _ _).trans (Eq.trans ?_ (View.set_slice_whole _ _).symm)
  exact chunk_rect_set L k hk

/-- On the chunk's own elements, the chunk written whole from the staging buffer at chunk `k`'s looked-up rows holds
    the table's row that the index vector's word of that result row names. -/
theorem out_vals (s0 : S512.Idx → BitVec 32) (tb : S1000002x64.Idx → Elt F .f32) (wi : S16384.Idx → BitVec 32)
    (hs0 : ∀ j : Fin 512, s0 (ix1 j) = wi (ix1 (⟨1024 * (L 1).val + 512 * (L 0).val + j.val, tile_row_lt L j⟩ : Fin 16384)))
    (k : Fin k0_t1_loop.trips) (fd : S16384x64.Idx → Elt F .f32) (i : S16384x64.Idx)
    (hi : i ∈ ((aO0).slice (Rect.unit (s := S16384x64) (k0_off68 L k) S256x64.size (k0_off68_inb L k)) (fun _ => rfl)).view.set) :
    ((aO0).slice (Rect.unit (s := S16384x64) (k0_off68 L k) S256x64.size (k0_off68_inb L k)) (fun _ => rfl)).view.write (Elt F) fd
        (ReadAs.same.apply ((sR0).view.read (Elt F) (stage s0 tb k.val))) Finset.univ i
      = tb (ix2 (Cert.Spec.rowOf (wi (ix1 (i 0 : Fin 16384)))) (i 1 : Fin 64)) := by
  obtain ⟨x, -, rfl⟩ := Finset.mem_map.mp hi
  rw [View.write_emb_of_mem _ _ (Finset.mem_univ _), cast_eq, ReadAs.apply_same]
  show stage s0 tb k.val x = _
  unfold stage
  rw [hs0]
  have hk := k_lt k
  have hx0 : (x 0).val < 256 := (x 0).isLt
  have e0 := off68_0 L k
  have e1 := off68_1 L k
  have eA : (⟨1024 * (L 1).val + 512 * (L 0).val + (256 * k.val + (x 0).val) % 512, tile_row_lt L ⟨(256 * k.val + (x 0).val) % 512, Nat.mod_lt _ (by decide)⟩⟩ : Fin 16384)
      = ((((aO0).slice (Rect.unit (s := S16384x64) (k0_off68 L k) S256x64.size (k0_off68_inb L k)) (fun _ => rfl)).view.emb x) 0 : Fin 16384) := by
    refine Fin.ext ?_
    show 1024 * (L 1).val + 512 * (L 0).val + (256 * k.val + (x 0).val) % 512 = k0_off68 L k 0 + 1 * (x 0).val
    omega
  have eC : (x 1 : Fin 64) = ((((aO0).slice (Rect.unit (s := S16384x64) (k0_off68 L k) S256x64.size (k0_off68_inb L k)) (fun _ => rfl)).view.emb x) 1 : Fin 64) := by
    refine Fin.ext ?_
    show (x 1).val = k0_off68 L k 1 + 1 * (x 1).val
    omega
  exact congrArg tb (congrArg₂ (fun (r : Fin 1000002) (c : Fin 64) => ix2 r c)
    (congrArg (fun n : Fin 16384 => Cert.Spec.rowOf (wi (ix1 n))) eA) eC)

/-- Chunk `k` of a tile's rows of the result is part `4 i + 2 c + k` of its 64 parts of 256 rows. -/
theorem out_set1 (k : Fin k0_t1_loop.trips) (hk : k.val < 2) :
    ((aO1).slice (Rect.unit (s := S16384x64) (k0_off68 L k) S256x64.size (k0_off68_inb L k)) (fun _ => rfl)).view.set
      = partSet (pj (cF L) (iF L) ⟨k.val, hk⟩) := by
  refine (View.set_slice_whole _ _).trans (Eq.trans ?_ (View.set_slice_whole _ _).symm)
  exact chunk_rect_set L k hk

/-- On the chunk's own elements, the chunk written whole from the staging buffer at chunk `k`'s looked-up rows holds
    the table's row that the index vector's word of that result row names. -/
theorem out_vals1 (s0 : S512.Idx → BitVec 32) (tb : S1000002x64.Idx → Elt F .f32) (wi : S16384.Idx → BitVec 32)
    (hs0 : ∀ j : Fin 512, s0 (ix1 j) = wi (ix1 (⟨1024 * (L 1).val + 512 * (L 0).val + j.val, tile_row_lt L j⟩ : Fin 16384)))
    (k : Fin k0_t1_loop.trips) (fd : S16384x64.Idx → Elt F .f32) (i : S16384x64.Idx)
    (hi : i ∈ ((aO1).slice (Rect.unit (s := S16384x64) (k0_off68 L k) S256x64.size (k0_off68_inb L k)) (fun _ => rfl)).view.set) :
    ((aO1).slice (Rect.unit (s := S16384x64) (k0_off68 L k) S256x64.size (k0_off68_inb L k)) (fun _ => rfl)).view.write (Elt F) fd
        (ReadAs.same.apply ((sR1).view.read (Elt F) (stage s0 tb k.val))) Finset.univ i
      = tb (ix2 (Cert.Spec.rowOf (wi (ix1 (i 0 : Fin 16384)))) (i 1 : Fin 64)) := by
  obtain ⟨x, -, rfl⟩ := Finset.mem_map.mp hi
  rw [View.write_emb_of_mem _ _ (Finset.mem_univ _), cast_eq, ReadAs.apply_same]
  show stage s0 tb k.val x = _
  unfold stage
  rw [hs0]
  have hk := k_lt k
  have hx0 : (x 0).val < 256 := (x 0).isLt
  have e0 := off68_0 L k
  have e1 := off68_1 L k
  have eA : (⟨1024 * (L 1).val + 512 * (L 0).val + (256 * k.val + (x 0).val) % 512, tile_row_lt L ⟨(256 * k.val + (x 0).val) % 512, Nat.mod_lt _ (by decide)⟩⟩ : Fin 16384)
      = ((((aO1).slice (Rect.unit (s := S16384x64) (k0_off68 L k) S256x64.size (k0_off68_inb L k)) (fun _ => rfl)).view.emb x) 0 : Fin 16384) := by
    refine Fin.ext ?_
    show 1024 * (L 1).val + 512 * (L 0).val + (256 * k.val + (x 0).val) % 512 = k0_off68 L k 0 + 1 * (x 0).val
    omega
  have eC : (x 1 : Fin 64) = ((((aO1).slice (Rect.unit (s := S16384x64) (k0_off68 L k) S256x64.size (k0_off68_inb L k)) (fun _ => rfl)).view.emb x) 1 : Fin 64) := by
    refine Fin.ext ?_
    show (x 1).val = k0_off68 L k 1 + 1 * (x 1).val
    omega
  exact congrArg tb (congrArg₂ (fun (r : Fin 1000002) (c : Fin 64) => ix2 r c)
    (congrArg (fun n : Fin 16384 => Cert.Spec.rowOf (wi (ix1 n))) eA) eC)

end Cert.Proof.KI

end
-- ==== Proof.TileRowsW.lean ====
/-
  A tile's chunk of a result written whole from the staging buffer, its written contents stated as a one-entry list
  of writes: on the chunk's own elements it is the single unmasked write.
-/
import proofs.«207591_g3891240370478_cont_8to1_b_1686_26_alg».proof.Proof.TileRows
import proofs.«207591_g3891240370478_cont_8to1_b_1686_26_alg».proof.Proof.TileVals
import Idealize.ShloMosaic.Lib.Writes
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.KernelIdeal.main_v1_scv : Memref Cert.KernelIdeal.sig Kind.scVector Space.hbm Cert.KernelIdeal.S16384 EltTy.i32)
local notation "aV3" => (Memref.whole Cert.KernelIdeal.main_v3_scv : Memref Cert.KernelIdeal.sig Kind.scVector Space.hbm Cert.KernelIdeal.S16384 EltTy.i32)
local notation "aT1" => (Memref.whole Cert.KernelIdeal.main_arg1_scv : Memref Cert.KernelIdeal.sig Kind.scVector Space.hbm Cert.KernelIdeal.S1000002x64 EltTy.f32)
local notation "aT2" => (Memref.whole Cert.KernelIdeal.main_arg2_scv : Memref Cert.KernelIdeal.sig Kind.scVector Space.hbm Cert.KernelIdeal.S1000002x64 EltTy.f32)
local notation "aO0" => (Memref.whole Cert.KernelIdeal.main_v4_0_scv : Memref Cert.KernelIdeal.sig Kind.scVector Space.hbm Cert.KernelIdeal.S16384x64 EltTy.f32)
local notation "aO1" => (Memref.whole Cert.KernelIdeal.main_v4_1_scv : Memref Cert.KernelIdeal.sig Kind.scVector Space.hbm Cert.KernelIdeal.S16384x64 EltTy.f32)
local notation "sI0" => (Memref.whole Cert.KernelIdeal.cc0_scratch0 : Memref Cert.KernelIdeal.sig Kind.scVector Space.vmem Cert.KernelIdeal.S512 EltTy.i32)
local notation "sI1" => (Memref.whole Cert.KernelIdeal.cc0_scratch1 : Memref Cert.KernelIdeal.sig Kind.scVector Space.vmem Cert.KernelIdeal.S512 EltTy.i32)
local notation "sR0" => (Memref.whole Cert.KernelIdeal.cc0_scratch2 : Memref Cert.KernelIdeal.sig Kind.scVector Space.vmem Cert.KernelIdeal.S256x64 EltTy.f32)
local notation "sR1" => (Memref.whole Cert.KernelIdeal.cc0_scratch3 : Memref Cert.KernelIdeal.sig Kind.scVector Space.vmem Cert.KernelIdeal.S256x64 EltTy.f32)

variable [FloatOps F] (d : Dev nD) (L : grid0.Coords)

/-! ## The result's chunk, its written contents as a list of writes -/

/-- The same with the chunk's written contents stated as a one-entry list of writes. -/
theorem out_vals_w (s0 : S512.Idx → BitVec 32) (tb : S1000002x64.Idx → Elt F .f32) (wi : S16384.Idx → BitVec 32)
    (hs0 : ∀ j : Fin 512, s0 (ix1 j) = wi (ix1 (⟨1024 * (L 1).val + 512 * (L 0).val + j.val, tile_row_lt L j⟩ : Fin 16384)))
    (k : Fin k0_t1_loop.trips) (fd : S16384x64.Idx → Elt F .f32) (i : S16384x64.Idx)
    (hi : i ∈ ((aO0).slice (Rect.unit (s := S16384x64) (k0_off68 L k) S256x64.size (k0_off68_inb L k)) (fun _ => rfl)).view.set) :
    ((aO0).slice (Rect.unit (s := S16384x64) (k0_off68 L k) S256x64.size (k0_off68_inb L k)) (fun _ => rfl)).view.writes (Elt F) fd
        [⟨Rect.whole (Rect.unit (s := S16384x64) (k0_off68 L k) S256x64.size (k0_off68_inb L k)).shape,
          ReadAs.same.apply ((sR0).view.read (Elt F) (stage s0 tb k.val))⟩] i
      = tb (ix2 (Cert.Spec.rowOf (wi (ix1 (i 0 : Fin 16384)))) (i 1 : Fin 64)) := by
  refine Eq.trans ?_ (out_vals L s0 tb wi hs0 k fd i hi)
  obtain ⟨x, -, rfl⟩ := Finset.mem_map.mp hi
  rw [View.write_emb_of_mem _ _ (Finset.mem_univ _)]
  exact writes_whole_emb _ _ _ _

/-- The same with the chunk's written contents stated as a one-entry list of writes. -/
theorem out_vals_w1 (s0 : S512.Idx → BitVec 32) (tb : S1000002x64.Idx → Elt F .f32) (wi : S16384.Idx → BitVec 32)
    (hs0 : ∀ j : Fin 512, s0 (ix1 j) = wi (ix1 (⟨1024 * (L 1).val + 512 * (L 0).val + j.val, tile_row_lt L j⟩ : Fin 16384)))
    (k : Fin k0_t1_loop.trips) (fd : S16384x64.Idx → Elt F .f32) (i : S16384x64.Idx)
    (hi : i ∈ ((aO1).slice (Rect.unit (s := S16384x64) (k0_off68 L k) S256x64.size (k0_off68_inb L k)) (fun _ => rfl)).view.set) :
    ((aO1).slice (Rect.unit (s := S16384x64) (k0_off68 L k) S256x64.size (k0_off68_inb L k)) (fun _ => rfl)).view.writes (Elt F) fd
        [⟨Rect.whole (Rect.unit (s := S16384x64) (k0_off68 L k) S256x64.size (k0_off68_inb L k)).shape,
          ReadAs.same.apply ((sR1).view.read (Elt F) (stage s0 tb k.val))⟩] i
      = tb (ix2 (Cert.Spec.rowOf (wi (ix1 (i 0 : Fin 16384)))) (i 1 : Fin 64)) := by
  refine Eq.trans ?_ (out_vals1 L s0 tb wi hs0 k fd i hi)
  obtain ⟨x, -, rfl⟩ := Finset.mem_map.mp hi
  rw [View.write_emb_of_mem _ _ (Finset.mem_univ _)]
  exact writes_whole_emb _ _ _ _

end Cert.Proof.KI

end
-- ==== Proof.TileOut.lean ====
/-
  One write through the whole of a view is the unmasked write; and a tile's chunk of a result after that one write of
  the staging buffer's contents, the list's rectangle spelt at the staging buffer's shape.
-/
import proofs.«207591_g3891240370478_cont_8to1_b_1686_26_alg».proof.Proof.TileRowsW
import Idealize.ShloMosaic.Lib.Writes
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.KernelIdeal.main_v1_scv : Memref Cert.KernelIdeal.sig Kind.scVector Space.hbm Cert.KernelIdeal.S16384 EltTy.i32)
local notation "aV3" => (Memref.whole Cert.KernelIdeal.main_v3_scv : Memref Cert.KernelIdeal.sig Kind.scVector Space.hbm Cert.KernelIdeal.S16384 EltTy.i32)
local notation "aT1" => (Memref.whole Cert.KernelIdeal.main_arg1_scv : Memref Cert.KernelIdeal.sig Kind.scVector Space.hbm Cert.KernelIdeal.S1000002x64 EltTy.f32)
local notation "aT2" => (Memref.whole Cert.KernelIdeal.main_arg2_scv : Memref Cert.KernelIdeal.sig Kind.scVector Space.hbm Cert.KernelIdeal.S1000002x64 EltTy.f32)
local notation "aO0" => (Memref.whole Cert.KernelIdeal.main_v4_0_scv : Memref Cert.KernelIdeal.sig Kind.scVector Space.hbm Cert.KernelIdeal.S16384x64 EltTy.f32)
local notation "aO1" => (Memref.whole Cert.KernelIdeal.main_v4_1_scv : Memref Cert.KernelIdeal.sig Kind.scVector Space.hbm Cert.KernelIdeal.S16384x64 EltTy.f32)
local notation "sI0" => (Memref.whole Cert.KernelIdeal.cc0_scratch0 : Memref Cert.KernelIdeal.sig Kind.scVector Space.vmem Cert.KernelIdeal.S512 EltTy.i32)
local notation "sI1" => (Memref.whole Cert.KernelIdeal.cc0_scratch1 : Memref Cert.KernelIdeal.sig Kind.scVector Space.vmem Cert.KernelIdeal.S512 EltTy.i32)
local notation "sR0" => (Memref.whole Cert.KernelIdeal.cc0_scratch2 : Memref Cert.KernelIdeal.sig Kind.scVector Space.vmem Cert.KernelIdeal.S256x64 EltTy.f32)
local notation "sR1" => (Memref.whole Cert.KernelIdeal.cc0_scratch3 : Memref Cert.KernelIdeal.sig Kind.scVector Space.vmem Cert.KernelIdeal.S256x64 EltTy.f32)

variable [FloatOps F] (d : Dev nD) (L : grid0.Coords)

/-! ## One write through the whole of a view is the unmasked write -/

section Generic
variable {sig' : RefSig} {κ : Kind} {sp : Space} {s : Shape} {e : EltTy} {Val : EltTy → Type}

theorem writes_whole_eq_write (v : View sig' κ sp s e) (f : v.ty.Contents Val) (w : s.Idx → Val e) :
    v.writes Val f [⟨Rect.whole s, w⟩] = v.write Val f w Finset.univ := by
  funext i
  by_cases hi : i ∈ v.set
  · obtain ⟨x, -, rfl⟩ := Finset.mem_map.mp hi
    rw [View.write_emb_of_mem _ _ (Finset.mem_univ _)]
    exact writes_whole_emb _ _ _ _
  · have h1 : i ∉ (v.slice (Rect.whole s)).setOn Finset.univ := by
      rw [View.setOn_univ, View.set_slice, Rect.set_whole]; exact hi
    have h2 : i ∉ v.setOn Finset.univ := by rwa [View.setOn_univ]
    rw [View.writes_singleton, View.write_of_not_mem _ _ _ h1, View.write_of_not_mem _ _ _ h2]

end Generic

/-! ## The result's chunk, the list's rectangle spelt at the staging buffer's shape -/

/-- On the chunk's own elements, the chunk after one write of the staging buffer's contents through its whole
    holds the table's row that the index vector's word of that result row names. -/
theorem out_vals_ws (s0 : S512.Idx → BitVec 32) (tb : S1000002x64.Idx → Elt F .f32) (wi : S16384.Idx → BitVec 32)
    (hs0 : ∀ j : Fin 512, s0 (ix1 j) = wi (ix1 (⟨1024 * (L 1).val + 512 * (L 0).val + j.val, tile_row_lt L j⟩ : Fin 16384)))
    (k : Fin k0_t1_loop.trips) (fd : S16384x64.Idx → Elt F .f32) (i : S16384x64.Idx)
    (hi : i ∈ ((aO0).slice (Rect.unit (s := S16384x64) (k0_off68 L k) S256x64.size (k0_off68_inb L k)) (fun _ => rfl)).view.set) :
    ((aO0).slice (Rect.unit (s := S16384x64) (k0_off68 L k) S256x64.size (k0_off68_inb L k)) (fun _ => rfl)).view.writes (Elt F) fd
        [⟨Rect.whole S256x64, ReadAs.same.apply ((sR0).view.read (Elt F) (stage s0 tb k.val))⟩] i
      = tb (ix2 (Cert.Spec.rowOf (wi (ix1 (i 0 : Fin 16384)))) (i 1 : Fin 64)) :=
  out_vals_w L s0 tb wi hs0 k fd i hi

/-- On the chunk's own elements, the chunk after one write of the staging buffer's contents through its whole
    holds the table's row that the index vector's word of that result row names. -/
theorem out_vals_ws1 (s0 : S512.Idx → BitVec 32) (tb : S1000002x64.Idx → Elt F .f32) (wi : S16384.Idx → BitVec 32)
    (hs0 : ∀ j : Fin 512, s0 (ix1 j) = wi (ix1 (⟨1024 * (L 1).val + 512 * (L 0).val + j.val, tile_row_lt L j⟩ : Fin 16384)))
    (k : Fin k0_t1_loop.trips) (fd : S16384x64.Idx → Elt F .f32) (i : S16384x64.Idx)
    (hi : i ∈ ((aO1).slice (Rect.unit (s := S16384x64) (k0_off68 L k) S256x64.size (k0_off68_inb L k)) (fun _ => rfl)).view.set) :
    ((aO1).slice (Rect.unit (s := S16384x64) (k0_off68 L k) S256x64.size (k0_off68_inb L k)) (fun _ => rfl)).view.writes (Elt F) fd
        [⟨Rect.whole S256x64, ReadAs.same.apply ((sR1).view.read (Elt F) (stage s0 tb k.val))⟩] i
      = tb (ix2 (Cert.Spec.rowOf (wi (ix1 (i 0 : Fin 16384)))) (i 1 : Fin 64)) :=
  out_vals_w1 L s0 tb wi hs0 k fd i hi

end Cert.Proof.KI

end
-- ==== Proof.TileBody.lean ====
/-
  A tile's body: the two fetches of the tile's 512 index words, then the loop over its two chunks of 256 rows. The
  loop's invariant: before chunk k the tables are held at some share, the index scratches hold the tile's words, the
  staging buffers hold anything, the parts of the results from chunk k on are as launched and those before chunk k
  are at the looked-up rows. One chunk's step (the issue and drain loops and the two copies out) keeps it; after the
  last chunk both results' parts are at the looked-up rows. The issue loop's step is taken as a hypothesis.
-/
import proofs.«207591_g3891240370478_cont_8to1_b_1686_26_alg».proof.Proof.TileChunk
import proofs.«207591_g3891240370478_cont_8to1_b_1686_26_alg».proof.Proof.TileOut
import Idealize.ShloMosaic.Lib.Writes
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.KernelIdeal.main_v1_scv : Memref Cert.KernelIdeal.sig Kind.scVector Space.hbm Cert.KernelIdeal.S16384 EltTy.i32)
local notation "aV3" => (Memref.whole Cert.KernelIdeal.main_v3_scv : Memref Cert.KernelIdeal.sig Kind.scVector Space.hbm Cert.KernelIdeal.S16384 EltTy.i32)
local notation "aT1" => (Memref.whole Cert.KernelIdeal.main_arg1_scv : Memref Cert.KernelIdeal.sig Kind.scVector Space.hbm Cert.KernelIdeal.S1000002x64 EltTy.f32)
local notation "aT2" => (Memref.whole Cert.KernelIdeal.main_arg2_scv : Memref Cert.KernelIdeal.sig Kind.scVector Space.hbm Cert.KernelIdeal.S1000002x64 EltTy.f32)
local notation "aO0" => (Memref.whole Cert.KernelIdeal.main_v4_0_scv : Memref Cert.KernelIdeal.sig Kind.scVector Space.hbm Cert.KernelIdeal.S16384x64 EltTy.f32)
local notation "aO1" => (Memref.whole Cert.KernelIdeal.main_v4_1_scv : Memref Cert.KernelIdeal.sig Kind.scVector Space.hbm Cert.KernelIdeal.S16384x64 EltTy.f32)
local notation "sI0" => (Memref.whole Cert.KernelIdeal.cc0_scratch0 : Memref Cert.KernelIdeal.sig Kind.scVector Space.vmem Cert.KernelIdeal.S512 EltTy.i32)
local notation "sI1" => (Memref.whole Cert.KernelIdeal.cc0_scratch1 : Memref Cert.KernelIdeal.sig Kind.scVector Space.vmem Cert.KernelIdeal.S512 EltTy.i32)
local notation "sR0" => (Memref.whole Cert.KernelIdeal.cc0_scratch2 : Memref Cert.KernelIdeal.sig Kind.scVector Space.vmem Cert.KernelIdeal.S256x64 EltTy.f32)
local notation "sR1" => (Memref.whole Cert.KernelIdeal.cc0_scratch3 : Memref Cert.KernelIdeal.sig Kind.scVector Space.vmem Cert.KernelIdeal.S256x64 EltTy.f32)

variable (m : (ℓ : Loc nD τ sig) → Buf (Elt F) ℓ)

variable [FloatOps F] (d : Dev nD) (L : grid0.Coords)

/-! ## The tile's index words, and its parts of the results -/

/-- The tile's 512 index words of column 0, as the fetch leaves them in the first index scratch; and of column 1. -/
def S0 : S512.Idx → BitVec 32 :=
  ReadAs.same.apply (((aV1).slice (Rect.unit (s := S16384) (k0_off1 L) S512.size (k0_off1_inb L)) (fun _ => rfl)).view.read (Elt F) (W1 m d))
def S1 : S512.Idx → BitVec 32 :=
  ReadAs.same.apply (((aV3).slice (Rect.unit (s := S16384) (k0_off1 L) S512.size (k0_off1_inb L)) (fun _ => rfl)).view.read (Elt F) (W3 m d))

theorem S0_at (j : Fin 512) : S0 m d L (ix1 j) = W1 m d (ix1 (⟨1024 * (L 1).val + 512 * (L 0).val + j.val, tile_row_lt L j⟩ : Fin 16384)) :=
  fetched (F := F) L (W1 m d) j
theorem S1_at (j : Fin 512) : S1 m d L (ix1 j) = W3 m d (ix1 (⟨1024 * (L 1).val + 512 * (L 0).val + j.val, tile_row_lt L j⟩ : Fin 16384)) :=
  fetched3 (F := F) L (W3 m d) j

/-- Chunk `k`'s part of a result, in the launch's spelling and in the body's. -/
theorem part0_pts (k : Fin k0_t1_loop.trips) (hk : k.val < 2) (f : S16384x64.Idx → Elt F .f32) :
    ((o0Loc d ↦[partSet (pj (cF L) (iF L) ⟨k.val, hk⟩)]{fullShare} f) : sProp 𝕄)
      = ((oPart0 L k).view.loc (thr d L) ↦[(oPart0 L k).view.set]{fullShare} f) := by
  unfold oPart0
  rw [out_set L k hk]
theorem part1_pts (k : Fin k0_t1_loop.trips) (hk : k.val < 2) (f : S16384x64.Idx → Elt F .f32) :
    ((o1Loc d ↦[partSet (pj (cF L) (iF L) ⟨k.val, hk⟩)]{fullShare} f) : sProp 𝕄)
      = ((oPart1 L k).view.loc (thr d L) ↦[(oPart1 L k).view.set]{fullShare} f) := by
  unfold oPart1
  rw [out_set1 L k hk]

/-- Chunk `k`'s part after the chunk's copy out holds the result's looked-up rows. -/
theorem part0_done (k : Fin k0_t1_loop.trips) (hk : k.val < 2) (fo : S16384x64.Idx → Elt F .f32) :
    ((oPart0 L k).view.loc (thr d L) ↦[(oPart0 L k).view.set]{fullShare}
        (oPart0 L k).view.writes (Elt F) fo [⟨Rect.whole S256x64, ReadAs.same.apply ((sR0).view.read (Elt F) (stage (S0 m d L) (T1 m d) k.val))⟩] : sProp 𝕄)
      = (o0Loc d ↦[partSet (pj (cF L) (iF L) ⟨k.val, hk⟩)]{fullShare} G0 m d) := by
  rw [part0_pts d L k hk]
  refine pointsTo_congr fun i hi => ?_
  exact out_vals_ws L (S0 m d L) (T1 m d) (W1 m d) (S0_at m d L) k fo i hi
theorem part1_done (k : Fin k0_t1_loop.trips) (hk : k.val < 2) (fo : S16384x64.Idx → Elt F .f32) :
    ((oPart1 L k).view.loc (thr d L) ↦[(oPart1 L k).view.set]{fullShare}
        (oPart1 L k).view.writes (Elt F) fo [⟨Rect.whole S256x64, ReadAs.same.apply ((sR1).view.read (Elt F) (stage (S1 m d L) (T2 m d) k.val))⟩] : sProp 𝕄)
      = (o1Loc d ↦[partSet (pj (cF L) (iF L) ⟨k.val, hk⟩)]{fullShare} G1 m d) := by
  rw [part1_pts d L k hk]
  refine pointsTo_congr fun i hi => ?_
  exact out_vals_ws1 L (S1 m d L) (T2 m d) (W3 m d) (S1_at m d L) k fo i hi

/-! ## The loop over the two chunks -/

section Loop
variable (O : CellTallies nD τ sig (HIx 1)) (W : Waits sig (HIx 1))

/-- What one chunk takes, and what it leaves (the chunk's step, its statement named). -/
def chunkPre (k : Fin k0_t1_loop.trips) (q1 q2 : PosShare TreeShare) (f2 f3 : S256x64.Idx → Elt F .f32) (fo0 fo1 : S16384x64.Idx → Elt F .f32) : sProp 𝕄 :=
  iprop(Transfers.MayWaits (thr d L) (none : HIx 1) O
        ∗ ((aT1).view.loc (thr d L) ↦{q1} T1 m d) ∗ ((aT2).view.loc (thr d L) ↦{q2} T2 m d)
        ∗ ((sI0).view.loc (thr d L) ↦{fullShare} S0 m d L) ∗ ((sI1).view.loc (thr d L) ↦{fullShare} S1 m d L)
        ∗ ((sR0).view.loc (thr d L) ↦{fullShare} f2) ∗ ((sR1).view.loc (thr d L) ↦{fullShare} f3)
        ∗ semVal (cellOf d L cc0_scratch4) 0 ∗ semVal (cellOf d L cc0_scratch5) 0
        ∗ semVal (cellOf d L cc0_scoped2) 0 ∗ semVal (cellOf d L cc0_scoped3) 0
        ∗ ((oPart0 L k).view.loc (thr d L) ↦[(oPart0 L k).view.set]{fullShare} fo0)
        ∗ ((oPart1 L k).view.loc (thr d L) ↦[(oPart1 L k).view.set]{fullShare} fo1)
        ∗ ∃ W', ⌜∀ p ∈ W', p ∈ W ∨ p.2 = none⌝ ∗ owes (thr d L) O W')
def chunkPost (k : Fin k0_t1_loop.trips) (q1 q2 : PosShare TreeShare) (fo0 fo1 : S16384x64.Idx → Elt F .f32) : sProp 𝕄 :=
  iprop(Transfers.MayWaits (thr d L) (none : HIx 1) O
        ∗ ((aT1).view.loc (thr d L) ↦{shareDrop q1 256} T1 m d) ∗ ((aT2).view.loc (thr d L) ↦{shareDrop q2 256} T2 m d)
        ∗ ((sI0).view.loc (thr d L) ↦{fullShare} S0 m d L) ∗ ((sI1).view.loc (thr d L) ↦{fullShare} S1 m d L)
        ∗ ((sR0).view.loc (thr d L) ↦{fullShare} stage (S0 m d L) (T1 m d) k.val) ∗ ((sR1).view.loc (thr d L) ↦{fullShare} stage (S1 m d L) (T2 m d) k.val)
        ∗ semVal (cellOf d L cc0_scratch4) 0 ∗ semVal (cellOf d L cc0_scratch5) 0
        ∗ semVal (cellOf d L cc0_scoped2) 0 ∗ semVal (cellOf d L cc0_scoped3) 0
        ∗ ((oPart0 L k).view.loc (thr d L) ↦[(oPart0 L k).view.set]{fullShare} (oPart0 L k).view.writes (Elt F) fo0 [⟨Rect.whole S256x64, ReadAs.same.apply ((sR0).view.read (Elt F) (stage (S0 m d L) (T1 m d) k.val))⟩])
        ∗ ((oPart1 L k).view.loc (thr d L) ↦[(oPart1 L k).view.set]{fullShare} (oPart1 L k).view.writes (Elt F) fo1 [⟨Rect.whole S256x64, ReadAs.same.apply ((sR1).view.read (Elt F) (stage (S1 m d L) (T2 m d) k.val))⟩])
        ∗ ∃ W', ⌜∀ p ∈ W', p ∈ W ∨ p.2 = none⌝ ∗ owes (thr d L) O W')

/-- The parts of the chunks still to do, at the launch contents; and of the chunks done, at the looked-up rows. -/
def todoParts (k : ℕ) : sProp 𝕄 := bigSep (Ring.rangeSet 2 k 2) (fun j => outs d (pj (cF L) (iF L) j) (m (o0Loc d)) (m (o1Loc d)))
def doneParts (k : ℕ) : sProp 𝕄 := bigSep (Ring.rangeSet 2 0 k) (fun j => outs d (pj (cF L) (iF L) j) (G0 m d) (G1 m d))

/-- Before chunk `k`: the tables at some share, the index scratches at the tile's words, the staging buffers at some
    contents, the four semaphores at zero, the parts of the chunks from `k` on as launched and of the chunks before `k`
    at the looked-up rows. -/
def outerInv (k : ℕ) (_ : BitVec 32) : sProp 𝕄 :=
  iprop(Transfers.MayWaits (thr d L) (none : HIx 1) O
    ∗ (∃ q1 : PosShare TreeShare, (aT1).view.loc (thr d L) ↦{q1} T1 m d) ∗ (∃ q2 : PosShare TreeShare, (aT2).view.loc (thr d L) ↦{q2} T2 m d)
    ∗ ((sI0).view.loc (thr d L) ↦{fullShare} S0 m d L) ∗ ((sI1).view.loc (thr d L) ↦{fullShare} S1 m d L)
    ∗ (∃ f2 : S256x64.Idx → Elt F .f32, (sR0).view.loc (thr d L) ↦{fullShare} f2) ∗ (∃ f3 : S256x64.Idx → Elt F .f32, (sR1).view.loc (thr d L) ↦{fullShare} f3)
    ∗ semVal (cellOf d L cc0_scratch4) 0 ∗ semVal (cellOf d L cc0_scratch5) 0
    ∗ semVal (cellOf d L cc0_scoped2) 0 ∗ semVal (cellOf d L cc0_scoped3) 0
    ∗ todoParts m d L k ∗ doneParts m d L k
    ∗ ∃ W', ⌜∀ p ∈ W', p ∈ W ∨ p.2 = none⌝ ∗ owes (thr d L) O W')

theorem todo_head (k : ℕ) (hk : k < 2) :
    todoParts (F := F) m d L k = iprop(outs d (pj (cF L) (iF L) ⟨k, hk⟩) (m (o0Loc d)) (m (o1Loc d)) ∗ todoParts m d L (k + 1)) := by
  unfold todoParts; exact Ring.bigSep_rangeSet_head hk hk
theorem done_last (k : ℕ) (hk : k < 2) :
    doneParts (F := F) m d L (k + 1) = iprop(outs d (pj (cF L) (iF L) ⟨k, hk⟩) (G0 m d) (G1 m d) ∗ doneParts m d L k) := by
  unfold doneParts
  exact Ring.bigSep_rangeSet_last (NB := 2) (lo := 0) (hi := k + 1) (by omega) (by omega)

/-- After a chunk's step, with the other chunks' parts beside it, the invariant holds at the next chunk. -/
theorem outer_close (k : Fin k0_t1_loop.trips) (hk : k.val < 2) (q1 q2 : PosShare TreeShare) (acc : BitVec 32) :
    iprop(chunkPost m d L O W k q1 q2 (m (o0Loc d)) (m (o1Loc d)) ∗ (todoParts m d L (k.val + 1) ∗ doneParts m d L k.val))
      ⊢ outerInv m d L O W (k.val + 1) acc := by
  unfold chunkPost outerInv
  rw [done_last m d L k.val hk, part0_done m d L k hk, part1_done m d L k hk]
  unfold outs
  iintro ⟨⟨Hmw, Ht1, Ht2, Hs0, Hs1, Hr0, Hr1, Hc4, Hc5, Hd2, Hd3, Ho0, Ho1, HW⟩, Htodo, Hdone⟩
  isplitl [Hmw]; · iexact Hmw
  isplitl [Ht1]; · iexists (shareDrop q1 256); iexact Ht1
  isplitl [Ht2]; · iexists (shareDrop q2 256); iexact Ht2
  isplitl [Hs0]; · iexact Hs0
  isplitl [Hs1]; · iexact Hs1
  isplitl [Hr0]; · iexists (stage (S0 m d L) (T1 m d) k.val); iexact Hr0
  isplitl [Hr1]; · iexists (stage (S1 m d L) (T2 m d) k.val); iexact Hr1
  isplitl [Hc4]; · iexact Hc4
  isplitl [Hc5]; · iexact Hc5
  isplitl [Hd2]; · iexact Hd2
  isplitl [Hd3]; · iexact Hd3
  isplitl [Htodo]; · iexact Htodo
  isplitl [Ho0 Ho1 Hdone]
  · isplitl [Ho0 Ho1]
    · isplitl [Ho0]; · iexact Ho0
      iexact Ho1
    · iexact Hdone
  iexact HW

end Loop

section Loop2
variable (O : CellTallies nD τ sig (HIx 1)) (W : Waits sig (HIx 1))

/-- Before chunk `k` the invariant holds what the chunk's step takes, with the other chunks' parts beside it. -/
theorem outer_open (k : Fin k0_t1_loop.trips) (hk : k.val < 2) (acc : BitVec 32) :
    outerInv m d L O W k.val acc
      ⊢ iprop(∃ (q1 q2 : PosShare TreeShare) (f2 f3 : S256x64.Idx → Elt F .f32),
          chunkPre m d L O W k q1 q2 f2 f3 (m (o0Loc d)) (m (o1Loc d)) ∗ (todoParts m d L (k.val + 1) ∗ doneParts m d L k.val)) := by
  unfold outerInv chunkPre
  rw [todo_head m d L k.val hk]
  unfold outs
  iintro ⟨Hmw, ⟨%q1, Ht1⟩, ⟨%q2, Ht2⟩, Hs0, Hs1, ⟨%f2, Hr0⟩, ⟨%f3, Hr1⟩, Hc4, Hc5, Hd2, Hd3, ⟨⟨Hp0, Hp1⟩, Htodo⟩, Hdone, HW⟩
  ihave Ho0 := (Entails.of_eq (part0_pts (F := F) d L k hk _)) $$ Hp0
  ihave Ho1 := (Entails.of_eq (part1_pts (F := F) d L k hk _)) $$ Hp1
  iexists q1; iexists q2; iexists f2; iexists f3
  isplitr [Htodo Hdone]
  · isplitl [Hmw]; · iexact Hmw
    isplitl [Ht1]; · iexact Ht1
    isplitl [Ht2]; · iexact Ht2
    isplitl [Hs0]; · iexact Hs0
    isplitl [Hs1]; · iexact Hs1
    isplitl [Hr0]; · iexact Hr0
    isplitl [Hr1]; · iexact Hr1
    isplitl [Hc4]; · iexact Hc4
    isplitl [Hc5]; · iexact Hc5
    isplitl [Hd2]; · iexact Hd2
    isplitl [Hd3]; · iexact Hd3
    isplitl [Ho0]; · iexact Ho0
    isplitl [Ho1]; · iexact Ho1
    iexact HW
  · isplitl [Htodo]; · iexact Htodo
    iexact Hdone

/-- One trip of the loop over the chunks keeps the invariant. -/
theorem outer_step [∀ e, Nonempty (Elt F e)]
    (hfire : ∀ (k : Fin k0_t1_loop.trips) (g : Fin k0_t2_loop.trips) (acc : BitVec 32) (q1 q2 : PosShare TreeShare) (f2 f3 : S256x64.Idx → Elt F .f32),
      fireInv d L (S0 m d L) (S1 m d L) (T1 m d) (T2 m d) k.val q1 q2 f2 f3 g.val acc
        ⊢ wp frame (wpE (defs₀ (F := F)) 𝒱₀ (thr d L) none) Set.univ
            (k0_t2_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k (Scf.iv 0#32 1#32 k) g acc)
            (fireInv d L (S0 m d L) (S1 m d L) (T1 m d) (T2 m d) k.val q1 q2 f2 f3 (g.val + 1)))
    (k : Fin k0_t1_loop.trips) (acc : BitVec 32) :
    outerInv m d L O W k.val acc
      ⊢ wp frame (wpE (defs₀ (F := F)) 𝒱₀ (thr d L) none) Set.univ
          (k0_t1_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k acc)
          (outerInv m d L O W (k.val + 1)) := by
  have hk := k_lt k
  refine (outer_open m d L O W k hk acc).trans ?_
  refine exists_elim fun q1 => exists_elim fun q2 => exists_elim fun f2 => exists_elim fun f3 => ?_
  have hstep : chunkPre m d L O W k q1 q2 f2 f3 (m (o0Loc d)) (m (o1Loc d))
      ⊢ wp frame (wpE (defs₀ (F := F)) 𝒱₀ (thr d L) none) Set.univ
          (k0_t1_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k acc)
          (fun _ => chunkPost m d L O W k q1 q2 (m (o0Loc d)) (m (o1Loc d))) := by
    unfold chunkPre chunkPost
    exact chunk_step d L (S0 m d L) (S1 m d L) (T1 m d) (T2 m d) hfire (stage_rows d L) (stage_rows1 d L) O W k acc q1 q2 f2 f3
      (m (o0Loc d)) (m (o1Loc d))
  exact (sep_mono hstep .rfl).trans ((wp_frame_r frame _ _).trans (wp_mono frame _ _ fun a => outer_close m d L O W k hk q1 q2 a))

end Loop2

section Loop3
variable (O : CellTallies nD τ sig (HIx 1)) (W : Waits sig (HIx 1))

/-- After the last chunk both results' parts are at the looked-up rows. -/
theorem outer_exit (acc : BitVec 32) :
    outerInv m d L O W (Scf.trips k0_t1_loop.lb k0_t1_loop.ub k0_t1_loop.st) acc
      ⊢ iprop(tdP m d (cF L) (iF L)
          ∗ ((sI0).view.loc (thr d L) ↦{fullShare} S0 m d L) ∗ ((sI1).view.loc (thr d L) ↦{fullShare} S1 m d L)
          ∗ (∃ f2 : S256x64.Idx → Elt F .f32, (sR0).view.loc (thr d L) ↦{fullShare} f2) ∗ (∃ f3 : S256x64.Idx → Elt F .f32, (sR1).view.loc (thr d L) ↦{fullShare} f3)
          ∗ semVal (cellOf d L cc0_scratch4) 0 ∗ semVal (cellOf d L cc0_scratch5) 0
          ∗ semVal (cellOf d L cc0_scoped2) 0 ∗ semVal (cellOf d L cc0_scoped3) 0
          ∗ ∃ W', ⌜∀ p ∈ W', p ∈ W ∨ p.2 = none⌝ ∗ owes (thr d L) O W') := by
  rw [show Scf.trips k0_t1_loop.lb k0_t1_loop.ub k0_t1_loop.st = 2 from by decide]
  unfold outerInv todoParts doneParts tdP
  rw [Ring.rangeSet_univ]
  iintro ⟨-, -, -, Hs0, Hs1, Hr0, Hr1, Hc4, Hc5, Hd2, Hd3, -, Hdone, HW⟩
  isplitl [Hdone]; · iexact Hdone
  isplitl [Hs0]; · iexact Hs0
  isplitl [Hs1]; · iexact Hs1
  isplitl [Hr0]; · iexact Hr0
  isplitl [Hr1]; · iexact Hr1
  isplitl [Hc4]; · iexact Hc4
  isplitl [Hc5]; · iexact Hc5
  isplitl [Hd2]; · iexact Hd2
  isplitl [Hd3]; · iexact Hd3
  iexact HW

end Loop3

/-! ## The tile's body -/

theorem tile_body [∀ e, Nonempty (Elt F e)]
    (hfire : ∀ (k : Fin k0_t1_loop.trips) (g : Fin k0_t2_loop.trips) (acc : BitVec 32) (q1 q2 : PosShare TreeShare) (f2 f3 : S256x64.Idx → Elt F .f32),
      fireInv d L (S0 m d L) (S1 m d L) (T1 m d) (T2 m d) k.val q1 q2 f2 f3 g.val acc
        ⊢ wp frame (wpE (defs₀ (F := F)) 𝒱₀ (thr d L) none) Set.univ
            (k0_t2_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k (Scf.iv 0#32 1#32 k) g acc)
            (fireInv d L (S0 m d L) (S1 m d L) (T1 m d) (T2 m d) k.val q1 q2 f2 f3 (g.val + 1)))
    (hF : (K (F := F)).Facts) (hpre : PreOK m) (O : CellTallies nD τ sig (HIx 1)) (W : Waits sig (HIx 1)) (hO : ∀ g, O g none = 0) :
    iprop(levAts (K (F := F)).L (K (F := F)).lev ∗ emp ∗ goP m d (cF L) (iF L)
        ∗ scopedBufs (thr d L) ∗ scopedSems0 (thr d L) ∗ owes (thr d L) O W)
      ⊢ wp frame (wpE (defs₀ (F := F)) 𝒱₀ (thr d L) none) Set.univ
          (cc0__dual_gather L aV1 (Memref.isWhole_whole _) aV3 (Memref.isWhole_whole _) aT1 (Memref.isWhole_whole _) aT2 (Memref.isWhole_whole _)
            aO0 (Memref.isWhole_whole _) aO1 (Memref.isWhole_whole _) sI0 (Memref.isWhole_whole _) sI1 (Memref.isWhole_whole _)
            sR0 (Memref.isWhole_whole _) sR1 (Memref.isWhole_whole _) cc0_scratch4 cc0_scratch5 cc0_scoped0 cc0_scoped1 cc0_scoped2 cc0_scoped3)
          fun _ => iprop(tdP m d (cF L) (iF L) ∗ scopedBufs (thr d L) ∗ scopedSems0 (thr d L)
            ∗ ∃ W', ⌜∀ p ∈ W', p ∈ W ∨ p.2 = none⌝ ∗ owes (thr d L) O W') := by
  simp only [cc0__dual_gather_eq_skeleton]; unfold cc0__dual_gather_skel
  rw [(K (F := F)).scopedBufs_V hF d (cV L) (jV L), SparseCore.Cfg.scopedSems0_V (Val := Elt F) d (cV L) (jV L), ownSems0_V, ownBufs_V]
  unfold goP reads
  iintro ⟨#Hlv, -, ⟨⟨Hv1, Hv3, Ht1, Ht2⟩, Houts⟩, ⟨⟨%f0, Hs0⟩, ⟨%f1, Hs1⟩, ⟨%f2, Hs2⟩, ⟨%f3, Hs3⟩, Hbufs⟩, ⟨Hc4, Hc5, Hd0, Hd1, Hd2, Hd3, Hsems⟩, HO⟩
  ihave Hmw := ((K (F := F)).mayWaits_none (thr := thr d L) hO) $$ Hlv
  ihave Hv1' := (Entails.of_eq (pts_v1 (F := F) d L _ _).symm) $$ Hv1
  ihave Hv3' := (Entails.of_eq (pts_v3 (F := F) d L _ _).symm) $$ Hv3
  ihave Ht1' := (Entails.of_eq (pts_t1 (F := F) d L _ _).symm) $$ Ht1
  ihave Ht2' := (Entails.of_eq (pts_t2 (F := F) d L _ _).symm) $$ Ht2
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  sl_exec
  sl_unfold_run_names
  rw [View.write_whole_univ, View.write_whole_univ]
  -- the loop over the two chunks
  sl_for (outerInv m d L O W) $$ [Ht1' Ht2' Hs0' Hs1' Hs2' Hs3' Hc4 Hc5 Hd2 Hd3 Houts HO]
  · intro k acc; exact outer_step m d L O W hfire k acc
  · unfold outerInv todoParts doneParts S0 S1
    rw [Ring.rangeSet_univ, Ring.bigSep_rangeSet_empty (le_refl 0)]
    isplitr; · iexact Hmw
    isplitl [Ht1']; · iexists (qTile (cF L).val (iF L).val); iexact Ht1'
    isplitl [Ht2']; · iexists (qTile (cF L).val (iF L).val); iexact Ht2'
    isplitl [Hs0']; · iexact Hs0'
    isplitl [Hs1']; · iexact Hs1'
    isplitl [Hs2']; · iexists f2; iexact Hs2'
    isplitl [Hs3']; · iexists f3; iexact Hs3'
    isplitl [Hc4]; · iexact Hc4
    isplitl [Hc5]; · iexact Hc5
    isplitl [Hd2]; · iexact Hd2
    isplitl [Hd3]; · iexact Hd3
    isplitl [Houts]; · iexact Houts
    isplitr; · iempintro
    iexists (insert (SemLoc.dma cc0_scoped1.sem, (none : HIx 1)) (insert (SemLoc.dma cc0_scoped0.sem, (none : HIx 1)) W)); isplitr
    · ipureintro; exact waits_insert (waits_insert (fun p hp => Or.inl hp) _) _
    · iexact HO
  iintro %acc HI
  ihave HI' := (outer_exit m d L O W acc) $$ HI
  icases HI' with ⟨Htd, Hs0, Hs1, ⟨%g2, Hr0⟩, ⟨%g3, Hr1⟩, Hc4, Hc5, Hd2, Hd3, ⟨%W2, %hW2, HO⟩⟩
  iclear Hv1'
  iclear Hv3'
  sl_exec
  sl_step
  isplitl [Htd]; · iexact Htd
  isplitl [Hs0 Hs1 Hr0 Hr1 Hbufs]
  · isplitl [Hs0]; · iexists (S0 m d L); iexact Hs0
    isplitl [Hs1]; · iexists (S1 m d L); iexact Hs1
    isplitl [Hr0]; · iexists g2; iexact Hr0
    isplitl [Hr1]; · iexists g3; iexact Hr1
    iexact Hbufs
  isplitl [Hc4 Hc5 Hd0 Hd1 Hd2 Hd3 Hsems]
  · isplitl [Hc4]; · iexact Hc4
    isplitl [Hc5]; · iexact Hc5
    isplitl [Hd0]; · iexact Hd0
    isplitl [Hd1]; · iexact Hd1
    isplitl [Hd2]; · iexact Hd2
    isplitl [Hd3]; · iexact Hd3
    iexact Hsems
  iexists W2; isplitr
  · ipureintro; exact hW2
  · iexact HO

end Cert.Proof.KI

end
-- ==== Proof.TileAsm.lean ====
import proofs.«207591_g3891240370478_cont_8to1_b_1686_26_alg».proof.Proof.TileObl
import proofs.«207591_g3891240370478_cont_8to1_b_1686_26_alg».proof.Proof.TileBody

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "aV1" => (Memref.whole Cert.KernelIdeal.main_v1_scv : Memref Cert.KernelIdeal.sig Kind.scVector Space.hbm Cert.KernelIdeal.S16384 EltTy.i32)
local notation "aV3" => (Memref.whole Cert.KernelIdeal.main_v3_scv : Memref Cert.KernelIdeal.sig Kind.scVector Space.hbm Cert.KernelIdeal.S16384 EltTy.i32)
local notation "aT1" => (Memref.whole Cert.KernelIdeal.main_arg1_scv : Memref Cert.KernelIdeal.sig Kind.scVector Space.hbm Cert.KernelIdeal.S1000002x64 EltTy.f32)
local notation "aT2" => (Memref.whole Cert.KernelIdeal.main_arg2_scv : Memref Cert.KernelIdeal.sig Kind.scVector Space.hbm Cert.KernelIdeal.S1000002x64 EltTy.f32)
local notation "aO0" => (Memref.whole Cert.KernelIdeal.main_v4_0_scv : Memref Cert.KernelIdeal.sig Kind.scVector Space.hbm Cert.KernelIdeal.S16384x64 EltTy.f32)
local notation "aO1" => (Memref.whole Cert.KernelIdeal.main_v4_1_scv : Memref Cert.KernelIdeal.sig Kind.scVector Space.hbm Cert.KernelIdeal.S16384x64 EltTy.f32)
local notation "sI0" => (Memref.whole Cert.KernelIdeal.cc0_scratch0 : Memref Cert.KernelIdeal.sig Kind.scVector Space.vmem Cert.KernelIdeal.S512 EltTy.i32)
local notation "sI1" => (Memref.whole Cert.KernelIdeal.cc0_scratch1 : Memref Cert.KernelIdeal.sig Kind.scVector Space.vmem Cert.KernelIdeal.S512 EltTy.i32)
local notation "sR0" => (Memref.whole Cert.KernelIdeal.cc0_scratch2 : Memref Cert.KernelIdeal.sig Kind.scVector Space.vmem Cert.KernelIdeal.S256x64 EltTy.f32)
local notation "sR1" => (Memref.whole Cert.KernelIdeal.cc0_scratch3 : Memref Cert.KernelIdeal.sig Kind.scVector Space.vmem Cert.KernelIdeal.S256x64 EltTy.f32)

variable [FloatOps F]

/-! ## The tiles' obligation, from one trip of the issue loop -/

/-- On the certificate's domain the index words a tile fetched name rows of the tables. -/
theorem S0_le (hpre : PreOK m) (d : Dev nD) (L : grid0.Coords) : ∀ j : S512.Idx, (S0 m d L j).toNat ≤ 999999 := by
  intro j
  have h := S0_at m d L (j 0 : Fin 512)
  have e : S0 m d L j = S0 m d L (ix1 (j 0 : Fin 512)) := congrArg _ (eq_ix1 j)
  rw [e, h]; exact (hpre d _).1
theorem S1_le (hpre : PreOK m) (d : Dev nD) (L : grid0.Coords) : ∀ j : S512.Idx, (S1 m d L j).toNat ≤ 999999 := by
  intro j
  have h := S1_at m d L (j 0 : Fin 512)
  have e : S1 m d L j = S1 m d L (ix1 (j 0 : Fin 512)) := congrArg _ (eq_ix1 j)
  rw [e, h]; exact (hpre d _).2

/-- The launch theorem's obligation for the kernel's tiles: the body at each tile's coordinates, its issue loop's trip
    taken at the words the tile fetched and the two tables. -/
theorem tileObl'_of [∀ e, Nonempty (Elt F e)]
    (fire_step : ∀ (d : Dev nD) (L : grid0.Coords) (s0 s1 : S512.Idx → BitVec 32) (tb1 tb2 : S1000002x64.Idx → Elt F .f32)
      (k : Fin k0_t1_loop.trips) (g : Fin k0_t2_loop.trips) (acc : BitVec 32) (q1 q2 : PosShare TreeShare) (f2 f3 : S256x64.Idx → Elt F .f32)
      (hs0 : ∀ j, (s0 j).toNat ≤ 999999) (hs1 : ∀ j, (s1 j).toNat ≤ 999999),
      fireInv d L s0 s1 tb1 tb2 k.val q1 q2 f2 f3 g.val acc
        ⊢ wp frame (wpE (defs₀ (F := F)) 𝒱₀ (thr d L) none) Set.univ
            (k0_t2_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k (Scf.iv 0#32 1#32 k) g acc)
            (fireInv d L s0 s1 tb1 tb2 k.val q1 q2 f2 f3 (g.val + 1)))
    (hF : (K (F := F)).Facts) (hpre : PreOK m) :
    (K (F := F)).TileObl (D (F := F)) 𝒱 (P m) v₀ 0 :=
  tileObl m (fun d L hF hpre O W hO =>
    tile_body m d L (fun k g acc q1 q2 f2 f3 =>
      fire_step d L (S0 m d L) (S1 m d L) (T1 m d) (T2 m d) k g acc q1 q2 f2 f3 (S0_le m hpre d L) (S1_le m hpre d L)) hF hpre O W hO) hF hpre

end Cert.Proof.KI

end
-- ==== Proof.Tile.lean ====
/-
  The tile's obligation of the launch theorem: the task of vector subcore `(c, i)` — the two index fetches, then for each
  of its two chunks the issue loop, the drain loop and the two write-outs — takes the task's read shares and its two
  parts of each result, and hands the parts back at the looked-up rows. The body's pieces are proved in the modules
  this one imports (one issue trip, one drain trip, one chunk, the whole body); here they are put together: the
  scratch's words are the tile's 512 words of the index vectors, each at most 999999 on the certificate's domain.
-/
import proofs.«207591_g3891240370478_cont_8to1_b_1686_26_alg».proof.Proof.TileFire
import proofs.«207591_g3891240370478_cont_8to1_b_1686_26_alg».proof.Proof.TileAsm

noncomputable section

namespace Cert.Proof.KI

open Cert.KernelIdeal Cert.KernelIdeal.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} (m : (ℓ : Loc nD τ sig) → Buf (Elt F) ℓ) [FloatOps F]

theorem tileOblFull [∀ e, Nonempty (Elt F e)] (hF : (K (F := F)).Facts) (hpre : PreOK m) :
    (K (F := F)).TileObl (D (F := F)) 𝒱 (P m) v₀ 0 :=
  tileObl'_of m (fun d L s0 s1 tb1 tb2 k g acc q1 q2 f2 f3 hs0 hs1 => fire_step d L s0 s1 tb1 tb2 k g acc q1 q2 f2 f3 hs0 hs1) hF hpre

end Cert.Proof.KI

end
-- ==== Proof.TileResB.lean ====
import proofs.«207591_g3891240370478_cont_8to1_b_1686_26_alg».proof.Proof.CommonB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

variable (m : (ℓ : Loc nD τ sig) → Buf (Elt F) ℓ)

/-! ## A tile's thread, its semaphores and its scratch -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev cellOf (d : Dev nD) (L : grid0.Coords) (s : DmaSems sig S_) : GSem nD τ sig := (thr d L, .dma s.sem)

theorem cell_ne (d : Dev nD) (L : grid0.Coords) {a b : DmaSems sig S_} (h : a.sem ≠ b.sem) : cellOf d L a ≠ cellOf d L b :=
  fun e => h (SemLoc.dma.inj (Prod.mk.inj e).2)

theorem cell_mem (d : Dev nD) (L : grid0.Coords) (s : DmaSems sig S_) (h : (SemLoc.dma s.sem : SemLoc sig).isScoped .scVector = true) :
    cellOf d L s ∈ ownCells (thr d L) := (mem_ownCells (g := cellOf d L s)).mpr ⟨rfl, h⟩

variable (d : Dev nD) (L : grid0.Coords)

/-- The tile's six DMA semaphores at zero, and its other scoped cells. -/
theorem ownSems0_V :
    (ownSems0 (thr d L) : sProp 𝕄)
      = iprop(semVal (cellOf d L cc0_scratch4) 0 ∗ semVal (cellOf d L cc0_scratch5) 0 ∗ semVal (cellOf d L cc0_scoped0) 0
          ∗ semVal (cellOf d L cc0_scoped1) 0 ∗ semVal (cellOf d L cc0_scoped2) 0 ∗ semVal (cellOf d L cc0_scoped3) 0
          ∗ bigSep (((((((ownCells (thr d L)).erase (cellOf d L cc0_scratch4)).erase (cellOf d L cc0_scratch5)).erase (cellOf d L cc0_scoped0)).erase (cellOf d L cc0_scoped1)).erase (cellOf d L cc0_scoped2)).erase (cellOf d L cc0_scoped3)) fun g => semVal g 0) := by
  unfold SparseCore.Cfg.ownSems0
  rw [SparseCore.bigSep_erase' (cell_mem d L cc0_scratch4 (by decide)),
    SparseCore.bigSep_erase' (Finset.mem_erase.mpr ⟨cell_ne d L (by decide), cell_mem d L cc0_scratch5 (by decide)⟩),
    SparseCore.bigSep_erase' (Finset.mem_erase.mpr ⟨cell_ne d L (by decide), Finset.mem_erase.mpr ⟨cell_ne d L (by decide), cell_mem d L cc0_scoped0 (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc0_scoped1 (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L cc0_scoped2 (by decide)⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide),
        cell_mem d L cc0_scoped3 (by decide)⟩⟩⟩⟩⟩)]

abbrev bufRef (b : Ref sig .scVector) : DevRef τ sig := (Proc.scVector (cV L) (jV L)).devRef b
theorem buf_ne {a b : Ref sig .scVector} (h : a ≠ b) : bufRef L a ≠ bufRef L b := fun e => h (Proc.devRef_injective _ e)
theorem buf_mem (b : Ref sig .scVector) (h : (bufRef L b).owner = Owner.proc (Proc.scVector (cV L) (jV L))) :
    bufRef L b ∈ ownRefs (τ := τ) (sig := sig) (.scVector (cV L) (jV L)) :=
  SparseCore.Cfg.mem_ownRefs_of_owner (p := Proc.scVector (cV L) (jV L)) (b := bufRef L b) h

/-- The tile's four scratch buffers at some contents, and its other buffers. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (bufRef L cc0_scratch0)).erase (bufRef L cc0_scratch1)).erase (bufRef L cc0_scratch2)).erase (bufRef L cc0_scratch3)) fun b => iprop(∃ f, ((d, b) : Loc nD τ sig) ↦{fullShare} f)) := by
  unfold SparseCore.Cfg.ownBufs
  refine (SparseCore.bigSep_erase' (buf_mem L cc0_scratch0 rfl)).trans ?_
  rw [SparseCore.bigSep_erase' (Finset.mem_erase.mpr ⟨buf_ne L (by decide), buf_mem L cc0_scratch1 rfl⟩),
    SparseCore.bigSep_erase' (Finset.mem_erase.mpr ⟨buf_ne L (by decide), Finset.mem_erase.mpr ⟨buf_ne L (by decide), buf_mem L cc0_scratch2 rfl⟩⟩),
    SparseCore.bigSep_erase' (Finset.mem_erase.mpr ⟨buf_ne L (by decide), Finset.mem_erase.mpr ⟨buf_ne L (by decide),
      Finset.mem_erase.mpr ⟨buf_ne L (by decide), buf_mem L cc0_scratch3 rfl⟩⟩⟩)]

end Cert.Proof.KB

end
-- ==== Proof.TileDefsB.lean ====
import proofs.«207591_g3891240370478_cont_8to1_b_1686_26_alg».proof.Proof.TileResB
import Idealize.ShloMosaic.Lib.Ring

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "aV1" => (Memref.whole Cert.Kernel.main_v1_scv : Memref Cert.Kernel.sig Kind.scVector Space.hbm Cert.Kernel.S16384 EltTy.i32)
local notation "aV3" => (Memref.whole Cert.Kernel.main_v3_scv : Memref Cert.Kernel.sig Kind.scVector Space.hbm Cert.Kernel.S16384 EltTy.i32)
local notation "aT1" => (Memref.whole Cert.Kernel.main_arg1_scv : Memref Cert.Kernel.sig Kind.scVector Space.hbm Cert.Kernel.S1000002x64 EltTy.f32)
local notation "aT2" => (Memref.whole Cert.Kernel.main_arg2_scv : Memref Cert.Kernel.sig Kind.scVector Space.hbm Cert.Kernel.S1000002x64 EltTy.f32)
local notation "aO0" => (Memref.whole Cert.Kernel.main_v4_0_scv : Memref Cert.Kernel.sig Kind.scVector Space.hbm Cert.Kernel.S16384x64 EltTy.f32)
local notation "aO1" => (Memref.whole Cert.Kernel.main_v4_1_scv : Memref Cert.Kernel.sig Kind.scVector Space.hbm Cert.Kernel.S16384x64 EltTy.f32)
local notation "sI0" => (Memref.whole Cert.Kernel.cc0_scratch0 : Memref Cert.Kernel.sig Kind.scVector Space.vmem Cert.Kernel.S512 EltTy.i32)
local notation "sI1" => (Memref.whole Cert.Kernel.cc0_scratch1 : Memref Cert.Kernel.sig Kind.scVector Space.vmem Cert.Kernel.S512 EltTy.i32)
local notation "sR0" => (Memref.whole Cert.Kernel.cc0_scratch2 : Memref Cert.Kernel.sig Kind.scVector Space.vmem Cert.Kernel.S256x64 EltTy.f32)
local notation "sR1" => (Memref.whole Cert.Kernel.cc0_scratch3 : Memref Cert.Kernel.sig Kind.scVector Space.vmem Cert.Kernel.S256x64 EltTy.f32)

variable [FloatOps F] (d : Dev nD) (L : grid0.Coords)

theorem bound_zero : grid0.bound 0 = 2 := rfl
theorem bound_one : grid0.bound 1 = 16 := rfl
abbrev cF (L : grid0.Coords) : Fin 2 := Fin.cast bound_zero (L 0)
abbrev iF (L : grid0.Coords) : Fin 16 := Fin.cast bound_one (L 1)

omit [FloatOps F] in
theorem pts_v1 (q : PosShare TreeShare) (f : Buf (Elt F) (v1Loc d)) : ((aV1).view.loc (thr d L) ↦{q} f : sProp 𝕄) = v1Loc d ↦{q} f := by
  simp only [Memref.view_whole, View.set_whole]
omit [FloatOps F] in
theorem pts_v3 (q : PosShare TreeShare) (f : Buf (Elt F) (v3Loc d)) : ((aV3).view.loc (thr d L) ↦{q} f : sProp 𝕄) = v3Loc d ↦{q} f := by
  simp only [Memref.view_whole, View.set_whole]
omit [FloatOps F] in
theorem pts_t1 (q : PosShare TreeShare) (f : Buf (Elt F) (a1Loc d)) : ((aT1).view.loc (thr d L) ↦{q} f : sProp 𝕄) = a1Loc d ↦{q} f := by
  simp only [Memref.view_whole, View.set_whole]
omit [FloatOps F] in
theorem pts_t2 (q : PosShare TreeShare) (f : Buf (Elt F) (a2Loc d)) : ((aT2).view.loc (thr d L) ↦{q} f : sProp 𝕄) = a2Loc d ↦{q} f := by
  simp only [Memref.view_whole, View.set_whole]
omit [FloatOps F] in
theorem pts_s0 (f : Buf (Elt F) ((thr d L).loc cc0_scratch0)) : ((sI0).view.loc (thr d L) ↦{fullShare} f : sProp 𝕄) = (thr d L).loc cc0_scratch0 ↦{fullShare} f := rfl
omit [FloatOps F] in
theorem pts_s1 (f : Buf (Elt F) ((thr d L).loc cc0_scratch1)) : ((sI1).view.loc (thr d L) ↦{fullShare} f : sProp 𝕄) = (thr d L).loc cc0_scratch1 ↦{fullShare} f := rfl
omit [FloatOps F] in
theorem pts_s2 (f : Buf (Elt F) ((thr d L).loc cc0_scratch2)) : ((sR0).view.loc (thr d L) ↦{fullShare} f : sProp 𝕄) = (thr d L).loc cc0_scratch2 ↦{fullShare} f := rfl
omit [FloatOps F] in
theorem pts_s3 (f : Buf (Elt F) ((thr d L).loc cc0_scratch3)) : ((sR1).view.loc (thr d L) ↦{fullShare} f : sProp 𝕄) = (thr d L).loc cc0_scratch3 ↦{fullShare} f := rfl

/-! ## The staging rows -/

theorem row_inb (t : Fin 256) : ∀ a, (![t.val, 0] : Fin 2 → Nat) a + S1x64.size a ≤ S256x64.size a := by
  have := t.isLt; intro a; fin_cases a
  · show t.val + 1 ≤ 256; omega
  · show 0 + 64 ≤ 64; omega
/-- Row `t` of the two staging buffers, as the body slices them. -/
def sRow0 (t : Fin 256) : Memref sig .scVector .vmem S1x64 .f32 := (sR0).slice (Rect.unit (s := S256x64) ![t.val, 0] S1x64.size (row_inb t)) (fun _ => rfl)
def sRow1 (t : Fin 256) : Memref sig .scVector .vmem S1x64 .f32 := (sR1).slice (Rect.unit (s := S256x64) ![t.val, 0] S1x64.size (row_inb t)) (fun _ => rfl)

/-- Chunk `k`'s looked-up rows: row `r` of a staging buffer is the table's row named by word `256 k + r` of the tile's
    512 index words. -/
def stage (s : S512.Idx → BitVec 32) (tb : S1000002x64.Idx → Elt F .f32) (k : ℕ) : S256x64.Idx → Elt F .f32 :=
  fun j => tb (ix2 (Cert.Spec.rowOf (s (ix1 (⟨(256 * k + (j 0).val) % 512, Nat.mod_lt _ (by decide)⟩ : Fin 512)))) (j 1 : Fin 64))

variable (s0 s1 : S512.Idx → BitVec 32) (tb1 tb2 : S1000002x64.Idx → Elt F .f32)

/-- A staging row held by its own elements. -/
abbrev rowW (g : S256x64.Idx → Elt F .f32) (t : Fin 256) : sProp 𝕄 := (sRow0 t).view.loc (thr d L) ↦[(sRow0 t).view.set]{fullShare} g
abbrev rowC (g : S256x64.Idx → Elt F .f32) (t : Fin 256) : sProp 𝕄 := (sRow1 t).view.loc (thr d L) ↦[(sRow1 t).view.set]{fullShare} g
/-- A read token of a table. -/
abbrev tokW (q : PosShare TreeShare) (t : ℕ) : sProp 𝕄 := (aT1).view.loc (thr d L) ↦{shareTokN q t} tb1
abbrev tokC (q : PosShare TreeShare) (t : ℕ) : sProp 𝕄 := (aT2).view.loc (thr d L) ↦{shareTokN q t} tb2

/-- One row's credit. -/
abbrev NR : ℕ := (sRow0 0).view.amount (SemLoc.dma (sig := sig) cc0_scratch4.sem)

/-- The deliveries: transfer `t` of chunk `k` lands row `t` at the looked-up row. -/
abbrev Dw (k : ℕ) (t : Fin 256) : sProp 𝕄 := rowW d L (stage s0 tb1 k) t
abbrev Dc (k : ℕ) (t : Fin 256) : sProp 𝕄 := rowC d L (stage s1 tb2 k) t

abbrev batchW (k j u : ℕ) : sProp 𝕄 := Transfers.Batch (EC (F := F)) (thr d L) (.dma cc0_scratch4.sem) (none : HIx 1) NR (Dw d L s0 tb1 k) j u
abbrev batchC (k j u : ℕ) : sProp 𝕄 := Transfers.Batch (EC (F := F)) (thr d L) (.dma cc0_scratch5.sem) (none : HIx 1) NR (Dc d L s1 tb2 k) j u

theorem NR_eq : NR = 2048 := by decide

omit [FloatOps F] in
/-- A word at most 999999 names a row of a table: the one-row block it selects lies inside the table. -/
theorem chk_of_le (v : BitVec 32) (h : v.toNat ≤ 999999) : ∀ a, (![v.toNat, 0] : Fin 2 → Nat) a + S1x64.size a ≤ S1000002x64.size a := by
  intro a; fin_cases a
  · show v.toNat + 1 ≤ 1000002; omega
  · show 0 + 64 ≤ 64; omega

omit [FloatOps F] in
/-- A staging row, spelt through any offsets that are the row's. -/
theorem row0_spell (t : Fin 256) (off : Fin 2 → Nat) (hoff : off = ![t.val, 0]) (h : ∀ a, off a + S1x64.size a ≤ S256x64.size a) :
    sRow0 t = (sR0).slice (Rect.unit (s := S256x64) off S1x64.size h) (fun _ => rfl) := by subst hoff; rfl
omit [FloatOps F] in
theorem row1_spell (t : Fin 256) (off : Fin 2 → Nat) (hoff : off = ![t.val, 0]) (h : ∀ a, off a + S1x64.size a ≤ S256x64.size a) :
    sRow1 t = (sR1).slice (Rect.unit (s := S256x64) off S1x64.size h) (fun _ => rfl) := by subst hoff; rfl

omit [FloatOps F] in
theorem rowW_spell (f : S256x64.Idx → Elt F .f32) (t : Fin 256) (off : Fin 2 → Nat) (hoff : off = ![t.val, 0]) (h : ∀ a, off a + S1x64.size a ≤ S256x64.size a) :
    (rowW d L f t : sProp 𝕄) = (((sR0).slice (Rect.unit (s := S256x64) off S1x64.size h) (fun _ => rfl)).view.loc (thr d L)
      ↦[((sR0).slice (Rect.unit (s := S256x64) off S1x64.size h) (fun _ => rfl)).view.set]{fullShare} f) := by subst hoff; rfl
omit [FloatOps F] in
theorem rowC_spell (f : S256x64.Idx → Elt F .f32) (t : Fin 256) (off : Fin 2 → Nat) (hoff : off = ![t.val, 0]) (h : ∀ a, off a + S1x64.size a ≤ S256x64.size a) :
    (rowC d L f t : sProp 𝕄) = (((sR1).slice (Rect.unit (s := S256x64) off S1x64.size h) (fun _ => rfl)).view.loc (thr d L)
      ↦[((sR1).slice (Rect.unit (s := S256x64) off S1x64.size h) (fun _ => rfl)).view.set]{fullShare} f) := by subst hoff; rfl

/-- Before trip `g` of chunk `k`'s issue loop: `16 g` row copies issued on each of the two semaphores, none waited for;
    the staging rows and the read tokens from `16 g` on still in hand; the two index scratches at their contents. -/
def fireInv (k : ℕ) (q1 q2 : PosShare TreeShare) (f2 f3 : S256x64.Idx → Elt F .f32) (g : ℕ) (_ : BitVec 32) : sProp 𝕄 :=
  iprop(batchW d L s0 tb1 k (16 * g) 0 ∗ batchC d L s1 tb2 k (16 * g) 0
    ∗ bigSep (Ring.rangeSet 256 (16 * g) 256) (rowW d L f2) ∗ bigSep (Ring.rangeSet 256 (16 * g) 256) (rowC d L f3)
    ∗ bigSep (Ring.rangeSet 256 (16 * g) 256) (fun t => tokW d L tb1 q1 t.val) ∗ bigSep (Ring.rangeSet 256 (16 * g) 256) (fun t => tokC d L tb2 q2 t.val)
    ∗ ((sI0).view.loc (thr d L) ↦{fullShare} s0) ∗ ((sI1).view.loc (thr d L) ↦{fullShare} s1))

end Cert.Proof.KB

end
-- ==== Proof.TileValsB.lean ====
/-
  The delivery of one row copy, as a fact about contents: a staging row written whole by a copy of one table row
  holds, on its own elements, the looked-up row the chunk's closed form names there.
-/
import proofs.«207591_g3891240370478_cont_8to1_b_1686_26_alg».proof.Proof.TileDefsB
import Idealize.ShloMosaic.Lib.Writes
import Idealize.ShloMosaic.Lib.Pipeline.Value
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.Kernel.main_v1_scv : Memref Cert.Kernel.sig Kind.scVector Space.hbm Cert.Kernel.S16384 EltTy.i32)
local notation "aV3" => (Memref.whole Cert.Kernel.main_v3_scv : Memref Cert.Kernel.sig Kind.scVector Space.hbm Cert.Kernel.S16384 EltTy.i32)
local notation "aT1" => (Memref.whole Cert.Kernel.main_arg1_scv : Memref Cert.Kernel.sig Kind.scVector Space.hbm Cert.Kernel.S1000002x64 EltTy.f32)
local notation "aT2" => (Memref.whole Cert.Kernel.main_arg2_scv : Memref Cert.Kernel.sig Kind.scVector Space.hbm Cert.Kernel.S1000002x64 EltTy.f32)
local notation "aO0" => (Memref.whole Cert.Kernel.main_v4_0_scv : Memref Cert.Kernel.sig Kind.scVector Space.hbm Cert.Kernel.S16384x64 EltTy.f32)
local notation "aO1" => (Memref.whole Cert.Kernel.main_v4_1_scv : Memref Cert.Kernel.sig Kind.scVector Space.hbm Cert.Kernel.S16384x64 EltTy.f32)
local notation "sI0" => (Memref.whole Cert.Kernel.cc0_scratch0 : Memref Cert.Kernel.sig Kind.scVector Space.vmem Cert.Kernel.S512 EltTy.i32)
local notation "sI1" => (Memref.whole Cert.Kernel.cc0_scratch1 : Memref Cert.Kernel.sig Kind.scVector Space.vmem Cert.Kernel.S512 EltTy.i32)
local notation "sR0" => (Memref.whole Cert.Kernel.cc0_scratch2 : Memref Cert.Kernel.sig Kind.scVector Space.vmem Cert.Kernel.S256x64 EltTy.f32)
local notation "sR1" => (Memref.whole Cert.Kernel.cc0_scratch3 : Memref Cert.Kernel.sig Kind.scVector Space.vmem Cert.Kernel.S256x64 EltTy.f32)

variable [FloatOps F] (d : Dev nD) (L : grid0.Coords)

/-! ## Generic: one unmasked write of the whole of a view, read on the view's own elements -/

section Generic
variable {sig' : RefSig} {κ : Kind} {sp : Space} {s : Shape} {e : EltTy} {Val : EltTy → Type}

/-- After one write of `pay` through the whole of a view, the element under the view's index `x` holds `pay x`. -/
theorem writes_whole_emb (v : View sig' κ sp s e) (f : v.ty.Contents Val) (pay : (Rect.whole s).shape.Idx → Val e) (x : s.Idx) :
    v.writes Val f [⟨Rect.whole s, pay⟩] (v.emb x) = cast (congrArg Val v.elt_eq.symm) (pay x) := by
  rw [View.writes_singleton]
  have e1 : v.emb x = (v.slice (Rect.whole s)).emb x := by
    show v.emb x = v.emb ((Rect.whole s).emb x)
    rw [Rect.emb_whole_apply]
  rw [e1]
  exact View.write_emb_of_mem _ _ (Finset.mem_univ _)

end Generic

/-! ## The delivery of one row copy -/

theorem deliver_w (s0 : S512.Idx → BitVec 32) (tb1 : S1000002x64.Idx → Elt F .f32) (k : ℕ) (t : Fin 256) (off : Fin 2 → Nat) (hoff : off = ![t.val, 0]) (h : ∀ a, off a + S1x64.size a ≤ S256x64.size a)
    (f2 : S256x64.Idx → Elt F .f32) (v : BitVec 32) (offs : Fin 2 → Nat) (hoffs : offs = ![v.toNat, 0]) (hw : ∀ a, offs a + S1x64.size a ≤ S1000002x64.size a) (hv : v = s0 (ix1 (⟨(256 * k + t.val) % 512, Nat.mod_lt _ (by decide)⟩ : Fin 512))) (hle : v.toNat ≤ 999999)
    (q : PosShare TreeShare) (pay : S1x64.Idx → Elt F .f32) (hpay : pay = ReadAs.same.apply (((aT1).slice (Rect.unit (s := S1000002x64) offs S1x64.size hw) (fun _ => rfl)).view.read (Elt F) tb1)) :
    iprop(((((sR0).slice (Rect.unit (s := S256x64) off S1x64.size h) (fun _ => rfl)).view.loc (thr d L) ↦[((sR0).slice (Rect.unit (s := S256x64) off S1x64.size h) (fun _ => rfl)).view.set]{fullShare}
              ((sR0).slice (Rect.unit (s := S256x64) off S1x64.size h) (fun _ => rfl)).view.writes (Elt F) f2 [⟨Rect.whole (Rect.unit (s := S256x64) off S1x64.size h).shape, pay⟩]) : sProp 𝕄)
          ∗ ((aT1).view.loc (thr d L) ↦[((aT1).slice (Rect.unit (s := S1000002x64) offs S1x64.size hw) (fun _ => rfl)).view.set]{q} tb1))
      ⊢ rowW d L (stage s0 tb1 k) t := by
  subst hoff
  subst hoffs
  refine sep_elim_left.trans (Entails.of_eq (pointsTo_congr fun i hi => ?_))
  obtain ⟨x, -, rfl⟩ := Finset.mem_map.mp hi
  refine (writes_whole_emb _ _ _ _).trans ?_
  rw [cast_eq, hpay, ReadAs.apply_same, View.read_apply, cast_eq]
  unfold stage
  have hx0 : (x 0).val = 0 := by have h1 : (x 0).val < 1 := (x 0).isLt; omega
  -- the word the row's index names is `v`
  have hs : s0 (ix1 (⟨(256 * k + ((((sR0).slice (Rect.unit (s := S256x64) ![t.val, 0] S1x64.size h) (fun _ => rfl)).view.emb x) 0).val) % 512,
      Nat.mod_lt _ (by decide)⟩ : Fin 512)) = v := by
    rw [hv]
    refine congrArg (fun n : Fin 512 => s0 (ix1 n)) (Fin.ext ?_)
    show (256 * k + (t.val + 1 * (x 0).val)) % 512 = (256 * k + t.val) % 512
    omega
  refine congrArg tb1 (funext fun a => Fin.ext ?_)
  match a with
  | ⟨0, _⟩ =>
    refine Eq.trans ?_ ((congrArg (fun w : BitVec 32 => (Cert.Spec.rowOf w).val) hs).trans (Cert.Spec.rowOf_val hle)).symm
    show v.toNat + 1 * (x 0).val = v.toNat
    omega
  | ⟨1, _⟩ =>
    show 0 + 1 * (x 1).val = 0 + 1 * (x 1).val
    rfl

theorem deliver_c (s1 : S512.Idx → BitVec 32) (tb2 : S1000002x64.Idx → Elt F .f32) (k : ℕ) (t : Fin 256) (off : Fin 2 → Nat) (hoff : off = ![t.val, 0]) (h : ∀ a, off a + S1x64.size a ≤ S256x64.size a)
    (f2 : S256x64.Idx → Elt F .f32) (v : BitVec 32) (offs : Fin 2 → Nat) (hoffs : offs = ![v.toNat, 0]) (hw : ∀ a, offs a + S1x64.size a ≤ S1000002x64.size a) (hv : v = s1 (ix1 (⟨(256 * k + t.val) % 512, Nat.mod_lt _ (by decide)⟩ : Fin 512))) (hle : v.toNat ≤ 999999)
    (q : PosShare TreeShare) (pay : S1x64.Idx → Elt F .f32) (hpay : pay = ReadAs.same.apply (((aT2).slice (Rect.unit (s := S1000002x64) offs S1x64.size hw) (fun _ => rfl)).view.read (Elt F) tb2)) :
    iprop(((((sR1).slice (Rect.unit (s := S256x64) off S1x64.size h) (fun _ => rfl)).view.loc (thr d L) ↦[((sR1).slice (Rect.unit (s := S256x64) off S1x64.size h) (fun _ => rfl)).view.set]{fullShare}
              ((sR1).slice (Rect.unit (s := S256x64) off S1x64.size h) (fun _ => rfl)).view.writes (Elt F) f2 [⟨Rect.whole (Rect.unit (s := S256x64) off S1x64.size h).shape, pay⟩]) : sProp 𝕄)
          ∗ ((aT2).view.loc (thr d L) ↦[((aT2).slice (Rect.unit (s := S1000002x64) offs S1x64.size hw) (fun _ => rfl)).view.set]{q} tb2))
      ⊢ rowC d L (stage s1 tb2 k) t := by
  subst hoff
  subst hoffs
  refine sep_elim_left.trans (Entails.of_eq (pointsTo_congr fun i hi => ?_))
  obtain ⟨x, -, rfl⟩ := Finset.mem_map.mp hi
  refine (writes_whole_emb _ _ _ _).trans ?_
  rw [cast_eq, hpay, ReadAs.apply_same, View.read_apply, cast_eq]
  unfold stage
  have hx0 : (x 0).val = 0 := by have h1 : (x 0).val < 1 := (x 0).isLt; omega
  -- the word the row's index names is `v`
  have hs : s1 (ix1 (⟨(256 * k + ((((sR1).slice (Rect.unit (s := S256x64) ![t.val, 0] S1x64.size h) (fun _ => rfl)).view.emb x) 0).val) % 512,
      Nat.mod_lt _ (by decide)⟩ : Fin 512)) = v := by
    rw [hv]
    refine congrArg (fun n : Fin 512 => s1 (ix1 n)) (Fin.ext ?_)
    show (256 * k + (t.val + 1 * (x 0).val)) % 512 = (256 * k + t.val) % 512
    omega
  refine congrArg tb2 (funext fun a => Fin.ext ?_)
  match a with
  | ⟨0, _⟩ =>
    refine Eq.trans ?_ ((congrArg (fun w : BitVec 32 => (Cert.Spec.rowOf w).val) hs).trans (Cert.Spec.rowOf_val hle)).symm
    show v.toNat + 1 * (x 0).val = v.toNat
    omega
  | ⟨1, _⟩ =>
    show 0 + 1 * (x 1).val = 0 + 1 * (x 1).val
    rfl

end Cert.Proof.KB

end
-- ==== Proof.TileWordB.lean ====
/-
  The words a tile reads, as facts about contents: the word a lane of a 16-word vector load of an index scratch
  holds, and the 512 index words a tile fetches from a flat index vector.
-/
import proofs.«207591_g3891240370478_cont_8to1_b_1686_26_alg».proof.Proof.TileDefsB
import Idealize.ShloMosaic.Lib.Writes
import Idealize.ShloMosaic.Lib.Pipeline.Value
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.Kernel.main_v1_scv : Memref Cert.Kernel.sig Kind.scVector Space.hbm Cert.Kernel.S16384 EltTy.i32)
local notation "aV3" => (Memref.whole Cert.Kernel.main_v3_scv : Memref Cert.Kernel.sig Kind.scVector Space.hbm Cert.Kernel.S16384 EltTy.i32)
local notation "aT1" => (Memref.whole Cert.Kernel.main_arg1_scv : Memref Cert.Kernel.sig Kind.scVector Space.hbm Cert.Kernel.S1000002x64 EltTy.f32)
local notation "aT2" => (Memref.whole Cert.Kernel.main_arg2_scv : Memref Cert.Kernel.sig Kind.scVector Space.hbm Cert.Kernel.S1000002x64 EltTy.f32)
local notation "aO0" => (Memref.whole Cert.Kernel.main_v4_0_scv : Memref Cert.Kernel.sig Kind.scVector Space.hbm Cert.Kernel.S16384x64 EltTy.f32)
local notation "aO1" => (Memref.whole Cert.Kernel.main_v4_1_scv : Memref Cert.Kernel.sig Kind.scVector Space.hbm Cert.Kernel.S16384x64 EltTy.f32)
local notation "sI0" => (Memref.whole Cert.Kernel.cc0_scratch0 : Memref Cert.Kernel.sig Kind.scVector Space.vmem Cert.Kernel.S512 EltTy.i32)
local notation "sI1" => (Memref.whole Cert.Kernel.cc0_scratch1 : Memref Cert.Kernel.sig Kind.scVector Space.vmem Cert.Kernel.S512 EltTy.i32)
local notation "sR0" => (Memref.whole Cert.Kernel.cc0_scratch2 : Memref Cert.Kernel.sig Kind.scVector Space.vmem Cert.Kernel.S256x64 EltTy.f32)
local notation "sR1" => (Memref.whole Cert.Kernel.cc0_scratch3 : Memref Cert.Kernel.sig Kind.scVector Space.vmem Cert.Kernel.S256x64 EltTy.f32)

variable [FloatOps F] (d : Dev nD) (L : grid0.Coords)

/-! ## The trip counts, and a tile's rows inside the arrays -/

theorem k_lt (k : Fin k0_t1_loop.trips) : k.val < 2 := Nat.lt_of_lt_of_le k.isLt k0_t1_abs.2.1
theorem g_lt (g : Fin k0_t2_loop.trips) : g.val < 16 := Nat.lt_of_lt_of_le g.isLt k0_t2_abs.2.1
theorem L0_lt (L : grid0.Coords) : (L 0).val < 2 := (L 0).isLt
theorem L1_lt (L : grid0.Coords) : (L 1).val < 16 := (L 1).isLt
/-- Word `j` of a tile's 512 index words is word `1024 i + 512 c + j` of the index vector. -/
theorem tile_row_lt (L : grid0.Coords) (j : Fin 512) : 1024 * (L 1).val + 512 * (L 0).val + j.val < 16384 := by
  have h0 := L0_lt L; have h1 := L1_lt L; have hj := j.isLt; omega

/-! ## The word a lane reads -/

theorem word_at (s0 : S512.Idx → BitVec 32) (k : Fin k0_t1_loop.trips) (g : Fin k0_t2_loop.trips) (l : ℕ) (hl : l < 16) (h1 : S16.ShapeCasts S16) (h2 : S16.Slices ![l] S1) (h3 : ∀ a, (![0] : Fin 1 → Nat) a < S1.size a) :
    extractAt ![0] (extractStridedSlice S1 ![l] (shapeCast S16 (View.readAt (Elt F) (sI0).view (Rect.unit (s := S512) (k0_off2 k g) S16.size (k0_off2_inb k g)).toLoadRect s0) h1) h2) h3
      = s0 (ix1 (⟨(256 * k.val + (16 * g.val + l)) % 512, Nat.mod_lt _ (by decide)⟩ : Fin 512)) := by
  unfold extractAt
  refine (extractStridedSlice_apply ![l] _ h2 _ (ix1 (⟨l, hl⟩ : Fin 16)) ?_).trans ?_
  · intro a
    match a with
    | ⟨0, _⟩ => rfl
  refine (shapeCast_apply _ h1 _ (ix1 (⟨l, hl⟩ : Fin 16)) rfl).trans ?_
  rw [View.readAt_apply, View.read_apply, cast_eq]
  refine congrArg s0 (funext fun a => Fin.ext ?_)
  match a with
  | ⟨0, _⟩ =>
    have hk := k_lt k
    have hg := g_lt g
    show k0_off2 k g 0 + 1 * l = (256 * k.val + (16 * g.val + l)) % 512
    rw [k0_off2_eq]
    show 256 * k.val + 16 * g.val + 1 * l = (256 * k.val + (16 * g.val + l)) % 512
    omega

theorem word_at1 (s1 : S512.Idx → BitVec 32) (k : Fin k0_t1_loop.trips) (g : Fin k0_t2_loop.trips) (l : ℕ) (hl : l < 16) (h1 : S16.ShapeCasts S16) (h2 : S16.Slices ![l] S1) (h3 : ∀ a, (![0] : Fin 1 → Nat) a < S1.size a) :
    extractAt ![0] (extractStridedSlice S1 ![l] (shapeCast S16 (View.readAt (Elt F) (sI1).view (Rect.unit (s := S512) (k0_off2 k g) S16.size (k0_off2_inb k g)).toLoadRect s1) h1) h2) h3
      = s1 (ix1 (⟨(256 * k.val + (16 * g.val + l)) % 512, Nat.mod_lt _ (by decide)⟩ : Fin 512)) := by
  unfold extractAt
  refine (extractStridedSlice_apply ![l] _ h2 _ (ix1 (⟨l, hl⟩ : Fin 16)) ?_).trans ?_
  · intro a
    match a with
    | ⟨0, _⟩ => rfl
  refine (shapeCast_apply _ h1 _ (ix1 (⟨l, hl⟩ : Fin 16)) rfl).trans ?_
  rw [View.readAt_apply, View.read_apply, cast_eq]
  refine congrArg s1 (funext fun a => Fin.ext ?_)
  match a with
  | ⟨0, _⟩ =>
    have hk := k_lt k
    have hg := g_lt g
    show k0_off2 k g 0 + 1 * l = (256 * k.val + (16 * g.val + l)) % 512
    rw [k0_off2_eq]
    show 256 * k.val + 16 * g.val + 1 * l = (256 * k.val + (16 * g.val + l)) % 512
    omega

/-! ## The index fetch -/

theorem fetched (wi : S16384.Idx → BitVec 32) (j : Fin 512) :
    (ReadAs.same.apply (((aV1).slice (Rect.unit (s := S16384) (k0_off1 L) S512.size (k0_off1_inb L)) (fun _ => rfl)).view.read (Elt F) wi) : S512.Idx → BitVec 32) (ix1 j)
      = wi (ix1 (⟨1024 * (L 1).val + 512 * (L 0).val + j.val, tile_row_lt L j⟩ : Fin 16384)) := by
  rw [ReadAs.apply_same, View.read_apply, cast_eq]
  refine congrArg wi (funext fun a => Fin.ext ?_)
  match a with
  | ⟨0, _⟩ =>
    show k0_off1 L 0 + 1 * j.val = 1024 * (L 1).val + 512 * (L 0).val + j.val
    rw [k0_off1_eq]
    show 1024 * (L 1).val + 512 * (L 0).val + 1 * j.val = _
    omega

theorem fetched3 (wi : S16384.Idx → BitVec 32) (j : Fin 512) :
    (ReadAs.same.apply (((aV3).slice (Rect.unit (s := S16384) (k0_off1 L) S512.size (k0_off1_inb L)) (fun _ => rfl)).view.read (Elt F) wi) : S512.Idx → BitVec 32) (ix1 j)
      = wi (ix1 (⟨1024 * (L 1).val + 512 * (L 0).val + j.val, tile_row_lt L j⟩ : Fin 16384)) := by
  rw [ReadAs.apply_same, View.read_apply, cast_eq]
  refine congrArg wi (funext fun a => Fin.ext ?_)
  match a with
  | ⟨0, _⟩ =>
    show k0_off1 L 0 + 1 * j.val = 1024 * (L 1).val + 512 * (L 0).val + j.val
    rw [k0_off1_eq]
    show 1024 * (L 1).val + 512 * (L 0).val + 1 * j.val = _
    omega

end Cert.Proof.KB

end
-- ==== Proof.TileFireB.lean ====
/-
  One trip of a chunk's issue loop. Trip `g` loads sixteen words of each of the tile's two index scratches (words
  `256 k + 16 g … + 15`) and, lane by lane, starts a copy of the table row the word names into staging row `16 g + l`:
  sixteen copies on the word table's semaphore and sixteen on the context table's, none waited for here. Each word is
  at most 999999, so the row it names lies inside the table (the body's assumed check); each copy is the next transfer
  of its semaphore's batch, whose delivery — staging row `16 g + l` holding the named table row — is what the row
  written whole reads, the word being word `256 k + 16 g + l` of the scratch. The body spells each staging row through
  its own chain of offsets; the sixteen rows of the trip are restated through those chains before the run.
-/
import proofs.«207591_g3891240370478_cont_8to1_b_1686_26_alg».proof.Proof.TileDefsB
import proofs.«207591_g3891240370478_cont_8to1_b_1686_26_alg».proof.Proof.TileValsB
import proofs.«207591_g3891240370478_cont_8to1_b_1686_26_alg».proof.Proof.TileWordB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "aV1" => (Memref.whole Cert.Kernel.main_v1_scv : Memref Cert.Kernel.sig Kind.scVector Space.hbm Cert.Kernel.S16384 EltTy.i32)
local notation "aV3" => (Memref.whole Cert.Kernel.main_v3_scv : Memref Cert.Kernel.sig Kind.scVector Space.hbm Cert.Kernel.S16384 EltTy.i32)
local notation "aT1" => (Memref.whole Cert.Kernel.main_arg1_scv : Memref Cert.Kernel.sig Kind.scVector Space.hbm Cert.Kernel.S1000002x64 EltTy.f32)
local notation "aT2" => (Memref.whole Cert.Kernel.main_arg2_scv : Memref Cert.Kernel.sig Kind.scVector Space.hbm Cert.Kernel.S1000002x64 EltTy.f32)
local notation "aO0" => (Memref.whole Cert.Kernel.main_v4_0_scv : Memref Cert.Kernel.sig Kind.scVector Space.hbm Cert.Kernel.S16384x64 EltTy.f32)
local notation "aO1" => (Memref.whole Cert.Kernel.main_v4_1_scv : Memref Cert.Kernel.sig Kind.scVector Space.hbm Cert.Kernel.S16384x64 EltTy.f32)
local notation "sI0" => (Memref.whole Cert.Kernel.cc0_scratch0 : Memref Cert.Kernel.sig Kind.scVector Space.vmem Cert.Kernel.S512 EltTy.i32)
local notation "sI1" => (Memref.whole Cert.Kernel.cc0_scratch1 : Memref Cert.Kernel.sig Kind.scVector Space.vmem Cert.Kernel.S512 EltTy.i32)
local notation "sR0" => (Memref.whole Cert.Kernel.cc0_scratch2 : Memref Cert.Kernel.sig Kind.scVector Space.vmem Cert.Kernel.S256x64 EltTy.f32)
local notation "sR1" => (Memref.whole Cert.Kernel.cc0_scratch3 : Memref Cert.Kernel.sig Kind.scVector Space.vmem Cert.Kernel.S256x64 EltTy.f32)

variable [FloatOps F] (d : Dev nD) (L : grid0.Coords)

open Lean Elab Tactic in
/-- Succeeds when the goal mentions the named constant. -/
elab "goal_mentions " n:ident : tactic => do
  let c ← Lean.Elab.realizeGlobalConstNoOverloadWithInfo n
  let g ← instantiateMVars (← getMainTarget)
  unless (g.find? (·.isConstOf c)).isSome do throwError "the goal does not mention {c}"

/-- The delivery lemmas with the source's offsets as a function of the word. -/
theorem deliver_w' (s0 : S512.Idx → BitVec 32) (tb1 : S1000002x64.Idx → Elt F .f32) (k : ℕ) (t : Fin 256) (off : Fin 2 → Nat) (hoff : off = ![t.val, 0]) (h : ∀ a, off a + S1x64.size a ≤ S256x64.size a)
    (f2 : S256x64.Idx → Elt F .f32) (v : BitVec 32) (offs : BitVec 32 → Fin 2 → Nat) (hoffs : ∀ w, offs w = ![w.toNat, 0]) (hw : ∀ a, offs v a + S1x64.size a ≤ S1000002x64.size a) (hv : v = s0 (ix1 (⟨(256 * k + t.val) % 512, Nat.mod_lt _ (by decide)⟩ : Fin 512))) (hle : v.toNat ≤ 999999)
    (q : PosShare TreeShare) (pay : S1x64.Idx → Elt F .f32) (hpay : pay = ReadAs.same.apply (((aT1).slice (Rect.unit (s := S1000002x64) (offs v) S1x64.size hw) (fun _ => rfl)).view.read (Elt F) tb1)) :
    iprop(((((sR0).slice (Rect.unit (s := S256x64) off S1x64.size h) (fun _ => rfl)).view.loc (thr d L) ↦[((sR0).slice (Rect.unit (s := S256x64) off S1x64.size h) (fun _ => rfl)).view.set]{fullShare}
              ((sR0).slice (Rect.unit (s := S256x64) off S1x64.size h) (fun _ => rfl)).view.writes (Elt F) f2 [⟨Rect.whole (Rect.unit (s := S256x64) off S1x64.size h).shape, pay⟩]) : sProp 𝕄)
          ∗ ((aT1).view.loc (thr d L) ↦[((aT1).slice (Rect.unit (s := S1000002x64) (offs v) S1x64.size hw) (fun _ => rfl)).view.set]{q} tb1))
      ⊢ rowW d L (stage s0 tb1 k) t :=
  deliver_w d L s0 tb1 k t off hoff h f2 v (offs v) (hoffs v) hw hv hle q pay hpay
theorem deliver_c' (s1 : S512.Idx → BitVec 32) (tb2 : S1000002x64.Idx → Elt F .f32) (k : ℕ) (t : Fin 256) (off : Fin 2 → Nat) (hoff : off = ![t.val, 0]) (h : ∀ a, off a + S1x64.size a ≤ S256x64.size a)
    (f3 : S256x64.Idx → Elt F .f32) (v : BitVec 32) (offs : BitVec 32 → Fin 2 → Nat) (hoffs : ∀ w, offs w = ![w.toNat, 0]) (hw : ∀ a, offs v a + S1x64.size a ≤ S1000002x64.size a) (hv : v = s1 (ix1 (⟨(256 * k + t.val) % 512, Nat.mod_lt _ (by decide)⟩ : Fin 512))) (hle : v.toNat ≤ 999999)
    (q : PosShare TreeShare) (pay : S1x64.Idx → Elt F .f32) (hpay : pay = ReadAs.same.apply (((aT2).slice (Rect.unit (s := S1000002x64) (offs v) S1x64.size hw) (fun _ => rfl)).view.read (Elt F) tb2)) :
    iprop(((((sR1).slice (Rect.unit (s := S256x64) off S1x64.size h) (fun _ => rfl)).view.loc (thr d L) ↦[((sR1).slice (Rect.unit (s := S256x64) off S1x64.size h) (fun _ => rfl)).view.set]{fullShare}
              ((sR1).slice (Rect.unit (s := S256x64) off S1x64.size h) (fun _ => rfl)).view.writes (Elt F) f3 [⟨Rect.whole (Rect.unit (s := S256x64) off S1x64.size h).shape, pay⟩]) : sProp 𝕄)
          ∗ ((aT2).view.loc (thr d L) ↦[((aT2).slice (Rect.unit (s := S1000002x64) (offs v) S1x64.size hw) (fun _ => rfl)).view.set]{q} tb2))
      ⊢ rowC d L (stage s1 tb2 k) t :=
  deliver_c d L s1 tb2 k t off hoff h f3 v (offs v) (hoffs v) hw hv hle q pay hpay

/-- The blocks from `16 g` on are the sixteen of trip `g` and those from `16 (g + 1)` on. -/
theorem heads16 {Φ : Fin 256 → sProp 𝕄} (g : ℕ) (hg : g < 16) :
    bigSep (Ring.rangeSet 256 (16 * g) 256) Φ
      = iprop(Φ ⟨16 * g, by omega⟩ ∗ Φ ⟨16 * g + 1, by omega⟩ ∗ Φ ⟨16 * g + 2, by omega⟩ ∗ Φ ⟨16 * g + 3, by omega⟩ ∗ Φ ⟨16 * g + 4, by omega⟩ ∗ Φ ⟨16 * g + 5, by omega⟩ ∗ Φ ⟨16 * g + 6, by omega⟩ ∗ Φ ⟨16 * g + 7, by omega⟩ ∗ Φ ⟨16 * g + 8, by omega⟩ ∗ Φ ⟨16 * g + 9, by omega⟩ ∗ Φ ⟨16 * g + 10, by omega⟩ ∗ Φ ⟨16 * g + 11, by omega⟩ ∗ Φ ⟨16 * g + 12, by omega⟩ ∗ Φ ⟨16 * g + 13, by omega⟩ ∗ Φ ⟨16 * g + 14, by omega⟩ ∗ Φ ⟨16 * g + 15, by omega⟩
          ∗ bigSep (Ring.rangeSet 256 (16 * (g + 1)) 256) Φ) := by
  rw [Ring.bigSep_rangeSet_head (Φ := Φ) (lo := 16 * g) (by omega) (by omega),
    Ring.bigSep_rangeSet_head (Φ := Φ) (lo := 16 * g + 1) (by omega) (by omega),
    Ring.bigSep_rangeSet_head (Φ := Φ) (lo := 16 * g + 2) (by omega) (by omega),
    Ring.bigSep_rangeSet_head (Φ := Φ) (lo := 16 * g + 3) (by omega) (by omega),
    Ring.bigSep_rangeSet_head (Φ := Φ) (lo := 16 * g + 4) (by omega) (by omega),
    Ring.bigSep_rangeSet_head (Φ := Φ) (lo := 16 * g + 5) (by omega) (by omega),
    Ring.bigSep_rangeSet_head (Φ := Φ) (lo := 16 * g + 6) (by omega) (by omega),
    Ring.bigSep_rangeSet_head (Φ := Φ) (lo := 16 * g + 7) (by omega) (by omega),
    Ring.bigSep_rangeSet_head (Φ := Φ) (lo := 16 * g + 8) (by omega) (by omega),
    Ring.bigSep_rangeSet_head (Φ := Φ) (lo := 16 * g + 9) (by omega) (by omega),
    Ring.bigSep_rangeSet_head (Φ := Φ) (lo := 16 * g + 10) (by omega) (by omega),
    Ring.bigSep_rangeSet_head (Φ := Φ) (lo := 16 * g + 11) (by omega) (by omega),
    Ring.bigSep_rangeSet_head (Φ := Φ) (lo := 16 * g + 12) (by omega) (by omega),
    Ring.bigSep_rangeSet_head (Φ := Φ) (lo := 16 * g + 13) (by omega) (by omega),
    Ring.bigSep_rangeSet_head (Φ := Φ) (lo := 16 * g + 14) (by omega) (by omega),
    Ring.bigSep_rangeSet_head (Φ := Φ) (lo := 16 * g + 15) (by omega) (by omega),
    show 16 * g + 15 + 1 = 16 * (g + 1) by omega]

set_option sl_exec.dischHeartbeats 40000 in
set_option maxHeartbeats 4000000 in
theorem fire_step [∀ e, Nonempty (Elt F e)] (s0 s1 : S512.Idx → BitVec 32) (tb1 tb2 : S1000002x64.Idx → Elt F .f32)
    (k : Fin k0_t1_loop.trips) (g : Fin k0_t2_loop.trips) (acc : BitVec 32)
    (q1 q2 : PosShare TreeShare) (f2 f3 : S256x64.Idx → Elt F .f32)
    (hs0 : ∀ j, (s0 j).toNat ≤ 999999) (hs1 : ∀ j, (s1 j).toNat ≤ 999999) :
    fireInv d L s0 s1 tb1 tb2 k.val q1 q2 f2 f3 g.val acc
      ⊢ wp frame (wpE (defs₀ (F := F)) 𝒱₀ (thr d L) none) Set.univ
          (k0_t2_body L aV1 (Memref.isWhole_whole _) aV3 (Memref.isWhole_whole _) aT1 (Memref.isWhole_whole _) aT2 (Memref.isWhole_whole _)
            aO0 (Memref.isWhole_whole _) aO1 (Memref.isWhole_whole _) sI0 (Memref.isWhole_whole _) sI1 (Memref.isWhole_whole _)
            sR0 (Memref.isWhole_whole _) sR1 (Memref.isWhole_whole _) cc0_scratch4 cc0_scratch5 cc0_scoped0 cc0_scoped1 cc0_scoped2 cc0_scoped3
            k (Scf.iv 0#32 1#32 k) g acc)
          (fireInv d L s0 s1 tb1 tb2 k.val q1 q2 f2 f3 (g.val + 1)) := by
  have hg : g.val < 16 := lt_of_lt_of_le g.isLt k0_t2_abs.2.1
  unfold fireInv
  rw [heads16 (Φ := rowW d L f2) g.val hg, heads16 (Φ := rowC d L f3) g.val hg,
    heads16 (Φ := fun t => tokW d L tb1 q1 t.val) g.val hg, heads16 (Φ := fun t => tokC d L tb2 q2 t.val) g.val hg]
  have hw0 : (k0_off5 g) = ![(⟨16 * g.val, by first | done | omega⟩ : Fin 256).val, 0] := k0_off5_eq g
  have hc0 : (k0_off7 g 0#32) = ![(⟨16 * g.val, by first | done | omega⟩ : Fin 256).val, 0] := k0_off7_eq g ⟨0, by decide⟩
  have hw1 : (k0_off9 g) = ![(⟨16 * g.val + 1, by first | done | omega⟩ : Fin 256).val, 0] := k0_off9_eq g
  have hc1 : (k0_off11 g 1#32) = ![(⟨16 * g.val + 1, by first | done | omega⟩ : Fin 256).val, 0] := k0_off11_eq g ⟨0, by decide⟩
  have hw2 : (k0_off13 g) = ![(⟨16 * g.val + 2, by first | done | omega⟩ : Fin 256).val, 0] := k0_off13_eq g
  have hc2 : (k0_off15 g 2#32) = ![(⟨16 * g.val + 2, by first | done | omega⟩ : Fin 256).val, 0] := k0_off15_eq g ⟨0, by decide⟩
  have hw3 : (k0_off17 g) = ![(⟨16 * g.val + 3, by first | done | omega⟩ : Fin 256).val, 0] := k0_off17_eq g
  have hc3 : (k0_off19 g 3#32) = ![(⟨16 * g.val + 3, by first | done | omega⟩ : Fin 256).val, 0] := k0_off19_eq g ⟨0, by decide⟩
  have hw4 : (k0_off21 g) = ![(⟨16 * g.val + 4, by first | done | omega⟩ : Fin 256).val, 0] := k0_off21_eq g
  have hc4 : (k0_off23 g 4#32) = ![(⟨16 * g.val + 4, by first | done | omega⟩ : Fin 256).val, 0] := k0_off23_eq g ⟨0, by decide⟩
  have hw5 : (k0_off25 g) = ![(⟨16 * g.val + 5, by first | done | omega⟩ : Fin 256).val, 0] := k0_off25_eq g
  have hc5 : (k0_off27 g 5#32) = ![(⟨16 * g.val + 5, by first | done | omega⟩ : Fin 256).val, 0] := k0_off27_eq g ⟨0, by decide⟩
  have hw6 : (k0_off29 g) = ![(⟨16 * g.val + 6, by first | done | omega⟩ : Fin 256).val, 0] := k0_off29_eq g
  have hc6 : (k0_off31 g 6#32) = ![(⟨16 * g.val + 6, by first | done | omega⟩ : Fin 256).val, 0] := k0_off31_eq g ⟨0, by decide⟩
  have hw7 : (k0_off33 g) = ![(⟨16 * g.val + 7, by first | done | omega⟩ : Fin 256).val, 0] := k0_off33_eq g
  have hc7 : (k0_off35 g 7#32) = ![(⟨16 * g.val + 7, by first | done | omega⟩ : Fin 256).val, 0] := k0_off35_eq g ⟨0, by decide⟩
  have hw8 : (k0_off37 g) = ![(⟨16 * g.val + 8, by first | done | omega⟩ : Fin 256).val, 0] := k0_off37_eq g
  have hc8 : (k0_off39 g 8#32) = ![(⟨16 * g.val + 8, by first | done | omega⟩ : Fin 256).val, 0] := k0_off39_eq g ⟨0, by decide⟩
  have hw9 : (k0_off41 g) = ![(⟨16 * g.val + 9, by first | done | omega⟩ : Fin 256).val, 0] := k0_off41_eq g
  have hc9 : (k0_off43 g 9#32) = ![(⟨16 * g.val + 9, by first | done | omega⟩ : Fin 256).val, 0] := k0_off43_eq g ⟨0, by decide⟩
  have hw10 : (k0_off45 g) = ![(⟨16 * g.val + 10, by first | done | omega⟩ : Fin 256).val, 0] := k0_off45_eq g
  have hc10 : (k0_off47 g 10#32) = ![(⟨16 * g.val + 10, by first | done | omega⟩ : Fin 256).val, 0] := k0_off47_eq g ⟨0, by decide⟩
  have hw11 : (k0_off49 g) = ![(⟨16 * g.val + 11, by first | done | omega⟩ : Fin 256).val, 0] := k0_off49_eq g
  have hc11 : (k0_off51 g 11#32) = ![(⟨16 * g.val + 11, by first | done | omega⟩ : Fin 256).val, 0] := k0_off51_eq g ⟨0, by decide⟩
  have hw12 : (k0_off53 g) = ![(⟨16 * g.val + 12, by first | done | omega⟩ : Fin 256).val, 0] := k0_off53_eq g
  have hc12 : (k0_off55 g 12#32) = ![(⟨16 * g.val + 12, by first | done | omega⟩ : Fin 256).val, 0] := k0_off55_eq g ⟨0, by decide⟩
  have hw13 : (k0_off57 g) = ![(⟨16 * g.val + 13, by first | done | omega⟩ : Fin 256).val, 0] := k0_off57_eq g
  have hc13 : (k0_off59 g 13#32) = ![(⟨16 * g.val + 13, by first | done | omega⟩ : Fin 256).val, 0] := k0_off59_eq g ⟨0, by decide⟩
  have hw14 : (k0_off61 g) = ![(⟨16 * g.val + 14, by first | done | omega⟩ : Fin 256).val, 0] := k0_off61_eq g
  have hc14 : (k0_off63 g 14#32) = ![(⟨16 * g.val + 14, by first | done | omega⟩ : Fin 256).val, 0] := k0_off63_eq g ⟨0, by decide⟩
  have hw15 : (k0_off65 g) = ![(⟨16 * g.val + 15, by first | done | omega⟩ : Fin 256).val, 0] := k0_off65_eq g
  have hc15 : (k0_off67 g) = ![(⟨16 * g.val + 15, by first | done | omega⟩ : Fin 256).val, 0] := k0_off67_eq g
  unfold tokW tokC
  iintro ⟨HBw, HBc, ⟨HR0, HR1, HR2, HR3, HR4, HR5, HR6, HR7, HR8, HR9, HR10, HR11, HR12, HR13, HR14, HR15, HRs⟩, ⟨HC0, HC1, HC2, HC3, HC4, HC5, HC6, HC7, HC8, HC9, HC10, HC11, HC12, HC13, HC14, HC15, HCs⟩, ⟨HT0, HT1, HT2, HT3, HT4, HT5, HT6, HT7, HT8, HT9, HT10, HT11, HT12, HT13, HT14, HT15, HTs⟩, ⟨HU0, HU1, HU2, HU3, HU4, HU5, HU6, HU7, HU8, HU9, HU10, HU11, HU12, HU13, HU14, HU15, HUs⟩, Hs0, Hs1⟩
  ihave HR0' := (Entails.of_eq (rowW_spell d L f2 (⟨16 * g.val, by first | done | omega⟩ : Fin 256) (k0_off5 g) hw0 (k0_off5_inb g))) $$ HR0
  ihave HC0' := (Entails.of_eq (rowC_spell d L f3 (⟨16 * g.val, by first | done | omega⟩ : Fin 256) (k0_off7 g 0#32) hc0 (k0_off7_inb g 0))) $$ HC0
  ihave HR1' := (Entails.of_eq (rowW_spell d L f2 (⟨16 * g.val + 1, by first | done | omega⟩ : Fin 256) (k0_off9 g) hw1 (k0_off9_inb g))) $$ HR1
  ihave HC1' := (Entails.of_eq (rowC_spell d L f3 (⟨16 * g.val + 1, by first | done | omega⟩ : Fin 256) (k0_off11 g 1#32) hc1 (k0_off11_inb g 0))) $$ HC1
  ihave HR2' := (Entails.of_eq (rowW_spell d L f2 (⟨16 * g.val + 2, by first | done | omega⟩ : Fin 256) (k0_off13 g) hw2 (k0_off13_inb g))) $$ HR2
  ihave HC2' := (Entails.of_eq (rowC_spell d L f3 (⟨16 * g.val + 2, by first | done | omega⟩ : Fin 256) (k0_off15 g 2#32) hc2 (k0_off15_inb g 0))) $$ HC2
  ihave HR3' := (Entails.of_eq (rowW_spell d L f2 (⟨16 * g.val + 3, by first | done | omega⟩ : Fin 256) (k0_off17 g) hw3 (k0_off17_inb g))) $$ HR3
  ihave HC3' := (Entails.of_eq (rowC_spell d L f3 (⟨16 * g.val + 3, by first | done | omega⟩ : Fin 256) (k0_off19 g 3#32) hc3 (k0_off19_inb g 0))) $$ HC3
  ihave HR4' := (Entails.of_eq (rowW_spell d L f2 (⟨16 * g.val + 4, by first | done | omega⟩ : Fin 256) (k0_off21 g) hw4 (k0_off21_inb g))) $$ HR4
  ihave HC4' := (Entails.of_eq (rowC_spell d L f3 (⟨16 * g.val + 4, by first | done | omega⟩ : Fin 256) (k0_off23 g 4#32) hc4 (k0_off23_inb g 0))) $$ HC4
  ihave HR5' := (Entails.of_eq (rowW_spell d L f2 (⟨16 * g.val + 5, by first | done | omega⟩ : Fin 256) (k0_off25 g) hw5 (k0_off25_inb g))) $$ HR5
  ihave HC5' := (Entails.of_eq (rowC_spell d L f3 (⟨16 * g.val + 5, by first | done | omega⟩ : Fin 256) (k0_off27 g 5#32) hc5 (k0_off27_inb g 0))) $$ HC5
  ihave HR6' := (Entails.of_eq (rowW_spell d L f2 (⟨16 * g.val + 6, by first | done | omega⟩ : Fin 256) (k0_off29 g) hw6 (k0_off29_inb g))) $$ HR6
  ihave HC6' := (Entails.of_eq (rowC_spell d L f3 (⟨16 * g.val + 6, by first | done | omega⟩ : Fin 256) (k0_off31 g 6#32) hc6 (k0_off31_inb g 0))) $$ HC6
  ihave HR7' := (Entails.of_eq (rowW_spell d L f2 (⟨16 * g.val + 7, by first | done | omega⟩ : Fin 256) (k0_off33 g) hw7 (k0_off33_inb g))) $$ HR7
  ihave HC7' := (Entails.of_eq (rowC_spell d L f3 (⟨16 * g.val + 7, by first | done | omega⟩ : Fin 256) (k0_off35 g 7#32) hc7 (k0_off35_inb g 0))) $$ HC7
  ihave HR8' := (Entails.of_eq (rowW_spell d L f2 (⟨16 * g.val + 8, by first | done | omega⟩ : Fin 256) (k0_off37 g) hw8 (k0_off37_inb g))) $$ HR8
  ihave HC8' := (Entails.of_eq (rowC_spell d L f3 (⟨16 * g.val + 8, by first | done | omega⟩ : Fin 256) (k0_off39 g 8#32) hc8 (k0_off39_inb g 0))) $$ HC8
  ihave HR9' := (Entails.of_eq (rowW_spell d L f2 (⟨16 * g.val + 9, by first | done | omega⟩ : Fin 256) (k0_off41 g) hw9 (k0_off41_inb g))) $$ HR9
  ihave HC9' := (Entails.of_eq (rowC_spell d L f3 (⟨16 * g.val + 9, by first | done | omega⟩ : Fin 256) (k0_off43 g 9#32) hc9 (k0_off43_inb g 0))) $$ HC9
  ihave HR10' := (Entails.of_eq (rowW_spell d L f2 (⟨16 * g.val + 10, by first | done | omega⟩ : Fin 256) (k0_off45 g) hw10 (k0_off45_inb g))) $$ HR10
  ihave HC10' := (Entails.of_eq (rowC_spell d L f3 (⟨16 * g.val + 10, by first | done | omega⟩ : Fin 256) (k0_off47 g 10#32) hc10 (k0_off47_inb g 0))) $$ HC10
  ihave HR11' := (Entails.of_eq (rowW_spell d L f2 (⟨16 * g.val + 11, by first | done | omega⟩ : Fin 256) (k0_off49 g) hw11 (k0_off49_inb g))) $$ HR11
  ihave HC11' := (Entails.of_eq (rowC_spell d L f3 (⟨16 * g.val + 11, by first | done | omega⟩ : Fin 256) (k0_off51 g 11#32) hc11 (k0_off51_inb g 0))) $$ HC11
  ihave HR12' := (Entails.of_eq (rowW_spell d L f2 (⟨16 * g.val + 12, by first | done | omega⟩ : Fin 256) (k0_off53 g) hw12 (k0_off53_inb g))) $$ HR12
  ihave HC12' := (Entails.of_eq (rowC_spell d L f3 (⟨16 * g.val + 12, by first | done | omega⟩ : Fin 256) (k0_off55 g 12#32) hc12 (k0_off55_inb g 0))) $$ HC12
  ihave HR13' := (Entails.of_eq (rowW_spell d L f2 (⟨16 * g.val + 13, by first | done | omega⟩ : Fin 256) (k0_off57 g) hw13 (k0_off57_inb g))) $$ HR13
  ihave HC13' := (Entails.of_eq (rowC_spell d L f3 (⟨16 * g.val + 13, by first | done | omega⟩ : Fin 256) (k0_off59 g 13#32) hc13 (k0_off59_inb g 0))) $$ HC13
  ihave HR14' := (Entails.of_eq (rowW_spell d L f2 (⟨16 * g.val + 14, by first | done | omega⟩ : Fin 256) (k0_off61 g) hw14 (k0_off61_inb g))) $$ HR14
  ihave HC14' := (Entails.of_eq (rowC_spell d L f3 (⟨16 * g.val + 14, by first | done | omega⟩ : Fin 256) (k0_off63 g 14#32) hc14 (k0_off63_inb g 0))) $$ HC14
  ihave HR15' := (Entails.of_eq (rowW_spell d L f2 (⟨16 * g.val + 15, by first | done | omega⟩ : Fin 256) (k0_off65 g) hw15 (k0_off65_inb g))) $$ HR15
  ihave HC15' := (Entails.of_eq (rowC_spell d L f3 (⟨16 * g.val + 15, by first | done | omega⟩ : Fin 256) (k0_off67 g) hc15 (k0_off67_inb g))) $$ HC15
  unfold k0_t2_body
  sl_exec (disch := first
    | omega
    | exact chk_of_le _ (hs0 _)
    | exact chk_of_le _ (hs1 _)
    | (goal_mentions Cert.Kernel.cc0_scratch2
       refine deliver_w' d L s0 tb1 _ _ _ ?_ _ _ _ _ ?_ _ ?_ ?_ _ _ ?_
       · with_reducible assumption
       · exact fun _ => rfl
       · exact word_at (F := F) s0 k g _ (by omega) (by first | done | decide) (by first | done | decide) (by first | done | decide)
       · exact hs0 _
       · rfl)
    | (goal_mentions Cert.Kernel.cc0_scratch3
       refine deliver_c' d L s1 tb2 _ _ _ ?_ _ _ _ _ ?_ _ ?_ ?_ _ _ ?_
       · with_reducible assumption
       · exact fun _ => rfl
       · exact word_at1 (F := F) s1 k g _ (by omega) (by first | done | decide) (by first | done | decide) (by first | done | decide)
       · exact hs1 _
       · rfl))
  sl_step
  have e16 : 16 * (g.val + 1) = 16 * g.val + 1 + 1 + 1 + 1 + 1 + 1 + 1 + 1 + 1 + 1 + 1 + 1 + 1 + 1 + 1 + 1 := by omega
  isplitl [HBw]; · rw [e16]; iexact HBw
  isplitl [HBc]; · rw [e16]; iexact HBc
  isplitl [HRs]; · iexact HRs
  isplitl [HCs]; · iexact HCs
  isplitl [HTs]; · iexact HTs
  isplitl [HUs]; · iexact HUs
  isplitl [Hs0]; · iexact Hs0
  iexact Hs1

end Cert.Proof.KB

end
-- ==== Proof.LaunchSplitB.lean ====
import proofs.«207591_g3891240370478_cont_8to1_b_1686_26_alg».proof.Proof.CommonB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds; the transfers' counters are not needed from the launch -/

def u₀ : UU := (initOf (K (F := F)).hsCells (K (F := F)).hsToks, 1)

theorem bigSep_emp' {I : Type} (s : Finset I) : (bigSep s fun _ => iprop(emp)) = (iprop(emp) : sProp 𝕄) := bigSep_emp_const s

/-- A family over the call's vector subcores is one over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- and one over the call's SparseCores is one over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- One array held at a share hands each of `n` readers a token of it (the remainder is dropped). -/
theorem share_toks {ℓ : Loc nD τ sig} (f : Buf (Elt F) ℓ) (q : PosShare TreeShare) (n : ℕ) :
    (ℓ ↦{q} f : sProp 𝕄) ⊢ bigSep Finset.univ fun i : Fin n => ℓ ↦{shareTokN q i.val} f :=
  (pointsTo_toks_split q n).trans sep_elim_right

variable [FloatOps F]

/-- The four read arrays at a share hand each of `n` readers its token of the four. -/
theorem reads_toks (d : Dev nD) (q : PosShare TreeShare) (n : ℕ) :
    reads m d q ⊢ bigSep Finset.univ fun i : Fin n => reads m d (shareTokN q i.val) := by
  unfold reads
  rw [bigSep_sep', bigSep_sep', bigSep_sep']
  iintro ⟨H1, H3, Ha1, Ha2⟩
  isplitl [H1]; · iapply (share_toks (W1 m d) q n); iexact H1
  isplitl [H3]; · iapply (share_toks (W3 m d) q n); iexact H3
  isplitl [Ha1]; · iapply (share_toks (T1 m d) q n); iexact Ha1
  iapply (share_toks (T2 m d) q n); iexact Ha2

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## A SparseCore's operands split among its tiles -/

theorem P_st (d : Dev nD) (c : Fin ((K (F := F)).nCore 0)) : (P m).st 0 d c = stP m d (Fin.cast nCore_zero c) := rfl
theorem P_dn (d : Dev nD) (c : Fin ((K (F := F)).nCore 0)) : (P m).dn 0 d c = dnP m d (Fin.cast nCore_zero c) := rfl
theorem P_go (d : Dev nD) (c : Fin ((K (F := F)).nCore 0)) (i : Fin ((K (F := F)).nSub 0)) :
    (P m).go 0 d c i = goP m d (Fin.cast nCore_zero c) (Fin.cast nSub_zero i) := rfl
theorem P_td (d : Dev nD) (c : Fin ((K (F := F)).nCore 0)) (i : Fin ((K (F := F)).nSub 0)) :
    (P m).td 0 d c i = tdP m d (Fin.cast nCore_zero c) (Fin.cast nSub_zero i) := rfl

/-- The read share of a SparseCore splits into its sixteen tiles' shares; the parts of the results are already
    listed per tile, and come back as the tiles leave them. -/
theorem vecSplit : (K (F := F)).VecSplit' (P m) 0 := by
  intro d c
  simp only [P_st, P_dn, P_go, P_td]
  generalize Fin.cast nCore_zero c = c'
  rw [bigSep_tasks (F := F) (fun i => goP m d c' i), bigSep_tasks (F := F) (fun i => tdP m d c' i)]
  unfold stP goP dnP
  rw [bigSep_sep']
  iintro ⟨Hr, Ho⟩; imodintro
  isplitl [Hr Ho]
  · isplitl [Hr]
    · iapply (reads_toks m d (qCore c'.val) 16); iexact Hr
    · iexact Ho
  iintro H; iexact H

end Cert.Proof.KB

end
-- ==== Proof.TileOblB.lean ====
/-
  The launch theorem's obligation for the kernel's tiles: the task of vector subcore i of SparseCore c runs the
  kernel's body at coordinates (c, i) over the whole arrays, so the obligation is the body's statement at those
  coordinates, taken here as a hypothesis.
-/
import proofs.«207591_g3891240370478_cont_8to1_b_1686_26_alg».proof.Proof.TileDefsB
import proofs.«207591_g3891240370478_cont_8to1_b_1686_26_alg».proof.Proof.LaunchSplitB
import Idealize.ShloMosaic.Lib.Writes
import Idealize.ShloMosaic.Lib.Pipeline.Value
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.Kernel.main_v1_scv : Memref Cert.Kernel.sig Kind.scVector Space.hbm Cert.Kernel.S16384 EltTy.i32)
local notation "aV3" => (Memref.whole Cert.Kernel.main_v3_scv : Memref Cert.Kernel.sig Kind.scVector Space.hbm Cert.Kernel.S16384 EltTy.i32)
local notation "aT1" => (Memref.whole Cert.Kernel.main_arg1_scv : Memref Cert.Kernel.sig Kind.scVector Space.hbm Cert.Kernel.S1000002x64 EltTy.f32)
local notation "aT2" => (Memref.whole Cert.Kernel.main_arg2_scv : Memref Cert.Kernel.sig Kind.scVector Space.hbm Cert.Kernel.S1000002x64 EltTy.f32)
local notation "aO0" => (Memref.whole Cert.Kernel.main_v4_0_scv : Memref Cert.Kernel.sig Kind.scVector Space.hbm Cert.Kernel.S16384x64 EltTy.f32)
local notation "aO1" => (Memref.whole Cert.Kernel.main_v4_1_scv : Memref Cert.Kernel.sig Kind.scVector Space.hbm Cert.Kernel.S16384x64 EltTy.f32)
local notation "sI0" => (Memref.whole Cert.Kernel.cc0_scratch0 : Memref Cert.Kernel.sig Kind.scVector Space.vmem Cert.Kernel.S512 EltTy.i32)
local notation "sI1" => (Memref.whole Cert.Kernel.cc0_scratch1 : Memref Cert.Kernel.sig Kind.scVector Space.vmem Cert.Kernel.S512 EltTy.i32)
local notation "sR0" => (Memref.whole Cert.Kernel.cc0_scratch2 : Memref Cert.Kernel.sig Kind.scVector Space.vmem Cert.Kernel.S256x64 EltTy.f32)
local notation "sR1" => (Memref.whole Cert.Kernel.cc0_scratch3 : Memref Cert.Kernel.sig Kind.scVector Space.vmem Cert.Kernel.S256x64 EltTy.f32)

variable (m : (ℓ : Loc nD τ sig) → Buf (Elt F) ℓ)

variable [FloatOps F]

/-! ## The launch theorem's obligation for a tile, from the tile's body -/

/-- A tile's coordinates from its SparseCore and its vector subcore. -/
def coordsV (c : Fin (grid0.bound 0)) (s : Fin (grid0.bound 1)) : grid0.Coords :=
  fun | 0 => c | 1 => s | ⟨_ + 2, h⟩ => absurd h (Nat.not_lt.2 (Nat.le_add_left _ _))

/-- What the body table runs on a vector subcore: the kernel at that tile's coordinates, over the whole arrays. -/
theorem defs₀_vector (c : Fin τ.nSC) (s : Fin τ.nSub) :
    defs₀ (F := F) (.scVector c s) 0 ()
      = SparseCore.onTile hcore0 hsub0 (fun c s => cc0__dual_gather (coordsV c s)
          aV1 (Memref.isWhole_whole _) aV3 (Memref.isWhole_whole _) aT1 (Memref.isWhole_whole _) aT2 (Memref.isWhole_whole _)
            aO0 (Memref.isWhole_whole _) aO1 (Memref.isWhole_whole _) sI0 (Memref.isWhole_whole _) sI1 (Memref.isWhole_whole _)
            sR0 (Memref.isWhole_whole _) sR1 (Memref.isWhole_whole _) cc0_scratch4 cc0_scratch5 cc0_scoped0 cc0_scoped1 cc0_scoped2 cc0_scoped3) ⟨⟩ c s := rfl

omit [FloatOps F] in
/-- The body's exit is the obligation's: what it still waits for it waited for at entry, or owes to no call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Obl
variable (tile_body : ∀ (d : Dev nD) (L : grid0.Coords) (hF : (K (F := F)).Facts) (hpre : PreOK m) (O : CellTallies nD τ sig (HIx 1)) (W : Waits sig (HIx 1)) (hO : ∀ g, O g none = 0),
    iprop(levAts (K (F := F)).L (K (F := F)).lev ∗ emp ∗ goP m d (cF L) (iF L)
        ∗ scopedBufs (thr d L) ∗ scopedSems0 (thr d L) ∗ owes (thr d L) O W)
      ⊢ wp frame (wpE (defs₀ (F := F)) 𝒱₀ (thr d L) none) Set.univ
          (cc0__dual_gather L aV1 (Memref.isWhole_whole _) aV3 (Memref.isWhole_whole _) aT1 (Memref.isWhole_whole _) aT2 (Memref.isWhole_whole _)
            aO0 (Memref.isWhole_whole _) aO1 (Memref.isWhole_whole _) sI0 (Memref.isWhole_whole _) sI1 (Memref.isWhole_whole _)
            sR0 (Memref.isWhole_whole _) sR1 (Memref.isWhole_whole _) cc0_scratch4 cc0_scratch5 cc0_scoped0 cc0_scoped1 cc0_scoped2 cc0_scoped3)
          fun _ => iprop(tdP m d (cF L) (iF L) ∗ scopedBufs (thr d L) ∗ scopedSems0 (thr d L)
            ∗ ∃ W', ⌜∀ p ∈ W', p ∈ W ∨ p.2 = none⌝ ∗ owes (thr d L) O W'))
include tile_body

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hcF : cF (coordsV ⟨((K (F := F)).core 0 c).val, hc.1⟩ ⟨((K (F := F)).sub 0 i).val, hc.2⟩) = Fin.cast nCore_zero c := Fin.ext rfl
  have hiF : iF (coordsV ⟨((K (F := F)).core 0 c).val, hc.1⟩ ⟨((K (F := F)).sub 0 i).val, hc.2⟩) = Fin.cast nSub_zero i := Fin.ext rfl
  have hb := tile_body d (coordsV ⟨_, hc.1⟩ ⟨_, hc.2⟩) hF hpre O W hO
  rw [hcF, hiF] at hb
  exact hb.trans (wp_mono frame _ _ fun _ => obl_post)

end Obl

end Cert.Proof.KB

end
-- ==== Proof.TileDrainB.lean ====
import proofs.«207591_g3891240370478_cont_8to1_b_1686_26_alg».proof.Proof.TileDefsB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "aV1" => (Memref.whole Cert.Kernel.main_v1_scv : Memref Cert.Kernel.sig Kind.scVector Space.hbm Cert.Kernel.S16384 EltTy.i32)
local notation "aV3" => (Memref.whole Cert.Kernel.main_v3_scv : Memref Cert.Kernel.sig Kind.scVector Space.hbm Cert.Kernel.S16384 EltTy.i32)
local notation "aT1" => (Memref.whole Cert.Kernel.main_arg1_scv : Memref Cert.Kernel.sig Kind.scVector Space.hbm Cert.Kernel.S1000002x64 EltTy.f32)
local notation "aT2" => (Memref.whole Cert.Kernel.main_arg2_scv : Memref Cert.Kernel.sig Kind.scVector Space.hbm Cert.Kernel.S1000002x64 EltTy.f32)
local notation "aO0" => (Memref.whole Cert.Kernel.main_v4_0_scv : Memref Cert.Kernel.sig Kind.scVector Space.hbm Cert.Kernel.S16384x64 EltTy.f32)
local notation "aO1" => (Memref.whole Cert.Kernel.main_v4_1_scv : Memref Cert.Kernel.sig Kind.scVector Space.hbm Cert.Kernel.S16384x64 EltTy.f32)
local notation "sI0" => (Memref.whole Cert.Kernel.cc0_scratch0 : Memref Cert.Kernel.sig Kind.scVector Space.vmem Cert.Kernel.S512 EltTy.i32)
local notation "sI1" => (Memref.whole Cert.Kernel.cc0_scratch1 : Memref Cert.Kernel.sig Kind.scVector Space.vmem Cert.Kernel.S512 EltTy.i32)
local notation "sR0" => (Memref.whole Cert.Kernel.cc0_scratch2 : Memref Cert.Kernel.sig Kind.scVector Space.vmem Cert.Kernel.S256x64 EltTy.f32)
local notation "sR1" => (Memref.whole Cert.Kernel.cc0_scratch3 : Memref Cert.Kernel.sig Kind.scVector Space.vmem Cert.Kernel.S256x64 EltTy.f32)

variable [FloatOps F] (d : Dev nD) (L : grid0.Coords)
variable (s0 s1 : S512.Idx → BitVec 32) (tb1 tb2 : S1000002x64.Idx → Elt F .f32)

/-! ## The drain loop -/

theorem t3_trips : k0_t3_loop.trips = 256 := by decide
theorem t2_trips : k0_t2_loop.trips = 16 := by decide
theorem t1_trips : k0_t1_loop.trips = 2 := by decide

/-- The waits a body records sit at index `none`. -/
theorem waits_insert {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with hp | hp
  · exact .inr (hp ▸ rfl)
  · exact h p hp

/-- Before trip `g` of chunk `k`'s drain loop: the waits so far recorded; and either (before the last trip has run)
    both batches with `g` rows' units consumed, or (after it) both cells back at zero and every row delivered. -/
def drainInv (k : ℕ) (O : CellTallies nD τ sig (HIx 1)) (W : Waits sig (HIx 1)) (g : ℕ) (_ : BitVec 32) : sProp 𝕄 :=
  iprop(⌜g ≤ 256⌝ ∗ Transfers.MayWaits (thr d L) (none : HIx 1) O
    ∗ (∃ W', ⌜∀ p ∈ W', p ∈ W ∨ p.2 = none⌝ ∗ owes (thr d L) O W')
    ∗ (if g < 256 then iprop(batchW d L s0 tb1 k 256 (g * NR) ∗ batchC d L s1 tb2 k 256 (g * NR))
       else iprop(semVal (cellOf d L cc0_scratch4) 0 ∗ semVal (cellOf d L cc0_scratch5) 0
          ∗ bigSep Finset.univ (Dw d L s0 tb1 k) ∗ bigSep Finset.univ (Dc d L s1 tb2 k))))

/-- One trip at a symbolic `g`, by cases: `g + 1 < 256`, two waits each short of its batch's last;
    `g + 1 = 256`, the two last waits: each cell at zero and every delivery of its batch back. -/
theorem drain_step [∀ e, Nonempty (Elt F e)] (k : ℕ) (O : CellTallies nD τ sig (HIx 1)) (W : Waits sig (HIx 1))
    (g : Fin k0_t3_loop.trips) (acc : BitVec 32) :
    drainInv d L s0 s1 tb1 tb2 k O W g.val acc
      ⊢ wp frame (wpE (defs₀ (F := F)) 𝒱₀ (thr d L) none) Set.univ
          (k0_t3_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 g acc)
          (drainInv d L s0 s1 tb1 tb2 k O W (g.val + 1)) := by
  have hg : g.val < 256 := t3_trips ▸ g.isLt
  unfold drainInv
  simp only [if_pos hg]
  rcases Nat.lt_or_ge (g.val + 1) 256 with h1 | h1
  · simp only [if_pos h1]
    iintro ⟨-, Hmw, ⟨%W', %hW', HO⟩, HBw, HBc⟩
    unfold k0_t3_body
    sl_exec
    sl_step
    isplitr; · ipureintro; omega
    isplitl [Hmw]; · iexact Hmw
    isplitl [HO]
    · iexists (insert (SemLoc.dma cc0_scratch5.sem, (none : HIx 1)) (insert (SemLoc.dma cc0_scratch4.sem, (none : HIx 1)) W')); isplitr
      · ipureintro; exact waits_insert (waits_insert hW' _) _
      · iexact HO
    rw [show (g.val + 1) * NR = g.val * NR + NR from Nat.succ_mul _ _]
    isplitl [HBw] <;> iassumption
  · simp only [if_neg (Nat.not_lt.mpr h1)]
    iintro ⟨-, Hmw, ⟨%W', %hW', HO⟩, HBw, HBc⟩
    unfold k0_t3_body
    sl_exec
    sl_step
    isplitr; · ipureintro; omega
    isplitl [Hmw]; · iexact Hmw
    isplitl [HO]
    · iexists (insert (SemLoc.dma cc0_scratch5.sem, (none : HIx 1)) (insert (SemLoc.dma cc0_scratch4.sem, (none : HIx 1)) W')); isplitr
      · ipureintro; exact waits_insert (waits_insert hW' _) _
      · iexact HO
    isplitl [HBw]; · iexact HBw
    isplitl [HBc]; · iexact HBc
    isplitl [HBw_all]; · iexact HBw_all
    iexact HBc_all

end Cert.Proof.KB

end
-- ==== Proof.TileChunkB.lean ====
import proofs.«207591_g3891240370478_cont_8to1_b_1686_26_alg».proof.Proof.TileDefsB
import proofs.«207591_g3891240370478_cont_8to1_b_1686_26_alg».proof.Proof.TileDrainB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "aV1" => (Memref.whole Cert.Kernel.main_v1_scv : Memref Cert.Kernel.sig Kind.scVector Space.hbm Cert.Kernel.S16384 EltTy.i32)
local notation "aV3" => (Memref.whole Cert.Kernel.main_v3_scv : Memref Cert.Kernel.sig Kind.scVector Space.hbm Cert.Kernel.S16384 EltTy.i32)
local notation "aT1" => (Memref.whole Cert.Kernel.main_arg1_scv : Memref Cert.Kernel.sig Kind.scVector Space.hbm Cert.Kernel.S1000002x64 EltTy.f32)
local notation "aT2" => (Memref.whole Cert.Kernel.main_arg2_scv : Memref Cert.Kernel.sig Kind.scVector Space.hbm Cert.Kernel.S1000002x64 EltTy.f32)
local notation "aO0" => (Memref.whole Cert.Kernel.main_v4_0_scv : Memref Cert.Kernel.sig Kind.scVector Space.hbm Cert.Kernel.S16384x64 EltTy.f32)
local notation "aO1" => (Memref.whole Cert.Kernel.main_v4_1_scv : Memref Cert.Kernel.sig Kind.scVector Space.hbm Cert.Kernel.S16384x64 EltTy.f32)
local notation "sI0" => (Memref.whole Cert.Kernel.cc0_scratch0 : Memref Cert.Kernel.sig Kind.scVector Space.vmem Cert.Kernel.S512 EltTy.i32)
local notation "sI1" => (Memref.whole Cert.Kernel.cc0_scratch1 : Memref Cert.Kernel.sig Kind.scVector Space.vmem Cert.Kernel.S512 EltTy.i32)
local notation "sR0" => (Memref.whole Cert.Kernel.cc0_scratch2 : Memref Cert.Kernel.sig Kind.scVector Space.vmem Cert.Kernel.S256x64 EltTy.f32)
local notation "sR1" => (Memref.whole Cert.Kernel.cc0_scratch3 : Memref Cert.Kernel.sig Kind.scVector Space.vmem Cert.Kernel.S256x64 EltTy.f32)

variable [FloatOps F] (d : Dev nD) (L : grid0.Coords)
variable (s0 s1 : S512.Idx → BitVec 32) (tb1 tb2 : S1000002x64.Idx → Elt F .f32)

/-! ## One chunk -/

/-- Chunk `k`'s rows of the two results, as the body slices them. -/
def oPart0 (k : Fin k0_t1_loop.trips) : Memref sig .scVector .hbm S256x64 .f32 :=
  (aO0).slice (Rect.unit (s := S16384x64) (k0_off68 L k) S256x64.size (k0_off68_inb L k)) (fun _ => rfl)
def oPart1 (k : Fin k0_t1_loop.trips) : Memref sig .scVector .hbm S256x64 .f32 :=
  (aO1).slice (Rect.unit (s := S16384x64) (k0_off68 L k) S256x64.size (k0_off68_inb L k)) (fun _ => rfl)

/-- The 256 read tokens of a table share, as the run of tokens the issue loop's invariant counts. -/
theorem toksW_range (q : PosShare TreeShare) :
    (bigSep (Finset.range 256) (fun i => (aT1).view.loc (thr d L) ↦{shareTokN q i} tb1) : sProp 𝕄)
      = bigSep (Ring.rangeSet 256 0 256) (fun t => tokW d L tb1 q t.val) := by
  rw [Ring.rangeSet_univ]
  exact (Ring.bigSep_fin_eq_range 256 (fun t => tokW d L tb1 q t.val) (fun i => tokW d L tb1 q i) (fun _ _ => rfl)).symm
theorem toksC_range (q : PosShare TreeShare) :
    (bigSep (Finset.range 256) (fun i => (aT2).view.loc (thr d L) ↦{shareTokN q i} tb2) : sProp 𝕄)
      = bigSep (Ring.rangeSet 256 0 256) (fun t => tokC d L tb2 q t.val) := by
  rw [Ring.rangeSet_univ]
  exact (Ring.bigSep_fin_eq_range 256 (fun t => tokC d L tb2 q t.val) (fun i => tokC d L tb2 q i) (fun _ _ => rfl)).symm

instance chunk_Dw_storable (k : ℕ) (t : Fin 256) : BI.Storable (upEmb : UEmb _ 𝕄) (Dw d L s0 tb1 k t) := by
  unfold Dw rowW sRow0; infer_instance
instance chunk_Dc_storable (k : ℕ) (t : Fin 256) : BI.Storable (upEmb : UEmb _ 𝕄) (Dc d L s1 tb2 k t) := by
  unfold Dc rowC sRow1; infer_instance

/-- A staging buffer whole is the run of all its rows. -/
theorem rows0_range (hrows0 : ∀ g : S256x64.Idx → Elt F .f32, ((sR0).view.loc (thr d L) ↦{fullShare} g : sProp 𝕄) = bigSep Finset.univ (rowW d L g))
    (g : S256x64.Idx → Elt F .f32) :
    ((sR0).view.loc (thr d L) ↦{fullShare} g : sProp 𝕄) = bigSep (Ring.rangeSet 256 0 256) (rowW d L g) := by
  rw [Ring.rangeSet_univ]; exact hrows0 g
theorem rows1_range (hrows1 : ∀ g : S256x64.Idx → Elt F .f32, ((sR1).view.loc (thr d L) ↦{fullShare} g : sProp 𝕄) = bigSep Finset.univ (rowC d L g))
    (g : S256x64.Idx → Elt F .f32) :
    ((sR1).view.loc (thr d L) ↦{fullShare} g : sProp 𝕄) = bigSep (Ring.rangeSet 256 0 256) (rowC d L g) := by
  rw [Ring.rangeSet_univ]; exact hrows1 g

/-- One chunk: each table's share lends 256 read tokens (the rest goes on to the next chunk); the staging buffers go
    out row by row; the issue loop starts the 256 row copies of each of the two batches, the drain loop waits for them
    and the rows come back at the looked-up rows; the two staging buffers are then copied whole onto the chunk's rows
    of the two results. -/
theorem chunk_step [∀ e, Nonempty (Elt F e)]
    (hfire : ∀ (k : Fin k0_t1_loop.trips) (g : Fin k0_t2_loop.trips) (acc : BitVec 32) (q1 q2 : PosShare TreeShare) (f2 f3 : S256x64.Idx → Elt F .f32),
      fireInv d L s0 s1 tb1 tb2 k.val q1 q2 f2 f3 g.val acc
        ⊢ wp frame (wpE (defs₀ (F := F)) 𝒱₀ (thr d L) none) Set.univ
            (k0_t2_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k (Scf.iv 0#32 1#32 k) g acc)
            (fireInv d L s0 s1 tb1 tb2 k.val q1 q2 f2 f3 (g.val + 1)))
    (hrows0 : ∀ g : S256x64.Idx → Elt F .f32, ((sR0).view.loc (thr d L) ↦{fullShare} g : sProp 𝕄) = bigSep Finset.univ (rowW d L g))
    (hrows1 : ∀ g : S256x64.Idx → Elt F .f32, ((sR1).view.loc (thr d L) ↦{fullShare} g : sProp 𝕄) = bigSep Finset.univ (rowC d L g))
    (O : CellTallies nD τ sig (HIx 1)) (W : Waits sig (HIx 1))
    (k : Fin k0_t1_loop.trips) (acc : BitVec 32) (q1 q2 : PosShare TreeShare) (f2 f3 : S256x64.Idx → Elt F .f32)
    (fo0 fo1 : S16384x64.Idx → Elt F .f32) :
    iprop(Transfers.MayWaits (thr d L) (none : HIx 1) O
        ∗ ((aT1).view.loc (thr d L) ↦{q1} tb1) ∗ ((aT2).view.loc (thr d L) ↦{q2} tb2)
        ∗ ((sI0).view.loc (thr d L) ↦{fullShare} s0) ∗ ((sI1).view.loc (thr d L) ↦{fullShare} s1)
        ∗ ((sR0).view.loc (thr d L) ↦{fullShare} f2) ∗ ((sR1).view.loc (thr d L) ↦{fullShare} f3)
        ∗ semVal (cellOf d L cc0_scratch4) 0 ∗ semVal (cellOf d L cc0_scratch5) 0
        ∗ semVal (cellOf d L cc0_scoped2) 0 ∗ semVal (cellOf d L cc0_scoped3) 0
        ∗ ((oPart0 L k).view.loc (thr d L) ↦[(oPart0 L k).view.set]{fullShare} fo0)
        ∗ ((oPart1 L k).view.loc (thr d L) ↦[(oPart1 L k).view.set]{fullShare} fo1)
        ∗ ∃ W', ⌜∀ p ∈ W', p ∈ W ∨ p.2 = none⌝ ∗ owes (thr d L) O W')
      ⊢ wp frame (wpE (defs₀ (F := F)) 𝒱₀ (thr d L) none) Set.univ
          (k0_t1_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k acc)
          (fun _ => (iprop(Transfers.MayWaits (thr d L) (none : HIx 1) O
            ∗ ((aT1).view.loc (thr d L) ↦{shareDrop q1 256} tb1) ∗ ((aT2).view.loc (thr d L) ↦{shareDrop q2 256} tb2)
            ∗ ((sI0).view.loc (thr d L) ↦{fullShare} s0) ∗ ((sI1).view.loc (thr d L) ↦{fullShare} s1)
            ∗ ((sR0).view.loc (thr d L) ↦{fullShare} stage s0 tb1 k.val) ∗ ((sR1).view.loc (thr d L) ↦{fullShare} stage s1 tb2 k.val)
            ∗ semVal (cellOf d L cc0_scratch4) 0 ∗ semVal (cellOf d L cc0_scratch5) 0
            ∗ semVal (cellOf d L cc0_scoped2) 0 ∗ semVal (cellOf d L cc0_scoped3) 0
            ∗ ((oPart0 L k).view.loc (thr d L) ↦[(oPart0 L k).view.set]{fullShare}
                (oPart0 L k).view.writes (Elt F) fo0 [⟨Rect.whole S256x64, ReadAs.same.apply ((sR0).view.read (Elt F) (stage s0 tb1 k.val))⟩])
            ∗ ((oPart1 L k).view.loc (thr d L) ↦[(oPart1 L k).view.set]{fullShare}
                (oPart1 L k).view.writes (Elt F) fo1 [⟨Rect.whole S256x64, ReadAs.same.apply ((sR1).view.read (Elt F) (stage s1 tb2 k.val))⟩])
            ∗ ∃ W', ⌜∀ p ∈ W', p ∈ W ∨ p.2 = none⌝ ∗ owes (thr d L) O W') : sProp 𝕄)) := by
  iintro ⟨Hmw, Ht1, Ht2, Hs0, Hs1, Hr0, Hr1, Hc4, Hc5, Hd2, Hd3, Ho0, Ho1, ⟨%W', %hW', HO⟩⟩
  -- the tables' shares as 256 read tokens each and the rest
  ihave Ht1' := (Transfers.pointsTo_toks_range q1 256).1 $$ Ht1
  icases Ht1' with ⟨Ht1r, Ht1t⟩
  ihave Ht1t' := (Entails.of_eq (toksW_range d L tb1 q1)) $$ Ht1t
  ihave Ht2' := (Transfers.pointsTo_toks_range q2 256).1 $$ Ht2
  icases Ht2' with ⟨Ht2r, Ht2t⟩
  ihave Ht2t' := (Entails.of_eq (toksC_range d L tb2 q2)) $$ Ht2t
  -- the staging buffers as their rows
  ihave Hr0' := (Entails.of_eq (rows0_range d L hrows0 f2)) $$ Hr0
  ihave Hr1' := (Entails.of_eq (rows1_range d L hrows1 f3)) $$ Hr1
  -- the two batches allocated
  imod (Transfers.batch_alloc' (Lvl := ℕ) (EC (F := F)) (thr d L) (none : HIx 1) NR (Dw d L s0 tb1 k.val) (sm := .dma cc0_scratch4.sem) (E := Set.univ)) $$ Hc4 with HBw
  imod (Transfers.batch_alloc' (Lvl := ℕ) (EC (F := F)) (thr d L) (none : HIx 1) NR (Dc d L s1 tb2 k.val) (sm := .dma cc0_scratch5.sem) (E := Set.univ)) $$ Hc5 with HBc
  sl_unfold [k0_t1_body]
  -- the issue loop
  sl_exec
  sl_for (fireInv d L s0 s1 tb1 tb2 k.val q1 q2 f2 f3) $$ [HBw HBc Hr0' Hr1' Ht1t' Ht2t' Hs0 Hs1]
  · intro g acc'; exact hfire k g acc' q1 q2 f2 f3
  · unfold fireInv
    rw [show 16 * 0 = 0 from rfl]
    isplitl [HBw]; · iexact HBw
    isplitl [HBc]; · iexact HBc
    isplitl [Hr0']; · iexact Hr0'
    isplitl [Hr1']; · iexact Hr1'
    isplitl [Ht1t']; · iexact Ht1t'
    isplitl [Ht2t']; · iexact Ht2t'
    isplitl [Hs0] <;> iassumption
  iintro %acc1 HI
  ihave HI' := (show fireInv d L s0 s1 tb1 tb2 k.val q1 q2 f2 f3 (Scf.trips k0_t2_loop.lb k0_t2_loop.ub k0_t2_loop.st) acc1
      ⊢ iprop(batchW d L s0 tb1 k.val 256 0 ∗ batchC d L s1 tb2 k.val 256 0
          ∗ ((sI0).view.loc (thr d L) ↦{fullShare} s0) ∗ ((sI1).view.loc (thr d L) ↦{fullShare} s1)) from by
    rw [show Scf.trips k0_t2_loop.lb k0_t2_loop.ub k0_t2_loop.st = 16 from by decide]
    unfold fireInv
    rw [show 16 * 16 = 256 from rfl]
    iintro ⟨HBw, HBc, -, -, -, -, Hs0, Hs1⟩
    isplitl [HBw]; · iexact HBw
    isplitl [HBc]; · iexact HBc
    isplitl [Hs0] <;> iassumption) $$ HI
  icases HI' with ⟨HBw, HBc, Hs0, Hs1⟩
  -- the drain loop
  sl_for (drainInv d L s0 s1 tb1 tb2 k.val O W) $$ [HBw HBc Hmw HO]
  · intro g acc'; exact drain_step d L s0 s1 tb1 tb2 k.val O W g acc'
  · unfold drainInv
    rw [if_pos (by decide : (0 : ℕ) < 256), Nat.zero_mul]
    isplitr; · ipureintro; omega
    isplitl [Hmw]; · iexact Hmw
    isplitl [HO]
    · iexists W'; isplitr
      · ipureintro; exact hW'
      · iexact HO
    isplitl [HBw] <;> iassumption
  iintro %acc2 HL
  ihave HL' := (show drainInv d L s0 s1 tb1 tb2 k.val O W (Scf.trips k0_t3_loop.lb k0_t3_loop.ub k0_t3_loop.st) acc2
      ⊢ iprop(Transfers.MayWaits (thr d L) (none : HIx 1) O ∗ (∃ W', ⌜∀ p ∈ W', p ∈ W ∨ p.2 = none⌝ ∗ owes (thr d L) O W')
          ∗ semVal (cellOf d L cc0_scratch4) 0 ∗ semVal (cellOf d L cc0_scratch5) 0
          ∗ ((sR0).view.loc (thr d L) ↦{fullShare} stage s0 tb1 k.val) ∗ ((sR1).view.loc (thr d L) ↦{fullShare} stage s1 tb2 k.val)) from by
    rw [show Scf.trips k0_t3_loop.lb k0_t3_loop.ub k0_t3_loop.st = 256 from by decide]
    unfold drainInv
    rw [if_neg (Nat.lt_irrefl _), hrows0, hrows1]
    iintro ⟨-, Hmw, HO, Hc4, Hc5, Hw, Hc⟩
    isplitl [Hmw]; · iexact Hmw
    isplitl [HO]; · iexact HO
    isplitl [Hc4]; · iexact Hc4
    isplitl [Hc5]; · iexact Hc5
    isplitl [Hw] <;> iassumption) $$ HL
  icases HL' with ⟨Hmw, ⟨%W2, %hW2, HO⟩, Hc4, Hc5, Hr0, Hr1⟩
  -- the two copies out
  sl_exec
  sl_unfold_run_names
  sl_step
  isplitl [Hmw]; · iexact Hmw
  isplitl [Ht1r]; · iexact Ht1r
  isplitl [Ht2r]; · iexact Ht2r
  isplitl [Hs0]; · iexact Hs0
  isplitl [Hs1]; · iexact Hs1
  isplitl [Hr0]; · iexact Hr0
  isplitl [Hr1]; · iexact Hr1
  isplitl [Hc4]; · iexact Hc4
  isplitl [Hc5]; · iexact Hc5
  isplitl [Hd2]; · iexact Hd2
  isplitl [Hd3]; · iexact Hd3
  isplitl [Ho0]; · iexact Ho0
  isplitl [Ho1]; · iexact Ho1
  iexists (insert (SemLoc.dma cc0_scoped3.sem, (none : HIx 1)) (insert (SemLoc.dma cc0_scoped2.sem, (none : HIx 1)) W2)); isplitr
  · ipureintro; exact waits_insert (waits_insert hW2 _) _
  · iexact HO

end Cert.Proof.KB

end
-- ==== Proof.TileRowsB.lean ====
/-
  A staging buffer as its 256 rows, and a tile's chunk of a result: the chunk's elements are one of the result's
  64 parts of 256 rows, and written whole from the staging buffer at the chunk's looked-up rows it holds, at result
  row r, the table's row that word r of the index vector names.
-/
import proofs.«207591_g3891240370478_cont_8to1_b_1686_26_alg».proof.Proof.TileWordB
import Idealize.ShloMosaic.Lib.Writes
import Idealize.ShloMosaic.Lib.Pipeline.Value
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.Kernel.main_v1_scv : Memref Cert.Kernel.sig Kind.scVector Space.hbm Cert.Kernel.S16384 EltTy.i32)
local notation "aV3" => (Memref.whole Cert.Kernel.main_v3_scv : Memref Cert.Kernel.sig Kind.scVector Space.hbm Cert.Kernel.S16384 EltTy.i32)
local notation "aT1" => (Memref.whole Cert.Kernel.main_arg1_scv : Memref Cert.Kernel.sig Kind.scVector Space.hbm Cert.Kernel.S1000002x64 EltTy.f32)
local notation "aT2" => (Memref.whole Cert.Kernel.main_arg2_scv : Memref Cert.Kernel.sig Kind.scVector Space.hbm Cert.Kernel.S1000002x64 EltTy.f32)
local notation "aO0" => (Memref.whole Cert.Kernel.main_v4_0_scv : Memref Cert.Kernel.sig Kind.scVector Space.hbm Cert.Kernel.S16384x64 EltTy.f32)
local notation "aO1" => (Memref.whole Cert.Kernel.main_v4_1_scv : Memref Cert.Kernel.sig Kind.scVector Space.hbm Cert.Kernel.S16384x64 EltTy.f32)
local notation "sI0" => (Memref.whole Cert.Kernel.cc0_scratch0 : Memref Cert.Kernel.sig Kind.scVector Space.vmem Cert.Kernel.S512 EltTy.i32)
local notation "sI1" => (Memref.whole Cert.Kernel.cc0_scratch1 : Memref Cert.Kernel.sig Kind.scVector Space.vmem Cert.Kernel.S512 EltTy.i32)
local notation "sR0" => (Memref.whole Cert.Kernel.cc0_scratch2 : Memref Cert.Kernel.sig Kind.scVector Space.vmem Cert.Kernel.S256x64 EltTy.f32)
local notation "sR1" => (Memref.whole Cert.Kernel.cc0_scratch3 : Memref Cert.Kernel.sig Kind.scVector Space.vmem Cert.Kernel.S256x64 EltTy.f32)

variable [FloatOps F] (d : Dev nD) (L : grid0.Coords)

/-! ## The staging buffer as its rows -/

/-- The elements of row `t` of a [256, 64] buffer. -/
abbrev rowSet (t : Fin 256) : Finset S256x64.Idx := (Rect.unit (s := S256x64) ![t.val, 0] S1x64.size (row_inb t)).set

/-- They are the buffer's at first coordinate `t`. -/
theorem mem_rowSet (t : Fin 256) (y : S256x64.Idx) : y ∈ rowSet t ↔ (y 0).val = t.val := by
  rw [Rect.mem_set_unit]
  have h1 : (y 1).val < 64 := (y 1).isLt
  constructor
  · intro H
    have a0 : t.val ≤ (y 0).val ∧ (y 0).val < t.val + 1 := H 0
    omega
  · intro H a
    match a with
    | ⟨0, _⟩ => show t.val ≤ (y 0).val ∧ (y 0).val < t.val + 1; omega
    | ⟨1, _⟩ => show 0 ≤ (y 1).val ∧ (y 1).val < 0 + 64; omega

theorem rowSet_disjoint : ∀ t t' : Fin 256, t ≠ t' → Disjoint (rowSet t) (rowSet t') := fun t t' hne => by
  rw [Finset.disjoint_left]
  intro y hy hy'
  rw [mem_rowSet] at hy hy'
  exact hne (Fin.ext (by omega))

theorem rowSet_cover : Finset.univ.biUnion rowSet = Finset.univ := by
  ext y
  simp only [Finset.mem_biUnion, Finset.mem_univ, true_and, iff_true]
  exact ⟨(y 0 : Fin 256), (mem_rowSet _ _).mpr rfl⟩

/-- Row `t` of a staging buffer has the elements of the buffer at first coordinate `t`. -/
theorem row0_set (t : Fin 256) : (sRow0 t).view.set = rowSet t := by
  unfold sRow0; exact View.set_slice_whole _ _

/-- The staging buffer held whole is its 256 rows, each held by its own elements. -/
theorem stage_rows (g : S256x64.Idx → Elt F .f32) :
    ((sR0).view.loc (thr d L) ↦{fullShare} g : sProp 𝕄) = bigSep Finset.univ (rowW d L g) := by
  refine (Ring.pointsTo_blocks (ℓ := (sR0).view.loc (thr d L)) (q := fullShare) rowSet rowSet_disjoint rowSet_cover g).trans ?_
  refine congrArg (bigSep Finset.univ) (funext fun t => ?_)
  exact congrArg (fun I => ((sR0).view.loc (thr d L) ↦[I]{fullShare} g : sProp 𝕄)) (row0_set t).symm

/-- Row `t` of a staging buffer has the elements of the buffer at first coordinate `t`. -/
theorem row1_set (t : Fin 256) : (sRow1 t).view.set = rowSet t := by
  unfold sRow1; exact View.set_slice_whole _ _

/-- The staging buffer held whole is its 256 rows, each held by its own elements. -/
theorem stage_rows1 (g : S256x64.Idx → Elt F .f32) :
    ((sR1).view.loc (thr d L) ↦{fullShare} g : sProp 𝕄) = bigSep Finset.univ (rowC d L g) := by
  refine (Ring.pointsTo_blocks (ℓ := (sR1).view.loc (thr d L)) (q := fullShare) rowSet rowSet_disjoint rowSet_cover g).trans ?_
  refine congrArg (bigSep Finset.univ) (funext fun t => ?_)
  exact congrArg (fun I => ((sR1).view.loc (thr d L) ↦[I]{fullShare} g : sProp 𝕄)) (row1_set t).symm

/-! ## The result's chunk -/

theorem off68_0 (k : Fin k0_t1_loop.trips) : k0_off68 L k 0 = 1024 * (L 1).val + 512 * (L 0).val + 256 * k.val := by
  rw [k0_off68_eq]; rfl
theorem off68_1 (k : Fin k0_t1_loop.trips) : k0_off68 L k 1 = 0 := by
  rw [k0_off68_eq]; rfl

/-- The chunk's rectangle and the part's have the same elements. -/
theorem chunk_rect_set (k : Fin k0_t1_loop.trips) (hk : k.val < 2) :
    (Rect.unit (s := S16384x64) (k0_off68 L k) S256x64.size (k0_off68_inb L k)).set = (part (pj (cF L) (iF L) ⟨k.val, hk⟩)).set := by
  ext y
  rw [Rect.mem_set_unit, Rect.mem_set_unit]
  have h0 := L0_lt L
  have h1 := L1_lt L
  have e0 := off68_0 L k
  have e1 := off68_1 L k
  refine forall_congr' fun a => ?_
  match a with
  | ⟨0, _⟩ =>
    show (k0_off68 L k 0 ≤ (y 0).val ∧ (y 0).val < k0_off68 L k 0 + 256)
      ↔ ((4 * (L 1).val + 2 * (L 0).val + k.val) * 256 ≤ (y 0).val ∧ (y 0).val < (4 * (L 1).val + 2 * (L 0).val + k.val) * 256 + 256)
    omega
  | ⟨1, _⟩ =>
    show (k0_off68 L k 1 ≤ (y 1).val ∧ (y 1).val < k0_off68 L k 1 + 64) ↔ (0 * 64 ≤ (y 1).val ∧ (y 1).val < 0 * 64 + 64)
    omega

/-- Chunk `k` of a tile's rows of the result is part `4 i + 2 c + k` of its 64 parts of 256 rows. -/
theorem out_set (k : Fin k0_t1_loop.trips) (hk : k.val < 2) :
    ((aO0).slice (Rect.unit (s := S16384x64) (k0_off68 L k) S256x64.size (k0_off68_inb L k)) (fun _ => rfl)).view.set
      = partSet (pj (cF L) (iF L) ⟨k.val, hk⟩) := by
  refine (View.set_slice_whole _ _).trans (Eq.trans ?_ (View.set_slice_whole _ _).symm)
  exact chunk_rect_set L k hk

/-- On the chunk's own elements, the chunk written whole from the staging buffer at chunk `k`'s looked-up rows holds
    the table's row that the index vector's word of that result row names. -/
theorem out_vals (s0 : S512.Idx → BitVec 32) (tb : S1000002x64.Idx → Elt F .f32) (wi : S16384.Idx → BitVec 32)
    (hs0 : ∀ j : Fin 512, s0 (ix1 j) = wi (ix1 (⟨1024 * (L 1).val + 512 * (L 0).val + j.val, tile_row_lt L j⟩ : Fin 16384)))
    (k : Fin k0_t1_loop.trips) (fd : S16384x64.Idx → Elt F .f32) (i : S16384x64.Idx)
    (hi : i ∈ ((aO0).slice (Rect.unit (s := S16384x64) (k0_off68 L k) S256x64.size (k0_off68_inb L k)) (fun _ => rfl)).view.set) :
    ((aO0).slice (Rect.unit (s := S16384x64) (k0_off68 L k) S256x64.size (k0_off68_inb L k)) (fun _ => rfl)).view.write (Elt F) fd
        (ReadAs.same.apply ((sR0).view.read (Elt F) (stage s0 tb k.val))) Finset.univ i
      = tb (ix2 (Cert.Spec.rowOf (wi (ix1 (i 0 : Fin 16384)))) (i 1 : Fin 64)) := by
  obtain ⟨x, -, rfl⟩ := Finset.mem_map.mp hi
  rw [View.write_emb_of_mem _ _ (Finset.mem_univ _), cast_eq, ReadAs.apply_same]
  show stage s0 tb k.val x = _
  unfold stage
  rw [hs0]
  have hk := k_lt k
  have hx0 : (x 0).val < 256 := (x 0).isLt
  have e0 := off68_0 L k
  have e1 := off68_1 L k
  have eA : (⟨1024 * (L 1).val + 512 * (L 0).val + (256 * k.val + (x 0).val) % 512, tile_row_lt L ⟨(256 * k.val + (x 0).val) % 512, Nat.mod_lt _ (by decide)⟩⟩ : Fin 16384)
      = ((((aO0).slice (Rect.unit (s := S16384x64) (k0_off68 L k) S256x64.size (k0_off68_inb L k)) (fun _ => rfl)).view.emb x) 0 : Fin 16384) := by
    refine Fin.ext ?_
    show 1024 * (L 1).val + 512 * (L 0).val + (256 * k.val + (x 0).val) % 512 = k0_off68 L k 0 + 1 * (x 0).val
    omega
  have eC : (x 1 : Fin 64) = ((((aO0).slice (Rect.unit (s := S16384x64) (k0_off68 L k) S256x64.size (k0_off68_inb L k)) (fun _ => rfl)).view.emb x) 1 : Fin 64) := by
    refine Fin.ext ?_
    show (x 1).val = k0_off68 L k 1 + 1 * (x 1).val
    omega
  exact congrArg tb (congrArg₂ (fun (r : Fin 1000002) (c : Fin 64) => ix2 r c)
    (congrArg (fun n : Fin 16384 => Cert.Spec.rowOf (wi (ix1 n))) eA) eC)

/-- Chunk `k` of a tile's rows of the result is part `4 i + 2 c + k` of its 64 parts of 256 rows. -/
theorem out_set1 (k : Fin k0_t1_loop.trips) (hk : k.val < 2) :
    ((aO1).slice (Rect.unit (s := S16384x64) (k0_off68 L k) S256x64.size (k0_off68_inb L k)) (fun _ => rfl)).view.set
      = partSet (pj (cF L) (iF L) ⟨k.val, hk⟩) := by
  refine (View.set_slice_whole _ _).trans (Eq.trans ?_ (View.set_slice_whole _ _).symm)
  exact chunk_rect_set L k hk

/-- On the chunk's own elements, the chunk written whole from the staging buffer at chunk `k`'s looked-up rows holds
    the table's row that the index vector's word of that result row names. -/
theorem out_vals1 (s0 : S512.Idx → BitVec 32) (tb : S1000002x64.Idx → Elt F .f32) (wi : S16384.Idx → BitVec 32)
    (hs0 : ∀ j : Fin 512, s0 (ix1 j) = wi (ix1 (⟨1024 * (L 1).val + 512 * (L 0).val + j.val, tile_row_lt L j⟩ : Fin 16384)))
    (k : Fin k0_t1_loop.trips) (fd : S16384x64.Idx → Elt F .f32) (i : S16384x64.Idx)
    (hi : i ∈ ((aO1).slice (Rect.unit (s := S16384x64) (k0_off68 L k) S256x64.size (k0_off68_inb L k)) (fun _ => rfl)).view.set) :
    ((aO1).slice (Rect.unit (s := S16384x64) (k0_off68 L k) S256x64.size (k0_off68_inb L k)) (fun _ => rfl)).view.write (Elt F) fd
        (ReadAs.same.apply ((sR1).view.read (Elt F) (stage s0 tb k.val))) Finset.univ i
      = tb (ix2 (Cert.Spec.rowOf (wi (ix1 (i 0 : Fin 16384)))) (i 1 : Fin 64)) := by
  obtain ⟨x, -, rfl⟩ := Finset.mem_map.mp hi
  rw [View.write_emb_of_mem _ _ (Finset.mem_univ _), cast_eq, ReadAs.apply_same]
  show stage s0 tb k.val x = _
  unfold stage
  rw [hs0]
  have hk := k_lt k
  have hx0 : (x 0).val < 256 := (x 0).isLt
  have e0 := off68_0 L k
  have e1 := off68_1 L k
  have eA : (⟨1024 * (L 1).val + 512 * (L 0).val + (256 * k.val + (x 0).val) % 512, tile_row_lt L ⟨(256 * k.val + (x 0).val) % 512, Nat.mod_lt _ (by decide)⟩⟩ : Fin 16384)
      = ((((aO1).slice (Rect.unit (s := S16384x64) (k0_off68 L k) S256x64.size (k0_off68_inb L k)) (fun _ => rfl)).view.emb x) 0 : Fin 16384) := by
    refine Fin.ext ?_
    show 1024 * (L 1).val + 512 * (L 0).val + (256 * k.val + (x 0).val) % 512 = k0_off68 L k 0 + 1 * (x 0).val
    omega
  have eC : (x 1 : Fin 64) = ((((aO1).slice (Rect.unit (s := S16384x64) (k0_off68 L k) S256x64.size (k0_off68_inb L k)) (fun _ => rfl)).view.emb x) 1 : Fin 64) := by
    refine Fin.ext ?_
    show (x 1).val = k0_off68 L k 1 + 1 * (x 1).val
    omega
  exact congrArg tb (congrArg₂ (fun (r : Fin 1000002) (c : Fin 64) => ix2 r c)
    (congrArg (fun n : Fin 16384 => Cert.Spec.rowOf (wi (ix1 n))) eA) eC)

end Cert.Proof.KB

end
-- ==== Proof.TileRowsWB.lean ====
/-
  A tile's chunk of a result written whole from the staging buffer, its written contents stated as a one-entry list
  of writes: on the chunk's own elements it is the single unmasked write.
-/
import proofs.«207591_g3891240370478_cont_8to1_b_1686_26_alg».proof.Proof.TileRowsB
import proofs.«207591_g3891240370478_cont_8to1_b_1686_26_alg».proof.Proof.TileValsB
import Idealize.ShloMosaic.Lib.Writes
import Idealize.ShloMosaic.Lib.Pipeline.Value
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.Kernel.main_v1_scv : Memref Cert.Kernel.sig Kind.scVector Space.hbm Cert.Kernel.S16384 EltTy.i32)
local notation "aV3" => (Memref.whole Cert.Kernel.main_v3_scv : Memref Cert.Kernel.sig Kind.scVector Space.hbm Cert.Kernel.S16384 EltTy.i32)
local notation "aT1" => (Memref.whole Cert.Kernel.main_arg1_scv : Memref Cert.Kernel.sig Kind.scVector Space.hbm Cert.Kernel.S1000002x64 EltTy.f32)
local notation "aT2" => (Memref.whole Cert.Kernel.main_arg2_scv : Memref Cert.Kernel.sig Kind.scVector Space.hbm Cert.Kernel.S1000002x64 EltTy.f32)
local notation "aO0" => (Memref.whole Cert.Kernel.main_v4_0_scv : Memref Cert.Kernel.sig Kind.scVector Space.hbm Cert.Kernel.S16384x64 EltTy.f32)
local notation "aO1" => (Memref.whole Cert.Kernel.main_v4_1_scv : Memref Cert.Kernel.sig Kind.scVector Space.hbm Cert.Kernel.S16384x64 EltTy.f32)
local notation "sI0" => (Memref.whole Cert.Kernel.cc0_scratch0 : Memref Cert.Kernel.sig Kind.scVector Space.vmem Cert.Kernel.S512 EltTy.i32)
local notation "sI1" => (Memref.whole Cert.Kernel.cc0_scratch1 : Memref Cert.Kernel.sig Kind.scVector Space.vmem Cert.Kernel.S512 EltTy.i32)
local notation "sR0" => (Memref.whole Cert.Kernel.cc0_scratch2 : Memref Cert.Kernel.sig Kind.scVector Space.vmem Cert.Kernel.S256x64 EltTy.f32)
local notation "sR1" => (Memref.whole Cert.Kernel.cc0_scratch3 : Memref Cert.Kernel.sig Kind.scVector Space.vmem Cert.Kernel.S256x64 EltTy.f32)

variable [FloatOps F] (d : Dev nD) (L : grid0.Coords)

/-! ## The result's chunk, its written contents as a list of writes -/

/-- The same with the chunk's written contents stated as a one-entry list of writes. -/
theorem out_vals_w (s0 : S512.Idx → BitVec 32) (tb : S1000002x64.Idx → Elt F .f32) (wi : S16384.Idx → BitVec 32)
    (hs0 : ∀ j : Fin 512, s0 (ix1 j) = wi (ix1 (⟨1024 * (L 1).val + 512 * (L 0).val + j.val, tile_row_lt L j⟩ : Fin 16384)))
    (k : Fin k0_t1_loop.trips) (fd : S16384x64.Idx → Elt F .f32) (i : S16384x64.Idx)
    (hi : i ∈ ((aO0).slice (Rect.unit (s := S16384x64) (k0_off68 L k) S256x64.size (k0_off68_inb L k)) (fun _ => rfl)).view.set) :
    ((aO0).slice (Rect.unit (s := S16384x64) (k0_off68 L k) S256x64.size (k0_off68_inb L k)) (fun _ => rfl)).view.writes (Elt F) fd
        [⟨Rect.whole (Rect.unit (s := S16384x64) (k0_off68 L k) S256x64.size (k0_off68_inb L k)).shape,
          ReadAs.same.apply ((sR0).view.read (Elt F) (stage s0 tb k.val))⟩] i
      = tb (ix2 (Cert.Spec.rowOf (wi (ix1 (i 0 : Fin 16384)))) (i 1 : Fin 64)) := by
  refine Eq.trans ?_ (out_vals L s0 tb wi hs0 k fd i hi)
  obtain ⟨x, -, rfl⟩ := Finset.mem_map.mp hi
  rw [View.write_emb_of_mem _ _ (Finset.mem_univ _)]
  exact writes_whole_emb _ _ _ _

/-- The same with the chunk's written contents stated as a one-entry list of writes. -/
theorem out_vals_w1 (s0 : S512.Idx → BitVec 32) (tb : S1000002x64.Idx → Elt F .f32) (wi : S16384.Idx → BitVec 32)
    (hs0 : ∀ j : Fin 512, s0 (ix1 j) = wi (ix1 (⟨1024 * (L 1).val + 512 * (L 0).val + j.val, tile_row_lt L j⟩ : Fin 16384)))
    (k : Fin k0_t1_loop.trips) (fd : S16384x64.Idx → Elt F .f32) (i : S16384x64.Idx)
    (hi : i ∈ ((aO1).slice (Rect.unit (s := S16384x64) (k0_off68 L k) S256x64.size (k0_off68_inb L k)) (fun _ => rfl)).view.set) :
    ((aO1).slice (Rect.unit (s := S16384x64) (k0_off68 L k) S256x64.size (k0_off68_inb L k)) (fun _ => rfl)).view.writes (Elt F) fd
        [⟨Rect.whole (Rect.unit (s := S16384x64) (k0_off68 L k) S256x64.size (k0_off68_inb L k)).shape,
          ReadAs.same.apply ((sR1).view.read (Elt F) (stage s0 tb k.val))⟩] i
      = tb (ix2 (Cert.Spec.rowOf (wi (ix1 (i 0 : Fin 16384)))) (i 1 : Fin 64)) := by
  refine Eq.trans ?_ (out_vals1 L s0 tb wi hs0 k fd i hi)
  obtain ⟨x, -, rfl⟩ := Finset.mem_map.mp hi
  rw [View.write_emb_of_mem _ _ (Finset.mem_univ _)]
  exact writes_whole_emb _ _ _ _

end Cert.Proof.KB

end
-- ==== Proof.TileOutB.lean ====
/-
  One write through the whole of a view is the unmasked write; and a tile's chunk of a result after that one write of
  the staging buffer's contents, the list's rectangle spelt at the staging buffer's shape.
-/
import proofs.«207591_g3891240370478_cont_8to1_b_1686_26_alg».proof.Proof.TileRowsWB
import Idealize.ShloMosaic.Lib.Writes
import Idealize.ShloMosaic.Lib.Pipeline.Value
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.Kernel.main_v1_scv : Memref Cert.Kernel.sig Kind.scVector Space.hbm Cert.Kernel.S16384 EltTy.i32)
local notation "aV3" => (Memref.whole Cert.Kernel.main_v3_scv : Memref Cert.Kernel.sig Kind.scVector Space.hbm Cert.Kernel.S16384 EltTy.i32)
local notation "aT1" => (Memref.whole Cert.Kernel.main_arg1_scv : Memref Cert.Kernel.sig Kind.scVector Space.hbm Cert.Kernel.S1000002x64 EltTy.f32)
local notation "aT2" => (Memref.whole Cert.Kernel.main_arg2_scv : Memref Cert.Kernel.sig Kind.scVector Space.hbm Cert.Kernel.S1000002x64 EltTy.f32)
local notation "aO0" => (Memref.whole Cert.Kernel.main_v4_0_scv : Memref Cert.Kernel.sig Kind.scVector Space.hbm Cert.Kernel.S16384x64 EltTy.f32)
local notation "aO1" => (Memref.whole Cert.Kernel.main_v4_1_scv : Memref Cert.Kernel.sig Kind.scVector Space.hbm Cert.Kernel.S16384x64 EltTy.f32)
local notation "sI0" => (Memref.whole Cert.Kernel.cc0_scratch0 : Memref Cert.Kernel.sig Kind.scVector Space.vmem Cert.Kernel.S512 EltTy.i32)
local notation "sI1" => (Memref.whole Cert.Kernel.cc0_scratch1 : Memref Cert.Kernel.sig Kind.scVector Space.vmem Cert.Kernel.S512 EltTy.i32)
local notation "sR0" => (Memref.whole Cert.Kernel.cc0_scratch2 : Memref Cert.Kernel.sig Kind.scVector Space.vmem Cert.Kernel.S256x64 EltTy.f32)
local notation "sR1" => (Memref.whole Cert.Kernel.cc0_scratch3 : Memref Cert.Kernel.sig Kind.scVector Space.vmem Cert.Kernel.S256x64 EltTy.f32)

variable [FloatOps F] (d : Dev nD) (L : grid0.Coords)

/-! ## One write through the whole of a view is the unmasked write -/

section Generic
variable {sig' : RefSig} {κ : Kind} {sp : Space} {s : Shape} {e : EltTy} {Val : EltTy → Type}

theorem writes_whole_eq_write (v : View sig' κ sp s e) (f : v.ty.Contents Val) (w : s.Idx → Val e) :
    v.writes Val f [⟨Rect.whole s, w⟩] = v.write Val f w Finset.univ := by
  funext i
  by_cases hi : i ∈ v.set
  · obtain ⟨x, -, rfl⟩ := Finset.mem_map.mp hi
    rw [View.write_emb_of_mem _ _ (Finset.mem_univ _)]
    exact writes_whole_emb _ _ _ _
  · have h1 : i ∉ (v.slice (Rect.whole s)).setOn Finset.univ := by
      rw [View.setOn_univ, View.set_slice, Rect.set_whole]; exact hi
    have h2 : i ∉ v.setOn Finset.univ := by rwa [View.setOn_univ]
    rw [View.writes_singleton, View.write_of_not_mem _ _ _ h1, View.write_of_not_mem _ _ _ h2]

end Generic

/-! ## The result's chunk, the list's rectangle spelt at the staging buffer's shape -/

/-- On the chunk's own elements, the chunk after one write of the staging buffer's contents through its whole
    holds the table's row that the index vector's word of that result row names. -/
theorem out_vals_ws (s0 : S512.Idx → BitVec 32) (tb : S1000002x64.Idx → Elt F .f32) (wi : S16384.Idx → BitVec 32)
    (hs0 : ∀ j : Fin 512, s0 (ix1 j) = wi (ix1 (⟨1024 * (L 1).val + 512 * (L 0).val + j.val, tile_row_lt L j⟩ : Fin 16384)))
    (k : Fin k0_t1_loop.trips) (fd : S16384x64.Idx → Elt F .f32) (i : S16384x64.Idx)
    (hi : i ∈ ((aO0).slice (Rect.unit (s := S16384x64) (k0_off68 L k) S256x64.size (k0_off68_inb L k)) (fun _ => rfl)).view.set) :
    ((aO0).slice (Rect.unit (s := S16384x64) (k0_off68 L k) S256x64.size (k0_off68_inb L k)) (fun _ => rfl)).view.writes (Elt F) fd
        [⟨Rect.whole S256x64, ReadAs.same.apply ((sR0).view.read (Elt F) (stage s0 tb k.val))⟩] i
      = tb (ix2 (Cert.Spec.rowOf (wi (ix1 (i 0 : Fin 16384)))) (i 1 : Fin 64)) :=
  out_vals_w L s0 tb wi hs0 k fd i hi

/-- On the chunk's own elements, the chunk after one write of the staging buffer's contents through its whole
    holds the table's row that the index vector's word of that result row names. -/
theorem out_vals_ws1 (s0 : S512.Idx → BitVec 32) (tb : S1000002x64.Idx → Elt F .f32) (wi : S16384.Idx → BitVec 32)
    (hs0 : ∀ j : Fin 512, s0 (ix1 j) = wi (ix1 (⟨1024 * (L 1).val + 512 * (L 0).val + j.val, tile_row_lt L j⟩ : Fin 16384)))
    (k : Fin k0_t1_loop.trips) (fd : S16384x64.Idx → Elt F .f32) (i : S16384x64.Idx)
    (hi : i ∈ ((aO1).slice (Rect.unit (s := S16384x64) (k0_off68 L k) S256x64.size (k0_off68_inb L k)) (fun _ => rfl)).view.set) :
    ((aO1).slice (Rect.unit (s := S16384x64) (k0_off68 L k) S256x64.size (k0_off68_inb L k)) (fun _ => rfl)).view.writes (Elt F) fd
        [⟨Rect.whole S256x64, ReadAs.same.apply ((sR1).view.read (Elt F) (stage s0 tb k.val))⟩] i
      = tb (ix2 (Cert.Spec.rowOf (wi (ix1 (i 0 : Fin 16384)))) (i 1 : Fin 64)) :=
  out_vals_w1 L s0 tb wi hs0 k fd i hi

end Cert.Proof.KB

end
-- ==== Proof.TileBodyB.lean ====
/-
  A tile's body: the two fetches of the tile's 512 index words, then the loop over its two chunks of 256 rows. The
  loop's invariant: before chunk k the tables are held at some share, the index scratches hold the tile's words, the
  staging buffers hold anything, the parts of the results from chunk k on are as launched and those before chunk k
  are at the looked-up rows. One chunk's step (the issue and drain loops and the two copies out) keeps it; after the
  last chunk both results' parts are at the looked-up rows. The issue loop's step is taken as a hypothesis.
-/
import proofs.«207591_g3891240370478_cont_8to1_b_1686_26_alg».proof.Proof.TileChunkB
import proofs.«207591_g3891240370478_cont_8to1_b_1686_26_alg».proof.Proof.TileOutB
import Idealize.ShloMosaic.Lib.Writes
import Idealize.ShloMosaic.Lib.Pipeline.Value
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

local notation "aV1" => (Memref.whole Cert.Kernel.main_v1_scv : Memref Cert.Kernel.sig Kind.scVector Space.hbm Cert.Kernel.S16384 EltTy.i32)
local notation "aV3" => (Memref.whole Cert.Kernel.main_v3_scv : Memref Cert.Kernel.sig Kind.scVector Space.hbm Cert.Kernel.S16384 EltTy.i32)
local notation "aT1" => (Memref.whole Cert.Kernel.main_arg1_scv : Memref Cert.Kernel.sig Kind.scVector Space.hbm Cert.Kernel.S1000002x64 EltTy.f32)
local notation "aT2" => (Memref.whole Cert.Kernel.main_arg2_scv : Memref Cert.Kernel.sig Kind.scVector Space.hbm Cert.Kernel.S1000002x64 EltTy.f32)
local notation "aO0" => (Memref.whole Cert.Kernel.main_v4_0_scv : Memref Cert.Kernel.sig Kind.scVector Space.hbm Cert.Kernel.S16384x64 EltTy.f32)
local notation "aO1" => (Memref.whole Cert.Kernel.main_v4_1_scv : Memref Cert.Kernel.sig Kind.scVector Space.hbm Cert.Kernel.S16384x64 EltTy.f32)
local notation "sI0" => (Memref.whole Cert.Kernel.cc0_scratch0 : Memref Cert.Kernel.sig Kind.scVector Space.vmem Cert.Kernel.S512 EltTy.i32)
local notation "sI1" => (Memref.whole Cert.Kernel.cc0_scratch1 : Memref Cert.Kernel.sig Kind.scVector Space.vmem Cert.Kernel.S512 EltTy.i32)
local notation "sR0" => (Memref.whole Cert.Kernel.cc0_scratch2 : Memref Cert.Kernel.sig Kind.scVector Space.vmem Cert.Kernel.S256x64 EltTy.f32)
local notation "sR1" => (Memref.whole Cert.Kernel.cc0_scratch3 : Memref Cert.Kernel.sig Kind.scVector Space.vmem Cert.Kernel.S256x64 EltTy.f32)

variable (m : (ℓ : Loc nD τ sig) → Buf (Elt F) ℓ)

variable [FloatOps F] (d : Dev nD) (L : grid0.Coords)

/-! ## The tile's index words, and its parts of the results -/

/-- The tile's 512 index words of column 0, as the fetch leaves them in the first index scratch; and of column 1. -/
def S0 : S512.Idx → BitVec 32 :=
  ReadAs.same.apply (((aV1).slice (Rect.unit (s := S16384) (k0_off1 L) S512.size (k0_off1_inb L)) (fun _ => rfl)).view.read (Elt F) (W1 m d))
def S1 : S512.Idx → BitVec 32 :=
  ReadAs.same.apply (((aV3).slice (Rect.unit (s := S16384) (k0_off1 L) S512.size (k0_off1_inb L)) (fun _ => rfl)).view.read (Elt F) (W3 m d))

theorem S0_at (j : Fin 512) : S0 m d L (ix1 j) = W1 m d (ix1 (⟨1024 * (L 1).val + 512 * (L 0).val + j.val, tile_row_lt L j⟩ : Fin 16384)) :=
  fetched (F := F) L (W1 m d) j
theorem S1_at (j : Fin 512) : S1 m d L (ix1 j) = W3 m d (ix1 (⟨1024 * (L 1).val + 512 * (L 0).val + j.val, tile_row_lt L j⟩ : Fin 16384)) :=
  fetched3 (F := F) L (W3 m d) j

/-- Chunk `k`'s part of a result, in the launch's spelling and in the body's. -/
theorem part0_pts (k : Fin k0_t1_loop.trips) (hk : k.val < 2) (f : S16384x64.Idx → Elt F .f32) :
    ((o0Loc d ↦[partSet (pj (cF L) (iF L) ⟨k.val, hk⟩)]{fullShare} f) : sProp 𝕄)
      = ((oPart0 L k).view.loc (thr d L) ↦[(oPart0 L k).view.set]{fullShare} f) := by
  unfold oPart0
  rw [out_set L k hk]
theorem part1_pts (k : Fin k0_t1_loop.trips) (hk : k.val < 2) (f : S16384x64.Idx → Elt F .f32) :
    ((o1Loc d ↦[partSet (pj (cF L) (iF L) ⟨k.val, hk⟩)]{fullShare} f) : sProp 𝕄)
      = ((oPart1 L k).view.loc (thr d L) ↦[(oPart1 L k).view.set]{fullShare} f) := by
  unfold oPart1
  rw [out_set1 L k hk]

/-- Chunk `k`'s part after the chunk's copy out holds the result's looked-up rows. -/
theorem part0_done (k : Fin k0_t1_loop.trips) (hk : k.val < 2) (fo : S16384x64.Idx → Elt F .f32) :
    ((oPart0 L k).view.loc (thr d L) ↦[(oPart0 L k).view.set]{fullShare}
        (oPart0 L k).view.writes (Elt F) fo [⟨Rect.whole S256x64, ReadAs.same.apply ((sR0).view.read (Elt F) (stage (S0 m d L) (T1 m d) k.val))⟩] : sProp 𝕄)
      = (o0Loc d ↦[partSet (pj (cF L) (iF L) ⟨k.val, hk⟩)]{fullShare} G0 m d) := by
  rw [part0_pts d L k hk]
  refine pointsTo_congr fun i hi => ?_
  exact out_vals_ws L (S0 m d L) (T1 m d) (W1 m d) (S0_at m d L) k fo i hi
theorem part1_done (k : Fin k0_t1_loop.trips) (hk : k.val < 2) (fo : S16384x64.Idx → Elt F .f32) :
    ((oPart1 L k).view.loc (thr d L) ↦[(oPart1 L k).view.set]{fullShare}
        (oPart1 L k).view.writes (Elt F) fo [⟨Rect.whole S256x64, ReadAs.same.apply ((sR1).view.read (Elt F) (stage (S1 m d L) (T2 m d) k.val))⟩] : sProp 𝕄)
      = (o1Loc d ↦[partSet (pj (cF L) (iF L) ⟨k.val, hk⟩)]{fullShare} G1 m d) := by
  rw [part1_pts d L k hk]
  refine pointsTo_congr fun i hi => ?_
  exact out_vals_ws1 L (S1 m d L) (T2 m d) (W3 m d) (S1_at m d L) k fo i hi

/-! ## The loop over the two chunks -/

section Loop
variable (O : CellTallies nD τ sig (HIx 1)) (W : Waits sig (HIx 1))

/-- What one chunk takes, and what it leaves (the chunk's step, its statement named). -/
def chunkPre (k : Fin k0_t1_loop.trips) (q1 q2 : PosShare TreeShare) (f2 f3 : S256x64.Idx → Elt F .f32) (fo0 fo1 : S16384x64.Idx → Elt F .f32) : sProp 𝕄 :=
  iprop(Transfers.MayWaits (thr d L) (none : HIx 1) O
        ∗ ((aT1).view.loc (thr d L) ↦{q1} T1 m d) ∗ ((aT2).view.loc (thr d L) ↦{q2} T2 m d)
        ∗ ((sI0).view.loc (thr d L) ↦{fullShare} S0 m d L) ∗ ((sI1).view.loc (thr d L) ↦{fullShare} S1 m d L)
        ∗ ((sR0).view.loc (thr d L) ↦{fullShare} f2) ∗ ((sR1).view.loc (thr d L) ↦{fullShare} f3)
        ∗ semVal (cellOf d L cc0_scratch4) 0 ∗ semVal (cellOf d L cc0_scratch5) 0
        ∗ semVal (cellOf d L cc0_scoped2) 0 ∗ semVal (cellOf d L cc0_scoped3) 0
        ∗ ((oPart0 L k).view.loc (thr d L) ↦[(oPart0 L k).view.set]{fullShare} fo0)
        ∗ ((oPart1 L k).view.loc (thr d L) ↦[(oPart1 L k).view.set]{fullShare} fo1)
        ∗ ∃ W', ⌜∀ p ∈ W', p ∈ W ∨ p.2 = none⌝ ∗ owes (thr d L) O W')
def chunkPost (k : Fin k0_t1_loop.trips) (q1 q2 : PosShare TreeShare) (fo0 fo1 : S16384x64.Idx → Elt F .f32) : sProp 𝕄 :=
  iprop(Transfers.MayWaits (thr d L) (none : HIx 1) O
        ∗ ((aT1).view.loc (thr d L) ↦{shareDrop q1 256} T1 m d) ∗ ((aT2).view.loc (thr d L) ↦{shareDrop q2 256} T2 m d)
        ∗ ((sI0).view.loc (thr d L) ↦{fullShare} S0 m d L) ∗ ((sI1).view.loc (thr d L) ↦{fullShare} S1 m d L)
        ∗ ((sR0).view.loc (thr d L) ↦{fullShare} stage (S0 m d L) (T1 m d) k.val) ∗ ((sR1).view.loc (thr d L) ↦{fullShare} stage (S1 m d L) (T2 m d) k.val)
        ∗ semVal (cellOf d L cc0_scratch4) 0 ∗ semVal (cellOf d L cc0_scratch5) 0
        ∗ semVal (cellOf d L cc0_scoped2) 0 ∗ semVal (cellOf d L cc0_scoped3) 0
        ∗ ((oPart0 L k).view.loc (thr d L) ↦[(oPart0 L k).view.set]{fullShare} (oPart0 L k).view.writes (Elt F) fo0 [⟨Rect.whole S256x64, ReadAs.same.apply ((sR0).view.read (Elt F) (stage (S0 m d L) (T1 m d) k.val))⟩])
        ∗ ((oPart1 L k).view.loc (thr d L) ↦[(oPart1 L k).view.set]{fullShare} (oPart1 L k).view.writes (Elt F) fo1 [⟨Rect.whole S256x64, ReadAs.same.apply ((sR1).view.read (Elt F) (stage (S1 m d L) (T2 m d) k.val))⟩])
        ∗ ∃ W', ⌜∀ p ∈ W', p ∈ W ∨ p.2 = none⌝ ∗ owes (thr d L) O W')

/-- The parts of the chunks still to do, at the launch contents; and of the chunks done, at the looked-up rows. -/
def todoParts (k : ℕ) : sProp 𝕄 := bigSep (Ring.rangeSet 2 k 2) (fun j => outs d (pj (cF L) (iF L) j) (m (o0Loc d)) (m (o1Loc d)))
def doneParts (k : ℕ) : sProp 𝕄 := bigSep (Ring.rangeSet 2 0 k) (fun j => outs d (pj (cF L) (iF L) j) (G0 m d) (G1 m d))

/-- Before chunk `k`: the tables at some share, the index scratches at the tile's words, the staging buffers at some
    contents, the four semaphores at zero, the parts of the chunks from `k` on as launched and of the chunks before `k`
    at the looked-up rows. -/
def outerInv (k : ℕ) (_ : BitVec 32) : sProp 𝕄 :=
  iprop(Transfers.MayWaits (thr d L) (none : HIx 1) O
    ∗ (∃ q1 : PosShare TreeShare, (aT1).view.loc (thr d L) ↦{q1} T1 m d) ∗ (∃ q2 : PosShare TreeShare, (aT2).view.loc (thr d L) ↦{q2} T2 m d)
    ∗ ((sI0).view.loc (thr d L) ↦{fullShare} S0 m d L) ∗ ((sI1).view.loc (thr d L) ↦{fullShare} S1 m d L)
    ∗ (∃ f2 : S256x64.Idx → Elt F .f32, (sR0).view.loc (thr d L) ↦{fullShare} f2) ∗ (∃ f3 : S256x64.Idx → Elt F .f32, (sR1).view.loc (thr d L) ↦{fullShare} f3)
    ∗ semVal (cellOf d L cc0_scratch4) 0 ∗ semVal (cellOf d L cc0_scratch5) 0
    ∗ semVal (cellOf d L cc0_scoped2) 0 ∗ semVal (cellOf d L cc0_scoped3) 0
    ∗ todoParts m d L k ∗ doneParts m d L k
    ∗ ∃ W', ⌜∀ p ∈ W', p ∈ W ∨ p.2 = none⌝ ∗ owes (thr d L) O W')

theorem todo_head (k : ℕ) (hk : k < 2) :
    todoParts (F := F) m d L k = iprop(outs d (pj (cF L) (iF L) ⟨k, hk⟩) (m (o0Loc d)) (m (o1Loc d)) ∗ todoParts m d L (k + 1)) := by
  unfold todoParts; exact Ring.bigSep_rangeSet_head hk hk
theorem done_last (k : ℕ) (hk : k < 2) :
    doneParts (F := F) m d L (k + 1) = iprop(outs d (pj (cF L) (iF L) ⟨k, hk⟩) (G0 m d) (G1 m d) ∗ doneParts m d L k) := by
  unfold doneParts
  exact Ring.bigSep_rangeSet_last (NB := 2) (lo := 0) (hi := k + 1) (by omega) (by omega)

/-- After a chunk's step, with the other chunks' parts beside it, the invariant holds at the next chunk. -/
theorem outer_close (k : Fin k0_t1_loop.trips) (hk : k.val < 2) (q1 q2 : PosShare TreeShare) (acc : BitVec 32) :
    iprop(chunkPost m d L O W k q1 q2 (m (o0Loc d)) (m (o1Loc d)) ∗ (todoParts m d L (k.val + 1) ∗ doneParts m d L k.val))
      ⊢ outerInv m d L O W (k.val + 1) acc := by
  unfold chunkPost outerInv
  rw [done_last m d L k.val hk, part0_done m d L k hk, part1_done m d L k hk]
  unfold outs
  iintro ⟨⟨Hmw, Ht1, Ht2, Hs0, Hs1, Hr0, Hr1, Hc4, Hc5, Hd2, Hd3, Ho0, Ho1, HW⟩, Htodo, Hdone⟩
  isplitl [Hmw]; · iexact Hmw
  isplitl [Ht1]; · iexists (shareDrop q1 256); iexact Ht1
  isplitl [Ht2]; · iexists (shareDrop q2 256); iexact Ht2
  isplitl [Hs0]; · iexact Hs0
  isplitl [Hs1]; · iexact Hs1
  isplitl [Hr0]; · iexists (stage (S0 m d L) (T1 m d) k.val); iexact Hr0
  isplitl [Hr1]; · iexists (stage (S1 m d L) (T2 m d) k.val); iexact Hr1
  isplitl [Hc4]; · iexact Hc4
  isplitl [Hc5]; · iexact Hc5
  isplitl [Hd2]; · iexact Hd2
  isplitl [Hd3]; · iexact Hd3
  isplitl [Htodo]; · iexact Htodo
  isplitl [Ho0 Ho1 Hdone]
  · isplitl [Ho0 Ho1]
    · isplitl [Ho0]; · iexact Ho0
      iexact Ho1
    · iexact Hdone
  iexact HW

end Loop

section Loop2
variable (O : CellTallies nD τ sig (HIx 1)) (W : Waits sig (HIx 1))

/-- Before chunk `k` the invariant holds what the chunk's step takes, with the other chunks' parts beside it. -/
theorem outer_open (k : Fin k0_t1_loop.trips) (hk : k.val < 2) (acc : BitVec 32) :
    outerInv m d L O W k.val acc
      ⊢ iprop(∃ (q1 q2 : PosShare TreeShare) (f2 f3 : S256x64.Idx → Elt F .f32),
          chunkPre m d L O W k q1 q2 f2 f3 (m (o0Loc d)) (m (o1Loc d)) ∗ (todoParts m d L (k.val + 1) ∗ doneParts m d L k.val)) := by
  unfold outerInv chunkPre
  rw [todo_head m d L k.val hk]
  unfold outs
  iintro ⟨Hmw, ⟨%q1, Ht1⟩, ⟨%q2, Ht2⟩, Hs0, Hs1, ⟨%f2, Hr0⟩, ⟨%f3, Hr1⟩, Hc4, Hc5, Hd2, Hd3, ⟨⟨Hp0, Hp1⟩, Htodo⟩, Hdone, HW⟩
  ihave Ho0 := (Entails.of_eq (part0_pts (F := F) d L k hk _)) $$ Hp0
  ihave Ho1 := (Entails.of_eq (part1_pts (F := F) d L k hk _)) $$ Hp1
  iexists q1; iexists q2; iexists f2; iexists f3
  isplitr [Htodo Hdone]
  · isplitl [Hmw]; · iexact Hmw
    isplitl [Ht1]; · iexact Ht1
    isplitl [Ht2]; · iexact Ht2
    isplitl [Hs0]; · iexact Hs0
    isplitl [Hs1]; · iexact Hs1
    isplitl [Hr0]; · iexact Hr0
    isplitl [Hr1]; · iexact Hr1
    isplitl [Hc4]; · iexact Hc4
    isplitl [Hc5]; · iexact Hc5
    isplitl [Hd2]; · iexact Hd2
    isplitl [Hd3]; · iexact Hd3
    isplitl [Ho0]; · iexact Ho0
    isplitl [Ho1]; · iexact Ho1
    iexact HW
  · isplitl [Htodo]; · iexact Htodo
    iexact Hdone

/-- One trip of the loop over the chunks keeps the invariant. -/
theorem outer_step [∀ e, Nonempty (Elt F e)]
    (hfire : ∀ (k : Fin k0_t1_loop.trips) (g : Fin k0_t2_loop.trips) (acc : BitVec 32) (q1 q2 : PosShare TreeShare) (f2 f3 : S256x64.Idx → Elt F .f32),
      fireInv d L (S0 m d L) (S1 m d L) (T1 m d) (T2 m d) k.val q1 q2 f2 f3 g.val acc
        ⊢ wp frame (wpE (defs₀ (F := F)) 𝒱₀ (thr d L) none) Set.univ
            (k0_t2_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k (Scf.iv 0#32 1#32 k) g acc)
            (fireInv d L (S0 m d L) (S1 m d L) (T1 m d) (T2 m d) k.val q1 q2 f2 f3 (g.val + 1)))
    (k : Fin k0_t1_loop.trips) (acc : BitVec 32) :
    outerInv m d L O W k.val acc
      ⊢ wp frame (wpE (defs₀ (F := F)) 𝒱₀ (thr d L) none) Set.univ
          (k0_t1_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k acc)
          (outerInv m d L O W (k.val + 1)) := by
  have hk := k_lt k
  refine (outer_open m d L O W k hk acc).trans ?_
  refine exists_elim fun q1 => exists_elim fun q2 => exists_elim fun f2 => exists_elim fun f3 => ?_
  have hstep : chunkPre m d L O W k q1 q2 f2 f3 (m (o0Loc d)) (m (o1Loc d))
      ⊢ wp frame (wpE (defs₀ (F := F)) 𝒱₀ (thr d L) none) Set.univ
          (k0_t1_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k acc)
          (fun _ => chunkPost m d L O W k q1 q2 (m (o0Loc d)) (m (o1Loc d))) := by
    unfold chunkPre chunkPost
    exact chunk_step d L (S0 m d L) (S1 m d L) (T1 m d) (T2 m d) hfire (stage_rows d L) (stage_rows1 d L) O W k acc q1 q2 f2 f3
      (m (o0Loc d)) (m (o1Loc d))
  exact (sep_mono hstep .rfl).trans ((wp_frame_r frame _ _).trans (wp_mono frame _ _ fun a => outer_close m d L O W k hk q1 q2 a))

end Loop2

section Loop3
variable (O : CellTallies nD τ sig (HIx 1)) (W : Waits sig (HIx 1))

/-- After the last chunk both results' parts are at the looked-up rows. -/
theorem outer_exit (acc : BitVec 32) :
    outerInv m d L O W (Scf.trips k0_t1_loop.lb k0_t1_loop.ub k0_t1_loop.st) acc
      ⊢ iprop(tdP m d (cF L) (iF L)
          ∗ ((sI0).view.loc (thr d L) ↦{fullShare} S0 m d L) ∗ ((sI1).view.loc (thr d L) ↦{fullShare} S1 m d L)
          ∗ (∃ f2 : S256x64.Idx → Elt F .f32, (sR0).view.loc (thr d L) ↦{fullShare} f2) ∗ (∃ f3 : S256x64.Idx → Elt F .f32, (sR1).view.loc (thr d L) ↦{fullShare} f3)
          ∗ semVal (cellOf d L cc0_scratch4) 0 ∗ semVal (cellOf d L cc0_scratch5) 0
          ∗ semVal (cellOf d L cc0_scoped2) 0 ∗ semVal (cellOf d L cc0_scoped3) 0
          ∗ ∃ W', ⌜∀ p ∈ W', p ∈ W ∨ p.2 = none⌝ ∗ owes (thr d L) O W') := by
  rw [show Scf.trips k0_t1_loop.lb k0_t1_loop.ub k0_t1_loop.st = 2 from by decide]
  unfold outerInv todoParts doneParts tdP
  rw [Ring.rangeSet_univ]
  iintro ⟨-, -, -, Hs0, Hs1, Hr0, Hr1, Hc4, Hc5, Hd2, Hd3, -, Hdone, HW⟩
  isplitl [Hdone]; · iexact Hdone
  isplitl [Hs0]; · iexact Hs0
  isplitl [Hs1]; · iexact Hs1
  isplitl [Hr0]; · iexact Hr0
  isplitl [Hr1]; · iexact Hr1
  isplitl [Hc4]; · iexact Hc4
  isplitl [Hc5]; · iexact Hc5
  isplitl [Hd2]; · iexact Hd2
  isplitl [Hd3]; · iexact Hd3
  iexact HW

end Loop3

/-! ## The tile's body -/

theorem tile_body [∀ e, Nonempty (Elt F e)]
    (hfire : ∀ (k : Fin k0_t1_loop.trips) (g : Fin k0_t2_loop.trips) (acc : BitVec 32) (q1 q2 : PosShare TreeShare) (f2 f3 : S256x64.Idx → Elt F .f32),
      fireInv d L (S0 m d L) (S1 m d L) (T1 m d) (T2 m d) k.val q1 q2 f2 f3 g.val acc
        ⊢ wp frame (wpE (defs₀ (F := F)) 𝒱₀ (thr d L) none) Set.univ
            (k0_t2_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k (Scf.iv 0#32 1#32 k) g acc)
            (fireInv d L (S0 m d L) (S1 m d L) (T1 m d) (T2 m d) k.val q1 q2 f2 f3 (g.val + 1)))
    (hF : (K (F := F)).Facts) (hpre : PreOK m) (O : CellTallies nD τ sig (HIx 1)) (W : Waits sig (HIx 1)) (hO : ∀ g, O g none = 0) :
    iprop(levAts (K (F := F)).L (K (F := F)).lev ∗ emp ∗ goP m d (cF L) (iF L)
        ∗ scopedBufs (thr d L) ∗ scopedSems0 (thr d L) ∗ owes (thr d L) O W)
      ⊢ wp frame (wpE (defs₀ (F := F)) 𝒱₀ (thr d L) none) Set.univ
          (cc0__dual_gather L aV1 (Memref.isWhole_whole _) aV3 (Memref.isWhole_whole _) aT1 (Memref.isWhole_whole _) aT2 (Memref.isWhole_whole _)
            aO0 (Memref.isWhole_whole _) aO1 (Memref.isWhole_whole _) sI0 (Memref.isWhole_whole _) sI1 (Memref.isWhole_whole _)
            sR0 (Memref.isWhole_whole _) sR1 (Memref.isWhole_whole _) cc0_scratch4 cc0_scratch5 cc0_scoped0 cc0_scoped1 cc0_scoped2 cc0_scoped3)
          fun _ => iprop(tdP m d (cF L) (iF L) ∗ scopedBufs (thr d L) ∗ scopedSems0 (thr d L)
            ∗ ∃ W', ⌜∀ p ∈ W', p ∈ W ∨ p.2 = none⌝ ∗ owes (thr d L) O W') := by
  simp only [cc0__dual_gather_eq_skeleton]; unfold cc0__dual_gather_skel
  rw [(K (F := F)).scopedBufs_V hF d (cV L) (jV L), SparseCore.Cfg.scopedSems0_V (Val := Elt F) d (cV L) (jV L), ownSems0_V, ownBufs_V]
  unfold goP reads
  iintro ⟨#Hlv, -, ⟨⟨Hv1, Hv3, Ht1, Ht2⟩, Houts⟩, ⟨⟨%f0, Hs0⟩, ⟨%f1, Hs1⟩, ⟨%f2, Hs2⟩, ⟨%f3, Hs3⟩, Hbufs⟩, ⟨Hc4, Hc5, Hd0, Hd1, Hd2, Hd3, Hsems⟩, HO⟩
  ihave Hmw := ((K (F := F)).mayWaits_none (thr := thr d L) hO) $$ Hlv
  ihave Hv1' := (Entails.of_eq (pts_v1 (F := F) d L _ _).symm) $$ Hv1
  ihave Hv3' := (Entails.of_eq (pts_v3 (F := F) d L _ _).symm) $$ Hv3
  ihave Ht1' := (Entails.of_eq (pts_t1 (F := F) d L _ _).symm) $$ Ht1
  ihave Ht2' := (Entails.of_eq (pts_t2 (F := F) d L _ _).symm) $$ Ht2
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  sl_exec
  sl_unfold_run_names
  rw [View.write_whole_univ, View.write_whole_univ]
  -- the loop over the two chunks
  sl_for (outerInv m d L O W) $$ [Ht1' Ht2' Hs0' Hs1' Hs2' Hs3' Hc4 Hc5 Hd2 Hd3 Houts HO]
  · intro k acc; exact outer_step m d L O W hfire k acc
  · unfold outerInv todoParts doneParts S0 S1
    rw [Ring.rangeSet_univ, Ring.bigSep_rangeSet_empty (le_refl 0)]
    isplitr; · iexact Hmw
    isplitl [Ht1']; · iexists (qTile (cF L).val (iF L).val); iexact Ht1'
    isplitl [Ht2']; · iexists (qTile (cF L).val (iF L).val); iexact Ht2'
    isplitl [Hs0']; · iexact Hs0'
    isplitl [Hs1']; · iexact Hs1'
    isplitl [Hs2']; · iexists f2; iexact Hs2'
    isplitl [Hs3']; · iexists f3; iexact Hs3'
    isplitl [Hc4]; · iexact Hc4
    isplitl [Hc5]; · iexact Hc5
    isplitl [Hd2]; · iexact Hd2
    isplitl [Hd3]; · iexact Hd3
    isplitl [Houts]; · iexact Houts
    isplitr; · iempintro
    iexists (insert (SemLoc.dma cc0_scoped1.sem, (none : HIx 1)) (insert (SemLoc.dma cc0_scoped0.sem, (none : HIx 1)) W)); isplitr
    · ipureintro; exact waits_insert (waits_insert (fun p hp => Or.inl hp) _) _
    · iexact HO
  iintro %acc HI
  ihave HI' := (outer_exit m d L O W acc) $$ HI
  icases HI' with ⟨Htd, Hs0, Hs1, ⟨%g2, Hr0⟩, ⟨%g3, Hr1⟩, Hc4, Hc5, Hd2, Hd3, ⟨%W2, %hW2, HO⟩⟩
  iclear Hv1'
  iclear Hv3'
  sl_exec
  sl_step
  isplitl [Htd]; · iexact Htd
  isplitl [Hs0 Hs1 Hr0 Hr1 Hbufs]
  · isplitl [Hs0]; · iexists (S0 m d L); iexact Hs0
    isplitl [Hs1]; · iexists (S1 m d L); iexact Hs1
    isplitl [Hr0]; · iexists g2; iexact Hr0
    isplitl [Hr1]; · iexists g3; iexact Hr1
    iexact Hbufs
  isplitl [Hc4 Hc5 Hd0 Hd1 Hd2 Hd3 Hsems]
  · isplitl [Hc4]; · iexact Hc4
    isplitl [Hc5]; · iexact Hc5
    isplitl [Hd0]; · iexact Hd0
    isplitl [Hd1]; · iexact Hd1
    isplitl [Hd2]; · iexact Hd2
    isplitl [Hd3]; · iexact Hd3
    iexact Hsems
  iexists W2; isplitr
  · ipureintro; exact hW2
  · iexact HO

end Cert.Proof.KB

end
-- ==== Proof.TileAsmB.lean ====
import proofs.«207591_g3891240370478_cont_8to1_b_1686_26_alg».proof.Proof.TileOblB
import proofs.«207591_g3891240370478_cont_8to1_b_1686_26_alg».proof.Proof.TileBodyB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop)
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "aV1" => (Memref.whole Cert.Kernel.main_v1_scv : Memref Cert.Kernel.sig Kind.scVector Space.hbm Cert.Kernel.S16384 EltTy.i32)
local notation "aV3" => (Memref.whole Cert.Kernel.main_v3_scv : Memref Cert.Kernel.sig Kind.scVector Space.hbm Cert.Kernel.S16384 EltTy.i32)
local notation "aT1" => (Memref.whole Cert.Kernel.main_arg1_scv : Memref Cert.Kernel.sig Kind.scVector Space.hbm Cert.Kernel.S1000002x64 EltTy.f32)
local notation "aT2" => (Memref.whole Cert.Kernel.main_arg2_scv : Memref Cert.Kernel.sig Kind.scVector Space.hbm Cert.Kernel.S1000002x64 EltTy.f32)
local notation "aO0" => (Memref.whole Cert.Kernel.main_v4_0_scv : Memref Cert.Kernel.sig Kind.scVector Space.hbm Cert.Kernel.S16384x64 EltTy.f32)
local notation "aO1" => (Memref.whole Cert.Kernel.main_v4_1_scv : Memref Cert.Kernel.sig Kind.scVector Space.hbm Cert.Kernel.S16384x64 EltTy.f32)
local notation "sI0" => (Memref.whole Cert.Kernel.cc0_scratch0 : Memref Cert.Kernel.sig Kind.scVector Space.vmem Cert.Kernel.S512 EltTy.i32)
local notation "sI1" => (Memref.whole Cert.Kernel.cc0_scratch1 : Memref Cert.Kernel.sig Kind.scVector Space.vmem Cert.Kernel.S512 EltTy.i32)
local notation "sR0" => (Memref.whole Cert.Kernel.cc0_scratch2 : Memref Cert.Kernel.sig Kind.scVector Space.vmem Cert.Kernel.S256x64 EltTy.f32)
local notation "sR1" => (Memref.whole Cert.Kernel.cc0_scratch3 : Memref Cert.Kernel.sig Kind.scVector Space.vmem Cert.Kernel.S256x64 EltTy.f32)

variable [FloatOps F]

/-! ## The tiles' obligation, from one trip of the issue loop -/

/-- On the certificate's domain the index words a tile fetched name rows of the tables. -/
theorem S0_le (hpre : PreOK m) (d : Dev nD) (L : grid0.Coords) : ∀ j : S512.Idx, (S0 m d L j).toNat ≤ 999999 := by
  intro j
  have h := S0_at m d L (j 0 : Fin 512)
  have e : S0 m d L j = S0 m d L (ix1 (j 0 : Fin 512)) := congrArg _ (eq_ix1 j)
  rw [e, h]; exact (hpre d _).1
theorem S1_le (hpre : PreOK m) (d : Dev nD) (L : grid0.Coords) : ∀ j : S512.Idx, (S1 m d L j).toNat ≤ 999999 := by
  intro j
  have h := S1_at m d L (j 0 : Fin 512)
  have e : S1 m d L j = S1 m d L (ix1 (j 0 : Fin 512)) := congrArg _ (eq_ix1 j)
  rw [e, h]; exact (hpre d _).2

/-- The launch theorem's obligation for the kernel's tiles: the body at each tile's coordinates, its issue loop's trip
    taken at the words the tile fetched and the two tables. -/
theorem tileObl'_of [∀ e, Nonempty (Elt F e)]
    (fire_step : ∀ (d : Dev nD) (L : grid0.Coords) (s0 s1 : S512.Idx → BitVec 32) (tb1 tb2 : S1000002x64.Idx → Elt F .f32)
      (k : Fin k0_t1_loop.trips) (g : Fin k0_t2_loop.trips) (acc : BitVec 32) (q1 q2 : PosShare TreeShare) (f2 f3 : S256x64.Idx → Elt F .f32)
      (hs0 : ∀ j, (s0 j).toNat ≤ 999999) (hs1 : ∀ j, (s1 j).toNat ≤ 999999),
      fireInv d L s0 s1 tb1 tb2 k.val q1 q2 f2 f3 g.val acc
        ⊢ wp frame (wpE (defs₀ (F := F)) 𝒱₀ (thr d L) none) Set.univ
            (k0_t2_body L aV1 (Memref.isWhole_whole _) aV3 (Memref.isWhole_whole _) aT1 (Memref.isWhole_whole _) aT2 (Memref.isWhole_whole _) aO0 (Memref.isWhole_whole _) aO1 (Memref.isWhole_whole _) sI0 (Memref.isWhole_whole _) sI1 (Memref.isWhole_whole _) sR0 (Memref.isWhole_whole _) sR1 (Memref.isWhole_whole _) cc0_scratch4 cc0_scratch5 cc0_scoped0 cc0_scoped1 cc0_scoped2 cc0_scoped3 k (Scf.iv 0#32 1#32 k) g acc)
            (fireInv d L s0 s1 tb1 tb2 k.val q1 q2 f2 f3 (g.val + 1)))
    (hF : (K (F := F)).Facts) (hpre : PreOK m) :
    (K (F := F)).TileObl (D (F := F)) 𝒱 (P m) v₀ 0 :=
  tileObl m (fun d L hF hpre O W hO =>
    tile_body m d L (fun k g acc q1 q2 f2 f3 =>
      fire_step d L (S0 m d L) (S1 m d L) (T1 m d) (T2 m d) k g acc q1 q2 f2 f3 (S0_le m hpre d L) (S1_le m hpre d L)) hF hpre O W hO) hF hpre

end Cert.Proof.KB

end
-- ==== Proof.TileB.lean ====
/-
  The tile's obligation of the launch theorem: the task of vector subcore `(c, i)` — the two index fetches, then for each
  of its two chunks the issue loop, the drain loop and the two write-outs — takes the task's read shares and its two
  parts of each result, and hands the parts back at the looked-up rows. The body's pieces are proved in the modules
  this one imports (one issue trip, one drain trip, one chunk, the whole body); here they are put together: the
  scratch's words are the tile's 512 words of the index vectors, each at most 999999 on the certificate's domain.
-/
import proofs.«207591_g3891240370478_cont_8to1_b_1686_26_alg».proof.Proof.TileFireB
import proofs.«207591_g3891240370478_cont_8to1_b_1686_26_alg».proof.Proof.TileAsmB

noncomputable section

namespace Cert.Proof.KB

open Cert.Kernel Cert.Kernel.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} (m : (ℓ : Loc nD τ sig) → Buf (Elt F) ℓ) [FloatOps F]

theorem tileOblFull [∀ e, Nonempty (Elt F e)] (hF : (K (F := F)).Facts) (hpre : PreOK m) :
    (K (F := F)).TileObl (D (F := F)) 𝒱 (P m) v₀ 0 :=
  tileObl'_of m (fun d L s0 s1 tb1 tb2 k g acc q1 q2 f2 f3 hs0 hs1 => fire_step d L s0 s1 tb1 tb2 k g acc q1 q2 f2 f3 hs0 hs1) hF hpre

end Cert.Proof.KB

end
-- ==== Proof.LaunchFin.lean ====
import proofs.«207591_g3891240370478_cont_8to1_b_1686_26_alg».proof.Proof.Common
import proofs.«207591_g3891240370478_cont_8to1_b_1686_26_alg».proof.Proof.LaunchSplit

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What @main leaves the claim -/

/-- The share of the two tables the TensorCore keeps while the SparseCores read them. -/
abbrev qKeep : PosShare TreeShare := shareDrop fullShare 2

/-- The two results whole at the looked-up rows with the unit axis, the index array whole, and the kept share of the
    two tables, at their launch contents. -/
def FIN (d : Dev nD) : sProp 𝕄 :=
  iprop((r0Loc d ↦{fullShare} R0 m d) ∗ (r1Loc d ↦{fullShare} R1 m d) ∗ (a0Loc d ↦{fullShare} m (a0Loc d))
    ∗ (a1Loc d ↦{qKeep} m (a1Loc d)) ∗ (a2Loc d ↦{qKeep} m (a2Loc d)))

def fq (d : Dev nD) (s' : Phys nD τ sig (Elt F)) : Prop :=
  s'.mem.mem (r0Loc d) = R0 m d ∧ s'.mem.mem (r1Loc d) = R1 m d
    ∧ s'.mem.mem (a0Loc d) = m (a0Loc d) ∧ s'.mem.mem (a1Loc d) = m (a1Loc d) ∧ s'.mem.mem (a2Loc d) = m (a2Loc d)

/-- A whole array held at any share is what the memory holds; the state interpretation is kept. -/
theorem agree_whole {ℓ : Loc nD τ sig} (q : PosShare TreeShare) (f : Buf (Elt F) ℓ) (s' : Phys nD τ sig (Elt F)) :
    iprop(SI s' ∗ ℓ ↦{q} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := q) (f := f))) $$ [HSI Hp]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  unfold FIN
  iintro ⟨⟨Hr0, Hr1, Ha0, Ha1, Ha2⟩, HSI⟩
  ihave H := (agree_whole fullShare (R0 m d) s') $$ [HSI Hr0]
  · isplitl [HSI] <;> iassumption
  icases H with ⟨%h0, HSI⟩
  ihave H := (agree_whole fullShare (R1 m d) s') $$ [HSI Hr1]
  · isplitl [HSI] <;> iassumption
  icases H with ⟨%h1, HSI⟩
  ihave H := (agree_whole fullShare (m (a0Loc d)) s') $$ [HSI Ha0]
  · isplitl [HSI] <;> iassumption
  icases H with ⟨%h2, HSI⟩
  ihave H := (agree_whole qKeep (m (a1Loc d)) s') $$ [HSI Ha1]
  · isplitl [HSI] <;> iassumption
  icases H with ⟨%h3, HSI⟩
  ihave H := (agree_whole qKeep (m (a2Loc d)) s') $$ [HSI Ha2]
  · isplitl [HSI] <;> iassumption
  icases H with ⟨%h4, -⟩
  ipureintro; exact ⟨h0, h1, h2, h3, h4⟩

end Cert.Proof.KI

end
-- ==== Proof.LaunchParts.lean ====
import proofs.«207591_g3891240370478_cont_8to1_b_1686_26_alg».proof.Proof.Common
import proofs.«207591_g3891240370478_cont_8to1_b_1686_26_alg».proof.Proof.LaunchSplit

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The results' 64 parts: a disjoint cover -/

theorem partSet_eq (j : Fin 64) : partSet j = (part j).set := by
  show ((View.whole (main_v4_0_scv : Ref sig .scVector)).slice (part j)).set = _
  rw [View.set_slice]; exact Finset.map_refl

theorem parts_disjoint : ∀ i ∈ (Finset.univ : Finset (Fin 64)), ∀ j ∈ (Finset.univ : Finset (Fin 64)), i ≠ j → Disjoint (partSet i) (partSet j) :=
  fun i _ j _ h => by rw [partSet_eq, partSet_eq]; exact Rect.part_disjoint hdiv h

theorem parts_cover : (Finset.univ : Finset (Fin 64)).biUnion partSet = Finset.univ :=
  (Finset.biUnion_congr rfl fun i _ => partSet_eq i).trans (Rect.biUnion_part hdiv)

theorem o0_parts (d : Dev nD) (f : Buf (Elt F) (o0Loc d)) :
    (o0Loc d ↦{fullShare} f : sProp 𝕄) = bigSep Finset.univ fun j : Fin 64 => o0Loc d ↦[partSet j]{fullShare} f := by
  rw [← pointsTo_biUnion Finset.univ (ℓ := o0Loc d) partSet parts_disjoint, parts_cover]; try rfl
theorem o1_parts (d : Dev nD) (f : Buf (Elt F) (o1Loc d)) :
    (o1Loc d ↦{fullShare} f : sProp 𝕄) = bigSep Finset.univ fun j : Fin 64 => o1Loc d ↦[partSet j]{fullShare} f := by
  rw [← pointsTo_biUnion Finset.univ (ℓ := o1Loc d) partSet parts_disjoint, parts_cover]; try rfl

/-- The chunks `(c, i, k) ↦ 4 i + 2 c + k` number the 64 parts exactly once. -/
def pjEquiv : Fin 2 × Fin 16 × Fin 2 ≃ Fin 64 where
  toFun p := pj p.1 p.2.1 p.2.2
  invFun j := (⟨(j.val / 2) % 2, Nat.mod_lt _ (by decide)⟩, ⟨j.val / 4, by have := j.isLt; omega⟩, ⟨j.val % 2, Nat.mod_lt _ (by decide)⟩)
  left_inv := by
    rintro ⟨c, i, k⟩
    have hc := c.isLt; have hk := k.isLt
    refine Prod.ext (Fin.ext ?_) (Prod.ext (Fin.ext ?_) (Fin.ext ?_))
    · show ((4 * i.val + 2 * c.val + k.val) / 2) % 2 = c.val; omega
    · show (4 * i.val + 2 * c.val + k.val) / 4 = i.val; omega
    · show (4 * i.val + 2 * c.val + k.val) % 2 = k.val; omega
  right_inv := by
    intro j
    refine Fin.ext ?_
    show 4 * (j.val / 4) + 2 * ((j.val / 2) % 2) + j.val % 2 = j.val; omega

variable [FloatOps F]

/-- The two results whole are their parts, listed per SparseCore, tile and chunk. -/
theorem outs_parts (d : Dev nD) (f0 : Buf (Elt F) (o0Loc d)) (f1 : Buf (Elt F) (o1Loc d)) :
    (iprop((o0Loc d ↦{fullShare} f0) ∗ (o1Loc d ↦{fullShare} f1)) : sProp 𝕄)
      = bigSep Finset.univ fun c : Fin 2 => bigSep Finset.univ fun i : Fin 16 => bigSep Finset.univ fun k : Fin 2 => outs d (pj c i k) f0 f1 := by
  rw [o0_parts, o1_parts, ← bigSep_sep',
    bigSep_univ_equiv pjEquiv (fun j => iprop((o0Loc d ↦[partSet j]{fullShare} f0) ∗ (o1Loc d ↦[partSet j]{fullShare} f1))),
    bigSep_univ_prod (fun p : Fin 2 × Fin 16 × Fin 2 => iprop((o0Loc d ↦[partSet (pjEquiv p)]{fullShare} f0) ∗ (o1Loc d ↦[partSet (pjEquiv p)]{fullShare} f1)))]
  refine bigSep_congr fun c _ => ?_
  rw [bigSep_univ_prod (fun p : Fin 16 × Fin 2 => iprop((o0Loc d ↦[partSet (pjEquiv (c, p))]{fullShare} f0) ∗ (o1Loc d ↦[partSet (pjEquiv (c, p))]{fullShare} f1)))]
  rfl

/-! ## The read shares of the two SparseCores -/

/-- A whole array splits into the share the TensorCore keeps and one read share per SparseCore. -/
theorem share_cores {ℓ : Loc nD τ sig} (f : Buf (Elt F) ℓ) :
    (ℓ ↦{fullShare} f : sProp 𝕄) ⊢ iprop((ℓ ↦{shareDrop fullShare 2} f) ∗ bigSep Finset.univ fun c : Fin 2 => ℓ ↦{qCore c.val} f) :=
  pointsTo_toks_split fullShare 2

theorem reads_cores (d : Dev nD) :
    (iprop((v1Loc d ↦{fullShare} W1 m d) ∗ (v3Loc d ↦{fullShare} W3 m d) ∗ (a1Loc d ↦{fullShare} m (a1Loc d)) ∗ (a2Loc d ↦{fullShare} m (a2Loc d))) : sProp 𝕄)
      ⊢ iprop(((a1Loc d ↦{shareDrop fullShare 2} m (a1Loc d)) ∗ (a2Loc d ↦{shareDrop fullShare 2} m (a2Loc d)))
          ∗ bigSep Finset.univ fun c : Fin 2 => reads m d (qCore c.val)) := by
  unfold reads
  rw [bigSep_sep', bigSep_sep', bigSep_sep']
  iintro ⟨H1, H3, Ha1, Ha2⟩
  ihave H1' := (share_cores (W1 m d)) $$ H1
  ihave H3' := (share_cores (W3 m d)) $$ H3
  ihave Ha1' := (share_cores (m (a1Loc d))) $$ Ha1
  ihave Ha2' := (share_cores (m (a2Loc d))) $$ Ha2
  icases H1' with ⟨-, H1⟩
  icases H3' with ⟨-, H3⟩
  icases Ha1' with ⟨Hk1, Ha1⟩
  icases Ha2' with ⟨Hk2, Ha2⟩
  isplitl [Hk1 Hk2]
  · isplitl [Hk1] <;> iassumption
  isplitl [H1]; · iexact H1
  isplitl [H3]; · iexact H3
  isplitl [Ha1]; · iexact Ha1
  iexact Ha2

/-! ## What the call takes for the two SparseCores, and what it hands back -/

theorem st_intro (d : Dev nD) :
    (iprop((bigSep Finset.univ fun c : Fin 2 => reads m d (qCore c.val)) ∗ (o0Loc d ↦{fullShare} m (o0Loc d)) ∗ (o1Loc d ↦{fullShare} m (o1Loc d))) : sProp 𝕄)
      ⊢ bigSep Finset.univ fun c : Fin ((K (F := F)).nCore 0) => (P m).st 0 d c := by
  simp only [P_st]
  rw [bigSep_cores (F := F) (fun c => stP m d c)]
  unfold stP
  rw [bigSep_sep', outs_parts]

theorem dn_elim (d : Dev nD) :
    (bigSep Finset.univ fun c : Fin ((K (F := F)).nCore 0) => (P m).dn 0 d c)
      ⊢ (iprop((o0Loc d ↦{fullShare} G0 m d) ∗ (o1Loc d ↦{fullShare} G1 m d)) : sProp 𝕄) := by
  simp only [P_dn]
  rw [bigSep_cores (F := F) (fun c => dnP m d c), outs_parts]
  unfold dnP tdP
  exact Entails.refl _

end Cert.Proof.KI

end
-- ==== Proof.LaunchHeld.lean ====
import proofs.«207591_g3891240370478_cont_8to1_b_1686_26_alg».proof.Proof.Common
import proofs.«207591_g3891240370478_cont_8to1_b_1686_26_alg».proof.Proof.LaunchSplit

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The TensorCore's eleven arrays as device buffers -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev o0' : DevRef τ sig := Proc.devRef .tc (main_v4_0 : Ref sig .tc)
abbrev o1' : DevRef τ sig := Proc.devRef .tc (main_v4_1 : Ref sig .tc)
abbrev r0' : DevRef τ sig := Proc.devRef .tc (main_v5 : Ref sig .tc)
abbrev r1' : DevRef τ sig := Proc.devRef .tc (main_v6 : Ref sig .tc)

abbrev SA : Finset (DevRef τ sig) := StableHlo.tcRefs τ sig

/-- All of them, whole, at a valuation. -/
theorem held_all (d : Dev nD) (W : Valuation τ sig (Elt F)) :
    (held (T d) SA W : sProp 𝕄)
      = iprop((a0Loc d ↦{fullShare} W a0') ∗ (a1Loc d ↦{fullShare} W a1') ∗ (a2Loc d ↦{fullShare} W a2')
          ∗ ((SparseCore.T d).loc main_v0 ↦{fullShare} W v0') ∗ (v1Loc d ↦{fullShare} W v1')
          ∗ ((SparseCore.T d).loc main_v2 ↦{fullShare} W v2') ∗ (v3Loc d ↦{fullShare} W v3')
          ∗ (o0Loc d ↦{fullShare} W o0') ∗ (o1Loc d ↦{fullShare} W o1') ∗ (r0Loc d ↦{fullShare} W r0') ∗ (r1Loc d ↦{fullShare} W r1')) := by
  unfold held SA StableHlo.tcRefs
  rw [bigSep_map, show (Finset.univ : Finset (Ref sig .tc))
      = {main_arg0, main_arg1, main_arg2, main_v0, main_v1, main_v2, main_v3, main_v4_0, main_v4_1, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

variable [FloatOps F]

/-- What the launch deals the TensorCore of its arrays is all eleven, whole, at the launch contents. -/
theorem unscoped_held (d : Dev nD) :
    (unscopedBufs d (fun b => m ((SparseCore.T d).loc b)) : sProp 𝕄) = held (T d) SA (V0 m d) := by
  unfold unscopedBufs held SA StableHlo.tcRefs
  rw [show (Finset.univ.filter fun b : Ref sig .tc => ¬ b.isScoped) = Finset.univ by decide, bigSep_map]
  rfl

/-! ## The valuation at the call -/

/-- The four operations before the call write only their own results. -/
theorem Vin_other (d : Dev nD) {b : DevRef τ sig} (h0 : b ≠ v0') (h1 : b ≠ v1') (h2 : b ≠ v2') (h3 : b ≠ v3') :
    Vin m d b = V0 m d b := by
  unfold Vin
  rw [(opRs1 (F := F)).result_of_not_mem _ (b := b) (show b ∉ ({v3'} : Finset (DevRef τ sig)) from Finset.notMem_singleton.mpr h3),
    (opSl1 (F := F)).result_of_not_mem _ (b := b) (show b ∉ ({v2'} : Finset (DevRef τ sig)) from Finset.notMem_singleton.mpr h2),
    (opRs0 (F := F)).result_of_not_mem _ (b := b) (show b ∉ ({v1'} : Finset (DevRef τ sig)) from Finset.notMem_singleton.mpr h1),
    (opSl0 (F := F)).result_of_not_mem _ (b := b) (show b ∉ ({v0'} : Finset (DevRef τ sig)) from Finset.notMem_singleton.mpr h0)]

theorem Vin_a0 (d : Dev nD) : Vin m d a0' = m (a0Loc d) := Vin_other m d (by decide) (by decide) (by decide) (by decide)
theorem Vin_a1 (d : Dev nD) : Vin m d a1' = m (a1Loc d) := Vin_other m d (by decide) (by decide) (by decide) (by decide)
theorem Vin_a2 (d : Dev nD) : Vin m d a2' = m (a2Loc d) := Vin_other m d (by decide) (by decide) (by decide) (by decide)
theorem Vin_o0 (d : Dev nD) : Vin m d o0' = m (o0Loc d) := Vin_other m d (by decide) (by decide) (by decide) (by decide)
theorem Vin_o1 (d : Dev nD) : Vin m d o1' = m (o1Loc d) := Vin_other m d (by decide) (by decide) (by decide) (by decide)
theorem Vin_r0 (d : Dev nD) : Vin m d r0' = m (r0Loc d) := Vin_other m d (by decide) (by decide) (by decide) (by decide)
theorem Vin_r1 (d : Dev nD) : Vin m d r1' = m (r1Loc d) := Vin_other m d (by decide) (by decide) (by decide) (by decide)
theorem Vin_v1 (d : Dev nD) : Vin m d v1' = W1 m d := rfl
theorem Vin_v3 (d : Dev nD) : Vin m d v3' = W3 m d := rfl

/-- The eleven arrays when the kernel is called: the two index vectors made, everything else but the two column
    slices at its launch contents. -/
theorem held_Vin (d : Dev nD) :
    (held (T d) SA (Vin m d) : sProp 𝕄)
      = iprop((a0Loc d ↦{fullShare} m (a0Loc d)) ∗ (a1Loc d ↦{fullShare} m (a1Loc d)) ∗ (a2Loc d ↦{fullShare} m (a2Loc d))
          ∗ ((SparseCore.T d).loc main_v0 ↦{fullShare} Vin m d v0') ∗ (v1Loc d ↦{fullShare} W1 m d)
          ∗ ((SparseCore.T d).loc main_v2 ↦{fullShare} Vin m d v2') ∗ (v3Loc d ↦{fullShare} W3 m d)
          ∗ (o0Loc d ↦{fullShare} m (o0Loc d)) ∗ (o1Loc d ↦{fullShare} m (o1Loc d))
          ∗ (r0Loc d ↦{fullShare} m (r0Loc d)) ∗ (r1Loc d ↦{fullShare} m (r1Loc d))) := by
  rw [held_all, Vin_a0, Vin_a1, Vin_a2, Vin_v1, Vin_v3, Vin_o0, Vin_o1, Vin_r0, Vin_r1]

/-! ## The two operations after the call -/

theorem hSl0 : (opSl0 (F := F)).bufs ⊆ SA := StableHlo.unary_bufs_sub _ _ _ _ _
theorem hRs0 : (opRs0 (F := F)).bufs ⊆ SA := StableHlo.reshape_bufs_sub _ _ _ _ _ _
theorem hSl1 : (opSl1 (F := F)).bufs ⊆ SA := StableHlo.unary_bufs_sub _ _ _ _ _
theorem hRs1 : (opRs1 (F := F)).bufs ⊆ SA := StableHlo.reshape_bufs_sub _ _ _ _ _ _

abbrev SB0 : Finset (DevRef τ sig) := {o0', r0'}
abbrev SB1 : Finset (DevRef τ sig) := {o1', r1'}
theorem hB0 : (opB0 (F := F)).bufs ⊆ SB0 := Finset.Subset.refl _
theorem hB1 : (opB1 (F := F)).bufs ⊆ SB1 := Finset.Subset.refl _

omit [FloatOps F] in
theorem held_B0 (d : Dev nD) (W : Valuation τ sig (Elt F)) :
    (held (T d) SB0 W : sProp 𝕄) = iprop((o0Loc d ↦{fullShare} W o0') ∗ (r0Loc d ↦{fullShare} W r0')) := by
  unfold held SB0
  rw [SparseCore.bigSep_insert' (by decide), bigSep_singleton]
omit [FloatOps F] in
theorem held_B1 (d : Dev nD) (W : Valuation τ sig (Elt F)) :
    (held (T d) SB1 W : sProp 𝕄) = iprop((o1Loc d ↦{fullShare} W o1') ∗ (r1Loc d ↦{fullShare} W r1')) := by
  unfold held SB1
  rw [SparseCore.bigSep_insert' (by decide), bigSep_singleton]

/-- A valuation with the first (second) kernel result at the looked-up rows. -/
def VB0 (d : Dev nD) : Valuation τ sig (Elt F) := Function.update (V0 m d) o0' (G0 m d)
def VB1 (d : Dev nD) : Valuation τ sig (Elt F) := Function.update (V0 m d) o1' (G1 m d)

theorem VB0_o0 (d : Dev nD) : VB0 m d o0' = G0 m d := Function.update_self _ _ _
theorem VB0_r0 (d : Dev nD) : VB0 m d r0' = m (r0Loc d) := Function.update_of_ne (show r0' ≠ o0' by decide) _ _
theorem VB1_o1 (d : Dev nD) : VB1 m d o1' = G1 m d := Function.update_self _ _ _
theorem VB1_r1 (d : Dev nD) : VB1 m d r1' = m (r1Loc d) := Function.update_of_ne (show r1' ≠ o1' by decide) _ _

/-- The unit axis put on the first result gives the program's first result, -/
theorem B0_r0 (d : Dev nD) : (opB0 (F := F)).result (VB0 m d) r0' = R0 m d := by
  rw [show (opB0 (F := F)).result (VB0 m d) r0' = _ from StableHlo.unary_result main_v4_0 main_v5 _ _ _ (VB0 m d), VB0_o0]
  rfl
/-- and on the second the second. -/
theorem B1_r1 (d : Dev nD) : (opB1 (F := F)).result (VB1 m d) r1' = R1 m d := by
  rw [show (opB1 (F := F)).result (VB1 m d) r1' = _ from StableHlo.unary_result main_v4_1 main_v6 _ _ _ (VB1 m d), VB1_o1]
  rfl

end Cert.Proof.KI

end
-- ==== Proof.Launch.lean ====
import proofs.«207591_g3891240370478_cont_8to1_b_1686_26_alg».proof.Proof.Common
import proofs.«207591_g3891240370478_cont_8to1_b_1686_26_alg».proof.Proof.LaunchSplit
import proofs.«207591_g3891240370478_cont_8to1_b_1686_26_alg».proof.Proof.LaunchFin
import proofs.«207591_g3891240370478_cont_8to1_b_1686_26_alg».proof.Proof.LaunchParts
import proofs.«207591_g3891240370478_cont_8to1_b_1686_26_alg».proof.Proof.LaunchHeld

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## @main on the TensorCore -/

/-- @main on device `d`'s TensorCore: the two column slices and their reshapes (over all eleven arrays held whole);
    the call, which takes a read share of the two index vectors and the two tables for each SparseCore and the two
    results as their 64 parts, and hands the parts back at the looked-up rows; the unit axis on each result. The
    index array is untouched; of the tables the share not lent is kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two column slices and their reshapes
  iapply (wp_hlo_within 𝒱 (SparseCore.T d) none Set.univ (op := opSl0) (S := SA) hSl0 (V := V0 m d)) $$ [Hb Hheld]
  · isplitl [Hb] <;> iassumption
  iintro ⟨Hb, Hheld⟩
  rw [wp_ret]; imodintro
  iapply (wp_hlo_within 𝒱 (SparseCore.T d) none Set.univ (op := opRs0) (S := SA) hRs0) $$ [Hb Hheld]
  · isplitl [Hb] <;> iassumption
  iintro ⟨Hb, Hheld⟩
  rw [wp_ret]; imodintro
  iapply (wp_hlo_within 𝒱 (SparseCore.T d) none Set.univ (op := opSl1) (S := SA) hSl1) $$ [Hb Hheld]
  · isplitl [Hb] <;> iassumption
  iintro ⟨Hb, Hheld⟩
  rw [wp_ret]; imodintro
  iapply (wp_hlo_within 𝒱 (SparseCore.T d) none Set.univ (op := opRs1) (S := SA) hRs1) $$ [Hb Hheld]
  · isplitl [Hb] <;> iassumption
  iintro ⟨Hb, Hheld⟩
  rw [wp_ret]; imodintro
  ihave Hh := (Entails.of_eq (show (held (SparseCore.T d) SA
      ((opRs1 (F := F)).result ((opSl1 (F := F)).result ((opRs0 (F := F)).result ((opSl0 (F := F)).result (V0 m d))))) : sProp 𝕄) = _
    from held_Vin m d)) $$ Hheld
  icases Hh with ⟨Ha0, Ha1, Ha2, -, Hv1, -, Hv3, Ho0, Ho1, Hr0, Hr1⟩
  -- the read shares: one per SparseCore, the rest kept
  ihave Hrd := (reads_cores m d) $$ [Hv1 Hv3 Ha1 Ha2]
  · isplitl [Hv1]; · iexact Hv1
    isplitl [Hv3]; · iexact Hv3
    isplitl [Ha1] <;> iassumption
  icases Hrd with ⟨⟨Hk1, Hk2⟩, Hrd⟩
  -- the call
  iapply ((K (F := F)).wp_run (D (F := F)) 𝒱 (EH := EH) (P := P m) κ d 0) $$ [Hst Hrd Ho0 Ho1 Hb Ha0 Hk1 Hk2 Hr0 Hr1]
  isplitr; · iexact Hctx
  isplitl [Hst]; · iexact Hst
  isplitl [Hrd Ho0 Ho1]
  · iapply (st_intro m d)
    isplitl [Hrd]; · iexact Hrd
    isplitl [Ho0] <;> iassumption
  iintro ⟨Hst, Hdn⟩
  ihave Hdn' := (dn_elim m d) $$ Hdn
  icases Hdn' with ⟨Ho0, Ho1⟩
  -- the unit axis on the first result
  iapply (wp_hlo_within 𝒱 (SparseCore.T d) none Set.univ (op := opB0) (S := SB0) hB0 (V := VB0 m d)) $$ [Hb Ho0 Hr0]
  · isplitl [Hb]; · iexact Hb
    rw [held_B0, VB0_o0, VB0_r0]
    isplitl [Ho0] <;> iassumption
  iintro ⟨Hb, Hheld⟩
  ihave Hh := (Entails.of_eq (held_B0 (F := F) d _)) $$ Hheld
  icases Hh with ⟨-, Hr0⟩
  rw [wp_ret]; imodintro
  -- and on the second
  iapply (wp_hlo_within 𝒱 (SparseCore.T d) none Set.univ (op := opB1) (S := SB1) hB1 (V := VB1 m d)) $$ [Hb Ho1 Hr1]
  · isplitl [Hb]; · iexact Hb
    rw [held_B1, VB1_o1, VB1_r1]
    isplitl [Ho1] <;> iassumption
  iintro ⟨Hb, Hheld⟩
  ihave Hh := (Entails.of_eq (held_B1 (F := F) d _)) $$ Hheld
  icases Hh with ⟨-, Hr1⟩
  rw [wp_ret]; imodintro; imodintro
  isplitl [Hst]; · iexact Hst
  unfold FIN
  isplitl [Hr0]; · rw [← B0_r0]; iexact Hr0
  isplitl [Hr1]; · rw [← B1_r1]; iexact Hr1
  isplitl [Ha0]; · iexact Ha0
  isplitl [Hk1] <;> iassumption

/-! ## The program's run -/

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.LaunchFinB.lean ====
import proofs.«207591_g3891240370478_cont_8to1_b_1686_26_alg».proof.Proof.CommonB
import proofs.«207591_g3891240370478_cont_8to1_b_1686_26_alg».proof.Proof.LaunchSplitB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What @main leaves the claim -/

/-- The share of the two tables the TensorCore keeps while the SparseCores read them. -/
abbrev qKeep : PosShare TreeShare := shareDrop fullShare 2

/-- The two results whole at the looked-up rows with the unit axis, the index array whole, and the kept share of the
    two tables, at their launch contents. -/
def FIN (d : Dev nD) : sProp 𝕄 :=
  iprop((r0Loc d ↦{fullShare} R0 m d) ∗ (r1Loc d ↦{fullShare} R1 m d) ∗ (a0Loc d ↦{fullShare} m (a0Loc d))
    ∗ (a1Loc d ↦{qKeep} m (a1Loc d)) ∗ (a2Loc d ↦{qKeep} m (a2Loc d)))

def fq (d : Dev nD) (s' : Phys nD τ sig (Elt F)) : Prop :=
  s'.mem.mem (r0Loc d) = R0 m d ∧ s'.mem.mem (r1Loc d) = R1 m d
    ∧ s'.mem.mem (a0Loc d) = m (a0Loc d) ∧ s'.mem.mem (a1Loc d) = m (a1Loc d) ∧ s'.mem.mem (a2Loc d) = m (a2Loc d)

/-- A whole array held at any share is what the memory holds; the state interpretation is kept. -/
theorem agree_whole {ℓ : Loc nD τ sig} (q : PosShare TreeShare) (f : Buf (Elt F) ℓ) (s' : Phys nD τ sig (Elt F)) :
    iprop(SI s' ∗ ℓ ↦{q} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := q) (f := f))) $$ [HSI Hp]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  unfold FIN
  iintro ⟨⟨Hr0, Hr1, Ha0, Ha1, Ha2⟩, HSI⟩
  ihave H := (agree_whole fullShare (R0 m d) s') $$ [HSI Hr0]
  · isplitl [HSI] <;> iassumption
  icases H with ⟨%h0, HSI⟩
  ihave H := (agree_whole fullShare (R1 m d) s') $$ [HSI Hr1]
  · isplitl [HSI] <;> iassumption
  icases H with ⟨%h1, HSI⟩
  ihave H := (agree_whole fullShare (m (a0Loc d)) s') $$ [HSI Ha0]
  · isplitl [HSI] <;> iassumption
  icases H with ⟨%h2, HSI⟩
  ihave H := (agree_whole qKeep (m (a1Loc d)) s') $$ [HSI Ha1]
  · isplitl [HSI] <;> iassumption
  icases H with ⟨%h3, HSI⟩
  ihave H := (agree_whole qKeep (m (a2Loc d)) s') $$ [HSI Ha2]
  · isplitl [HSI] <;> iassumption
  icases H with ⟨%h4, -⟩
  ipureintro; exact ⟨h0, h1, h2, h3, h4⟩

end Cert.Proof.KB

end
-- ==== Proof.LaunchPartsB.lean ====
import proofs.«207591_g3891240370478_cont_8to1_b_1686_26_alg».proof.Proof.CommonB
import proofs.«207591_g3891240370478_cont_8to1_b_1686_26_alg».proof.Proof.LaunchSplitB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The results' 64 parts: a disjoint cover -/

theorem partSet_eq (j : Fin 64) : partSet j = (part j).set := by
  show ((View.whole (main_v4_0_scv : Ref sig .scVector)).slice (part j)).set = _
  rw [View.set_slice]; exact Finset.map_refl

theorem parts_disjoint : ∀ i ∈ (Finset.univ : Finset (Fin 64)), ∀ j ∈ (Finset.univ : Finset (Fin 64)), i ≠ j → Disjoint (partSet i) (partSet j) :=
  fun i _ j _ h => by rw [partSet_eq, partSet_eq]; exact Rect.part_disjoint hdiv h

theorem parts_cover : (Finset.univ : Finset (Fin 64)).biUnion partSet = Finset.univ :=
  (Finset.biUnion_congr rfl fun i _ => partSet_eq i).trans (Rect.biUnion_part hdiv)

theorem o0_parts (d : Dev nD) (f : Buf (Elt F) (o0Loc d)) :
    (o0Loc d ↦{fullShare} f : sProp 𝕄) = bigSep Finset.univ fun j : Fin 64 => o0Loc d ↦[partSet j]{fullShare} f := by
  rw [← pointsTo_biUnion Finset.univ (ℓ := o0Loc d) partSet parts_disjoint, parts_cover]; try rfl
theorem o1_parts (d : Dev nD) (f : Buf (Elt F) (o1Loc d)) :
    (o1Loc d ↦{fullShare} f : sProp 𝕄) = bigSep Finset.univ fun j : Fin 64 => o1Loc d ↦[partSet j]{fullShare} f := by
  rw [← pointsTo_biUnion Finset.univ (ℓ := o1Loc d) partSet parts_disjoint, parts_cover]; try rfl

/-- The chunks `(c, i, k) ↦ 4 i + 2 c + k` number the 64 parts exactly once. -/
def pjEquiv : Fin 2 × Fin 16 × Fin 2 ≃ Fin 64 where
  toFun p := pj p.1 p.2.1 p.2.2
  invFun j := (⟨(j.val / 2) % 2, Nat.mod_lt _ (by decide)⟩, ⟨j.val / 4, by have := j.isLt; omega⟩, ⟨j.val % 2, Nat.mod_lt _ (by decide)⟩)
  left_inv := by
    rintro ⟨c, i, k⟩
    have hc := c.isLt; have hk := k.isLt
    refine Prod.ext (Fin.ext ?_) (Prod.ext (Fin.ext ?_) (Fin.ext ?_))
    · show ((4 * i.val + 2 * c.val + k.val) / 2) % 2 = c.val; omega
    · show (4 * i.val + 2 * c.val + k.val) / 4 = i.val; omega
    · show (4 * i.val + 2 * c.val + k.val) % 2 = k.val; omega
  right_inv := by
    intro j
    refine Fin.ext ?_
    show 4 * (j.val / 4) + 2 * ((j.val / 2) % 2) + j.val % 2 = j.val; omega

variable [FloatOps F]

/-- The two results whole are their parts, listed per SparseCore, tile and chunk. -/
theorem outs_parts (d : Dev nD) (f0 : Buf (Elt F) (o0Loc d)) (f1 : Buf (Elt F) (o1Loc d)) :
    (iprop((o0Loc d ↦{fullShare} f0) ∗ (o1Loc d ↦{fullShare} f1)) : sProp 𝕄)
      = bigSep Finset.univ fun c : Fin 2 => bigSep Finset.univ fun i : Fin 16 => bigSep Finset.univ fun k : Fin 2 => outs d (pj c i k) f0 f1 := by
  rw [o0_parts, o1_parts, ← bigSep_sep',
    bigSep_univ_equiv pjEquiv (fun j => iprop((o0Loc d ↦[partSet j]{fullShare} f0) ∗ (o1Loc d ↦[partSet j]{fullShare} f1))),
    bigSep_univ_prod (fun p : Fin 2 × Fin 16 × Fin 2 => iprop((o0Loc d ↦[partSet (pjEquiv p)]{fullShare} f0) ∗ (o1Loc d ↦[partSet (pjEquiv p)]{fullShare} f1)))]
  refine bigSep_congr fun c _ => ?_
  rw [bigSep_univ_prod (fun p : Fin 16 × Fin 2 => iprop((o0Loc d ↦[partSet (pjEquiv (c, p))]{fullShare} f0) ∗ (o1Loc d ↦[partSet (pjEquiv (c, p))]{fullShare} f1)))]
  rfl

/-! ## The read shares of the two SparseCores -/

/-- A whole array splits into the share the TensorCore keeps and one read share per SparseCore. -/
theorem share_cores {ℓ : Loc nD τ sig} (f : Buf (Elt F) ℓ) :
    (ℓ ↦{fullShare} f : sProp 𝕄) ⊢ iprop((ℓ ↦{shareDrop fullShare 2} f) ∗ bigSep Finset.univ fun c : Fin 2 => ℓ ↦{qCore c.val} f) :=
  pointsTo_toks_split fullShare 2

theorem reads_cores (d : Dev nD) :
    (iprop((v1Loc d ↦{fullShare} W1 m d) ∗ (v3Loc d ↦{fullShare} W3 m d) ∗ (a1Loc d ↦{fullShare} m (a1Loc d)) ∗ (a2Loc d ↦{fullShare} m (a2Loc d))) : sProp 𝕄)
      ⊢ iprop(((a1Loc d ↦{shareDrop fullShare 2} m (a1Loc d)) ∗ (a2Loc d ↦{shareDrop fullShare 2} m (a2Loc d)))
          ∗ bigSep Finset.univ fun c : Fin 2 => reads m d (qCore c.val)) := by
  unfold reads
  rw [bigSep_sep', bigSep_sep', bigSep_sep']
  iintro ⟨H1, H3, Ha1, Ha2⟩
  ihave H1' := (share_cores (W1 m d)) $$ H1
  ihave H3' := (share_cores (W3 m d)) $$ H3
  ihave Ha1' := (share_cores (m (a1Loc d))) $$ Ha1
  ihave Ha2' := (share_cores (m (a2Loc d))) $$ Ha2
  icases H1' with ⟨-, H1⟩
  icases H3' with ⟨-, H3⟩
  icases Ha1' with ⟨Hk1, Ha1⟩
  icases Ha2' with ⟨Hk2, Ha2⟩
  isplitl [Hk1 Hk2]
  · isplitl [Hk1] <;> iassumption
  isplitl [H1]; · iexact H1
  isplitl [H3]; · iexact H3
  isplitl [Ha1]; · iexact Ha1
  iexact Ha2

/-! ## What the call takes for the two SparseCores, and what it hands back -/

theorem st_intro (d : Dev nD) :
    (iprop((bigSep Finset.univ fun c : Fin 2 => reads m d (qCore c.val)) ∗ (o0Loc d ↦{fullShare} m (o0Loc d)) ∗ (o1Loc d ↦{fullShare} m (o1Loc d))) : sProp 𝕄)
      ⊢ bigSep Finset.univ fun c : Fin ((K (F := F)).nCore 0) => (P m).st 0 d c := by
  simp only [P_st]
  rw [bigSep_cores (F := F) (fun c => stP m d c)]
  unfold stP
  rw [bigSep_sep', outs_parts]

theorem dn_elim (d : Dev nD) :
    (bigSep Finset.univ fun c : Fin ((K (F := F)).nCore 0) => (P m).dn 0 d c)
      ⊢ (iprop((o0Loc d ↦{fullShare} G0 m d) ∗ (o1Loc d ↦{fullShare} G1 m d)) : sProp 𝕄) := by
  simp only [P_dn]
  rw [bigSep_cores (F := F) (fun c => dnP m d c), outs_parts]
  unfold dnP tdP
  exact Entails.refl _

end Cert.Proof.KB

end
-- ==== Proof.LaunchHeldB.lean ====
import proofs.«207591_g3891240370478_cont_8to1_b_1686_26_alg».proof.Proof.CommonB
import proofs.«207591_g3891240370478_cont_8to1_b_1686_26_alg».proof.Proof.LaunchSplitB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The TensorCore's eleven arrays as device buffers -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev o0' : DevRef τ sig := Proc.devRef .tc (main_v4_0 : Ref sig .tc)
abbrev o1' : DevRef τ sig := Proc.devRef .tc (main_v4_1 : Ref sig .tc)
abbrev r0' : DevRef τ sig := Proc.devRef .tc (main_v5 : Ref sig .tc)
abbrev r1' : DevRef τ sig := Proc.devRef .tc (main_v6 : Ref sig .tc)

abbrev SA : Finset (DevRef τ sig) := StableHlo.tcRefs τ sig

/-- All of them, whole, at a valuation. -/
theorem held_all (d : Dev nD) (W : Valuation τ sig (Elt F)) :
    (held (T d) SA W : sProp 𝕄)
      = iprop((a0Loc d ↦{fullShare} W a0') ∗ (a1Loc d ↦{fullShare} W a1') ∗ (a2Loc d ↦{fullShare} W a2')
          ∗ ((SparseCore.T d).loc main_v0 ↦{fullShare} W v0') ∗ (v1Loc d ↦{fullShare} W v1')
          ∗ ((SparseCore.T d).loc main_v2 ↦{fullShare} W v2') ∗ (v3Loc d ↦{fullShare} W v3')
          ∗ (o0Loc d ↦{fullShare} W o0') ∗ (o1Loc d ↦{fullShare} W o1') ∗ (r0Loc d ↦{fullShare} W r0') ∗ (r1Loc d ↦{fullShare} W r1')) := by
  unfold held SA StableHlo.tcRefs
  rw [bigSep_map, show (Finset.univ : Finset (Ref sig .tc))
      = {main_arg0, main_arg1, main_arg2, main_v0, main_v1, main_v2, main_v3, main_v4_0, main_v4_1, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

variable [FloatOps F]

/-- What the launch deals the TensorCore of its arrays is all eleven, whole, at the launch contents. -/
theorem unscoped_held (d : Dev nD) :
    (unscopedBufs d (fun b => m ((SparseCore.T d).loc b)) : sProp 𝕄) = held (T d) SA (V0 m d) := by
  unfold unscopedBufs held SA StableHlo.tcRefs
  rw [show (Finset.univ.filter fun b : Ref sig .tc => ¬ b.isScoped) = Finset.univ by decide, bigSep_map]
  rfl

/-! ## The valuation at the call -/

/-- The four operations before the call write only their own results. -/
theorem Vin_other (d : Dev nD) {b : DevRef τ sig} (h0 : b ≠ v0') (h1 : b ≠ v1') (h2 : b ≠ v2') (h3 : b ≠ v3') :
    Vin m d b = V0 m d b := by
  unfold Vin
  rw [(opRs1 (F := F)).result_of_not_mem _ (b := b) (show b ∉ ({v3'} : Finset (DevRef τ sig)) from Finset.notMem_singleton.mpr h3),
    (opSl1 (F := F)).result_of_not_mem _ (b := b) (show b ∉ ({v2'} : Finset (DevRef τ sig)) from Finset.notMem_singleton.mpr h2),
    (opRs0 (F := F)).result_of_not_mem _ (b := b) (show b ∉ ({v1'} : Finset (DevRef τ sig)) from Finset.notMem_singleton.mpr h1),
    (opSl0 (F := F)).result_of_not_mem _ (b := b) (show b ∉ ({v0'} : Finset (DevRef τ sig)) from Finset.notMem_singleton.mpr h0)]

theorem Vin_a0 (d : Dev nD) : Vin m d a0' = m (a0Loc d) := Vin_other m d (by decide) (by decide) (by decide) (by decide)
theorem Vin_a1 (d : Dev nD) : Vin m d a1' = m (a1Loc d) := Vin_other m d (by decide) (by decide) (by decide) (by decide)
theorem Vin_a2 (d : Dev nD) : Vin m d a2' = m (a2Loc d) := Vin_other m d (by decide) (by decide) (by decide) (by decide)
theorem Vin_o0 (d : Dev nD) : Vin m d o0' = m (o0Loc d) := Vin_other m d (by decide) (by decide) (by decide) (by decide)
theorem Vin_o1 (d : Dev nD) : Vin m d o1' = m (o1Loc d) := Vin_other m d (by decide) (by decide) (by decide) (by decide)
theorem Vin_r0 (d : Dev nD) : Vin m d r0' = m (r0Loc d) := Vin_other m d (by decide) (by decide) (by decide) (by decide)
theorem Vin_r1 (d : Dev nD) : Vin m d r1' = m (r1Loc d) := Vin_other m d (by decide) (by decide) (by decide) (by decide)
theorem Vin_v1 (d : Dev nD) : Vin m d v1' = W1 m d := rfl
theorem Vin_v3 (d : Dev nD) : Vin m d v3' = W3 m d := rfl

/-- The eleven arrays when the kernel is called: the two index vectors made, everything else but the two column
    slices at its launch contents. -/
theorem held_Vin (d : Dev nD) :
    (held (T d) SA (Vin m d) : sProp 𝕄)
      = iprop((a0Loc d ↦{fullShare} m (a0Loc d)) ∗ (a1Loc d ↦{fullShare} m (a1Loc d)) ∗ (a2Loc d ↦{fullShare} m (a2Loc d))
          ∗ ((SparseCore.T d).loc main_v0 ↦{fullShare} Vin m d v0') ∗ (v1Loc d ↦{fullShare} W1 m d)
          ∗ ((SparseCore.T d).loc main_v2 ↦{fullShare} Vin m d v2') ∗ (v3Loc d ↦{fullShare} W3 m d)
          ∗ (o0Loc d ↦{fullShare} m (o0Loc d)) ∗ (o1Loc d ↦{fullShare} m (o1Loc d))
          ∗ (r0Loc d ↦{fullShare} m (r0Loc d)) ∗ (r1Loc d ↦{fullShare} m (r1Loc d))) := by
  rw [held_all, Vin_a0, Vin_a1, Vin_a2, Vin_v1, Vin_v3, Vin_o0, Vin_o1, Vin_r0, Vin_r1]

/-! ## The two operations after the call -/

theorem hSl0 : (opSl0 (F := F)).bufs ⊆ SA := StableHlo.unary_bufs_sub _ _ _ _ _
theorem hRs0 : (opRs0 (F := F)).bufs ⊆ SA := StableHlo.reshape_bufs_sub _ _ _ _ _ _
theorem hSl1 : (opSl1 (F := F)).bufs ⊆ SA := StableHlo.unary_bufs_sub _ _ _ _ _
theorem hRs1 : (opRs1 (F := F)).bufs ⊆ SA := StableHlo.reshape_bufs_sub _ _ _ _ _ _

abbrev SB0 : Finset (DevRef τ sig) := {o0', r0'}
abbrev SB1 : Finset (DevRef τ sig) := {o1', r1'}
theorem hB0 : (opB0 (F := F)).bufs ⊆ SB0 := Finset.Subset.refl _
theorem hB1 : (opB1 (F := F)).bufs ⊆ SB1 := Finset.Subset.refl _

omit [FloatOps F] in
theorem held_B0 (d : Dev nD) (W : Valuation τ sig (Elt F)) :
    (held (T d) SB0 W : sProp 𝕄) = iprop((o0Loc d ↦{fullShare} W o0') ∗ (r0Loc d ↦{fullShare} W r0')) := by
  unfold held SB0
  rw [SparseCore.bigSep_insert' (by decide), bigSep_singleton]
omit [FloatOps F] in
theorem held_B1 (d : Dev nD) (W : Valuation τ sig (Elt F)) :
    (held (T d) SB1 W : sProp 𝕄) = iprop((o1Loc d ↦{fullShare} W o1') ∗ (r1Loc d ↦{fullShare} W r1')) := by
  unfold held SB1
  rw [SparseCore.bigSep_insert' (by decide), bigSep_singleton]

/-- A valuation with the first (second) kernel result at the looked-up rows. -/
def VB0 (d : Dev nD) : Valuation τ sig (Elt F) := Function.update (V0 m d) o0' (G0 m d)
def VB1 (d : Dev nD) : Valuation τ sig (Elt F) := Function.update (V0 m d) o1' (G1 m d)

theorem VB0_o0 (d : Dev nD) : VB0 m d o0' = G0 m d := Function.update_self _ _ _
theorem VB0_r0 (d : Dev nD) : VB0 m d r0' = m (r0Loc d) := Function.update_of_ne (show r0' ≠ o0' by decide) _ _
theorem VB1_o1 (d : Dev nD) : VB1 m d o1' = G1 m d := Function.update_self _ _ _
theorem VB1_r1 (d : Dev nD) : VB1 m d r1' = m (r1Loc d) := Function.update_of_ne (show r1' ≠ o1' by decide) _ _

/-- The unit axis put on the first result gives the program's first result, -/
theorem B0_r0 (d : Dev nD) : (opB0 (F := F)).result (VB0 m d) r0' = R0 m d := by
  rw [show (opB0 (F := F)).result (VB0 m d) r0' = _ from StableHlo.unary_result main_v4_0 main_v5 _ _ _ (VB0 m d), VB0_o0]
  rfl
/-- and on the second the second. -/
theorem B1_r1 (d : Dev nD) : (opB1 (F := F)).result (VB1 m d) r1' = R1 m d := by
  rw [show (opB1 (F := F)).result (VB1 m d) r1' = _ from StableHlo.unary_result main_v4_1 main_v6 _ _ _ (VB1 m d), VB1_o1]
  rfl

end Cert.Proof.KB

end
-- ==== Proof.LaunchB.lean ====
import proofs.«207591_g3891240370478_cont_8to1_b_1686_26_alg».proof.Proof.CommonB
import proofs.«207591_g3891240370478_cont_8to1_b_1686_26_alg».proof.Proof.LaunchSplitB
import proofs.«207591_g3891240370478_cont_8to1_b_1686_26_alg».proof.Proof.LaunchFinB
import proofs.«207591_g3891240370478_cont_8to1_b_1686_26_alg».proof.Proof.LaunchPartsB
import proofs.«207591_g3891240370478_cont_8to1_b_1686_26_alg».proof.Proof.LaunchHeldB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## @main on the TensorCore -/

/-- @main on device `d`'s TensorCore: the two column slices and their reshapes (over all eleven arrays held whole);
    the call, which takes a read share of the two index vectors and the two tables for each SparseCore and the two
    results as their 64 parts, and hands the parts back at the looked-up rows; the unit axis on each result. The
    index array is untouched; of the tables the share not lent is kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two column slices and their reshapes
  iapply (wp_hlo_within 𝒱 (SparseCore.T d) none Set.univ (op := opSl0) (S := SA) hSl0 (V := V0 m d)) $$ [Hb Hheld]
  · isplitl [Hb] <;> iassumption
  iintro ⟨Hb, Hheld⟩
  rw [wp_ret]; imodintro
  iapply (wp_hlo_within 𝒱 (SparseCore.T d) none Set.univ (op := opRs0) (S := SA) hRs0) $$ [Hb Hheld]
  · isplitl [Hb] <;> iassumption
  iintro ⟨Hb, Hheld⟩
  rw [wp_ret]; imodintro
  iapply (wp_hlo_within 𝒱 (SparseCore.T d) none Set.univ (op := opSl1) (S := SA) hSl1) $$ [Hb Hheld]
  · isplitl [Hb] <;> iassumption
  iintro ⟨Hb, Hheld⟩
  rw [wp_ret]; imodintro
  iapply (wp_hlo_within 𝒱 (SparseCore.T d) none Set.univ (op := opRs1) (S := SA) hRs1) $$ [Hb Hheld]
  · isplitl [Hb] <;> iassumption
  iintro ⟨Hb, Hheld⟩
  rw [wp_ret]; imodintro
  ihave Hh := (Entails.of_eq (show (held (SparseCore.T d) SA
      ((opRs1 (F := F)).result ((opSl1 (F := F)).result ((opRs0 (F := F)).result ((opSl0 (F := F)).result (V0 m d))))) : sProp 𝕄) = _
    from held_Vin m d)) $$ Hheld
  icases Hh with ⟨Ha0, Ha1, Ha2, -, Hv1, -, Hv3, Ho0, Ho1, Hr0, Hr1⟩
  -- the read shares: one per SparseCore, the rest kept
  ihave Hrd := (reads_cores m d) $$ [Hv1 Hv3 Ha1 Ha2]
  · isplitl [Hv1]; · iexact Hv1
    isplitl [Hv3]; · iexact Hv3
    isplitl [Ha1] <;> iassumption
  icases Hrd with ⟨⟨Hk1, Hk2⟩, Hrd⟩
  -- the call
  iapply ((K (F := F)).wp_run (D (F := F)) 𝒱 (EH := EH) (P := P m) κ d 0) $$ [Hst Hrd Ho0 Ho1 Hb Ha0 Hk1 Hk2 Hr0 Hr1]
  isplitr; · iexact Hctx
  isplitl [Hst]; · iexact Hst
  isplitl [Hrd Ho0 Ho1]
  · iapply (st_intro m d)
    isplitl [Hrd]; · iexact Hrd
    isplitl [Ho0] <;> iassumption
  iintro ⟨Hst, Hdn⟩
  ihave Hdn' := (dn_elim m d) $$ Hdn
  icases Hdn' with ⟨Ho0, Ho1⟩
  -- the unit axis on the first result
  iapply (wp_hlo_within 𝒱 (SparseCore.T d) none Set.univ (op := opB0) (S := SB0) hB0 (V := VB0 m d)) $$ [Hb Ho0 Hr0]
  · isplitl [Hb]; · iexact Hb
    rw [held_B0, VB0_o0, VB0_r0]
    isplitl [Ho0] <;> iassumption
  iintro ⟨Hb, Hheld⟩
  ihave Hh := (Entails.of_eq (held_B0 (F := F) d _)) $$ Hheld
  icases Hh with ⟨-, Hr0⟩
  rw [wp_ret]; imodintro
  -- and on the second
  iapply (wp_hlo_within 𝒱 (SparseCore.T d) none Set.univ (op := opB1) (S := SB1) hB1 (V := VB1 m d)) $$ [Hb Ho1 Hr1]
  · isplitl [Hb]; · iexact Hb
    rw [held_B1, VB1_o1, VB1_r1]
    isplitl [Ho1] <;> iassumption
  iintro ⟨Hb, Hheld⟩
  ihave Hh := (Entails.of_eq (held_B1 (F := F) d _)) $$ Hheld
  icases Hh with ⟨-, Hr1⟩
  rw [wp_ret]; imodintro; imodintro
  isplitl [Hst]; · iexact Hst
  unfold FIN
  isplitl [Hr0]; · rw [← B0_r0]; iexact Hr0
  isplitl [Hr1]; · rw [← B1_r1]; iexact Hr1
  isplitl [Ha0]; · iexact Ha0
  isplitl [Hk1] <;> iassumption

/-! ## The program's run -/

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.RefOps.lean ====
/-
  The reference program's @main as one straight line of its forty-eight host operations (the two column slices,
  then the two lookups' twenty-three each, the outlined functions' bodies written at their call sites over the
  calls' buffer records), and its run: every weakly fair execution terminates with each result buffer at the
  operations' composed pure term of the argument arrays, the arguments unchanged. The composed term of one
  lookup is `take`; what it is at an index is the business of the value module.
-/
import proofs.«207591_g3891240370478_cont_8to1_b_1686_26_alg».proof.ReferenceIdeal
import proofs.«207591_g3891240370478_cont_8to1_b_1686_26_alg».proof.Proof.Gen.ReferenceIdeal
import Idealize.ShloMosaic.Lib.StableHlo.Run
import Idealize.ShloMosaic.PureOps.Ideal

noncomputable section

namespace Cert.RefSide

open Cert.ReferenceIdeal Cert.ReferenceIdeal.Facts₀ Idealize.ShloMosaic Idealize.ShloMosaic.TcCoe Idealize.SL.Sem Idealize.ShloMosaic.StableHlo

variable [Cert.ReferenceIdeal.Facts]

/-! ## The pure terms -/

/-- Column `k` of the index array as a [16384, 1] array: the slice's two spellings below. -/
abbrev col0 (X : IVec S16384x2 32) : IVec S16384x1 32 := extractStridedSlice S16384x1 ![0, 0] X slices_S16384x2_S16384x1_0_0
@[inherit_doc col0]
abbrev col1 (X : IVec S16384x2 32) : IVec S16384x1 32 := extractStridedSlice S16384x1 ![0, 1] X slices_S16384x2_S16384x1_0_1

/-- The index column with negative entries wrapped by the table's extent: `select (v < 0) (v + 1000002) v`. -/
def wrapped (v : IVec S16384x1 32) : IVec S16384x1 32 :=
  select (cmpi .slt v (broadcastInDim S16384x1 ![] bcast_S_S16384x1 (constantI S_ 32 0#32)))
    (addi v (broadcastInDim S16384x1 ![] bcast_S_S16384x1 (constantI S_ 32 1000002#32))) v

/-- The wrapped column as the gather's [16384, 1, 1] array of start indices. -/
def starts (v : IVec S16384x1 32) : IVec S16384x1x1 32 :=
  broadcastInDim S16384x1x1 ![0, 1] bcast_S16384x1_S16384x1x1_0_1 (wrapped v)

/-- The in-bounds mask: `0 ≤ i` and `i ≤ 1000001` at every start index, reduced by `and` over the unit axis. -/
def inBounds (v : IVec S16384x1 32) : IVec S16384x1 1 :=
  Host.reduce IntOp.andi
    (andi (cmpi .sge (starts v) (broadcastInDim S16384x1x1 ![] bcast_S_S16384x1x1 (constantI S_ 32 0#32)))
      (cmpi .sle (starts v) (broadcastInDim S16384x1x1 ![0, 1, 2] bcast_S1x1x1_S16384x1x1_0_1_2
        (broadcastInDim S1x1x1 ![2] bcast_S1_S1x1x1_2 (constantI S1 32 1000001#32)))))
    (constantI S_ 1 1#1) reducesTo_S16384x1x1_S16384x1_d2 h_S_

/-- One lookup: the table's rows gathered at the start indices where the mask holds, the fill constant elsewhere. -/
def take (tbl : FVec Ideal S1000002x64 .f32) (v : IVec S16384x1 32) : FVec Ideal S16384x1x64 .f32 :=
  select (broadcastInDim S16384x1x64 ![0, 1] bcast_S16384x1_S16384x1x64_0_1 (inBounds v))
    (Host.gather gather_S1000002x64_S16384x1x1_S16384x1x64_2_0_n_n_0_2_164 tbl (starts v))
    (broadcastInDim S16384x1x64 ![] bcast_S_S16384x1x64 (constant (F := Ideal) S_ .f32 0x7FC00000#32))

/-! ## The program as a list -/

/-- @main's 48 operations, in order, the calls unfolded. -/
abbrev ops : List (HloOp τ sig (Elt Ideal)) :=
  [ unary main_arg0 main_v0 ((extractStridedSlice S16384x1 ![0, 0] · slices_S16384x2_S16384x1_0_0) : (⟨S16384x2, .i32⟩ : BufTy).Contents (Elt Ideal) → (⟨S16384x1, .i32⟩ : BufTy).Contents (Elt Ideal)),
    unary main_arg0 main_v1 ((extractStridedSlice S16384x1 ![0, 1] · slices_S16384x2_S16384x1_0_1) : (⟨S16384x2, .i32⟩ : BufTy).Contents (Elt Ideal) → (⟨S16384x1, .i32⟩ : BufTy).Contents (Elt Ideal)),
    TRef.nullary main_call0.c (constantI S_ 32 0#32),
    TRef.unary main_call0.c main_call0.v0 (broadcastInDim S16384x1 ![] bcast_S_S16384x1),
    TRef.binary (.of main_v0) main_call0.v0 main_call0.v1 (cmpi .slt),
    TRef.nullary main_call0.c_0 (constantI S_ 32 1000002#32),
    TRef.unary main_call0.c_0 main_call0.v2 (broadcastInDim S16384x1 ![] bcast_S_S16384x1),
    TRef.binary (.of main_v0) main_call0.v2 main_call0.v3 addi,
    TRef.ternary main_call0.v1 main_call0.v3 (.of main_v0) main_call0.call0.v0 select,
    TRef.unary main_call0.call0.v0 main_call0.v5 (broadcastInDim S16384x1x1 ![0, 1] bcast_S16384x1_S16384x1x1_0_1),
    TRef.nullary main_call0.c_1 (constantI S1 32 1000001#32),
    TRef.nullary main_call0.c_2 (constantI S_ 32 0#32),
    TRef.unary main_call0.c_2 main_call0.v6 (broadcastInDim S16384x1x1 ![] bcast_S_S16384x1x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x1x1 ![0, 1, 2] bcast_S1x1x1_S16384x1x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1x1_S16384x1_d2 h_S_),
    TRef.binary (.of main_arg1) main_call0.v5 main_call0.v13 (fun x i => Host.gather gather_S1000002x64_S16384x1x1_S16384x1x64_2_0_n_n_0_2_164 x i),
    TRef.unary main_call0.v12 main_call0.v14 (broadcastInDim S16384x1x64 ![0, 1] bcast_S16384x1_S16384x1x64_0_1),
    TRef.nullary main_call0.cst (constant (F := Ideal) S_ .f32 0x7FC00000#32),
    TRef.unary main_call0.cst main_call0.v15 (broadcastInDim S16384x1x64 ![] bcast_S_S16384x1x64),
    TRef.ternary main_call0.v14 main_call0.v13 main_call0.v15 main_call0.v16 select,
    TRef.nullary main_call1.c (constantI S_ 32 0#32),
    TRef.unary main_call1.c main_call1.v0 (broadcastInDim S16384x1 ![] bcast_S_S16384x1),
    TRef.binary (.of main_v1) main_call1.v0 main_call1.v1 (cmpi .slt),
    TRef.nullary main_call1.c_0 (constantI S_ 32 1000002#32),
    TRef.unary main_call1.c_0 main_call1.v2 (broadcastInDim S16384x1 ![] bcast_S_S16384x1),
    TRef.binary (.of main_v1) main_call1.v2 main_call1.v3 addi,
    TRef.ternary main_call1.v1 main_call1.v3 (.of main_v1) main_call1.call0.v0 select,
    TRef.unary main_call1.call0.v0 main_call1.v5 (broadcastInDim S16384x1x1 ![0, 1] bcast_S16384x1_S16384x1x1_0_1),
    TRef.nullary main_call1.c_1 (constantI S1 32 1000001#32),
    TRef.nullary main_call1.c_2 (constantI S_ 32 0#32),
    TRef.unary main_call1.c_2 main_call1.v6 (broadcastInDim S16384x1x1 ![] bcast_S_S16384x1x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x1x1 ![0, 1, 2] bcast_S1x1x1_S16384x1x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1x1_S16384x1_d2 h_S_),
    TRef.binary (.of main_arg2) main_call1.v5 main_call1.v13 (fun x i => Host.gather gather_S1000002x64_S16384x1x1_S16384x1x64_2_0_n_n_0_2_164 x i),
    TRef.unary main_call1.v12 main_call1.v14 (broadcastInDim S16384x1x64 ![0, 1] bcast_S16384x1_S16384x1x64_0_1),
    TRef.nullary main_call1.cst (constant (F := Ideal) S_ .f32 0x7FC00000#32),
    TRef.unary main_call1.cst main_call1.v15 (broadcastInDim S16384x1x64 ![] bcast_S_S16384x1x64),
    TRef.ternary main_call1.v14 main_call1.v13 main_call1.v15 main_call1.v16 select ]

set_option maxRecDepth 4096 in
/-- @main is that straight line: the functions' definitions unfolded at their calls, both sides are one chain of
    `hlo` steps once sequencing is reassociated. -/
theorem main_eq (c : Dev nD) : main (F := Ideal) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

attribute [local irreducible] Host.reduce Host.gather in
set_option maxRecDepth 8192 in
/-- The fold at the first result buffer is the first lookup of column 0: each operation's result read at its own
    buffer, the typed references' transports the identity at these literal references. The reduction and the
    gather are kept folded meanwhile (the equation never looks inside them). -/
theorem after_v2 (V : Valuation τ sig (Elt Ideal)) :
    after ops V (main_v2 : DevRef τ sig) = take (V (main_arg1 : DevRef τ sig)) (col0 (V (main_arg0 : DevRef τ sig))) := by
  after_results_simp
  rfl

attribute [local irreducible] Host.reduce Host.gather in
set_option maxRecDepth 8192 in
/-- The fold at the second result buffer is the second lookup of column 1. -/
theorem after_v3 (V : Valuation τ sig (Elt Ideal)) :
    after ops V (main_v3 : DevRef τ sig) = take (V (main_arg2 : DevRef τ sig)) (col1 (V (main_arg0 : DevRef τ sig))) := by
  after_results_simp
  rfl

theorem after_arg0 (V : Valuation τ sig (Elt Ideal)) : after ops V (main_arg0 : DevRef τ sig) = V (main_arg0 : DevRef τ sig) := by
  after_results_simp
theorem after_arg1 (V : Valuation τ sig (Elt Ideal)) : after ops V (main_arg1 : DevRef τ sig) = V (main_arg1 : DevRef τ sig) := by
  after_results_simp
theorem after_arg2 (V : Valuation τ sig (Elt Ideal)) : after ops V (main_arg2 : DevRef τ sig) = V (main_arg2 : DevRef τ sig) := by
  after_results_simp

/-- On every device, from any memory with zero counters: every weakly fair execution of @main terminates with each
    result at its lookup's composed term of the arguments, and the arguments unchanged. -/
theorem run_ops (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = take (m ((c.tc : Thread nD τ).loc main_arg1)) (col0 (m ((c.tc : Thread nD τ).loc main_arg0)))
      ∧ r.2.mem ((c.tc : Thread nD τ).loc main_v3) = take (m ((c.tc : Thread nD τ).loc main_arg2)) (col1 (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (after_v2 _), (h c main_v3).trans (after_v3 _),
      (h c main_arg0).trans (after_arg0 _), (h c main_arg1).trans (after_arg1 _), (h c main_arg2).trans (after_arg2 _)⟩)
    (run_seq scopedRefs_eq scopedSems_eq defs main (fun _ => ops) main_eq (fun _ => ops_sub) m ρ)

end Cert.RefSide

end
-- ==== Proof.RefValue.lean ====
/-
  What one lookup of the reference computes, index by index, on the domain where every index word is at most
  999999: nothing wraps (the word is not negative), the in-bounds mask is all ones, the clamp inside the gather is
  the identity, so entry (b, 0, q) of the result is the table at (row named by the index word of batch entry b, q).
-/
import proofs.«207591_g3891240370478_cont_8to1_b_1686_26_alg».proof.Proof.RefOps
import proofs.«207591_g3891240370478_cont_8to1_b_1686_26_alg».proof.Proof.Spec
import Idealize.ShloMosaic.Lib.ValueIdx
import Idealize.ShloMosaic.Lib.ReduceAll

noncomputable section

namespace Cert.RefSide

open Cert.ReferenceIdeal Cert.ReferenceIdeal.Facts₀ Idealize.ShloMosaic Idealize.ShloMosaic.ValueIdx

variable [Cert.ReferenceIdeal.Facts]

/-! ## Words at most 999999 -/

/-- Such a word reads the same signed and unsigned. -/
theorem toInt_small {x : BitVec 32} (h : x.toNat ≤ 999999) : x.toInt = (x.toNat : Int) := by
  have := BitVec.toInt_eq_toNat_cond x
  rw [if_pos (by omega)] at this
  exact this

/-- It is not negative … -/
theorem slt_zero_small {x : BitVec 32} (h : x.toNat ≤ 999999) : IntOp.cmpi .slt x 0#32 = 0#1 := by
  refine eq_zero_of_ne_one fun e => ?_
  have := IntOp.cmpi_slt.1 e
  rw [toInt_small h] at this
  have h0 : (0#32 : BitVec 32).toInt = 0 := by decide
  omega

/-- … it is at least zero … -/
theorem sge_zero_small {x : BitVec 32} (h : x.toNat ≤ 999999) : IntOp.cmpi .sge x 0#32 = 1#1 := by
  refine IntOp.cmpi_sge.2 ?_
  rw [toInt_small h]
  have h0 : (0#32 : BitVec 32).toInt = 0 := by decide
  omega

/-- … and at most the table's last row. -/
theorem sle_last_small {x : BitVec 32} (h : x.toNat ≤ 999999) : IntOp.cmpi .sle x 1000001#32 = 1#1 := by
  refine IntOp.cmpi_sle.2 ?_
  rw [toInt_small h]
  have h0 : (1000001#32 : BitVec 32).toInt = 1000001 := by decide
  omega

/-- A left fold by `and` over one-bit words, from 1 through 1s, is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_one f l _ (IntOp.andi_eq_one.2 ⟨h, hl a List.mem_cons_self⟩) fun n hn => hl n (List.mem_cons_of_mem _ hn)

/-! ## The column slices -/

/-- Column 0 of the index array at a row. -/
theorem col0_apply (X : IVec S16384x2 32) (i : S16384x1.Idx) : col0 X i = X (ix2 (i 0 : Fin 16384) (0 : Fin 2)) := by
  show X _ = X _
  congr 1; funext a
  match a with
  | ⟨0, _⟩ => exact Fin.ext (Nat.zero_add _)
  | ⟨1, _⟩ =>
    refine Fin.ext ?_
    have h1 : (i 1).val < 1 := (i 1).isLt
    show 0 + (i 1).val = 0
    omega

/-- Column 1 of the index array at a row. -/
theorem col1_apply (X : IVec S16384x2 32) (i : S16384x1.Idx) : col1 X i = X (ix2 (i 0 : Fin 16384) (1 : Fin 2)) := by
  show X _ = X _
  congr 1; funext a
  match a with
  | ⟨0, _⟩ => exact Fin.ext (Nat.zero_add _)
  | ⟨1, _⟩ =>
    refine Fin.ext ?_
    have h1 : (i 1).val < 1 := (i 1).isLt
    show 1 + (i 1).val = 1
    omega

/-! ## One lookup, stage by stage -/

/-- A word that is not negative is not wrapped. -/
theorem wrapped_apply (v : IVec S16384x1 32) (i : S16384x1.Idx) (h : (v i).toNat ≤ 999999) : wrapped v i = v i := by
  show Scalar.select (IntOp.cmpi .slt (v i) 0#32) _ (v i) = v i
  rw [slt_zero_small h, select_zero]

/-- The start indices are the wrapped column, the unit axes dropped. -/
theorem starts_apply (v : IVec S16384x1 32) (k : S16384x1x1.Idx) :
    starts v k = wrapped v (ix2 (k 0 : Fin 16384) (0 : Fin 1)) := by
  show wrapped v _ = wrapped v _
  congr 1; funext a
  match a with
  | ⟨0, _⟩ => rfl
  | ⟨1, _⟩ => rfl

/-- The mask is all ones. -/
theorem inBounds_apply (v : IVec S16384x1 32) (hv : ∀ i, (v i).toNat ≤ 999999) (i : S16384x1.Idx) : inBounds v i = 1#1 := by
  unfold inBounds
  rw [Host.reduce_eq_foldl]
  refine foldl_andi_one _ _ _ rfl fun k _ => ?_
  have hk : (starts v k).toNat ≤ 999999 := by rw [starts_apply, wrapped_apply _ _ (hv _)]; exact hv _
  show IntOp.andi (IntOp.cmpi .sge (starts v k) 0#32) (IntOp.cmpi .sle (starts v k) 1000001#32) = 1#1
  rw [sge_zero_small hk, sle_last_small hk]
  rfl

/-- THE GATHER READ AT (b, 0, q): the table at the start index of batch entry b, read signed and clamped into the
    table's rows, column q. -/
theorem gather_apply {α : Type} (tbl : S1000002x64.Idx → α) (idx : IVec S16384x1x1 32) (j : S16384x1x64.Idx) :
    Host.gather gather_S1000002x64_S16384x1x1_S16384x1x64_2_0_n_n_0_2_164 tbl idx j
      = tbl (ix2 (⟨min (idx (ix3 (j 0 : Fin 16384) (j 1 : Fin 1) (0 : Fin 1))).toInt.toNat 1000001, by omega⟩ : Fin 1000002) (j 2 : Fin 64)) := by
  unfold Host.gather
  congr 1
  funext a
  refine Fin.ext ?_
  match a with
  | ⟨0, _⟩ =>
    show gather_S1000002x64_S16384x1x1_S16384x1x64_2_0_n_n_0_2_164.start j idx 0 + gather_S1000002x64_S16384x1x1_S16384x1x64_2_0_n_n_0_2_164.batchCoord j 0 + gather_S1000002x64_S16384x1x1_S16384x1x64_2_0_n_n_0_2_164.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000002x64_S16384x1x1_S16384x1x64_2_0_n_n_0_2_164.startIndexMap from List.mem_singleton.mpr rfl)]
    have hsi : gather_S1000002x64_S16384x1x1_S16384x1x64_2_0_n_n_0_2_164.siIdx j ⟨List.idxOf (0 : Fin 2) gather_S1000002x64_S16384x1x1_S16384x1x64_2_0_n_n_0_2_164.startIndexMap,
        List.idxOf_lt_length_iff.2 (List.mem_singleton.mpr rfl)⟩ = ix3 (j 0 : Fin 16384) (j 1 : Fin 1) (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S1000002x64_S16384x1x1_S16384x1x64_2_0_n_n_0_2_164.start j idx 1 + gather_S1000002x64_S16384x1x1_S16384x1x64_2_0_n_n_0_2_164.batchCoord j 1 + gather_S1000002x64_S16384x1x1_S16384x1x64_2_0_n_n_0_2_164.offCoord j 1 = (j 2).val
    rw [GatherDims.batchCoord_eq_zero _ _ _ List.not_mem_nil]
    unfold GatherDims.start
    rw [dif_neg (fun h : (1 : Fin 2) ∈ gather_S1000002x64_S16384x1x1_S16384x1x64_2_0_n_n_0_2_164.startIndexMap => absurd (List.mem_singleton.1 h) (by decide))]
    unfold GatherDims.offCoord
    rw [dif_pos ((GatherDims.mem_sKept _ _).2 ⟨fun h => absurd (List.mem_singleton.1 h) (by decide), List.not_mem_nil⟩)]
    simp only [Nat.add_zero, Nat.zero_add]
    rfl

/-- ONE LOOKUP AT (b, 0, q), every index word at most 999999: the table at the row the word of batch entry b
    names, column q. -/
theorem take_apply (tbl : FVec Ideal S1000002x64 .f32) (v : IVec S16384x1 32) (hv : ∀ i, (v i).toNat ≤ 999999)
    (j : S16384x1x64.Idx) :
    take tbl v j = tbl (ix2 (Cert.Spec.rowOf (v (ix2 (j 0 : Fin 16384) (0 : Fin 1)))) (j 2 : Fin 64)) := by
  unfold take
  rw [select_apply]
  have hm : broadcastInDim S16384x1x64 ![0, 1] bcast_S16384x1_S16384x1x64_0_1 (inBounds v) j = 1#1 :=
    inBounds_apply v hv _
  rw [hm, select_one, gather_apply]
  have e : (starts v (ix3 (j 0 : Fin 16384) (j 1 : Fin 1) (0 : Fin 1))).toInt.toNat
      = (v (ix2 (j 0 : Fin 16384) (0 : Fin 1))).toNat := by
    rw [starts_apply, wrapped_apply _ _ (hv _), toInt_small (hv _)]; exact Int.toNat_natCast _
  refine congrArg tbl (congrArg (fun r : Fin 1000002 => ix2 r (j 2 : Fin 64)) (Fin.ext ?_))
  rw [Cert.Spec.rowOf_val (hv _)]
  show min (starts v (ix3 (j 0 : Fin 16384) (j 1 : Fin 1) (0 : Fin 1))).toInt.toNat 1000001 = _
  rw [e]
  exact Nat.min_eq_left (Nat.le_trans (hv _) (by omega))

/-- The first lookup is the rows of the first table column 0 of the index array names. -/
theorem take_col0 (X : IVec S16384x2 32) (hX : Cert.Spec.InRange X) (tbl : FVec Ideal S1000002x64 .f32) :
    take tbl (col0 X) = Cert.Spec.rows3 X 0 tbl := by
  funext j
  have hv : ∀ i, (col0 X i).toNat ≤ 999999 := fun i => by rw [col0_apply]; exact hX _
  rw [take_apply tbl _ hv, col0_apply]
  rfl

/-- The second lookup is the rows of the second table column 1 names. -/
theorem take_col1 (X : IVec S16384x2 32) (hX : Cert.Spec.InRange X) (tbl : FVec Ideal S1000002x64 .f32) :
    take tbl (col1 X) = Cert.Spec.rows3 X 1 tbl := by
  funext j
  have hv : ∀ i, (col1 X i).toNat ≤ 999999 := fun i => by rw [col1_apply]; exact hX _
  rw [take_apply tbl _ hv, col1_apply]
  rfl

end Cert.RefSide

end
-- ==== Proof.RefRun.lean ====
/-
  The reference's run on the certificate's domain: every weakly fair execution of @main terminates with the two
  result buffers at the embedding lookups of the specification (the rows of each table that the matching column of
  the index array names), and the three argument buffers unchanged. The run with each result at the operations'
  composed term, joined with that term's value at every index.
-/
import proofs.«207591_g3891240370478_cont_8to1_b_1686_26_alg».proof.Proof.RefOps
import proofs.«207591_g3891240370478_cont_8to1_b_1686_26_alg».proof.Proof.RefValue

noncomputable section

namespace Cert.RefSide

open Cert.ReferenceIdeal Idealize.ShloMosaic Idealize.SL.Sem

theorem run [Cert.ReferenceIdeal.Facts]
    (m' : (ℓ : Loc Cert.ReferenceIdeal.nD Cert.ReferenceIdeal.τ Cert.ReferenceIdeal.sig) → Buf (Elt Ideal) ℓ) (g' : Dev Cert.ReferenceIdeal.nD → PrngReg)
    (hX : ∀ c : Dev Cert.ReferenceIdeal.nD, Cert.Spec.InRange (m' ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v2) = Cert.Spec.rows3 (m' ((c.tc : Thread Cert.ReferenceIdeal.nD Cert.ReferenceIdeal.τ).loc Cert.ReferenceIdeal.main_arg0)) 0 (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v3) = Cert.Spec.rows3 (m' ((c.tc : Thread Cert.ReferenceIdeal.nD Cert.ReferenceIdeal.τ).loc Cert.ReferenceIdeal.main_arg0)) 1 (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run _ _ _).mono (fun _ h c => by
      obtain ⟨h2, h3, h0, h1, h2'⟩ := h c
      exact ⟨h2.trans (take_col0 _ (hX c) _), h3.trans (take_col1 _ (hX c) _), h0, h1, h2'⟩)
    (run_ops m' g')

end Cert.RefSide

end
-- ==== Proof.lean ====
/-
  The proof of `Cert.Claim`. Both programs compute one function of the argument arrays, an embedding lookup
  (Proof/Spec.lean): result `k` holds, at `(b, 0, q)`, entry `q` of the row of table `k` that word `(b, k)` of the
  index array names. The precondition puts every such word in `[0, 999999]`, inside the tables (Proof/PreSide.lean).
  The kernel program cuts the two columns out of the index array on the TensorCore, looks the rows up on the
  SparseCores' tiles, each tile filling its own rows of both results, and adds the unit axis: its run leaves the
  looked-up rows and the arguments as they were (Proof/Launch.lean over Proof/Tile.lean, read back as functions of the
  arguments in Proof/Glue.lean; the same text over the program as printed, the modules named …B). The reference's run
  leaves the same rows (Proof/RefRun.lean). A frame claim is a run with the results dropped; the algebraic claim is
  the two runs at the ideal instance, from memories that agree on the arguments, stated with the same rows.
-/
import proofs.«207591_g3891240370478_cont_8to1_b_1686_26_alg».proof.Defs
import proofs.«207591_g3891240370478_cont_8to1_b_1686_26_alg».proof.Proof.Gen.Kernel
import proofs.«207591_g3891240370478_cont_8to1_b_1686_26_alg».proof.Proof.Gen.KernelIdeal
import proofs.«207591_g3891240370478_cont_8to1_b_1686_26_alg».proof.Proof.Gen.ReferenceIdeal
import proofs.«207591_g3891240370478_cont_8to1_b_1686_26_alg».proof.Proof.Gen.Pre_input_domain
import proofs.«207591_g3891240370478_cont_8to1_b_1686_26_alg».proof.Proof.PreSide
import proofs.«207591_g3891240370478_cont_8to1_b_1686_26_alg».proof.Proof.Glue
import proofs.«207591_g3891240370478_cont_8to1_b_1686_26_alg».proof.Proof.GlueB
import proofs.«207591_g3891240370478_cont_8to1_b_1686_26_alg».proof.Proof.Tile
import proofs.«207591_g3891240370478_cont_8to1_b_1686_26_alg».proof.Proof.TileB
import proofs.«207591_g3891240370478_cont_8to1_b_1686_26_alg».proof.Proof.Launch
import proofs.«207591_g3891240370478_cont_8to1_b_1686_26_alg».proof.Proof.LaunchB
import proofs.«207591_g3891240370478_cont_8to1_b_1686_26_alg».proof.Proof.RefRun

noncomputable section

namespace Cert.Proof

open Idealize.ShloMosaic Idealize.SL.Sem

/-! ## The three runs -/

/-- The kernel program at the ideal instance, from a memory whose flat index vectors are in range: it runs, and
    leaves the looked-up rows and its arguments. -/
theorem runKI (m : (ℓ : Loc Cert.KernelIdeal.nD Cert.KernelIdeal.τ Cert.KernelIdeal.sig) → Buf (Elt Ideal) ℓ)
    (ρ : Dev Cert.KernelIdeal.nD → PrngReg) (hpre : Cert.Proof.KI.PreOK m) :
    θ_run (Cert.KernelIdeal.defs (F := Ideal)) (Cert.KernelIdeal.threads (F := Ideal)) ⟨m, fun _ => 0, ρ⟩ (Cert.Proof.KI.QC m) :=
  Cert.Proof.KI.run_main m ρ (Cert.Proof.KI.tileOblFull m Cert.Proof.KI.facts hpre)

/-- The same of the program as printed, on words. -/
theorem runKB (m : (ℓ : Loc Cert.Kernel.nD Cert.Kernel.τ Cert.Kernel.sig) → Buf (Elt Bits) ℓ)
    (ρ : Dev Cert.Kernel.nD → PrngReg) (hpre : Cert.Proof.KB.PreOK m) :
    θ_run (Cert.Kernel.defs (F := Bits)) (Cert.Kernel.threads (F := Bits)) ⟨m, fun _ => 0, ρ⟩ (Cert.Proof.KB.QC m) :=
  Cert.Proof.KB.run_main m ρ (Cert.Proof.KB.tileOblFull m Cert.Proof.KB.facts hpre)

/-! ## The frames: each run, the results dropped -/

theorem frame_K : Cert.frame_Kernel (hKernel := Cert.Kernel.Gen.facts) (hPre_input_domain := Cert.Pre_input_domain.Gen.facts) :=
  fun m g hpre => (θ_run (Cert.Kernel.defs (F := Bits)) _ _).mono (fun _ h c => (h c).2.2)
    (runKB m g (Cert.Proof.KB.preOK_of_inRange m fun d => Cert.PreSide.inRange_Kernel m hpre d))

theorem frame_KI : Cert.frame_KernelIdeal (hKernelIdeal := Cert.KernelIdeal.Gen.facts) (hPre_input_domain := Cert.Pre_input_domain.Gen.facts) :=
  fun m g hpre => (θ_run (Cert.KernelIdeal.defs (F := Ideal)) _ _).mono (fun _ h c => (h c).2.2)
    (runKI m g (Cert.Proof.KI.preOK_of_inRange m fun d => Cert.PreSide.inRange_KernelIdeal m hpre d))

theorem frame_R : Cert.frame_ReferenceIdeal (hReferenceIdeal := Cert.ReferenceIdeal.Gen.facts) (hPre_input_domain := Cert.Pre_input_domain.Gen.facts) :=
  fun m g hpre => (θ_run (Cert.ReferenceIdeal.defs (F := Ideal)) _ _).mono (fun _ h c => (h c).2.2)
    (Cert.RefSide.run m g fun c => Cert.PreSide.inRange_ReferenceIdeal m hpre c)

/-! ## The two programs agree at the ideal instance

Both results are stated as the looked-up rows of the kernel's arguments; the reference's are the rows of its own
arguments, which the agreement hypothesis identifies with the kernel's. -/

theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  fun m g m' g' hpre hagree =>
    ⟨fun c => Cert.Spec.rows3 (m ((c.tc : Thread Cert.KernelIdeal.nD Cert.KernelIdeal.τ).loc Cert.KernelIdeal.main_arg0)) 0
        (m ((c.tc : Thread Cert.KernelIdeal.nD Cert.KernelIdeal.τ).loc Cert.KernelIdeal.main_arg1)),
     fun c => Cert.Spec.rows3 (m ((c.tc : Thread Cert.KernelIdeal.nD Cert.KernelIdeal.τ).loc Cert.KernelIdeal.main_arg0)) 1
        (m ((c.tc : Thread Cert.KernelIdeal.nD Cert.KernelIdeal.τ).loc Cert.KernelIdeal.main_arg2)),
     (θ_run (Cert.KernelIdeal.defs (F := Ideal)) _ _).mono
        (fun _ h c => ⟨(h c).1.trans (Cert.Proof.KI.R0_eq m c), (h c).2.1.trans (Cert.Proof.KI.R1_eq m c), (h c).2.2⟩)
        (runKI m g (Cert.Proof.KI.preOK_of_inRange m fun d => Cert.PreSide.inRange_KernelIdeal m hpre d)),
     (θ_run (Cert.ReferenceIdeal.defs (F := Ideal)) _ _).mono
        (fun _ h c => ⟨by rw [(h c).1, (hagree c).1, (hagree c).2.1], by rw [(h c).2.1, (hagree c).1, (hagree c).2.2], (h c).2.2⟩)
        (Cert.RefSide.run m' g' fun c => by rw [(hagree c).1]; exact Cert.PreSide.inRange_KernelIdeal m hpre c)⟩

theorem claim : Cert.Claim :=
  ⟨Cert.Kernel.Gen.facts, Cert.KernelIdeal.Gen.facts, Cert.ReferenceIdeal.Gen.facts, Cert.Pre_input_domain.Gen.facts,
    frame_K, frame_KI, frame_R, trivial, algebraic⟩

end Cert.Proof

end
